-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S4096x50 : Shape := ⟨2, ![4096, 50]⟩
abbrev S1000000x100 : Shape := ⟨2, ![1000000, 100]⟩
abbrev S_ : Shape := ⟨0, ![]⟩

class Facts : Prop where
  bcast_S_S1000000x100 : S_.BroadcastsInDim S1000000x100 (![] : Fin 0 → Fin S1000000x100.rank)
  reducesTo_S1000000x100_S_d0_1 : S1000000x100.ReducesTo [0, 1] S_
  h_S_ : 0 < S_.numel
  bcast_S_S4096x50 : S_.BroadcastsInDim S4096x50 (![] : Fin 0 → Fin S4096x50.rank)
  reducesTo_S4096x50_S_d0_1 : S4096x50.ReducesTo [0, 1] S_

variable [Facts]

def fn {F : FTy → Type} [FloatOps F] (main_arg0 : IVec S4096x50 32) (main_arg1 : FVec F S1000000x100 .f32) : IVec S_ 1 :=
  let main_v0 : FVec F S1000000x100 .f32 := Host.absf main_arg1
  let main_cst : FVec F S_ .f32 := constant S_ .f32 0x7F800000#32
  let main_v1 : FVec F S1000000x100 .f32 := broadcastInDim S1000000x100 ![] bcast_S_S1000000x100 main_cst
  let main_v2 : IVec S1000000x100 1 := cmpf .olt main_v0 main_v1
  let main_c : IVec S_ 1 := constantI S_ 1 1#1
  let main_v3 : IVec S_ 1 := (fun x v => Host.reduce IntOp.andi x v reducesTo_S1000000x100_S_d0_1 h_S_) main_v2 main_c
  let main_c_0 : IVec S_ 32 := constantI S_ 32 0#32
  let main_v4 : IVec S4096x50 32 := broadcastInDim S4096x50 ![] bcast_S_S4096x50 main_c_0
  let main_v5 : IVec S4096x50 1 := cmpi .sge main_arg0 main_v4
  let main_c_1 : IVec S_ 32 := constantI S_ 32 999999#32
  let main_v6 : IVec S4096x50 32 := broadcastInDim S4096x50 ![] bcast_S_S4096x50 main_c_1
  let main_v7 : IVec S4096x50 1 := cmpi .sle main_arg0 main_v6
  let main_v8 : IVec S4096x50 1 := andi main_v5 main_v7
  let main_c_2 : IVec S_ 1 := constantI S_ 1 1#1
  let main_v9 : IVec S_ 1 := (fun x v => Host.reduce IntOp.andi x v reducesTo_S4096x50_S_d0_1 h_S_) main_v8 main_c_2
  let main_v10 : IVec S_ 1 := andi main_v3 main_v9
  main_v10
-- ==== Kernel.lean ====
abbrev S4096x50 : Shape := ⟨2, ![4096, 50]⟩
abbrev S1000000x100 : Shape := ⟨2, ![1000000, 100]⟩
abbrev S50x4096 : Shape := ⟨2, ![50, 4096]⟩
abbrev S204800 : Shape := ⟨1, ![204800]⟩
abbrev S1000000x128 : Shape := ⟨2, ![1000000, 128]⟩
abbrev S20000x128 : Shape := ⟨2, ![20000, 128]⟩
abbrev S204800x128 : Shape := ⟨2, ![204800, 128]⟩
abbrev S6400 : Shape := ⟨1, ![6400]⟩
abbrev S128x128 : Shape := ⟨2, ![128, 128]⟩
abbrev S_ : Shape := ⟨0, ![]⟩
abbrev S128 : Shape := ⟨1, ![128]⟩
abbrev S204800x100 : Shape := ⟨2, ![204800, 100]⟩
abbrev S50x1x4096x100 : Shape := ⟨4, ![50, 1, 4096, 100]⟩

abbrev nBuf : Table → Nat
  | .hbm => 8
  | .local .tc .vmem => 4
  | .local .scVector .vmem => 3
  | _ => 0

abbrev bufTy : (tb : Table) → Fin (nBuf tb) → BufTy
  | .hbm, ⟨0, _⟩ => ⟨S4096x50, .i32⟩
  | .hbm, ⟨1, _⟩ => ⟨S1000000x100, .f32⟩
  | .hbm, ⟨2, _⟩ => ⟨S50x4096, .i32⟩
  | .hbm, ⟨3, _⟩ => ⟨S204800, .i32⟩
  | .hbm, ⟨4, _⟩ => ⟨S1000000x128, .f32⟩
  | .hbm, ⟨5, _⟩ => ⟨S204800x128, .f32⟩
  | .hbm, ⟨6, _⟩ => ⟨S204800x100, .f32⟩
  | .hbm, ⟨7, _⟩ => ⟨S50x1x4096x100, .f32⟩
  | .local .tc .vmem, ⟨0, _⟩ => ⟨S20000x128, .f32⟩
  | .local .tc .vmem, ⟨1, _⟩ => ⟨S20000x128, .f32⟩
  | .local .tc .vmem, ⟨2, _⟩ => ⟨S20000x128, .f32⟩
  | .local .tc .vmem, ⟨3, _⟩ => ⟨S20000x128, .f32⟩
  | .local .scVector .vmem, ⟨0, _⟩ => ⟨S6400, .i32⟩
  | .local .scVector .vmem, ⟨1, _⟩ => ⟨S128x128, .f32⟩
  | .local .scVector .vmem, ⟨2, _⟩ => ⟨S128x128, .f32⟩
  | _, _ => ⟨S4096x50, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 57 → Bool
  | ⟨0, _⟩ => true
  | ⟨1, _⟩ => true
  | ⟨2, _⟩ => true
  | ⟨3, _⟩ => true
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | ⟨25, _⟩ => false
  | ⟨26, _⟩ => false
  | ⟨27, _⟩ => false
  | ⟨28, _⟩ => false
  | ⟨29, _⟩ => false
  | ⟨30, _⟩ => false
  | ⟨31, _⟩ => false
  | ⟨32, _⟩ => false
  | ⟨33, _⟩ => false
  | ⟨34, _⟩ => false
  | ⟨35, _⟩ => false
  | ⟨36, _⟩ => false
  | ⟨37, _⟩ => false
  | ⟨38, _⟩ => false
  | ⟨39, _⟩ => false
  | ⟨40, _⟩ => false
  | ⟨41, _⟩ => false
  | ⟨42, _⟩ => false
  | ⟨43, _⟩ => false
  | ⟨44, _⟩ => false
  | ⟨45, _⟩ => false
  | ⟨46, _⟩ => false
  | ⟨47, _⟩ => false
  | ⟨48, _⟩ => false
  | ⟨49, _⟩ => false
  | ⟨50, _⟩ => false
  | ⟨51, _⟩ => false
  | ⟨52, _⟩ => false
  | ⟨53, _⟩ => false
  | ⟨54, _⟩ => false
  | ⟨55, _⟩ => false
  | ⟨56, _⟩ => false
  | _ => false

abbrev sig : RefSig :=
  ofTables nBuf rfl bufTy 4 57 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v1_scv : Ref sig .scVector := ⟨.hbm, 3, rfl⟩
abbrev main_v2_scv : Ref sig .scVector := ⟨.hbm, 4, rfl⟩
abbrev main_v3_scv : Ref sig .scVector := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc0_sem0_0 : DmaSem sig := 0
abbrev cc0_sem0_1 : DmaSem sig := 1
abbrev cc0_sem1_0 : DmaSem sig := 2
abbrev cc0_sem1_1 : DmaSem sig := 3
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S20000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S20000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  ![v2.toNat]
def k1_off2 (i : grid1.Coords) (c0_i32_7 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let v9 : BitVec 32 := Scalar.addi v2 c0_i32_7
  let c0_i32_300_r1 : BitVec 32 := 0#32
  ![v9.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  transposes_S4096x50_S50x4096_1_0 : S4096x50.Transposes [1, 0] S50x4096
  shapeCasts_S50x4096_S204800 : S50x4096.ShapeCasts S204800
  inb_S20000x128_S20000x128_0_0 : ∀ a, (![0, 0] : Fin 2 → Nat) a + S20000x128.size a ≤ S20000x128.size a
  h_S20000x128 : 0 < S20000x128.numel
  inb_S6400_S128_0 : ∀ a, (![0] : Fin 1 → Nat) a + S128.size a ≤ S6400.size a
  inb_S1000000x128_S1000000x128_0_0 : ∀ a, (![0, 0] : Fin 2 → Nat) a + S1000000x128.size a ≤ S1000000x128.size a
  gathers_S1000000x128_S128x128 : S1000000x128.Gathers 0 S128x128
  inb_S6400_S128_128 : ∀ a, (![128] : Fin 1 → Nat) a + S128.size a ≤ S6400.size a
  inb_S6400_S128_256 : ∀ a, (![256] : Fin 1 → Nat) a + S128.size a ≤ S6400.size a
  inb_S6400_S128_384 : ∀ a, (![384] : Fin 1 → Nat) a + S128.size a ≤ S6400.size a
  inb_S6400_S128_512 : ∀ a, (![512] : Fin 1 → Nat) a + S128.size a ≤ S6400.size a
  inb_S6400_S128_640 : ∀ a, (![640] : Fin 1 → Nat) a + S128.size a ≤ S6400.size a
  inb_S6400_S128_768 : ∀ a, (![768] : Fin 1 → Nat) a + S128.size a ≤ S6400.size a
  inb_S6400_S128_896 : ∀ a, (![896] : Fin 1 → Nat) a + S128.size a ≤ S6400.size a
  inb_S6400_S128_1024 : ∀ a, (![1024] : Fin 1 → Nat) a + S128.size a ≤ S6400.size a
  inb_S6400_S128_1152 : ∀ a, (![1152] : Fin 1 → Nat) a + S128.size a ≤ S6400.size a
  inb_S6400_S128_1280 : ∀ a, (![1280] : Fin 1 → Nat) a + S128.size a ≤ S6400.size a
  inb_S6400_S128_1408 : ∀ a, (![1408] : Fin 1 → Nat) a + S128.size a ≤ S6400.size a
  inb_S6400_S128_1536 : ∀ a, (![1536] : Fin 1 → Nat) a + S128.size a ≤ S6400.size a
  inb_S6400_S128_1664 : ∀ a, (![1664] : Fin 1 → Nat) a + S128.size a ≤ S6400.size a
  inb_S6400_S128_1792 : ∀ a, (![1792] : Fin 1 → Nat) a + S128.size a ≤ S6400.size a
  inb_S6400_S128_1920 : ∀ a, (![1920] : Fin 1 → Nat) a + S128.size a ≤ S6400.size a
  inb_S6400_S128_2048 : ∀ a, (![2048] : Fin 1 → Nat) a + S128.size a ≤ S6400.size a
  inb_S6400_S128_2176 : ∀ a, (![2176] : Fin 1 → Nat) a + S128.size a ≤ S6400.size a
  inb_S6400_S128_2304 : ∀ a, (![2304] : Fin 1 → Nat) a + S128.size a ≤ S6400.size a
  inb_S6400_S128_2432 : ∀ a, (![2432] : Fin 1 → Nat) a + S128.size a ≤ S6400.size a
  inb_S6400_S128_2560 : ∀ a, (![2560] : Fin 1 → Nat) a + S128.size a ≤ S6400.size a
  inb_S6400_S128_2688 : ∀ a, (![2688] : Fin 1 → Nat) a + S128.size a ≤ S6400.size a
  inb_S6400_S128_2816 : ∀ a, (![2816] : Fin 1 → Nat) a + S128.size a ≤ S6400.size a
  inb_S6400_S128_2944 : ∀ a, (![2944] : Fin 1 → Nat) a + S128.size a ≤ S6400.size a
  inb_S6400_S128_3072 : ∀ a, (![3072] : Fin 1 → Nat) a + S128.size a ≤ S6400.size a
  inb_S6400_S128_3200 : ∀ a, (![3200] : Fin 1 → Nat) a + S128.size a ≤ S6400.size a
  inb_S6400_S128_3328 : ∀ a, (![3328] : Fin 1 → Nat) a + S128.size a ≤ S6400.size a
  inb_S6400_S128_3456 : ∀ a, (![3456] : Fin 1 → Nat) a + S128.size a ≤ S6400.size a
  inb_S6400_S128_3584 : ∀ a, (![3584] : Fin 1 → Nat) a + S128.size a ≤ S6400.size a
  inb_S6400_S128_3712 : ∀ a, (![3712] : Fin 1 → Nat) a + S128.size a ≤ S6400.size a
  inb_S6400_S128_3840 : ∀ a, (![3840] : Fin 1 → Nat) a + S128.size a ≤ S6400.size a
  inb_S6400_S128_3968 : ∀ a, (![3968] : Fin 1 → Nat) a + S128.size a ≤ S6400.size a
  inb_S6400_S128_4096 : ∀ a, (![4096] : Fin 1 → Nat) a + S128.size a ≤ S6400.size a
  inb_S6400_S128_4224 : ∀ a, (![4224] : Fin 1 → Nat) a + S128.size a ≤ S6400.size a
  inb_S6400_S128_4352 : ∀ a, (![4352] : Fin 1 → Nat) a + S128.size a ≤ S6400.size a
  inb_S6400_S128_4480 : ∀ a, (![4480] : Fin 1 → Nat) a + S128.size a ≤ S6400.size a
  inb_S6400_S128_4608 : ∀ a, (![4608] : Fin 1 → Nat) a + S128.size a ≤ S6400.size a
  inb_S6400_S128_4736 : ∀ a, (![4736] : Fin 1 → Nat) a + S128.size a ≤ S6400.size a
  inb_S6400_S128_4864 : ∀ a, (![4864] : Fin 1 → Nat) a + S128.size a ≤ S6400.size a
  inb_S6400_S128_4992 : ∀ a, (![4992] : Fin 1 → Nat) a + S128.size a ≤ S6400.size a
  inb_S6400_S128_5120 : ∀ a, (![5120] : Fin 1 → Nat) a + S128.size a ≤ S6400.size a
  inb_S6400_S128_5248 : ∀ a, (![5248] : Fin 1 → Nat) a + S128.size a ≤ S6400.size a
  inb_S6400_S128_5376 : ∀ a, (![5376] : Fin 1 → Nat) a + S128.size a ≤ S6400.size a
  inb_S6400_S128_5504 : ∀ a, (![5504] : Fin 1 → Nat) a + S128.size a ≤ S6400.size a
  inb_S6400_S128_5632 : ∀ a, (![5632] : Fin 1 → Nat) a + S128.size a ≤ S6400.size a
  inb_S6400_S128_5760 : ∀ a, (![5760] : Fin 1 → Nat) a + S128.size a ≤ S6400.size a
  inb_S6400_S128_5888 : ∀ a, (![5888] : Fin 1 → Nat) a + S128.size a ≤ S6400.size a
  inb_S6400_S128_6016 : ∀ a, (![6016] : Fin 1 → Nat) a + S128.size a ≤ S6400.size a
  inb_S6400_S128_6144 : ∀ a, (![6144] : Fin 1 → Nat) a + S128.size a ≤ S6400.size a
  inb_S6400_S128_6272 : ∀ a, (![6272] : Fin 1 → Nat) a + S128.size a ≤ S6400.size a
  slices_S204800x128_S204800x100_0_0 : S204800x128.Slices ![0, 0] S204800x100
  shapeCasts_S204800x100_S50x1x4096x100 : S204800x100.ShapeCasts S50x1x4096x100
  hcc1_scratch3 : 4 + S_.numel ≤ 57
  hcc1_scratch4 : 5 + S_.numel ≤ 57
  hcc1_scoped0 : 6 + S_.numel ≤ 57
  hcc1_scoped1 : 7 + S_.numel ≤ 57
  hcc1_scoped2 : 8 + S_.numel ≤ 57
  hcc1_scoped3 : 9 + S_.numel ≤ 57
  hcc1_scoped4 : 10 + S_.numel ≤ 57
  hcc1_scoped5 : 11 + S_.numel ≤ 57
  hcc1_scoped6 : 12 + S_.numel ≤ 57
  hcc1_scoped7 : 13 + S_.numel ≤ 57
  hcc1_scoped8 : 14 + S_.numel ≤ 57
  hcc1_scoped9 : 15 + S_.numel ≤ 57
  hcc1_scoped10 : 16 + S_.numel ≤ 57
  hcc1_scoped11 : 17 + S_.numel ≤ 57
  hcc1_scoped12 : 18 + S_.numel ≤ 57
  hcc1_scoped13 : 19 + S_.numel ≤ 57
  hcc1_scoped14 : 20 + S_.numel ≤ 57
  hcc1_scoped15 : 21 + S_.numel ≤ 57
  hcc1_scoped16 : 22 + S_.numel ≤ 57
  hcc1_scoped17 : 23 + S_.numel ≤ 57
  hcc1_scoped18 : 24 + S_.numel ≤ 57
  hcc1_scoped19 : 25 + S_.numel ≤ 57
  hcc1_scoped20 : 26 + S_.numel ≤ 57
  hcc1_scoped21 : 27 + S_.numel ≤ 57
  hcc1_scoped22 : 28 + S_.numel ≤ 57
  hcc1_scoped23 : 29 + S_.numel ≤ 57
  hcc1_scoped24 : 30 + S_.numel ≤ 57
  hcc1_scoped25 : 31 + S_.numel ≤ 57
  hcc1_scoped26 : 32 + S_.numel ≤ 57
  hcc1_scoped27 : 33 + S_.numel ≤ 57
  hcc1_scoped28 : 34 + S_.numel ≤ 57
  hcc1_scoped29 : 35 + S_.numel ≤ 57
  hcc1_scoped30 : 36 + S_.numel ≤ 57
  hcc1_scoped31 : 37 + S_.numel ≤ 57
  hcc1_scoped32 : 38 + S_.numel ≤ 57
  hcc1_scoped33 : 39 + S_.numel ≤ 57
  hcc1_scoped34 : 40 + S_.numel ≤ 57
  hcc1_scoped35 : 41 + S_.numel ≤ 57
  hcc1_scoped36 : 42 + S_.numel ≤ 57
  hcc1_scoped37 : 43 + S_.numel ≤ 57
  hcc1_scoped38 : 44 + S_.numel ≤ 57
  hcc1_scoped39 : 45 + S_.numel ≤ 57
  hcc1_scoped40 : 46 + S_.numel ≤ 57
  hcc1_scoped41 : 47 + S_.numel ≤ 57
  hcc1_scoped42 : 48 + S_.numel ≤ 57
  hcc1_scoped43 : 49 + S_.numel ≤ 57
  hcc1_scoped44 : 50 + S_.numel ≤ 57
  hcc1_scoped45 : 51 + S_.numel ≤ 57
  hcc1_scoped46 : 52 + S_.numel ≤ 57
  hcc1_scoped47 : 53 + S_.numel ≤ 57
  hcc1_scoped48 : 54 + S_.numel ≤ 57
  hcc1_scoped49 : 55 + S_.numel ≤ 57
  hcc1_scoped50 : 56 + S_.numel ≤ 57
  hscKind : ∀ q, scKind q ≠ .tc
  hscCore : ∀ q, scNCore q ≤ τ.nSC
  hscSub : ∀ q, scNSub q ≤ τ.nSub
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S20000x128.size a < S1000000x100.size a
  hwx0_0 : ∀ i : grid0.Coords, EltTy.bits .f32 = 32 ∨ (Rect.unit (s := S1000000x100) (fun a => cc0_transform_0 i a * S20000x128.size a) (fun a => (Pipeline.Clip.of (cc0_transform_0 i a) (S20000x128.size a) (S1000000x100.size a)).extent (S20000x128.size a)) fun a => Pipeline.Clip.inb (Pipeline.Clip.ok_of (hstart0_0 i a))).WholeWords (EltTy.packing .f32)
  hwxs0_0 : ∀ i : grid0.Coords, EltTy.bits .f32 = 32 ∨ (Rect.unit (s := S20000x128) (fun _ => 0) (fun a => (Pipeline.Clip.of (cc0_transform_0 i a) (S20000x128.size a) (S1000000x100.size a)).extent (S20000x128.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S20000x128.size a ≤ S1000000x128.size a
  hwx0_1 : ∀ i : grid0.Coords, EltTy.bits .f32 = 32 ∨ (Rect.block (s := S1000000x128) S20000x128.size (cc0_transform_1 i) (hinb0_1 i)).WholeWords (EltTy.packing .f32)
  hcore1 : grid1.bound 0 ≤ τ.nSC
  hsub1 : grid1.bound 1 ≤ τ.nSub
  k1_off1_inb : ∀ i : grid1.Coords, ∀ a, (k1_off1 i) a + S6400.size a ≤ S204800.size a
  k1_off2_inb : ∀ i : grid1.Coords, ∀ (r : Fin 50), ∀ a, (k1_off2 i (BitVec.ofNat 32 (128 * r.val))) a + S128x128.size a ≤ S204800x128.size a

variable [Facts₀]

abbrev cc1_scratch3 : DmaSems sig S_ := SemArray.consecutive 4 S_ hcc1_scratch3
abbrev cc1_scratch4 : DmaSems sig S_ := SemArray.consecutive 5 S_ hcc1_scratch4
abbrev cc1_scoped0 : DmaSems sig S_ := SemArray.consecutive 6 S_ hcc1_scoped0
abbrev cc1_scoped1 : DmaSems sig S_ := SemArray.consecutive 7 S_ hcc1_scoped1
abbrev cc1_scoped2 : DmaSems sig S_ := SemArray.consecutive 8 S_ hcc1_scoped2
abbrev cc1_scoped3 : DmaSems sig S_ := SemArray.consecutive 9 S_ hcc1_scoped3
abbrev cc1_scoped4 : DmaSems sig S_ := SemArray.consecutive 10 S_ hcc1_scoped4
abbrev cc1_scoped5 : DmaSems sig S_ := SemArray.consecutive 11 S_ hcc1_scoped5
abbrev cc1_scoped6 : DmaSems sig S_ := SemArray.consecutive 12 S_ hcc1_scoped6
abbrev cc1_scoped7 : DmaSems sig S_ := SemArray.consecutive 13 S_ hcc1_scoped7
abbrev cc1_scoped8 : DmaSems sig S_ := SemArray.consecutive 14 S_ hcc1_scoped8
abbrev cc1_scoped9 : DmaSems sig S_ := SemArray.consecutive 15 S_ hcc1_scoped9
abbrev cc1_scoped10 : DmaSems sig S_ := SemArray.consecutive 16 S_ hcc1_scoped10
abbrev cc1_scoped11 : DmaSems sig S_ := SemArray.consecutive 17 S_ hcc1_scoped11
abbrev cc1_scoped12 : DmaSems sig S_ := SemArray.consecutive 18 S_ hcc1_scoped12
abbrev cc1_scoped13 : DmaSems sig S_ := SemArray.consecutive 19 S_ hcc1_scoped13
abbrev cc1_scoped14 : DmaSems sig S_ := SemArray.consecutive 20 S_ hcc1_scoped14
abbrev cc1_scoped15 : DmaSems sig S_ := SemArray.consecutive 21 S_ hcc1_scoped15
abbrev cc1_scoped16 : DmaSems sig S_ := SemArray.consecutive 22 S_ hcc1_scoped16
abbrev cc1_scoped17 : DmaSems sig S_ := SemArray.consecutive 23 S_ hcc1_scoped17
abbrev cc1_scoped18 : DmaSems sig S_ := SemArray.consecutive 24 S_ hcc1_scoped18
abbrev cc1_scoped19 : DmaSems sig S_ := SemArray.consecutive 25 S_ hcc1_scoped19
abbrev cc1_scoped20 : DmaSems sig S_ := SemArray.consecutive 26 S_ hcc1_scoped20
abbrev cc1_scoped21 : DmaSems sig S_ := SemArray.consecutive 27 S_ hcc1_scoped21
abbrev cc1_scoped22 : DmaSems sig S_ := SemArray.consecutive 28 S_ hcc1_scoped22
abbrev cc1_scoped23 : DmaSems sig S_ := SemArray.consecutive 29 S_ hcc1_scoped23
abbrev cc1_scoped24 : DmaSems sig S_ := SemArray.consecutive 30 S_ hcc1_scoped24
abbrev cc1_scoped25 : DmaSems sig S_ := SemArray.consecutive 31 S_ hcc1_scoped25
abbrev cc1_scoped26 : DmaSems sig S_ := SemArray.consecutive 32 S_ hcc1_scoped26
abbrev cc1_scoped27 : DmaSems sig S_ := SemArray.consecutive 33 S_ hcc1_scoped27
abbrev cc1_scoped28 : DmaSems sig S_ := SemArray.consecutive 34 S_ hcc1_scoped28
abbrev cc1_scoped29 : DmaSems sig S_ := SemArray.consecutive 35 S_ hcc1_scoped29
abbrev cc1_scoped30 : DmaSems sig S_ := SemArray.consecutive 36 S_ hcc1_scoped30
abbrev cc1_scoped31 : DmaSems sig S_ := SemArray.consecutive 37 S_ hcc1_scoped31
abbrev cc1_scoped32 : DmaSems sig S_ := SemArray.consecutive 38 S_ hcc1_scoped32
abbrev cc1_scoped33 : DmaSems sig S_ := SemArray.consecutive 39 S_ hcc1_scoped33
abbrev cc1_scoped34 : DmaSems sig S_ := SemArray.consecutive 40 S_ hcc1_scoped34
abbrev cc1_scoped35 : DmaSems sig S_ := SemArray.consecutive 41 S_ hcc1_scoped35
abbrev cc1_scoped36 : DmaSems sig S_ := SemArray.consecutive 42 S_ hcc1_scoped36
abbrev cc1_scoped37 : DmaSems sig S_ := SemArray.consecutive 43 S_ hcc1_scoped37
abbrev cc1_scoped38 : DmaSems sig S_ := SemArray.consecutive 44 S_ hcc1_scoped38
abbrev cc1_scoped39 : DmaSems sig S_ := SemArray.consecutive 45 S_ hcc1_scoped39
abbrev cc1_scoped40 : DmaSems sig S_ := SemArray.consecutive 46 S_ hcc1_scoped40
abbrev cc1_scoped41 : DmaSems sig S_ := SemArray.consecutive 47 S_ hcc1_scoped41
abbrev cc1_scoped42 : DmaSems sig S_ := SemArray.consecutive 48 S_ hcc1_scoped42
abbrev cc1_scoped43 : DmaSems sig S_ := SemArray.consecutive 49 S_ hcc1_scoped43
abbrev cc1_scoped44 : DmaSems sig S_ := SemArray.consecutive 50 S_ hcc1_scoped44
abbrev cc1_scoped45 : DmaSems sig S_ := SemArray.consecutive 51 S_ hcc1_scoped45
abbrev cc1_scoped46 : DmaSems sig S_ := SemArray.consecutive 52 S_ hcc1_scoped46
abbrev cc1_scoped47 : DmaSems sig S_ := SemArray.consecutive 53 S_ hcc1_scoped47
abbrev cc1_scoped48 : DmaSems sig S_ := SemArray.consecutive 54 S_ hcc1_scoped48
abbrev cc1_scoped49 : DmaSems sig S_ := SemArray.consecutive 55 S_ hcc1_scoped49
abbrev cc1_scoped50 : DmaSems sig S_ := SemArray.consecutive 56 S_ hcc1_scoped50

abbrev win0_0 : Pipeline.Window sig grid0 :=
  Pipeline.Window.ofSpecClip (Memref.whole main_arg1) S20000x128.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_v2) S20000x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4096x50 : Shape := ⟨2, ![4096, 50]⟩
abbrev S1000000x100 : Shape := ⟨2, ![1000000, 100]⟩
abbrev S50x4096 : Shape := ⟨2, ![50, 4096]⟩
abbrev S_ : Shape := ⟨0, ![]⟩
abbrev S50x4096x1 : Shape := ⟨3, ![50, 4096, 1]⟩
abbrev S1 : Shape := ⟨1, ![1]⟩
abbrev S1x1x1 : Shape := ⟨3, ![1, 1, 1]⟩
abbrev S50x4096x100 : Shape := ⟨3, ![50, 4096, 100]⟩
abbrev S50x1x4096x100 : Shape := ⟨4, ![50, 1, 4096, 100]⟩

abbrev nBuf : Space → Nat
  | .hbm => 27
  | .vmem => 0
  | .smem => 0
  | _ => 0

abbrev bufTy : (tb : Table) → Fin (tcTables nBuf tb) → BufTy
  | .hbm, ⟨0, _⟩ => ⟨S4096x50, .i32⟩
  | .hbm, ⟨1, _⟩ => ⟨S1000000x100, .f32⟩
  | .hbm, ⟨2, _⟩ => ⟨S50x4096, .i32⟩
  | .hbm, ⟨3, _⟩ => ⟨S_, .i32⟩
  | .hbm, ⟨4, _⟩ => ⟨S50x4096, .i32⟩
  | .hbm, ⟨5, _⟩ => ⟨S50x4096, .i1⟩
  | .hbm, ⟨6, _⟩ => ⟨S_, .i32⟩
  | .hbm, ⟨7, _⟩ => ⟨S50x4096, .i32⟩
  | .hbm, ⟨8, _⟩ => ⟨S50x4096, .i32⟩
  | .hbm, ⟨9, _⟩ => ⟨S50x4096, .i32⟩
  | .hbm, ⟨10, _⟩ => ⟨S50x4096x1, .i32⟩
  | .hbm, ⟨11, _⟩ => ⟨S1, .i32⟩
  | .hbm, ⟨12, _⟩ => ⟨S_, .i32⟩
  | .hbm, ⟨13, _⟩ => ⟨S50x4096x1, .i32⟩
  | .hbm, ⟨14, _⟩ => ⟨S50x4096x1, .i1⟩
  | .hbm, ⟨15, _⟩ => ⟨S1x1x1, .i32⟩
  | .hbm, ⟨16, _⟩ => ⟨S50x4096x1, .i32⟩
  | .hbm, ⟨17, _⟩ => ⟨S50x4096x1, .i1⟩
  | .hbm, ⟨18, _⟩ => ⟨S50x4096x1, .i1⟩
  | .hbm, ⟨19, _⟩ => ⟨S_, .i1⟩
  | .hbm, ⟨20, _⟩ => ⟨S50x4096, .i1⟩
  | .hbm, ⟨21, _⟩ => ⟨S50x4096x100, .f32⟩
  | .hbm, ⟨22, _⟩ => ⟨S50x4096x100, .i1⟩
  | .hbm, ⟨23, _⟩ => ⟨S_, .f32⟩
  | .hbm, ⟨24, _⟩ => ⟨S50x4096x100, .f32⟩
  | .hbm, ⟨25, _⟩ => ⟨S50x4096x100, .f32⟩
  | .hbm, ⟨26, _⟩ => ⟨S50x1x4096x100, .f32⟩
  | _, _ => ⟨S4096x50, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v1 : Ref sig .tc := ⟨.hbm, 25, rfl⟩
abbrev main_v2 : Ref sig .tc := ⟨.hbm, 26, rfl⟩

abbrev nD : Nat := 1
abbrev τ : Topo := Topo.v7x

variable {F : FTy → Type} [FloatOps F]

class Facts₀ : Prop where
  transposes_S4096x50_S50x4096_1_0 : S4096x50.Transposes [1, 0] S50x4096
  bcast_S_S50x4096 : S_.BroadcastsInDim S50x4096 (![] : Fin 0 → Fin S50x4096.rank)
  bcast_S50x4096_S50x4096x1_0_1 : S50x4096.BroadcastsInDim S50x4096x1 (![0, 1] : Fin 2 → Fin S50x4096x1.rank)
  bcast_S_S50x4096x1 : S_.BroadcastsInDim S50x4096x1 (![] : Fin 0 → Fin S50x4096x1.rank)
  bcast_S1_S1x1x1_2 : S1.BroadcastsInDim S1x1x1 (![2] : Fin 1 → Fin S1x1x1.rank)
  bcast_S1x1x1_S50x4096x1_0_1_2 : S1x1x1.BroadcastsInDim S50x4096x1 (![0, 1, 2] : Fin 3 → Fin S50x4096x1.rank)
  reducesTo_S50x4096x1_S50x4096_d2 : S50x4096x1.ReducesTo [2] S50x4096
  h_S_ : 0 < S_.numel
  bcast_S50x4096_S50x4096x100_0_1 : S50x4096.BroadcastsInDim S50x4096x100 (![0, 1] : Fin 2 → Fin S50x4096x100.rank)
  bcast_S_S50x4096x100 : S_.BroadcastsInDim S50x4096x100 (![] : Fin 0 → Fin S50x4096x100.rank)
  bcast_S50x4096x100_S50x1x4096x100_0_2_3 : S50x4096x100.BroadcastsInDim S50x1x4096x100 (![0, 2, 3] : Fin 3 → Fin S50x1x4096x100.rank)
  gather_S1000000x100_S50x4096x1_S50x4096x100_2_0_n_n_0_2_1100_wf : GatherDims.WF S1000000x100 S50x4096x1 S50x4096x100 [2] [0] [] [0] [] 2 ![1, 100]

variable [Facts₀]

def gather_S1000000x100_S50x4096x1_S50x4096x100_2_0_n_n_0_2_1100 : GatherDims S1000000x100 S50x4096x1 S50x4096x100 where
  offsetDims := [2]
  collapsedSliceDims := [0]
  operandBatchingDims := []
  startIndicesBatchingDims := []
  startIndexMap := [0]
  indexVectorDim := 2
  sliceSizes := ![1, 100]
  wf := gather_S1000000x100_S50x4096x1_S50x4096x100_2_0_n_n_0_2_1100_wf

class Facts : Prop extends Facts₀ where

variable [Facts]
-- ==== Proof.CommonKI.lean ====
/-
  What the modules about this program's run share: the program as the launch theorem for SparseCore programs sees it,
  and the algebra of the proof's ghost state — the launch handshakes' rounds, the rounds of the table-padding call's
  staging cells, and the counters of the tiles' own transfers, side by side.
-/
import proofs.«208090_g83872121356401_cont_sun_m_474_43_alg».proof.Defs
import Idealize.ShloMosaic.Lib.SparseCore.Launch
import Idealize.ShloMosaic.Lib.StableHlo.Run
import Idealize.ShloMosaic.Lib.Pipeline.Kit
import Idealize.ShloMosaic.Lib.Tactic
import proofs.«208090_g83872121356401_cont_sun_m_474_43_alg».proof.Proof.Gen.KernelIdeal
import proofs.«208090_g83872121356401_cont_sun_m_474_43_alg».proof.Proof.Gen.KernelIdeal.Skeleton
import proofs.«208090_g83872121356401_cont_sun_m_474_43_alg».proof.Proof.Gen.KernelIdeal.Launch
import proofs.«208090_g83872121356401_cont_sun_m_474_43_alg».proof.Proof.Gen.KernelIdeal.Points

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The launch handshakes' rounds. -/
abbrev UH : Type := URounds (GSem nD τ sig) ℕ
/-- The rounds of the padding call's staging cells. -/
abbrev UP : Type := UR sig nD τ
/-- Handshakes, staging cells, and the counters of the tiles' own transfers. -/
abbrev UU : Type := UH × (UP × Counters)

local notation "𝕄" => MT nD τ sig (HIx 1) (Elt F) ℕ UU ℕ

abbrev EH : Emb UH (MT nD τ sig (HIx 1) (Elt F) ℕ UU ℕ) := embL
def EP : Emb UP (MT nD τ sig (HIx 1) (Elt F) ℕ UU ℕ) :=
  (Emb.inl : Emb UP (UP × Counters)).trans (embR (A := UH) (B := UP × Counters))

instance EP_landsIn : (EP : Emb UP 𝕄).LandsIn (upEmb : UEmb _ 𝕄) := by unfold EP embR; infer_instance

/-- The launch element splits into the handshakes' part and the rest, -/
theorem ownU_split₁ (a : UH) (b : UP × Counters) :
    (ownU (a, b) : sProp 𝕄) ⊢ iprop(BI.own (EH a) ∗ BI.own ((embR (A := UH) (B := UP × Counters)) b)) := ownU_pair a b

/-- and the rest into the staging cells' part (the counters' part dropped). -/
theorem own_rest_split (b : UP) (c : Counters) :
    (BI.own ((embR (A := UH) (B := UP × Counters)) (b, c)) : sProp 𝕄) ⊢ BI.own (EP b) := by
  have h := BI.own_op_elim (M := 𝕄) ((embR (A := UH) (B := UP × Counters)).op_of_mem
    (Prod.mk_mem_op (URA.mem_op_one b) (URA.mem_one_op c)))
  exact h.trans (sep_elim_left.trans (Entails.of_eq (show (BI.own ((embR (A := UH) (B := UP × Counters)) (b, 1)) : sProp 𝕄) = BI.own (EP b) from rfl)))

end Cert.Proof.KI

end
-- ==== Proof.PayKI.lean ====
/-
  What the launch hands each tile of the lookup kernel and what it gets back.

  The kernel's grid is 2 SparseCores by 16 tiles; tile `i` of SparseCore `c` has number `w = 2 i + c` and serves the
  6400 rows `[6400 w, 6400 w + 6400)` of the row-number list and of the result, in 50 chunks of 128 rows: chunk `j` of
  tile `w` is chunk `50 w + j` of the result.  A tile is handed its run of the row-number list, a read share of the
  padded table (any contents that agree with the table on its first 100 columns), and its 50 chunks of the result; it
  hands back the 50 chunks, each holding in its first 100 columns the table rows the list names.
-/
import proofs.«208090_g83872121356401_cont_sun_m_474_43_alg».proof.Proof.CommonKI
import Idealize.ShloMosaic.Lib.SparseCore.Stream
import Idealize.ShloMosaic.Lib.ValueIdx

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-! ## Pure data -/

/-- A row number as a table row: the word as a natural number, capped at the last row. -/
def capRow (w : BitVec 32) : Fin 1000000 := ⟨min w.toNat 999999, by omega⟩

/-- The row-number list the kernel reads: entry `l * 4096 + b` is the index array's `(b, l)`. -/
def idxArr (x : S4096x50.Idx → BitVec 32) : S204800.Idx → BitVec 32 := fun j =>
  x (ix2 ⟨(j 0).val % 4096, Nat.mod_lt _ (by decide)⟩ ⟨(j 0).val / 4096, by have h : (j 0).val < 204800 := (j 0).isLt; omega⟩)

/-- The padded table agrees with the table on its first 100 columns. -/
def PadOK (ft : S1000000x100.Idx → Elt F .f32) (fp : S1000000x128.Idx → Elt F .f32) : Prop :=
  ∀ (r : Fin 1000000) (c : Fin 100), fp (ix2 r ⟨c.val, by omega⟩) = ft (ix2 r c)

/-- The result is right at `x`: if its column is below 100, it is the table at the row the list names for `x`'s row. -/
def GoodAt (fi : S204800.Idx → BitVec 32) (ft : S1000000x100.Idx → Elt F .f32) (f : S204800x128.Idx → Elt F .f32)
    (x : S204800x128.Idx) : Prop :=
  ∀ hc : (x 1).val < 100, f x = ft (ix2 (capRow (fi (ix1 (x 0)))) ⟨(x 1).val, hc⟩)

/-- The entries of the row-number list that tile number `w` reads. -/
def idxSet (w : ℕ) : Finset S204800.Idx := Finset.univ.filter fun j => 6400 * w ≤ (j 0).val ∧ (j 0).val < 6400 * w + 6400
/-- The entries of chunk `n` of the result: its rows `[128 n, 128 n + 128)`. -/
def chunkSet (n : ℕ) : Finset S204800x128.Idx := Finset.univ.filter fun j => 128 * n ≤ (j 0).val ∧ (j 0).val < 128 * n + 128
/-- Tile number `w`'s read share of the padded table: one of 32 pieces of the whole. -/
def shareOf (w : ℕ) : PosShare TreeShare := pieceOf fullShare 32 (by decide) ⟨w % 32, Nat.mod_lt _ (by decide)⟩

/-! ## The arrays, as the TensorCore names them -/

abbrev a0Loc (d : Dev nD) : Loc nD τ sig := (SparseCore.T d).loc main_arg0
abbrev a1Loc (d : Dev nD) : Loc nD τ sig := (SparseCore.T d).loc main_arg1
abbrev iLoc (d : Dev nD) : Loc nD τ sig := (SparseCore.T d).loc main_v1
abbrev tLoc (d : Dev nD) : Loc nD τ sig := (SparseCore.T d).loc main_v2
abbrev oLoc (d : Dev nD) : Loc nD τ sig := (SparseCore.T d).loc main_v3

variable (m : (ℓ : Loc nD τ sig) → Buf (Elt F) ℓ)

/-- What tile `i` of SparseCore `c` is handed. -/
def tileRes (d : Dev nD) (c i : ℕ) : sProp 𝕄 :=
  iprop((iLoc d ↦[idxSet (2 * i + c)]{fullShare} idxArr (m (a0Loc d)))
    ∗ (∃ fp, ⌜PadOK (m (a1Loc d)) fp⌝ ∗ tLoc d ↦{shareOf (2 * i + c)} fp)
    ∗ bigSep (Finset.univ : Finset (Fin 50)) fun j => oLoc d ↦[chunkSet (50 * (2 * i + c) + j.val)]{fullShare} m (oLoc d))

/-- What it hands back. -/
def tdRes (d : Dev nD) (c i : ℕ) : sProp 𝕄 :=
  bigSep (Finset.univ : Finset (Fin 50)) fun j =>
    iprop(∃ f, ⌜∀ x ∈ chunkSet (50 * (2 * i + c) + j.val), GoodAt (idxArr (m (a0Loc d))) (m (a1Loc d)) f x⌝
      ∗ oLoc d ↦[chunkSet (50 * (2 * i + c) + j.val)]{fullShare} f)

/-- The one call's payloads: a SparseCore is handed its sixteen tiles' shares and hands their results back. -/
def P : (K (F := F)).Pay (nD := nD) (Val := Elt F) (Name := ℕ) (U := UU) where
  st := fun _ d c => bigSep (Finset.univ : Finset (Fin 16)) fun i => tileRes m d c.val i.val
  dn := fun _ d c => bigSep (Finset.univ : Finset (Fin 16)) fun i => tdRes m d c.val i.val
  go := fun _ d c i => tileRes m d c.val i.val
  td := fun _ d c i => tdRes m d c.val i.val
  x := fun _ _ => iprop(emp)

instance tileRes_storable (d : Dev nD) (c i : ℕ) : BI.Storable (upEmb : UEmb _ 𝕄) (tileRes m d c i) := by
  unfold tileRes; infer_instance
instance tdRes_storable (d : Dev nD) (c i : ℕ) : BI.Storable (upEmb : UEmb _ 𝕄) (tdRes m d c i) := by
  unfold tdRes; infer_instance

instance P_storable : (P (F := F) m).IsStorable where
  st _ d c := by unfold P; infer_instance
  dn _ d c := by unfold P; infer_instance
  go _ d c i := by unfold P; infer_instance
  td _ d c i := by unfold P; infer_instance

end Cert.Proof.KI

end
-- ==== Proof.LaunchHostKI.lean ====
/-
  The TensorCore's host operations as steps of @main's proof.  A host operation that reads one whole array and
  writes another, run holding both, leaves the read array as it was and the written one at the operation's
  value.  The TensorCore's arrays that live across regions are the two arguments and the six values of @main.
-/
import proofs.«208090_g83872121356401_cont_sun_m_474_43_alg».proof.Proof.PayKI

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)

variable {F : FTy → Type}

local notation "𝕄" => MT nD τ sig (HIx 1) (Elt F) ℕ UU ℕ

/-- The arrays of the TensorCore that are not scoped: the arguments and @main's values. -/
theorem unscopedBufs_eq (d : Dev nD) (W : (b : Ref sig .tc) → Buf (Elt F) ((d.tc : Thread nD τ).loc b)) :
    (unscopedBufs d W : sProp 𝕄) = iprop((a0Loc d ↦{fullShare} W main_arg0) ∗ (a1Loc d ↦{fullShare} W main_arg1)
      ∗ ((SparseCore.T d).loc main_v0 ↦{fullShare} W main_v0) ∗ (iLoc d ↦{fullShare} W main_v1) ∗ (tLoc d ↦{fullShare} W main_v2)
      ∗ (oLoc d ↦{fullShare} W main_v3) ∗ ((SparseCore.T d).loc main_v4 ↦{fullShare} W main_v4)
      ∗ ((SparseCore.T d).loc main_v5 ↦{fullShare} W main_v5)) := by
  unfold unscopedBufs
  rw [show (Finset.univ.filter fun b : Ref sig .tc => ¬ b.isScoped)
      = {main_arg0, main_arg1, main_v0, main_v1, main_v2, main_v3, main_v4, main_v5} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

variable [FloatOps F]

/-- A host operation over the two arrays `x` (read) and `y` (written), as a step: from both arrays held whole,
    the continuation gets `x` back as it was and `y` at the value `gy` the operation computes from `x`'s contents. -/
theorem wp_host2 (d : Dev nD) {x y : Ref sig .tc} (hne : x ≠ y) (op : HloOp τ sig (Elt F))
    (hbufs : op.bufs = {Proc.devRef .tc x, Proc.devRef .tc y}) (hf : op.fresh = ∅)
    (V0 : Valuation τ sig (Elt F))
    (fx : (Proc.devRef .tc x : DevRef τ sig).ty.Contents (Elt F)) (fy gy : (Proc.devRef .tc y : DevRef τ sig).ty.Contents (Elt F))
    (hy : ∀ V : Valuation τ sig (Elt F), V (Proc.devRef .tc x) = fx → op.result V (Proc.devRef .tc y) = gy)
    (hx : ∀ V : Valuation τ sig (Elt F), op.result V (Proc.devRef .tc x) = V (Proc.devRef .tc x))
    {Λ : Labels} {defs : Defs nD τ sig (Elt F) Λ} (𝒱 : Variants) (bd : Option 𝒱.V)
    {α : Type} {k : ((b : op.writes) → b.1.ty.Contents (Elt F)) → Prog (TpuEff nD τ sig (Elt F) Λ (SparseCore.T d : Thread nD τ).2) α}
    {Q : α → sProp 𝕄} :
    iprop(boundary (SparseCore.T d : Thread nD τ) ∗ (((SparseCore.T d : Thread nD τ).1, Proc.devRef .tc x) ↦{fullShare} fx)
        ∗ (((SparseCore.T d : Thread nD τ).1, Proc.devRef .tc y) ↦{fullShare} fy))
      ⊢ iprop((∀ r, (boundary (SparseCore.T d : Thread nD τ) ∗ (((SparseCore.T d : Thread nD τ).1, Proc.devRef .tc x) ↦{fullShare} fx)
            ∗ (((SparseCore.T d : Thread nD τ).1, Proc.devRef .tc y) ↦{fullShare} gy))
          -∗ wp frame (wpE defs 𝒱 (SparseCore.T d) bd) Set.univ (k r) Q)
        -∗ wp frame (wpE defs 𝒱 (SparseCore.T d) bd) Set.univ (hlo rfl op k) Q) := by
  have hne' : (Proc.devRef .tc x : DevRef τ sig) ≠ Proc.devRef .tc y := StableHlo.devRef_ne_of_ne hne
  let V1 : Valuation τ sig (Elt F) := Function.update (Function.update V0 (Proc.devRef .tc y) fy) (Proc.devRef .tc x) fx
  have hV1x : V1 (Proc.devRef .tc x) = fx := Function.update_self _ _ _
  have hV1y : V1 (Proc.devRef .tc y) = fy := by
    show Function.update (Function.update V0 (Proc.devRef .tc y) fy) (Proc.devRef .tc x) fx (Proc.devRef .tc y) = fy
    rw [Function.update_of_ne hne'.symm, Function.update_self]
  have hS : op.bufs ⊆ ({Proc.devRef .tc x, Proc.devRef .tc y} : Finset (DevRef τ sig)) := hbufs ▸ Finset.Subset.refl _
  have hheld : ∀ W : Valuation τ sig (Elt F), (held (SparseCore.T d) ({Proc.devRef .tc x, Proc.devRef .tc y} : Finset (DevRef τ sig)) W : sProp 𝕄)
      = iprop((((SparseCore.T d : Thread nD τ).1, Proc.devRef .tc x) ↦{fullShare} W (Proc.devRef .tc x))
          ∗ (((SparseCore.T d : Thread nD τ).1, Proc.devRef .tc y) ↦{fullShare} W (Proc.devRef .tc y))) := fun W => by
    unfold held
    rw [SparseCore.bigSep_insert' (by rw [Finset.mem_singleton]; exact hne'), bigSep_singleton]
  have hpre : (held (SparseCore.T d) ({Proc.devRef .tc x, Proc.devRef .tc y} : Finset (DevRef τ sig)) V1 : sProp 𝕄)
      = iprop((((SparseCore.T d : Thread nD τ).1, Proc.devRef .tc x) ↦{fullShare} fx)
          ∗ (((SparseCore.T d : Thread nD τ).1, Proc.devRef .tc y) ↦{fullShare} fy)) := by
    rw [hheld, hV1x, hV1y]
  have hpost : (held (SparseCore.T d) ({Proc.devRef .tc x, Proc.devRef .tc y} : Finset (DevRef τ sig)) (op.result V1) : sProp 𝕄)
      = iprop((((SparseCore.T d : Thread nD τ).1, Proc.devRef .tc x) ↦{fullShare} fx)
          ∗ (((SparseCore.T d : Thread nD τ).1, Proc.devRef .tc y) ↦{fullShare} gy)) := by
    rw [hheld, hy V1 hV1x, hx V1, hV1x]
  iintro ⟨Hb, Hx, Hy⟩ Hk
  iapply (wp_hlo_within 𝒱 (SparseCore.T d) bd Set.univ (op := op) (S := {Proc.devRef .tc x, Proc.devRef .tc y}) hS (V := V1) hf) $$ [Hb Hx Hy]
  · isplitl [Hb]; · iexact Hb
    rw [hpre]
    isplitl [Hx]; · iexact Hx
    iexact Hy
  iintro ⟨Hb, Hheld⟩
  ihave Hh := (Entails.of_eq hpost) $$ Hheld
  icases Hh with ⟨Hx, Hy⟩
  iapply Hk
  isplitl [Hb]; · iexact Hb
  isplitl [Hx]; · iexact Hx
  iexact Hy

end Cert.Proof.KI

end
-- ==== Proof.Spec.lean ====
/-
  The embedding lookup as one function of the argument arrays, index by index.

  The index array `x` has shape [4096, 50] (a batch of 4096 histories of 50 row numbers), the table shape [1000000, 100].
  The result has shape [50, 1, 4096, 100]: at `(l, 0, b, d)` it is the table's entry in column `d` of the row that
  `x` names at `(b, l)`.  The row number is read as an unsigned word and capped at the last row, so that the function is
  total; on the inputs the claims speak of (every word of `x` between 0 and 999999) the cap changes nothing.
-/
import Idealize.ShloMosaic.Lib.ValueIdx

noncomputable section

namespace Cert.Proof.Spec

open Idealize.ShloMosaic Idealize.ShloMosaic.ValueIdx

/-- The table row that entry `(b, l)` of the index array names: its word as a natural number, capped at 999999. -/
def rowOf (x : (⟨2, ![4096, 50]⟩ : Shape).Idx → BitVec 32) (b : Fin 4096) (l : Fin 50) : Fin 1000000 :=
  ⟨min (x (ix2 b l)).toNat 999999, by omega⟩

/-- The lookup's result: at `(l, 0, b, d)` the table at row `rowOf x b l`, column `d`. -/
def out {α : Type} (x : (⟨2, ![4096, 50]⟩ : Shape).Idx → BitVec 32) (tab : (⟨2, ![1000000, 100]⟩ : Shape).Idx → α) :
    (⟨4, ![50, 1, 4096, 100]⟩ : Shape).Idx → α :=
  fun i => tab (ix2 (rowOf x (i 2) (i 0)) (i 3))

/-- Where every word of `x` is at most 999999 the cap is the identity. -/
theorem rowOf_val {x : (⟨2, ![4096, 50]⟩ : Shape).Idx → BitVec 32} {b : Fin 4096} {l : Fin 50}
    (h : (x (ix2 b l)).toNat ≤ 999999) : (rowOf x b l).val = (x (ix2 b l)).toNat :=
  Nat.min_eq_left h

end Cert.Proof.Spec

end
-- ==== Proof.HostValueKI.lean ====
/-
  The host operations around the two calls, as values.  Before the calls the index array is transposed and
  flattened: entry l * 4096 + b of the list is the index array's (b, l), which is the row-number list the kernel
  reads.  After them the result's first 100 columns are kept and the 204800 rows are regrouped as
  [50, 1, 4096]: entry (l, 0, b, d) of the final array is entry (l * 4096 + b, d) of the kernel's output, so an
  output that holds, in its first 100 columns, the table rows the list names becomes the lookup.
-/
import proofs.«208090_g83872121356401_cont_sun_m_474_43_alg».proof.Proof.PayKI
import proofs.«208090_g83872121356401_cont_sun_m_474_43_alg».proof.Proof.Spec
import Idealize.ShloMosaic.Lib.ValueLayout

noncomputable section

namespace Cert.Proof.KI

open Idealize.ShloMosaic Idealize.ShloMosaic.ValueIdx

/-- The transposed index array, flattened, is the row-number list. -/
theorem idxArr_eq (x : (⟨2, ![4096, 50]⟩ : Shape).Idx → BitVec 32)
    (ht : (⟨2, ![4096, 50]⟩ : Shape).Transposes [1, 0] ⟨2, ![50, 4096]⟩)
    (hc : (⟨2, ![50, 4096]⟩ : Shape).ShapeCasts ⟨1, ![204800]⟩) :
    shapeCast ⟨1, ![204800]⟩ (transpose ⟨2, ![50, 4096]⟩ [1, 0] x ht) hc = idxArr x := by
  funext j
  have hj : (j 0).val < 204800 := (j 0).isLt
  have hl : (j 0).val / 4096 < 50 := by omega
  have hb : (j 0).val % 4096 < 4096 := Nat.mod_lt _ (by decide)
  rw [shapeCast_apply _ hc j (ix2 ⟨(j 0).val / 4096, hl⟩ ⟨(j 0).val % 4096, hb⟩) (by
    rw [Shape.rowMajor_val_two, Shape.rowMajor_val_one]
    show (j 0).val / 4096 * 4096 + (j 0).val % 4096 = (j 0).val
    omega)]
  exact transpose_ix2_apply x ht _ _

/-- The final array read at an index: the kernel's output at row l * 4096 + b and the same column. -/
theorem final_apply {α : Type} (f3 : (⟨2, ![204800, 128]⟩ : Shape).Idx → α)
    (hs : (⟨2, ![204800, 128]⟩ : Shape).Slices ![0, 0] ⟨2, ![204800, 100]⟩)
    (hc : (⟨2, ![204800, 100]⟩ : Shape).ShapeCasts ⟨4, ![50, 1, 4096, 100]⟩)
    (i : (⟨4, ![50, 1, 4096, 100]⟩ : Shape).Idx) :
    shapeCast ⟨4, ![50, 1, 4096, 100]⟩ (extractStridedSlice ⟨2, ![204800, 100]⟩ ![0, 0] f3 hs) hc i
      = f3 (ix2 ⟨(i 0).val * 4096 + (i 2).val, by
            have h0 : (i 0).val < 50 := (i 0).isLt
            have h2 : (i 2).val < 4096 := (i 2).isLt
            omega⟩
          ⟨(i 3).val, by have h3 : (i 3).val < 100 := (i 3).isLt; omega⟩) := by
  have h0 : (i 0).val < 50 := (i 0).isLt
  have h1 : (i 1).val < 1 := (i 1).isLt
  have h2 : (i 2).val < 4096 := (i 2).isLt
  have h3 : (i 3).val < 100 := (i 3).isLt
  rw [shapeCast_apply _ hc i (ix2 ⟨(i 0).val * 4096 + (i 2).val, by omega⟩ ⟨(i 3).val, h3⟩) (by
    rw [Shape.rowMajor_val_two, Shape.rowMajor_val_four]
    show ((i 0).val * 4096 + (i 2).val) * 100 + (i 3).val = (((i 0).val * 1 + (i 1).val) * 4096 + (i 2).val) * 100 + (i 3).val
    omega)]
  exact extractStridedSlice_apply _ f3 hs _ _ fun a => match a with
    | ⟨0, _⟩ => (Nat.zero_add _).symm
    | ⟨1, _⟩ => (Nat.zero_add _).symm

/-- An output that is right in its first 100 columns becomes, cut to those columns and regrouped, the lookup. -/
theorem final_eq {α : Type} (x : (⟨2, ![4096, 50]⟩ : Shape).Idx → BitVec 32)
    (ft : (⟨2, ![1000000, 100]⟩ : Shape).Idx → α) (f3 : (⟨2, ![204800, 128]⟩ : Shape).Idx → α)
    (hs : (⟨2, ![204800, 128]⟩ : Shape).Slices ![0, 0] ⟨2, ![204800, 100]⟩)
    (hc : (⟨2, ![204800, 100]⟩ : Shape).ShapeCasts ⟨4, ![50, 1, 4096, 100]⟩)
    (hgood : ∀ y : (⟨2, ![204800, 128]⟩ : Shape).Idx, (y 1).val < 100 →
      ∀ hy : (y 1).val < 100, f3 y = ft (ix2 (capRow (idxArr x (ix1 (y 0)))) ⟨(y 1).val, hy⟩)) :
    shapeCast ⟨4, ![50, 1, 4096, 100]⟩ (extractStridedSlice ⟨2, ![204800, 100]⟩ ![0, 0] f3 hs) hc
      = Cert.Proof.Spec.out x ft := by
  funext i
  have h0 : (i 0).val < 50 := (i 0).isLt
  have h2 : (i 2).val < 4096 := (i 2).isLt
  have h3 : (i 3).val < 100 := (i 3).isLt
  rw [final_apply f3 hs hc i, hgood _ h3 h3]
  show ft (ix2 (capRow (x (ix2 ⟨((i 0).val * 4096 + (i 2).val) % 4096, _⟩ ⟨((i 0).val * 4096 + (i 2).val) / 4096, _⟩))) ⟨(i 3).val, _⟩)
      = ft (ix2 (Cert.Proof.Spec.rowOf x (i 2) (i 0)) (i 3))
  have e1 : (⟨((i 0).val * 4096 + (i 2).val) % 4096, Nat.mod_lt _ (by decide)⟩ : Fin 4096) = i 2 := Fin.ext (by
    show ((i 0).val * 4096 + (i 2).val) % 4096 = (i 2).val
    omega)
  have e2 : (⟨((i 0).val * 4096 + (i 2).val) / 4096, by omega⟩ : Fin 50) = i 0 := Fin.ext (by
    show ((i 0).val * 4096 + (i 2).val) / 4096 = (i 0).val
    omega)
  rw [e1, e2]
  rfl

end Cert.Proof.KI

end
-- ==== Proof.LaunchSplitKI.lean ====
/-
  The bookkeeping around the lookup call.  Before it the row-number list is cut into the 32 tiles' runs of 6400
  entries, the padded table into 32 read shares, the result array into the 1600 chunks of 128 rows, fifty to a tile;
  tile i of SparseCore c has number 2 i + c and its chunk j is chunk 50 (2 i + c) + j.  After it the 1600 chunks, each
  right on its own rows, join into one result array that is right everywhere.
-/
import proofs.«208090_g83872121356401_cont_sun_m_474_43_alg».proof.Proof.PayKI
import Idealize.SL.ProofMode.BigOp

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-! ## Tiles and chunks by number -/

/-- A tile: its SparseCore and its place on it. -/
abbrev TI : Type := Fin 2 × Fin 16
/-- Its number. -/
abbrev tileNo (t : TI) : ℕ := 2 * t.2.val + t.1.val
/-- The number of a tile's chunk. -/
abbrev chunkNo (s : TI × Fin 50) : ℕ := 50 * tileNo s.1 + s.2.val

theorem tileNo_lt (t : TI) : tileNo t < 32 := by
  have h1 : t.1.val < 2 := t.1.isLt
  have h2 : t.2.val < 16 := t.2.isLt
  show 2 * t.2.val + t.1.val < 32
  omega

theorem tileNo_inj {t t' : TI} (h : tileNo t = tileNo t') : t = t' := by
  have h1 : t.1.val < 2 := t.1.isLt
  have h1' : t'.1.val < 2 := t'.1.isLt
  have h : 2 * t.2.val + t.1.val = 2 * t'.2.val + t'.1.val := h
  exact Prod.ext (Fin.ext (by omega)) (Fin.ext (by omega))

theorem chunkNo_inj {s s' : TI × Fin 50} (h : chunkNo s = chunkNo s') : s = s' := by
  have h2 : s.2.val < 50 := s.2.isLt
  have h2' : s'.2.val < 50 := s'.2.isLt
  have h : 50 * tileNo s.1 + s.2.val = 50 * tileNo s'.1 + s'.2.val := h
  exact Prod.ext (tileNo_inj (by omega)) (Fin.ext (by omega))

/-- The tiles, by number. -/
def eTI : TI ≃ Fin 32 where
  toFun t := ⟨tileNo t, tileNo_lt t⟩
  invFun w := (⟨w.val % 2, Nat.mod_lt _ (by decide)⟩, ⟨w.val / 2, by have := w.isLt; omega⟩)
  left_inv t := by
    have h1 : t.1.val < 2 := t.1.isLt
    refine Prod.ext (Fin.ext ?_) (Fin.ext ?_)
    · show (2 * t.2.val + t.1.val) % 2 = t.1.val
      omega
    · show (2 * t.2.val + t.1.val) / 2 = t.2.val
      omega
  right_inv w := by
    refine Fin.ext ?_
    show 2 * (w.val / 2) + w.val % 2 = w.val
    omega

theorem idx_disj : ∀ t ∈ (Finset.univ : Finset TI), ∀ t' ∈ (Finset.univ : Finset TI), t ≠ t' →
    Disjoint (idxSet (tileNo t)) (idxSet (tileNo t')) := by
  intro t _ t' _ hne
  rw [Finset.disjoint_left]
  intro j h1 h2
  simp only [idxSet, Finset.mem_filter, Finset.mem_univ, true_and] at h1 h2
  exact hne (tileNo_inj (by omega))

theorem idx_cover : (Finset.univ : Finset TI).biUnion (fun t => idxSet (tileNo t)) = Finset.univ := by
  ext j
  simp only [Finset.mem_biUnion, Finset.mem_univ, true_and, iff_true]
  have hj : (j 0).val < 204800 := (j 0).isLt
  refine ⟨(⟨(j 0).val / 6400 % 2, Nat.mod_lt _ (by decide)⟩, ⟨(j 0).val / 6400 / 2, by omega⟩), ?_⟩
  simp only [idxSet, Finset.mem_filter, Finset.mem_univ, true_and]
  show 6400 * (2 * ((j 0).val / 6400 / 2) + (j 0).val / 6400 % 2) ≤ (j 0).val
    ∧ (j 0).val < 6400 * (2 * ((j 0).val / 6400 / 2) + (j 0).val / 6400 % 2) + 6400
  omega

theorem chunk_disj : ∀ s ∈ (Finset.univ : Finset (TI × Fin 50)), ∀ s' ∈ (Finset.univ : Finset (TI × Fin 50)), s ≠ s' →
    Disjoint (chunkSet (chunkNo s)) (chunkSet (chunkNo s')) := by
  intro s _ s' _ hne
  rw [Finset.disjoint_left]
  intro j h1 h2
  simp only [chunkSet, Finset.mem_filter, Finset.mem_univ, true_and] at h1 h2
  exact hne (chunkNo_inj (by omega))

/-- Every row of the result lies in some tile's chunk. -/
theorem chunk_of (y : S204800x128.Idx) : ∃ s : TI × Fin 50, y ∈ chunkSet (chunkNo s) := by
  have hy : (y 0).val < 204800 := (y 0).isLt
  refine ⟨((⟨(y 0).val / 128 / 50 % 2, Nat.mod_lt _ (by decide)⟩, ⟨(y 0).val / 128 / 50 / 2, by omega⟩),
    ⟨(y 0).val / 128 % 50, Nat.mod_lt _ (by decide)⟩), ?_⟩
  simp only [chunkSet, Finset.mem_filter, Finset.mem_univ, true_and]
  show 128 * (50 * (2 * ((y 0).val / 128 / 50 / 2) + (y 0).val / 128 / 50 % 2) + (y 0).val / 128 % 50) ≤ (y 0).val
    ∧ (y 0).val < 128 * (50 * (2 * ((y 0).val / 128 / 50 / 2) + (y 0).val / 128 / 50 % 2) + (y 0).val / 128 % 50) + 128
  omega

theorem chunk_cover : (Finset.univ : Finset (TI × Fin 50)).biUnion (fun s => chunkSet (chunkNo s)) = Finset.univ := by
  ext y
  simp only [Finset.mem_biUnion, Finset.mem_univ, true_and, iff_true]
  exact chunk_of y

/-! ## The arrays cut -/

theorem iLoc_split (d : Dev nD) (f : Buf (Elt F) (iLoc d)) :
    (iLoc d ↦{fullShare} f : sProp 𝕄) = bigSep Finset.univ fun t : TI => iLoc d ↦[idxSet (tileNo t)]{fullShare} f := by
  rw [← pointsTo_biUnion Finset.univ (ℓ := iLoc d) (fun t : TI => idxSet (tileNo t)) idx_disj, idx_cover]; try rfl

theorem oLoc_split (d : Dev nD) (f : Buf (Elt F) (oLoc d)) :
    (oLoc d ↦{fullShare} f : sProp 𝕄)
      = bigSep Finset.univ fun t : TI => bigSep Finset.univ fun j : Fin 50 => oLoc d ↦[chunkSet (chunkNo (t, j))]{fullShare} f := by
  rw [← bigSep_univ_prod (fun s : TI × Fin 50 => (oLoc d ↦[chunkSet (chunkNo s)]{fullShare} f : sProp 𝕄)),
    ← pointsTo_biUnion Finset.univ (ℓ := oLoc d) (fun s : TI × Fin 50 => chunkSet (chunkNo s)) chunk_disj, chunk_cover]; try rfl

theorem tLoc_split (d : Dev nD) (f : Buf (Elt F) (tLoc d)) :
    (tLoc d ↦{fullShare} f : sProp 𝕄) = bigSep Finset.univ fun t : TI => tLoc d ↦{shareOf (tileNo t)} f := by
  rw [pointsTo_piecesOf Finset.univ f (o := 32) (by decide) fullShare, bigSep_univ_equiv eTI]
  refine bigSep_congr fun t _ => ?_
  have e : shareOf (tileNo t) = pieceOf fullShare 32 (by decide) (eTI t) := by
    unfold shareOf
    congr 1
    exact Fin.ext (Nat.mod_eq_of_lt (tileNo_lt t))
  rw [e]

/-! ## Before the call: every tile's share -/

variable (m : (ℓ : Loc nD τ sig) → Buf (Elt F) ℓ)

theorem st_eq (d : Dev nD) :
    (bigSep Finset.univ fun c : Fin ((K (F := F)).nCore 0) => (P m).st 0 d c : sProp 𝕄)
      = bigSep Finset.univ fun t : TI => tileRes m d t.1.val t.2.val :=
  (bigSep_univ_prod (fun t : TI => (tileRes m d t.1.val t.2.val : sProp 𝕄))).symm

theorem dn_eq (d : Dev nD) :
    (bigSep Finset.univ fun c : Fin ((K (F := F)).nCore 0) => (P m).dn 0 d c : sProp 𝕄)
      = bigSep Finset.univ fun t : TI => tdRes m d t.1.val t.2.val :=
  (bigSep_univ_prod (fun t : TI => (tdRes m d t.1.val t.2.val : sProp 𝕄))).symm

/-- One tile's share, from its run of the list, its read share of a padded table that is right, and its chunks. -/
theorem tile_intro (d : Dev nD) (t : TI) (fp : Buf (Elt F) (tLoc d)) (hfp : PadOK (m (a1Loc d)) fp) :
    (iprop((iLoc d ↦[idxSet (tileNo t)]{fullShare} idxArr (m (a0Loc d))) ∗ (tLoc d ↦{shareOf (tileNo t)} fp)
      ∗ (bigSep Finset.univ fun j : Fin 50 => oLoc d ↦[chunkSet (chunkNo (t, j))]{fullShare} m (oLoc d))) : sProp 𝕄)
      ⊢ tileRes m d t.1.val t.2.val := by
  unfold tileRes
  iintro ⟨Hi, Ht, Ho⟩
  isplitl [Hi]; · iexact Hi
  isplitl [Ht]
  · iexists fp
    isplitr
    · ipureintro; exact hfp
    iexact Ht
  iexact Ho

/-- The row-number list, the padded table and the result array, whole, are the tiles' shares. -/
theorem split_st (d : Dev nD) (fp : Buf (Elt F) (tLoc d)) (hfp : PadOK (m (a1Loc d)) fp) :
    iprop((iLoc d ↦{fullShare} idxArr (m (a0Loc d))) ∗ (tLoc d ↦{fullShare} fp) ∗ (oLoc d ↦{fullShare} m (oLoc d)))
      ⊢ (bigSep Finset.univ fun c : Fin ((K (F := F)).nCore 0) => (P m).st 0 d c : sProp 𝕄) := by
  rw [st_eq, iLoc_split, tLoc_split, oLoc_split, ← bigSep_sep', ← bigSep_sep']
  exact bigSep_mono fun t _ => tile_intro m d t fp hfp

/-! ## After the call: the chunks joined -/

theorem join_dn (d : Dev nD) :
    (bigSep Finset.univ fun c : Fin ((K (F := F)).nCore 0) => (P m).dn 0 d c : sProp 𝕄)
      ⊢ iprop(∃ f3 : Buf (Elt F) (oLoc d), ⌜∀ y, GoodAt (idxArr (m (a0Loc d))) (m (a1Loc d)) f3 y⌝ ∗ oLoc d ↦{fullShare} f3) := by
  haveI : Nonempty (Buf (Elt F) (oLoc d)) := ⟨m (oLoc d)⟩
  have e : (bigSep Finset.univ fun t : TI => tdRes m d t.1.val t.2.val : sProp 𝕄)
      = bigSep Finset.univ fun s : TI × Fin 50 =>
          iprop(∃ f : Buf (Elt F) (oLoc d), ⌜∀ x ∈ chunkSet (chunkNo s), GoodAt (idxArr (m (a0Loc d))) (m (a1Loc d)) f x⌝
            ∗ oLoc d ↦[chunkSet (chunkNo s)]{fullShare} f) := by
    rw [bigSep_univ_prod (fun s : TI × Fin 50 =>
      (iprop(∃ f : Buf (Elt F) (oLoc d), ⌜∀ x ∈ chunkSet (chunkNo s), GoodAt (idxArr (m (a0Loc d))) (m (a1Loc d)) f x⌝
        ∗ oLoc d ↦[chunkSet (chunkNo s)]{fullShare} f) : sProp 𝕄))]
    refine bigSep_congr fun t _ => ?_
    unfold tdRes
    rfl
  have hjoin : ∀ fs : TI × Fin 50 → Buf (Elt F) (oLoc d),
      (bigSep Finset.univ fun s : TI × Fin 50 => oLoc d ↦[chunkSet (chunkNo s)]{fullShare} fs s : sProp 𝕄)
        ⊢ iprop(∃ g, ⌜∀ s ∈ (Finset.univ : Finset (TI × Fin 50)), ∀ i ∈ chunkSet (chunkNo s), g i = fs s i⌝ ∗ oLoc d ↦{fullShare} g) := by
    intro fs
    have h : (bigSep Finset.univ fun s : TI × Fin 50 => oLoc d ↦[chunkSet (chunkNo s)]{fullShare} fs s : sProp 𝕄)
        ⊢ iprop(∃ g, ⌜∀ s ∈ (Finset.univ : Finset (TI × Fin 50)), ∀ i ∈ chunkSet (chunkNo s), g i = fs s i⌝
          ∗ oLoc d ↦[(Finset.univ : Finset (TI × Fin 50)).biUnion fun s => chunkSet (chunkNo s)]{fullShare} g) :=
      pointsTo_biUnion_join (ℓ := oLoc d) (q := fullShare) Finset.univ (fun s : TI × Fin 50 => chunkSet (chunkNo s)) fs (m (oLoc d)) chunk_disj
    rw [chunk_cover] at h
    exact h
  rw [dn_eq, e]
  refine (bigSep_exists_pi Finset.univ (fun (s : TI × Fin 50) (f : Buf (Elt F) (oLoc d)) =>
    iprop(⌜∀ x ∈ chunkSet (chunkNo s), GoodAt (idxArr (m (a0Loc d))) (m (a1Loc d)) f x⌝ ∗ oLoc d ↦[chunkSet (chunkNo s)]{fullShare} f))).trans ?_
  iintro ⟨%fs, H⟩
  ihave H2 := (bigSep_pure_sep Finset.univ (fun s : TI × Fin 50 => ∀ x ∈ chunkSet (chunkNo s), GoodAt (idxArr (m (a0Loc d))) (m (a1Loc d)) (fs s) x)
    (fun s => (oLoc d ↦[chunkSet (chunkNo s)]{fullShare} fs s : sProp 𝕄))) $$ H
  icases H2 with ⟨%hgood, H3⟩
  ihave H4 := (hjoin fs) $$ H3
  icases H4 with ⟨%g, %hg, Hg⟩
  iexists g
  isplitr
  · ipureintro
    intro y hc
    obtain ⟨s, hs⟩ := chunk_of y
    rw [hg s (Finset.mem_univ s) y hs]
    exact hgood s (Finset.mem_univ s) y hs hc
  iexact Hg

end Cert.Proof.KI

end
-- ==== Proof.PreKI.lean ====
/-
  The index range the kernel's frames need: every row number the index array holds is at most 999999.
-/
import proofs.«208090_g83872121356401_cont_sun_m_474_43_alg».proof.Proof.PayKI

noncomputable section

namespace Cert.Proof.KI

open Cert.KernelIdeal Cert.KernelIdeal.Gen
open Idealize.ShloMosaic Idealize.ShloMosaic.ValueIdx Idealize.SL.Sem

variable {F : FTy → Type}

/-- Every word of the index array, on every device, is at most 999999 as a natural number. -/
def PreOK (m : (ℓ : Loc nD τ sig) → Buf (Elt F) ℓ) : Prop :=
  ∀ (d : Dev nD) (b : Fin 4096) (l : Fin 50), ((m (a0Loc d) : S4096x50.Idx → BitVec 32) (ix2 b l)).toNat ≤ 999999

/-- Then so is every entry of the row-number list. -/
theorem idxArr_le {m : (ℓ : Loc nD τ sig) → Buf (Elt F) ℓ} (hpre : PreOK m) (d : Dev nD) (j : S204800.Idx) :
    (idxArr (m (a0Loc d)) j).toNat ≤ 999999 := hpre d _ _

end Cert.Proof.KI

end
-- ==== Proof.PreOpen.lean ====
/-
  The precondition, opened.  The predicate is the conjunction of two "all" reductions: every table entry has
  a finite absolute value, and every word of the index array, read as a signed number, lies between 0 and
  999999.  From the predicate being 1 this file extracts the second conjunct, entry by entry.
-/
import proofs.«208090_g83872121356401_cont_sun_m_474_43_alg».proof.Pre_input_domain
import proofs.«208090_g83872121356401_cont_sun_m_474_43_alg».proof.Proof.Gen.Pre_input_domain
import Idealize.ShloMosaic.Lib.ReduceAll
import Idealize.ShloMosaic.Lib.ValueIdx

noncomputable section

namespace Cert.Proof.PreOpen

open Idealize.ShloMosaic Idealize.ShloMosaic.ValueIdx

/-- A rank-0 array has one index. -/
instance : Subsingleton (⟨0, ![]⟩ : Shape).Idx := ⟨fun a b => funext fun d => d.elim0⟩

/-- Where the predicate holds, every word of the index array is, as a signed number, between 0 and 999999. -/
theorem range {F : FTy → Type} [FloatOps F]
    (x : (⟨2, ![4096, 50]⟩ : Shape).Idx → BitVec 32) (tab : FVec F ⟨2, ![1000000, 100]⟩ .f32)
    (h : Cert.Pre_input_domain.fn (F := F) x tab = fun _ => 1#1) (b : Fin 4096) (l : Fin 50) :
    0 ≤ (x (ix2 b l)).toInt ∧ (x (ix2 b l)).toInt ≤ 999999 := by
  have h0 := congrFun h ix0
  dsimp only [Cert.Pre_input_domain.fn, andi] at h0
  obtain ⟨_, h2⟩ := IntOp.andi_eq_one.1 h0
  have h3 := Host.reduce_andi_all _ _ _ _ _ h2 (ix2 b l)
  obtain ⟨hge, hle⟩ := IntOp.andi_eq_one.1 h3
  have hge' := IntOp.cmpi_sge.1 hge
  have hle' := IntOp.cmpi_sle.1 hle
  exact ⟨hge', hle'⟩

end Cert.Proof.PreOpen

end
-- ==== Proof.PadDatKI.lean ====
/-
  The table-padding call's proof data: the one admissible contents of its (empty) prefetched tables, the ghost state
  its staging cells are allocated from, and what is said of each staging buffer after the body at each point.
-/
import proofs.«208090_g83872121356401_cont_sun_m_474_43_alg».proof.Proof.CommonKI
import Idealize.ShloMosaic.Lib.Pipeline.Regions

noncomputable section

namespace Cert.Proof.KI

open Cert.KernelIdeal Cert.KernelIdeal.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## The pipeline as the region rule sees it -/

/-- The padding call has no prefetched table: its one admissible contents. -/
abbrev adm : (p : Fin 1) → (pcfgs (F := F) p).Adm := fun p => (cfgs p).toPCfg_adm

/-- The padding call's pipeline at those contents. -/
abbrev pcfg : Fin 1 → Pipeline.Cfg sig Λ₀ := Pipeline.pin (pcfgs (F := F)) adm

/-- What the launch funds device `d`'s TensorCore with for the padding call: its staging cells' launch state and the
    duty token of every transfer its loop issues. -/
def padGhost (d : Dev nD) : sProp 𝕄 :=
  iprop(Pipeline.cellsGhost (pcfg (F := F)) EP 0 d ∗ Pipeline.toksInit (pcfg (F := F)) EP 0 d)

/-- The launch element of the staging cells' rounds. -/
def padU₀ : UP := initOf (Pipeline.cells (nD := nD) (pcfg (F := F)) cellOf_inj) (Pipeline.launchToks (nD := nD) (pcfg (F := F)) cellOf_inj)

theorem pad_fund : (BI.own (EP (padU₀ (F := F))) : sProp 𝕄) ⊢ iprop(|==> bigSep Finset.univ fun d : Dev nD => padGhost (F := F) d) := by
  refine (Pipeline.fund_ghost (pcfg (F := F)) EP cellOf_inj).trans (bupd_mono ?_)
  rw [← bigSep_sep']
  refine bigSep_mono fun d _ => ?_
  unfold padGhost
  rw [Finset.univ_unique, bigSep_singleton, bigSep_singleton]
  exact BI.Entails.refl _

/-! ## The proof data -/

/-- What is said of each staging buffer after the body at a point: of the table's window nothing (it is fetched anew
    at every point), of the result's that its contents satisfy `R` at that point. -/
def padAfter (R : Fin cfg0.N → (S20000x128.Idx → Elt F .f32) → Prop) (p : Fin 1) :
    (w : Fin (pcfg (F := F) p).W) → Fin (pcfg (F := F) p).N →
      (Y X : ((pcfg (F := F) p).win w).block.Idx → Elt F ((pcfg (F := F) p).win w).elt) → Prop
  | ⟨0, _⟩, _, _, _ => True
  | ⟨1, _⟩, t, _, X => R t X

/-- The arrays' contents at the call's entry: the table's and the result's. -/
def padA (d : Dev nD) (ft : Buf (Elt F) ((T d : Thread nD τ).loc main_arg1)) (f2 : Buf (Elt F) ((T d : Thread nD τ).loc main_v2)) (p : Fin 1) :
    (w : Fin (pcfg (F := F) p).W) → Buf (Elt F) (((pcfg (F := F) p).win w).arr.view.loc (d.tc : Thread nD τ))
  | ⟨0, _⟩ => ft
  | ⟨1, _⟩ => f2

/-- The relational proof data of the padding call on device `d`'s TensorCore, which owes `O` throughout and has
    recorded the pairs `W` before the call: the arrays at their entry contents, no invariant, full shares, and of the
    result's staging buffer after the body at point `t` that it satisfies `R t`. -/
def rd (R : Fin cfg0.N → (S20000x128.Idx → Elt F .f32) → Prop) (d : Dev nD)
    (ft : Buf (Elt F) ((T d : Thread nD τ).loc main_arg1)) (f2 : Buf (Elt F) ((T d : Thread nD τ).loc main_v2))
    (O : CellTallies nD τ sig (HIx 1)) (W : Waits sig (HIx 1)) (p : Fin 1) :
    Pipeline.RDat τ (Elt F) (HIx 1) ℕ UU ℕ (pcfg (F := F) p) d where
  A := padA d ft f2 p
  after := padAfter R p
  Φ _ := iprop(emp)
  q _ := fullShare
  owed _ := O
  recorded _ := ↑W

/-- What the table's staging buffer holds once the fetch at point `t` has landed in it, if the overwrite before the
    fetch left `e`: the table's block on the part inside the table, `e` on the overhang. -/
def padFetched (d : Dev nD) (ft : Buf (Elt F) ((T d : Thread nD τ).loc main_arg1)) (t : Fin cfg0.N) (e : S20000x128.Idx → Elt F .f32) :
    S20000x128.Idx → Elt F .f32 :=
  win0_0.fill (grid0.coords t) e ((win0_0.blk t).view.read (Elt F) ft)

theorem rd_fetched (R : Fin cfg0.N → (S20000x128.Idx → Elt F .f32) → Prop) (d : Dev nD)
    (ft : Buf (Elt F) ((T d : Thread nD τ).loc main_arg1)) (f2 : Buf (Elt F) ((T d : Thread nD τ).loc main_v2))
    (O : CellTallies nD τ sig (HIx 1)) (W : Waits sig (HIx 1)) (p : Fin 1) (t : Fin cfg0.N) (e : S20000x128.Idx → Elt F .f32) :
    (rd R d ft f2 O W p).fetched (0 : Fin 2) t e = padFetched d ft t e := rfl

end Cert.Proof.KI

end
-- ==== Proof.PadBodyKI.lean ====
/-
  The padding call's body: it loads the table's staging block whole and stores it whole into the result's. So the
  result's staging buffer ends holding whatever the table's held, the words of the overhang included.
-/
import proofs.«208090_g83872121356401_cont_sun_m_474_43_alg».proof.Proof.PadDatKI

noncomputable section

namespace Cert.Proof.KI

open Cert.KernelIdeal Cert.KernelIdeal.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable [FloatOps F]

/-- The body on staging buffers `s0` of the table's window and `s1` of the result's: the whole load of the first, the
    dead whole load of the second, the whole store of the first load into the second — the second ends holding what
    the first holds, the first unchanged. -/
theorem pad_sound_body (d : Dev nD) (E : Set ℕ) (i : grid0.Coords) (s0 s1 : Fin 2)
    (X0 X1 : S20000x128.Idx → Elt F .f32) (Kp : PUnit → sProp 𝕄) :
    iprop((owns (d.tc : Thread nD τ) (stage0_0 s0) fullShare X0 ∗ owns (d.tc : Thread nD τ) (stage0_1 s1) fullShare X1)
          ∗ (iprop(owns (d.tc : Thread nD τ) (stage0_0 s0) fullShare X0 ∗ owns (d.tc : Thread nD τ) (stage0_1 s1) fullShare X0) -∗ Kp ⟨⟩))
      ⊢ wp frame (wpE (defs₀ (F := F)) 𝒱₀ (d.tc : Thread nD τ) none) E
          (cc0__pad_body i (stage0_0 s0) (hstage0_0 s0) (stage0_1 s1) (hstage0_1 s1)) Kp := by
  -- both accesses are at offsets zero and the buffers' own sizes: the load reads the contents, the unmasked store
  -- writes the payload, at whichever of its window's two buffers each memref is
  have hz : (![0, 0] : Fin 2 → Nat) = fun _ => 0 := funext fun a => by fin_cases a <;> rfl
  fin_cases s0 <;> fin_cases s1
  · -- the table's staging buffer 0, the result's 0
    have hr0 : (Memref.whole cc0_stg0_0 : Memref sig .tc _ _ _).view.readAt (Elt F) (Rect.unit (s := S20000x128) ![0, 0] S20000x128.size
        inb_S20000x128_S20000x128_0_0).toLoadRect = id := funext (Memref.readAt_unit_zero (Elt F) cc0_stg0_0 hz _)
    have hw1 : ∀ f w, (((Memref.whole cc0_stg1_0).access (Rect.unit (s := S20000x128) ![0, 0] S20000x128.size inb_S20000x128_S20000x128_0_0)) :
        View sig .tc _ _ _).write (Elt F) f w Finset.univ = w := Memref.write_access_unit_zero_univ (Elt F) cc0_stg1_0 hz _
    simp only [owns_whole_eq, cc0__pad_body_eq_skeleton]; unfold cc0__pad_body_skel
    simp only [Prog.lift, Prog.bind_op, Prog.bind_ret]
    iintro ⟨⟨⟨%f0, %hf0, H0⟩, ⟨%f1, %hf1, H1⟩⟩, Hk⟩
    sl_steps
    iapply Hk
    rw [hr0, hw1]
    isplitl [H0]
    · iexists f0; isplitr; · ipureintro; exact hf0
      iexact H0
    · iexists f0; isplitr; · ipureintro; exact hf0
      iexact H1
  · -- the table's staging buffer 0, the result's 1
    have hr0 : (Memref.whole cc0_stg0_0 : Memref sig .tc _ _ _).view.readAt (Elt F) (Rect.unit (s := S20000x128) ![0, 0] S20000x128.size
        inb_S20000x128_S20000x128_0_0).toLoadRect = id := funext (Memref.readAt_unit_zero (Elt F) cc0_stg0_0 hz _)
    have hw1 : ∀ f w, (((Memref.whole cc0_stg1_1).access (Rect.unit (s := S20000x128) ![0, 0] S20000x128.size inb_S20000x128_S20000x128_0_0)) :
        View sig .tc _ _ _).write (Elt F) f w Finset.univ = w := Memref.write_access_unit_zero_univ (Elt F) cc0_stg1_1 hz _
    simp only [owns_whole_eq, cc0__pad_body_eq_skeleton]; unfold cc0__pad_body_skel
    simp only [Prog.lift, Prog.bind_op, Prog.bind_ret]
    iintro ⟨⟨⟨%f0, %hf0, H0⟩, ⟨%f1, %hf1, H1⟩⟩, Hk⟩
    sl_steps
    iapply Hk
    rw [hr0, hw1]
    isplitl [H0]
    · iexists f0; isplitr; · ipureintro; exact hf0
      iexact H0
    · iexists f0; isplitr; · ipureintro; exact hf0
      iexact H1
  · -- the table's staging buffer 1, the result's 0
    have hr0 : (Memref.whole cc0_stg0_1 : Memref sig .tc _ _ _).view.readAt (Elt F) (Rect.unit (s := S20000x128) ![0, 0] S20000x128.size
        inb_S20000x128_S20000x128_0_0).toLoadRect = id := funext (Memref.readAt_unit_zero (Elt F) cc0_stg0_1 hz _)
    have hw1 : ∀ f w, (((Memref.whole cc0_stg1_0).access (Rect.unit (s := S20000x128) ![0, 0] S20000x128.size inb_S20000x128_S20000x128_0_0)) :
        View sig .tc _ _ _).write (Elt F) f w Finset.univ = w := Memref.write_access_unit_zero_univ (Elt F) cc0_stg1_0 hz _
    simp only [owns_whole_eq, cc0__pad_body_eq_skeleton]; unfold cc0__pad_body_skel
    simp only [Prog.lift, Prog.bind_op, Prog.bind_ret]
    iintro ⟨⟨⟨%f0, %hf0, H0⟩, ⟨%f1, %hf1, H1⟩⟩, Hk⟩
    sl_steps
    iapply Hk
    rw [hr0, hw1]
    isplitl [H0]
    · iexists f0; isplitr; · ipureintro; exact hf0
      iexact H0
    · iexists f0; isplitr; · ipureintro; exact hf0
      iexact H1
  · -- the table's staging buffer 1, the result's 1
    have hr0 : (Memref.whole cc0_stg0_1 : Memref sig .tc _ _ _).view.readAt (Elt F) (Rect.unit (s := S20000x128) ![0, 0] S20000x128.size
        inb_S20000x128_S20000x128_0_0).toLoadRect = id := funext (Memref.readAt_unit_zero (Elt F) cc0_stg0_1 hz _)
    have hw1 : ∀ f w, (((Memref.whole cc0_stg1_1).access (Rect.unit (s := S20000x128) ![0, 0] S20000x128.size inb_S20000x128_S20000x128_0_0)) :
        View sig .tc _ _ _).write (Elt F) f w Finset.univ = w := Memref.write_access_unit_zero_univ (Elt F) cc0_stg1_1 hz _
    simp only [owns_whole_eq, cc0__pad_body_eq_skeleton]; unfold cc0__pad_body_skel
    simp only [Prog.lift, Prog.bind_op, Prog.bind_ret]
    iintro ⟨⟨⟨%f0, %hf0, H0⟩, ⟨%f1, %hf1, H1⟩⟩, Hk⟩
    sl_steps
    iapply Hk
    rw [hr0, hw1]
    isplitl [H0]
    · iexists f0; isplitr; · ipureintro; exact hf0
      iexact H0
    · iexists f0; isplitr; · ipureintro; exact hf0
      iexact H1

/-- The body obligation over the relational data: whatever the table's current buffer was handed holding — its block
    just fetched, any words on the overhang —, the result's buffer is left holding that; so any `R` true of every
    such contents is true of what the body leaves. -/
theorem pad_body_obligation (R : Fin cfg0.N → (S20000x128.Idx → Elt F .f32) → Prop) (d : Dev nD)
    (ft : Buf (Elt F) ((T d : Thread nD τ).loc main_arg1)) (f2 : Buf (Elt F) ((T d : Thread nD τ).loc main_v2))
    (O : CellTallies nD τ sig (HIx 1)) (W : Waits sig (HIx 1)) (p : Fin 1)
    (hR : ∀ t e, R t (padFetched d ft t e)) :
    (rd R d ft f2 O W p).BodyObligation (defs₀ (F := F)) 𝒱₀ none Set.univ := fun t Y hY => by
  obtain ⟨e, he⟩ := ((rd R d ft f2 O W p).finds_of_fetch (w := (0 : Fin 2)) (fetch0_0 t) (Y (0 : Fin 2))).mp (hY (0 : Fin 2))
  rw [bigSep_W0, bigSep_W0]
  rw [show (rd R d ft f2 O W p).Φ t.succ = (rd R d ft f2 O W p).Φ t.castSucc from rfl,
    show (rd R d ft f2 O W p).owesAt none t.succ = (rd R d ft f2 O W p).owesAt none t.castSucc from rfl]
  iintro ⟨HΦ, Ho, H0, H1⟩
  iapply (pad_sound_body (F := F) d Set.univ (grid0.coords t) (cfg0.slots t 0) (cfg0.slots t 1) (Y (0 : Fin 2)) (Y (1 : Fin 2)) _)
  isplitl [H0 H1]
  · isplitl [H0]
    · iexact H0
    · iexact H1
  iintro ⟨H0, H1⟩
  isplitl [HΦ]; · iexact HΦ
  isplitl [Ho]; · iexact Ho
  isplitl [H0]
  · iexists Y (0 : Fin 2); isplitr; · ipureintro; trivial
    iexact H0
  · iexists Y (0 : Fin 2); isplitr
    · ipureintro
      show R t (Y (0 : Fin 2))
      rw [he, rd_fetched]; exact hR t e
    iexact H1

end Cert.Proof.KI

end
-- ==== Proof.PadRegionKI.lean ====
/-
  The padding call's region inside @main: its record for the region rule — layout, body obligation, wait evidence, and
  the four entailments around the thread states it is entered from and leaves —, over any predicate `R` of the
  result's staging block that every fetched table block satisfies.
-/
import proofs.«208090_g83872121356401_cont_sun_m_474_43_alg».proof.Proof.PadBodyKI

noncomputable section

namespace Cert.Proof.KI

open Cert.KernelIdeal Cert.KernelIdeal.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable [FloatOps F]

section Region

variable (R : Dev nD → Fin cfg0.N → (S20000x128.Idx → Elt F .f32) → Prop)
  (ft : (c : Dev nD) → Buf (Elt F) ((T c : Thread nD τ).loc main_arg1))
  (f2 : (c : Dev nD) → Buf (Elt F) ((T c : Thread nD τ).loc main_v2))
  (O : CellTallies nD τ sig (HIx 1)) (W : Waits sig (HIx 1))

/-- The proof data on every device: the arrays at `ft` and `f2`, the TensorCore owing `O` with `W` recorded. -/
abbrev rds : (p : Fin 1) → (c : Dev nD) → Pipeline.RDat τ (Elt F) (HIx 1) ℕ UU ℕ (pcfg (F := F) p) c :=
  fun p c => rd (R c) c (ft c) (f2 c) O W p

/-- The thread state the region is entered from: the table and the result array, and what the TensorCore owes. -/
def padPre (c : Dev nD) : sProp 𝕄 :=
  iprop(((T c : Thread nD τ).loc main_arg1 ↦{fullShare} ft c) ∗ ((T c : Thread nD τ).loc main_v2 ↦{fullShare} f2 c) ∗ owes (T c) O W)

/-- The thread state it leaves: the table as it was, the result array at some contents it may hold after the fifty
    write-backs, and the TensorCore owing the same, its new recorded pairs all the staging cells' at the loop's index. -/
def padPost (c : Dev nD) : sProp 𝕄 :=
  iprop(∃ fp : Buf (Elt F) ((T c : Thread nD τ).loc main_v2), ⌜(rds R ft f2 O W 0 c).ArrAt (1 : Fin 2) cfg0.N fp⌝
    ∗ ((T c : Thread nD τ).loc main_arg1 ↦{fullShare} ft c) ∗ ((T c : Thread nD τ).loc main_v2 ↦{fullShare} fp)
    ∗ ∃ W' : Waits sig (HIx 1), ⌜∀ p ∈ W', p ∈ W ∨ p.2 = none⌝ ∗ owes (T c) O W')

theorem rd_share (c : Dev nD) (w : Fin (pcfg (F := F) 0).W) : (rds R ft f2 O W 0 c).share w = fullShare := by
  unfold Pipeline.RDat.share; split <;> rfl

theorem rd_arraysAt (c : Dev nD) (n : Nat) :
    ((rds R ft f2 O W 0 c).arraysAt n : sProp 𝕄)
      = iprop((∃ G, ⌜(rds R ft f2 O W 0 c).ArrAt (0 : Fin 2) n G⌝ ∗ ((T c : Thread nD τ).loc main_arg1 ↦{fullShare} G))
          ∗ (∃ G, ⌜(rds R ft f2 O W 0 c).ArrAt (1 : Fin 2) n G⌝ ∗ ((T c : Thread nD τ).loc main_v2 ↦{fullShare} G))) := by
  have harr : ∀ w, ((pcfg (F := F) 0).spec w).arr.IsWhole := arr_whole0
  unfold Pipeline.RDat.arraysAt
  rw [show (bigSep Finset.univ fun w : Fin (pcfg (F := F) 0).W =>
        iprop(∃ G, ⌜(rds R ft f2 O W 0 c).ArrAt w n G⌝ ∗ ((pcfg (F := F) 0).win w).arr.view.loc (c.tc : Thread nD τ) ↦[((pcfg (F := F) 0).win w).arr.view.set]{(rds R ft f2 O W 0 c).share w} G) : sProp 𝕄)
      = bigSep Finset.univ fun w : Fin (pcfg (F := F) 0).W =>
        iprop(∃ G, ⌜(rds R ft f2 O W 0 c).ArrAt w n G⌝ ∗ (((c.tc : Thread nD τ).loc (Pipeline.arrRef (pcfg (F := F) 0).spec w)) ↦{fullShare} G))
      from bigSep_congr fun w _ => by rw [(harr w).set_eq_univ, rd_share R ft f2 O W c w]]
  exact bigSep_W0 _

theorem pad_prefHeld (c : Dev nD) (q) (V) : (Pipeline.prefHeld (pcfgs (F := F) 0).pre c q V : sProp 𝕄) = iprop(emp) := by
  unfold Pipeline.prefHeld
  exact bigSep_empty

/-- The padding call's region. -/
def padSeg (hR : ∀ c t e, R c t (padFetched c (ft c) t e)) (hO : ∀ g, O g none = 0) :
    Pipeline.RDat.RegionSeg (pcfgs (F := F)) adm (rds R ft f2 O W) (none : HIx 1) (defs₀ (F := F)) 𝒱₀ (K (F := F)).L (K (F := F)).lev (0 : Fin 1) where
  win := winFacts0.to₀
  block_pos := block_pos0
  stage_whole := stage_whole0
  K := PEmpty
  osem := fun k => k.elim
  ho := Pipeline.OwnSemFacts.none _
  hbody := fun c => pad_body_obligation (R c) c (ft c) (f2 c) O W 0 (hR c)
  hwaits := fun c => Pipeline.RDat.cellsWaits_intro (pcfg (F := F)) (rds R ft f2 O W) none 0 c fun w s t => (K (F := F)).mayWait_none _ hO
  pre := padPre ft f2 O W
  post := padPost R ft f2 O W
  X := fun _ => iprop(emp)
  Y := fun _ => iprop(emp)
  Z := fun _ => iprop(emp)
  hentry := fun c => by
    have harr : ∀ w, ((pcfg (F := F) 0).spec w).arr.IsWhole := arr_whole0
    rw [Pipeline.RDat.arrays_eq (pcfgs (F := F)) adm (rds R ft f2 O W) 0 c harr (rd_share R ft f2 O W c), bigSep_W0, pad_prefHeld]
    unfold padPre
    iintro ⟨⟨Ht, H2, Ho⟩, -, -⟩
    imodintro
    isplitl [Ht H2]
    · isplitl [Ht]
      · iexact Ht
      · iexact H2
    isplitr; · iempintro
    isplitl [Ho]
    · iexists W; isplitr; · ipureintro; exact Set.subset_union_left
      iexact Ho
    isplitr <;> iempintro
  hin := fun c => by iintro -; iempintro
  hout := fun c => by
    rw [scopedRest0_eq, Pipeline.ownSems0_none]
    iintro -; isplitr; · iempintro
    isplitr <;> iempintro
  hexit := fun c => by
    rw [rd_arraysAt]
    iintro ⟨⟨⟨%G0, %hG0, H0⟩, ⟨%G1, %hG1, H1⟩⟩, ⟨%W', %hW', Ho⟩, -, -⟩
    imodintro
    unfold padPost
    iexists G1
    isplitr; · ipureintro; exact hG1
    rw [(rds R ft f2 O W 0 c).ArrAt_in (0 : Fin 2) rfl] at hG0
    subst hG0
    isplitl [H0]; · iexact H0
    isplitl [H1]; · iexact H1
    iexists W'
    isplitr
    · ipureintro
      intro p hp
      rcases hW' hp with h | ⟨w, s, rfl⟩
      · exact .inl h
      · exact .inr rfl
    iexact Ho

end Region

end Cert.Proof.KI

end
-- ==== Proof.PadCallKI.lean ====
/-
  The padding call's step inside @main on the TensorCore, under the SparseCore launch's body table: the region's program
  is the pipeline library's, lifted, and its rule the library's region rule at this call's record.
-/
import proofs.«208090_g83872121356401_cont_sun_m_474_43_alg».proof.Proof.PadRegionKI

noncomputable section

namespace Cert.Proof.KI

open Cert.KernelIdeal Cert.KernelIdeal.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable [FloatOps F]

section Call

variable (R : Dev nD → Fin cfg0.N → (S20000x128.Idx → Elt F .f32) → Prop)
  (ft : (c : Dev nD) → Buf (Elt F) ((T c : Thread nD τ).loc main_arg1))
  (f2 : (c : Dev nD) → Buf (Elt F) ((T c : Thread nD τ).loc main_v2))
  (O : CellTallies nD τ sig (HIx 1)) (W : Waits sig (HIx 1))

/-- From the level facts, the staging cells' launch state, the region boundary and the entry state, the custom call runs
    to the boundary and the exit state for the continuation. -/
theorem pad_call [∀ e, Nonempty (Elt F e)] (hR : ∀ c t e, R c t (padFetched c (ft c) t e)) (hO : ∀ g, O g none = 0) (d : Dev nD)
    {α : Type} (k : PUnit → Prog (TpuEff nD τ sig (Elt F) (SparseCore.Sig (ΛP (F := F)) 1) .tc) α) (Φ : α → sProp 𝕄) :
    iprop(levAts (K (F := F)).L (K (F := F)).lev ∗ padGhost (F := F) d ∗ boundary (T d : Thread nD τ) ∗ padPre ft f2 O W d
        ∗ (iprop(boundary (T d : Thread nD τ) ∗ padPost R ft f2 O W d)
            -∗ wp frame (wpE ((K (F := F)).defs D) 𝒱 (T d : Thread nD τ) none) Set.univ (k ⟨⟩) Φ))
      ⊢ wp frame (wpE ((K (F := F)).defs D) 𝒱 (T d : Thread nD τ) none) Set.univ
          (Prog.lift (.customCall (SparseCore.inner (Pipeline.entry 0)) ()) >>= k) Φ := by
  rw [wp_bind]
  rw [show (Prog.lift (.customCall (SparseCore.inner (Pipeline.entry 0)) ()) : Prog (TpuEff nD τ sig (Elt F) (SparseCore.Sig (ΛP (F := F)) 1) .tc) PUnit)
      = SparseCore.liftProg (Prog.lift (.customCall (Pipeline.entry 0) ())) from rfl]
  iintro ⟨#Hla, Hg, Hbd, Hpre, Hk⟩
  unfold padGhost
  icases Hg with ⟨Hc, Ht⟩
  iapply ((K (F := F)).wp_liftProg D 𝒱 (T d) Set.univ none (Prog.lift (.customCall (Pipeline.entry 0) ())) _)
  have hwp := Pipeline.RDat.RegionSeg.wp (pcfgs (F := F)) adm (rds R ft f2 O W) none cellOf_inj EP defs₀ 𝒱₀
    (K (F := F)).L (K (F := F)).lev (padSeg R ft f2 O W hR hO) d none (fun u hu => by cases hu) (fun x => .ret x)
    (fun a => wp frame (wpE ((K (F := F)).defs D) 𝒱 (T d : Thread nD τ) none) Set.univ (k a) Φ)
  rw [show (padSeg R ft f2 O W hR hO).pre d = padPre ft f2 O W d from rfl,
    show (padSeg R ft f2 O W hR hO).post d = padPost R ft f2 O W d from rfl] at hwp
  iapply hwp
  isplitl [Hk]
  · iintro H
    rw [wp_ret]
    imodintro
    iapply Hk
    iexact H
  isplitl [Hbd]; · iexact Hbd
  isplitl [Hpre]; · iexact Hpre
  isplitr; · iexact Hla
  isplitl [Hc]
  · iexact Hc
  · iexact Ht

end Call

/-- The same from what @main holds at the call on device `d`: the table at its contents in `m`, the result array at
    any contents, the TensorCore owing `O` (nothing at the loop's index) with `W` recorded. The continuation receives the
    table unchanged, the result array at some contents it may hold after the fifty write-backs, and the TensorCore owing
    the same, every newly recorded pair at the loop's index. -/
theorem pad_region_of [∀ e, Nonempty (Elt F e)] (m : (ℓ : Loc nD τ sig) → Buf (Elt F) ℓ)
    (R : Dev nD → Fin cfg0.N → (S20000x128.Idx → Elt F .f32) → Prop)
    (hR : ∀ c t e, R c t (padFetched c (m ((T c : Thread nD τ).loc main_arg1)) t e)) (d : Dev nD)
    {α : Type} (k : PUnit → Prog (TpuEff nD τ sig (Elt F) (SparseCore.Sig (ΛP (F := F)) 1) .tc) α) (Φ : α → sProp 𝕄)
    (O : CellTallies nD τ sig (HIx 1)) (W : Waits sig (HIx 1)) (hO : ∀ g, O g none = 0) :
    iprop(levAts (K (F := F)).L (K (F := F)).lev ∗ padGhost (F := F) d ∗ boundary (T d : Thread nD τ) ∗ owes (T d : Thread nD τ) O W
        ∗ ((T d : Thread nD τ).loc main_arg1 ↦{fullShare} m ((T d : Thread nD τ).loc main_arg1))
        ∗ (∃ f, ((T d : Thread nD τ).loc main_v2 ↦{fullShare} f))
        ∗ (∀ (f fp : Buf (Elt F) ((T d : Thread nD τ).loc main_v2)),
            ⌜(rd (R d) d (m ((T d : Thread nD τ).loc main_arg1)) f O W 0).ArrAt (1 : Fin 2) cfg0.N fp⌝
            -∗ iprop(boundary (T d : Thread nD τ) ∗ (∃ W' : Waits sig (HIx 1), ⌜∀ p ∈ W', p ∈ W ∨ p.2 = none⌝ ∗ owes (T d : Thread nD τ) O W')
              ∗ ((T d : Thread nD τ).loc main_arg1 ↦{fullShare} m ((T d : Thread nD τ).loc main_arg1))
              ∗ ((T d : Thread nD τ).loc main_v2 ↦{fullShare} fp))
            -∗ wp frame (wpE ((K (F := F)).defs D) 𝒱 (T d : Thread nD τ) none) Set.univ (k ⟨⟩) Φ))
      ⊢ wp frame (wpE ((K (F := F)).defs D) 𝒱 (T d : Thread nD τ) none) Set.univ
          (Prog.lift (.customCall (SparseCore.inner (Pipeline.entry 0)) ()) >>= k) Φ := by
  iintro ⟨#Hla, Hg, Hbd, Ho, Ht, ⟨%f, H2⟩, Hk⟩
  -- the result array's entry contents on every device: `f` on `d`, anything elsewhere
  have hf2 : (fun c : Dev nD => if h : c = d then (h ▸ f : Buf (Elt F) ((T c : Thread nD τ).loc main_v2)) else Classical.arbitrary _) d = f := by
    simp only [dif_pos]
  iapply (pad_call R (fun c => m ((T c : Thread nD τ).loc main_arg1))
    (fun c : Dev nD => if h : c = d then (h ▸ f : Buf (Elt F) ((T c : Thread nD τ).loc main_v2)) else Classical.arbitrary _) O W hR hO d k Φ)
  isplitr; · iexact Hla
  isplitl [Hg]; · iexact Hg
  isplitl [Hbd]; · iexact Hbd
  isplitl [Ho Ht H2]
  · unfold padPre
    rw [hf2]
    isplitl [Ht]; · iexact Ht
    isplitl [H2]; · iexact H2
    iexact Ho
  iintro ⟨Hbd, Hpost⟩
  unfold padPost
  icases Hpost with ⟨%fp, %hfp, Ht, H2, HW⟩
  unfold rds at hfp
  rw [hf2] at hfp
  iapply Hk $$ %f %fp %hfp
  isplitl [Hbd]; · iexact Hbd
  isplitl [HW]; · iexact HW
  isplitl [Ht]; · iexact Ht
  iexact H2

/-- The call's step with nothing said of the result array's contents. -/
theorem pad_region_frame [∀ e, Nonempty (Elt F e)] (m : (ℓ : Loc nD τ sig) → Buf (Elt F) ℓ) (d : Dev nD)
    {α : Type} (k : PUnit → Prog (TpuEff nD τ sig (Elt F) (SparseCore.Sig (ΛP (F := F)) 1) .tc) α) (Φ : α → sProp 𝕄)
    (O : CellTallies nD τ sig (HIx 1)) (W : Waits sig (HIx 1)) (hO : ∀ g, O g none = 0) :
    iprop(levAts (K (F := F)).L (K (F := F)).lev ∗ padGhost (F := F) d ∗ boundary (T d : Thread nD τ) ∗ owes (T d : Thread nD τ) O W
        ∗ ((T d : Thread nD τ).loc main_arg1 ↦{fullShare} m ((T d : Thread nD τ).loc main_arg1))
        ∗ (∃ f, ((T d : Thread nD τ).loc main_v2 ↦{fullShare} f))
        ∗ (∀ (fp : Buf (Elt F) ((T d : Thread nD τ).loc main_v2)),
            iprop(boundary (T d : Thread nD τ) ∗ (∃ W' : Waits sig (HIx 1), ⌜∀ p ∈ W', p ∈ W ∨ p.2 = none⌝ ∗ owes (T d : Thread nD τ) O W')
              ∗ ((T d : Thread nD τ).loc main_arg1 ↦{fullShare} m ((T d : Thread nD τ).loc main_arg1))
              ∗ ((T d : Thread nD τ).loc main_v2 ↦{fullShare} fp))
            -∗ wp frame (wpE ((K (F := F)).defs D) 𝒱 (T d : Thread nD τ) none) Set.univ (k ⟨⟩) Φ))
      ⊢ wp frame (wpE ((K (F := F)).defs D) 𝒱 (T d : Thread nD τ) none) Set.univ
          (Prog.lift (.customCall (SparseCore.inner (Pipeline.entry 0)) ()) >>= k) Φ := by
  iintro ⟨#Hla, Hg, Hbd, Ho, Ht, H2, Hk⟩
  iapply (pad_region_of m (fun _ _ _ => True) (fun _ _ _ => trivial) d k Φ O W hO)
  isplitr; · iexact Hla
  isplitl [Hg]; · iexact Hg
  isplitl [Hbd]; · iexact Hbd
  isplitl [Ho]; · iexact Ho
  isplitl [Ht]; · iexact Ht
  isplitl [H2]; · iexact H2
  iintro %f %fp %_ H
  iapply Hk $$ %fp
  iexact H

end Cert.Proof.KI

end
-- ==== Proof.PadValueKI.lean ====
/-
  The padding call's value: the result's staging block at each point agrees with the table's block on the table's
  hundred columns, and so, write-back after write-back, does the padded table with the table.
-/
import proofs.«208090_g83872121356401_cont_sun_m_474_43_alg».proof.Proof.PadDatKI
import proofs.«208090_g83872121356401_cont_sun_m_474_43_alg».proof.Proof.PayKI
import Idealize.ShloMosaic.Lib.ValueIdx
import Idealize.ShloMosaic.Lib.Pipeline.Value

noncomputable section

namespace Cert.Proof.KI

open Cert.KernelIdeal Cert.KernelIdeal.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

open Idealize.ShloMosaic.ValueIdx

/-! ## Where the blocks sit -/

theorem lt50 (t : Fin cfg0.N) : t.val < 50 := lt_of_lt_of_eq t.isLt N_0

/-- Block `u` of either window starts at row `20000 u`, column 0; the table's is cut to its hundred columns. -/
theorem pad_index0 : ∀ u : Fin grid0.N, win0_0.index u 0 = u.val ∧ win0_0.index u 1 = 0 := by decide +kernel
theorem pad_index1 : ∀ u : Fin grid0.N, win0_1.index u 0 = u.val ∧ win0_1.index u 1 = 0 := by decide +kernel
theorem pad_xsize0 : ∀ u : Fin grid0.N, win0_0.xsize (grid0.coords u) 0 = 20000 ∧ win0_0.xsize (grid0.coords u) 1 = 100 := by
  decide +kernel

/-- A staging block agrees with the table's block `t` on the table's hundred columns. -/
def padR (ft : (⟨2, ![1000000, 100]⟩ : Shape).Idx → Elt F .f32) (t : Fin cfg0.N) (X : S20000x128.Idx → Elt F .f32) : Prop :=
  ∀ (r : Fin 20000) (c : Fin 100),
    X (ix2 r ⟨c.val, by omega⟩) = ft (ix2 ⟨20000 * t.val + r.val, by have := lt50 t; omega⟩ c)

/-! ## One block, one write-back, all fifty -/

/-- The table's block at point `t`, read at an index of its part inside the table. -/
theorem read_blk0 (d : Dev nD) (ft : Buf (Elt F) ((T d : Thread nD τ).loc main_arg1)) (t : Fin cfg0.N)
    (y : (win0_0.xblock (grid0.coords t)).Idx) (r : Fin 20000) (c : Fin 100) (h0 : (y 0).val = r.val) (h1 : (y 1).val = c.val) :
    (win0_0.blk t).view.read (Elt F) ft y = ft (ix2 ⟨20000 * t.val + r.val, by have := lt50 t; omega⟩ c) := by
  rw [View.read_apply]
  refine (eq_of_heq (cast_heq _ _)).trans (congrArg ft ?_)
  funext a
  apply Fin.ext
  have hv : ∀ a, (((win0_0.blk t).view.emb y) a : Nat) = win0_0.index t a * win0_0.size a + y a := fun a => win0_0.rect_emb_val t y a
  match a with
  | ⟨0, _⟩ =>
    refine (hv 0).trans ?_
    rw [(pad_index0 t).1, h0]
    show t.val * 20000 + r.val = 20000 * t.val + r.val
    omega
  | ⟨1, _⟩ =>
    refine (hv 1).trans ?_
    rw [(pad_index0 t).2, h1]
    show 0 * 128 + c.val = c.val
    omega

/-- What the table's staging buffer holds after the fetch at point `t` agrees with the table's block on the table's
    columns, whatever the overwrite before the fetch left on the overhang. -/
theorem padR_fetched (d : Dev nD) (ft : Buf (Elt F) ((T d : Thread nD τ).loc main_arg1)) (t : Fin cfg0.N) (e : S20000x128.Idx → Elt F .f32) :
    padR ft t (padFetched d ft t e) := by
  intro r c
  have hm : win0_0.moved (grid0.coords t) (ix2 r ⟨c.val, by omega⟩ : S20000x128.Idx) = true :=
    (win0_0.moved_iff _ _).mpr fun a => by
      match a with
      | ⟨0, _⟩ => exact lt_of_lt_of_eq r.isLt (pad_xsize0 t).1.symm
      | ⟨1, _⟩ => exact lt_of_lt_of_eq c.isLt (pad_xsize0 t).2.symm
  unfold padFetched Pipeline.Window.fill
  rw [dif_pos hm]
  exact read_blk0 d ft t _ r c rfl rfl

/-- The result array after the write-back of point `u`, read at an index: under the block's rows what the staging
    buffer held, elsewhere what the array held. -/
theorem write_blk1 (d : Dev nD) (G₀ : Buf (Elt F) ((T d : Thread nD τ).loc main_v2)) (u : Fin cfg0.N) (X : S20000x128.Idx → Elt F .f32)
    (r : Fin 1000000) (c : Fin 128) :
    (win0_1.blk u).view.write (Elt F) G₀ (win0_1.cut (grid0.coords u) X) Finset.univ (ix2 r c)
      = if h : 20000 * u.val ≤ r.val ∧ r.val < 20000 * u.val + 20000 then X (ix2 ⟨r.val - 20000 * u.val, by omega⟩ c) else G₀ (ix2 r c) := by
  have hv : ∀ (y : (win0_1.xblock (grid0.coords u)).Idx) a, (((win0_1.blk u).view.emb y) a : Nat) = win0_1.index u a * win0_1.size a + y a :=
    fun y a => win0_1.rect_emb_val u y a
  split
  · next h =>
    have hy : (win0_1.blk u).view.emb (ix2 ⟨r.val - 20000 * u.val, by omega⟩ c : (win0_1.xblock (grid0.coords u)).Idx) = ix2 r c := by
      funext a
      apply Fin.ext
      match a with
      | ⟨0, _⟩ =>
        refine (hv _ 0).trans ?_
        rw [(pad_index1 u).1]
        show u.val * 20000 + (r.val - 20000 * u.val) = r.val
        omega
      | ⟨1, _⟩ =>
        refine (hv _ 1).trans ?_
        rw [(pad_index1 u).2]
        show 0 * 128 + c.val = c.val
        omega
    conv_lhs => rw [← hy, View.write_emb_of_mem _ _ (Finset.mem_univ _)]
    exact eq_of_heq (cast_heq _ _)
  · next h =>
    refine View.write_of_not_mem _ _ _ fun hmem => h ?_
    rw [View.setOn_univ] at hmem
    obtain ⟨y, hy⟩ := View.exists_emb_of_mem_set _ hmem
    have h0 := hv y 0
    rw [hy, (pad_index1 u).1] at h0
    have hlt : (y 0).val < 20000 := (y 0).isLt
    have h0' : r.val = u.val * 20000 + (y 0).val := h0
    omega

/-- After the write-backs below `n` the result array agrees with the table on the table's columns of the rows below
    `20000 n`: each write-back lays the staging block, which agrees with the table's block there, under its rows. -/
theorem pad_arrAt (d : Dev nD) (ft : Buf (Elt F) ((T d : Thread nD τ).loc main_arg1)) (f2 : Buf (Elt F) ((T d : Thread nD τ).loc main_v2))
    (O : CellTallies nD τ sig (HIx 1)) (W : Waits sig (HIx 1)) :
    ∀ n, n ≤ 50 → ∀ G : Buf (Elt F) ((T d : Thread nD τ).loc main_v2), (rd (padR ft) d ft f2 O W 0).ArrAt (1 : Fin 2) n G →
      ∀ (r : Fin 1000000) (c : Fin 100), r.val < 20000 * n → G (ix2 r ⟨c.val, by omega⟩) = ft (ix2 r c)
  | 0, _, _, _, r, _, hr => absurd hr (by omega)
  | n + 1, hn, G, hG, r, c, hr => by
    have hs := (rd (padR ft) d ft f2 O W 0).ArrAt_succ (1 : Fin 2) ⟨n, lt_of_lt_of_eq (by omega : n < 50) N_0.symm⟩
    rw [show (⟨n, lt_of_lt_of_eq (by omega : n < 50) N_0.symm⟩ : Fin cfg0.N).val + 1 = n + 1 from rfl, if_pos (flush0_1 _)] at hs
    rw [hs] at hG
    obtain ⟨G₀, X, hG₀, ⟨Y, -, hYX⟩, rfl⟩ := hG
    have hX : padR ft ⟨n, lt_of_lt_of_eq (by omega : n < 50) N_0.symm⟩ X := hYX
    refine (write_blk1 d G₀ ⟨n, lt_of_lt_of_eq (by omega : n < 50) N_0.symm⟩ X r ⟨c.val, by omega⟩).trans ?_
    split
    · next h =>
      have h' : 20000 * n ≤ r.val ∧ r.val < 20000 * n + 20000 := h
      refine (hX ⟨r.val - 20000 * n, by omega⟩ c).trans (congrArg ft ?_)
      funext a
      apply Fin.ext
      match a with
      | ⟨0, _⟩ => show 20000 * n + (r.val - 20000 * n) = r.val; omega
      | ⟨1, _⟩ => rfl
    · next h =>
      exact pad_arrAt d ft f2 O W n (by omega) G₀ hG₀ r c (by
        have h' : ¬(20000 * n ≤ r.val ∧ r.val < 20000 * n + 20000) := h
        omega)

/-- So after all fifty the padded table agrees with the table on its hundred columns. -/
theorem padOK_of_arrAt (d : Dev nD) (ft : Buf (Elt F) ((T d : Thread nD τ).loc main_arg1)) (f2 fp : Buf (Elt F) ((T d : Thread nD τ).loc main_v2))
    (O : CellTallies nD τ sig (HIx 1)) (W : Waits sig (HIx 1)) (h : (rd (padR ft) d ft f2 O W 0).ArrAt (1 : Fin 2) cfg0.N fp) :
    PadOK ft fp := fun r c =>
  pad_arrAt d ft f2 O W 50 le_rfl fp (by rw [show cfg0.N = 50 from N_0] at h; exact h) r c (by have := r.isLt; omega)

end Cert.Proof.KI

end
-- ==== Proof.PadStepKI.lean ====
/-
  The padding call's step inside @main with its value: after it the padded table agrees with the table on the table's
  hundred columns.
-/
import proofs.«208090_g83872121356401_cont_sun_m_474_43_alg».proof.Proof.PadCallKI
import proofs.«208090_g83872121356401_cont_sun_m_474_43_alg».proof.Proof.PadValueKI

noncomputable section

namespace Cert.Proof.KI

open Cert.KernelIdeal Cert.KernelIdeal.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable [FloatOps F]

/-- On the TensorCore of `d`, under the SparseCore launch's body table: from the level facts, the staging cells' launch
    state, the region boundary, the TensorCore owing `O` (nothing at the loop's index) with `W` recorded, the table at its
    contents in `m` and the result array at any contents, the custom call runs; the continuation receives the boundary,
    the TensorCore owing the same with every newly recorded pair at the loop's index, the table unchanged, and the result
    array at contents that agree with the table on its hundred columns. -/
theorem pad_region [∀ e, Nonempty (Elt F e)] (m : (ℓ : Loc nD τ sig) → Buf (Elt F) ℓ) (d : Dev nD)
    {α : Type} (k : PUnit → Prog (TpuEff nD τ sig (Elt F) (SparseCore.Sig (ΛP (F := F)) 1) .tc) α) (Φ : α → sProp 𝕄)
    (O : CellTallies nD τ sig (HIx 1)) (W : Waits sig (HIx 1)) (hO : ∀ g, O g none = 0) :
    iprop(levAts (K (F := F)).L (K (F := F)).lev ∗ padGhost (F := F) d ∗ boundary (T d : Thread nD τ) ∗ owes (T d : Thread nD τ) O W
        ∗ ((T d : Thread nD τ).loc main_arg1 ↦{fullShare} m ((T d : Thread nD τ).loc main_arg1))
        ∗ (∃ f, ((T d : Thread nD τ).loc main_v2 ↦{fullShare} f))
        ∗ (∀ (fp : Buf (Elt F) ((T d : Thread nD τ).loc main_v2)), ⌜PadOK (m ((T d : Thread nD τ).loc main_arg1)) fp⌝
            -∗ iprop(boundary (T d : Thread nD τ) ∗ (∃ W' : Waits sig (HIx 1), ⌜∀ p ∈ W', p ∈ W ∨ p.2 = none⌝ ∗ owes (T d : Thread nD τ) O W')
              ∗ ((T d : Thread nD τ).loc main_arg1 ↦{fullShare} m ((T d : Thread nD τ).loc main_arg1))
              ∗ ((T d : Thread nD τ).loc main_v2 ↦{fullShare} fp))
            -∗ wp frame (wpE ((K (F := F)).defs D) 𝒱 (T d : Thread nD τ) none) Set.univ (k ⟨⟩) Φ))
      ⊢ wp frame (wpE ((K (F := F)).defs D) 𝒱 (T d : Thread nD τ) none) Set.univ
          (Prog.lift (.customCall (SparseCore.inner (Pipeline.entry 0)) ()) >>= k) Φ := by
  iintro ⟨#Hla, Hg, Hbd, Ho, Ht, H2, Hk⟩
  iapply (pad_region_of m (fun c => padR (m ((T c : Thread nD τ).loc main_arg1))) (fun c t e => padR_fetched c _ t e) d k Φ O W hO)
  isplitr; · iexact Hla
  isplitl [Hg]; · iexact Hg
  isplitl [Hbd]; · iexact Hbd
  isplitl [Ho]; · iexact Ho
  isplitl [Ht]; · iexact Ht
  isplitl [H2]; · iexact H2
  iintro %f %fp %hfp H
  iapply Hk $$ %fp %(padOK_of_arrAt d _ f fp O W hfp)
  iexact H

end Cert.Proof.KI

end
-- ==== Proof.LaunchKI.lean ====
/-
  The launch of the lookup program.  A SparseCore is handed its sixteen tiles' shares and hands back their results;
  the launch element funds the handshakes and the padding call's staging cells; @main on the TensorCore transposes and
  flattens the index array into the row-number list, runs the padding call, hands the list, the padded table and the
  result array to the tiles and takes the result back, keeps its first 100 columns and regroups them into the
  lookup.  With the tiles' obligation as a hypothesis this gives the program's run.
-/
import proofs.«208090_g83872121356401_cont_sun_m_474_43_alg».proof.Proof.LaunchHostKI
import proofs.«208090_g83872121356401_cont_sun_m_474_43_alg».proof.Proof.HostValueKI
import proofs.«208090_g83872121356401_cont_sun_m_474_43_alg».proof.Proof.LaunchSplitKI
import proofs.«208090_g83872121356401_cont_sun_m_474_43_alg».proof.Proof.PreKI
import proofs.«208090_g83872121356401_cont_sun_m_474_43_alg».proof.Proof.PreOpen
import proofs.«208090_g83872121356401_cont_sun_m_474_43_alg».proof.Proof.PadStepKI

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)

variable {F : FTy → Type}

local notation "𝕄" => MT nD τ sig (HIx 1) (Elt F) ℕ UU ℕ

variable (m : (ℓ : Loc nD τ sig) → Buf (Elt F) ℓ) (ρ : Dev nD → PrngReg)

/-! ## How a SparseCore's operands split among its tiles -/

/-- A SparseCore is handed exactly its sixteen tiles' shares and hands back exactly their results. -/
theorem vecSplit : (K (F := F)).VecSplit' (P m) 0 := by
  intro d c
  have e1 : (P m).st 0 d c = bigSep Finset.univ fun i : Fin ((K (F := F)).nSub 0) => (P m).go 0 d c i := rfl
  have e2 : (P m).dn 0 d c = bigSep Finset.univ fun i : Fin ((K (F := F)).nSub 0) => (P m).td 0 d c i := rfl
  rw [e1, e2]
  iintro H; imodintro
  isplitl [H]; · iexact H
  iintro H; iexact H

/-! ## The launch element -/

section Elem

variable (padU₀ : UP) (padGhost : Dev nD → sProp (MT nD τ sig (HIx 1) (Elt F) ℕ UU ℕ))

/-- The handshakes' rounds, the padding call's staging cells' element, and no counter. -/
def u₀ : UU := (initOf (K (F := F)).hsCells (K (F := F)).hsToks, (padU₀, (1 : Counters)))

theorem bigSep_emp' {I : Type} (s : Finset I) : (bigSep s fun _ => iprop(emp)) = (iprop(emp) : sProp 𝕄) := bigSep_emp_const s

theorem hu₀ (hfund : (BI.own (EP padU₀) : sProp 𝕄) ⊢ iprop(|==> bigSep Finset.univ fun d : Dev nD => padGhost d)) :
    (ownU (u₀ (F := F) padU₀) : sProp 𝕄)
    ⊢ |={Set.univ}=> iprop(BI.own (EH (initOf (K (F := F)).hsCells (K (F := F)).hsToks)) ∗ (bigSep Finset.univ fun d : Dev nD => padGhost d)
        ∗ bigSep Finset.univ fun thr : Thread nD τ => bigSep Finset.univ fun q : Fin 1 => (P m).x q thr) := by
  unfold u₀
  iintro Hu
  ihave H := (ownU_split₁ _ _) $$ Hu
  icases H with ⟨HH, HR⟩
  ihave HP := (own_rest_split _ _) $$ HR
  imod hfund $$ HP with HG
  imodintro
  isplitl [HH]; · iexact HH
  isplitl [HG]; · iexact HG
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end Elem

/-! ## What @main leaves the claim -/

/-- The arguments as they were, and the result at the lookup. -/
abbrev FIN (d : Dev nD) : sProp 𝕄 :=
  iprop((a0Loc d ↦{fullShare} m (a0Loc d)) ∗ (a1Loc d ↦{fullShare} m (a1Loc d))
    ∗ ((SparseCore.T d).loc main_v5 ↦{fullShare} Cert.Proof.Spec.out (m (a0Loc d)) (m (a1Loc d))))

def fq (d : Dev nD) (s' : Phys nD τ sig (Elt F)) : Prop :=
  s'.mem.mem ((SparseCore.T d).loc main_v5) = Cert.Proof.Spec.out (m (a0Loc d)) (m (a1Loc d))
    ∧ s'.mem.mem (a0Loc d) = m (a0Loc d) ∧ s'.mem.mem (a1Loc d) = m (a1Loc d)

theorem hfin (d : Dev nD) (s' : Phys nD τ sig (Elt F)) : iprop(FIN m d ∗ SI s') ⊢ (⌜fq m d s'⌝ : sProp 𝕄) := by
  iintro ⟨⟨H0, H1, H5⟩, HSI⟩
  ihave H := (persistent_entails_right (SI_pointsTo_agree (st := s') (ℓ := a0Loc d) (I := Finset.univ) (q := fullShare) (f := m (a0Loc d)))) $$ [HSI H0]
  · isplitl [HSI] <;> iassumption
  icases H with ⟨%h0, HSI, -⟩
  ihave H := (persistent_entails_right (SI_pointsTo_agree (st := s') (ℓ := a1Loc d) (I := Finset.univ) (q := fullShare) (f := m (a1Loc d)))) $$ [HSI H1]
  · isplitl [HSI] <;> iassumption
  icases H with ⟨%h1, HSI, -⟩
  ihave H := (SI_pointsTo_agree (st := s') (ℓ := (SparseCore.T d).loc main_v5) (I := Finset.univ) (q := fullShare)
    (f := Cert.Proof.Spec.out (m (a0Loc d)) (m (a1Loc d)))) $$ [HSI H5]
  · isplitl [HSI] <;> iassumption
  icases H with %h5
  ipureintro
  exact ⟨funext fun i => h5 i (Finset.mem_univ i), funext fun i => h0 i (Finset.mem_univ i), funext fun i => h1 i (Finset.mem_univ i)⟩

variable [FloatOps F]

section Main

variable (padGhost : Dev nD → sProp (MT nD τ sig (HIx 1) (Elt F) ℕ UU ℕ))

theorem Otc_none (d : Dev nD) (g : GSem nD τ sig) : (K (F := F)).Otc d 0 g none = 0 := by
  by_contra h
  have := (K (F := F)).lev_of_Otc_pos (Nat.pos_of_ne_zero h)
  rw [SparseCore.Cfg.lev_none] at this
  omega

/-- The TensorCore's state before a call, but what it owes. -/
def tcRest (d : Dev nD) (n : ℕ) : sProp 𝕄 :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom n) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))

theorem tcSt_eq (d : Dev nD) (n : ℕ) :
    ((K (F := F)).tcSt EH d n : sProp 𝕄)
      = iprop((∃ W, ⌜(K (F := F)).WBelow (T d) W (8 * n)⌝ ∗ owes (T d) ((K (F := F)).Otc d n) W) ∗ tcRest (F := F) d n) := rfl

/-- The four host operations of @main. -/
abbrev op1 : HloOp τ sig (Elt F) :=
  StableHlo.unary main_arg0 main_v0 ((transpose S50x4096 [1, 0] · transposes_S4096x50_S50x4096_1_0) : (⟨S4096x50, .i32⟩ : BufTy).Contents (Elt F) → (⟨S50x4096, .i32⟩ : BufTy).Contents (Elt F))
abbrev op2 : HloOp τ sig (Elt F) := StableHlo.reshape main_v0 main_v1 rfl shapeCasts_S50x4096_S204800
abbrev op3 : HloOp τ sig (Elt F) :=
  StableHlo.unary main_v3 main_v4 ((extractStridedSlice S204800x100 ![0, 0] · slices_S204800x128_S204800x100_0_0) : (⟨S204800x128, .f32⟩ : BufTy).Contents (Elt F) → (⟨S204800x100, .f32⟩ : BufTy).Contents (Elt F))
abbrev op4 : HloOp τ sig (Elt F) := StableHlo.reshape main_v4 main_v5 rfl shapeCasts_S204800x100_S50x1x4096x100

theorem hmain
    (hpad : ∀ (κ : GSem nD τ sig → ℕ) (d : Dev nD) (k : PUnit → Prog (TpuEff nD τ sig (Elt F) (SparseCore.Sig (ΛP (F := F)) 1) .tc) PUnit)
      (Φ : PUnit → sProp 𝕄) (O : CellTallies nD τ sig (HIx 1)) (W : Waits sig (HIx 1)), (∀ g, O g none = 0) →
        iprop(levAts (K (F := F)).L (K (F := F)).lev ∗ padGhost d ∗ boundary (T d) ∗ owes (T d) O W ∗ (a1Loc d ↦{fullShare} m (a1Loc d)) ∗ (∃ f, tLoc d ↦{fullShare} f)
            ∗ (∀ fp, ⌜PadOK (m (a1Loc d)) fp⌝ -∗ boundary (T d) ∗ (∃ W', ⌜∀ p ∈ W', p ∈ W ∨ p.2 = none⌝ ∗ owes (T d) O W') ∗ (a1Loc d ↦{fullShare} m (a1Loc d)) ∗ (tLoc d ↦{fullShare} fp)
                  -∗ wp frame (wpE ((K (F := F)).defs (D (F := F))) 𝒱 (T d) none) Set.univ (k ⟨⟩) Φ))
          ⊢ wp frame (wpE ((K (F := F)).defs (D (F := F))) 𝒱 (T d) none) Set.univ (Prog.lift (.customCall (SparseCore.inner (Pipeline.entry 0)) ()) >>= k) Φ)
    (hsplit : ∀ (d : Dev nD) (fp : Buf (Elt F) (tLoc d)), PadOK (m (a1Loc d)) fp →
      iprop((iLoc d ↦{fullShare} idxArr (m (a0Loc d))) ∗ (tLoc d ↦{fullShare} fp) ∗ (oLoc d ↦{fullShare} m (oLoc d)))
        ⊢ (bigSep Finset.univ fun c : Fin ((K (F := F)).nCore 0) => (P m).st 0 d c : sProp 𝕄))
    (hjoin : ∀ d : Dev nD, (bigSep Finset.univ fun c : Fin ((K (F := F)).nCore 0) => (P m).dn 0 d c : sProp 𝕄)
        ⊢ iprop(∃ f3 : Buf (Elt F) (oLoc d), ⌜∀ y, GoodAt (idxArr (m (a0Loc d))) (m (a1Loc d)) f3 y⌝ ∗ oLoc d ↦{fullShare} f3))
    (κ : GSem nD τ sig → ℕ) (d : Dev nD) :
    iprop((K (F := F)).ctx EH (P m) κ ∗ (K (F := F)).tcSt EH d 0 ∗ (K (F := F)).tcRes m ρ d ∗ padGhost d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq, tcSt_eq]
  unfold main
  iintro ⟨#Hctx, ⟨⟨%W, %hW, HO⟩, Hrest⟩, ⟨Hb, ⟨H0, H1, Hv0, Hv1, Hv2, Hv3, Hv4, Hv5⟩, -, -⟩, HG⟩
  -- the transpose
  rw [wp_bind]
  iapply (wp_host2 d (x := main_arg0) (y := main_v0) (by decide) (op1 (F := F)) rfl rfl (fun b => m (d, b))
    (m (a0Loc d)) (m ((SparseCore.T d).loc main_v0)) (transpose S50x4096 [1, 0] (m (a0Loc d)) transposes_S4096x50_S50x4096_1_0)
    (fun V h => by rw [StableHlo.unary_result, h])
    (fun V => StableHlo.unary_result_ne main_arg0 main_v0 _ _ _ V (r := main_arg0) (by decide)) 𝒱 none) $$ [Hb H0 Hv0]
  · isplitl [Hb]; · iexact Hb
    isplitl [H0]; · iexact H0
    iexact Hv0
  iintro %r1 ⟨Hb, H0, Hv0⟩
  rw [wp_ret]; imodintro
  -- the flattening: the row-number list
  rw [wp_bind]
  iapply (wp_host2 d (x := main_v0) (y := main_v1) (by decide) (op2 (F := F)) rfl rfl (fun b => m (d, b))
    (transpose S50x4096 [1, 0] (m (a0Loc d)) transposes_S4096x50_S50x4096_1_0) (m (iLoc d)) (idxArr (m (a0Loc d)))
    (fun V h => by rw [StableHlo.reshape_result, h]; exact idxArr_eq _ _ _)
    (fun V => StableHlo.reshape_result_ne main_v0 main_v1 _ _ _ _ V (r := main_v0) (by decide)) 𝒱 none) $$ [Hb Hv0 Hv1]
  · isplitl [Hb]; · iexact Hb
    isplitl [Hv0]; · iexact Hv0
    iexact Hv1
  iintro %r2 ⟨Hb, Hv0, Hv1⟩
  rw [wp_ret]; imodintro
  -- the padding call
  iapply (hpad κ d _ _ ((K (F := F)).Otc d 0) W (Otc_none d))
  isplitr
  · iapply (SparseCore.Cfg.ctx_levAts (K := K (F := F)) (EH := EH) (P := P m) κ); iexact Hctx
  isplitl [HG]; · iexact HG
  isplitl [Hb]; · iexact Hb
  isplitl [HO]; · iexact HO
  isplitl [H1]; · iexact H1
  isplitl [Hv2]; · iexists _; iexact Hv2
  iintro %fp %hfp ⟨Hb, ⟨%W', %hW', HO⟩, H1, Hv2⟩
  have hWB : (K (F := F)).WBelow (T d) W' (8 * 0) := fun p hp => (hW' p hp).elim (hW p) fun h => by
    rw [h, SparseCore.Cfg.lev_none]
  -- the SparseCore call
  rw [wp_bind]
  iapply ((K (F := F)).wp_run (D (F := F)) 𝒱 (EH := EH) (P := P m) κ d 0)
  isplitr; · iexact Hctx
  isplitl [HO Hrest]
  · rw [tcSt_eq]
    isplitl [HO]
    · iexists W'; isplitr
      · ipureintro; exact hWB
      iexact HO
    iexact Hrest
  isplitl [Hv1 Hv2 Hv3]
  · iapply (hsplit d fp hfp)
    isplitl [Hv1]; · iexact Hv1
    isplitl [Hv2]; · iexact Hv2
    iexact Hv3
  iintro ⟨Hst, Hdn⟩
  ihave Hj := (hjoin d) $$ Hdn
  icases Hj with ⟨%f3, %hgood, Hv3⟩
  -- the first 100 columns
  rw [wp_bind]
  iapply (wp_host2 d (x := main_v3) (y := main_v4) (by decide) (op3 (F := F)) rfl rfl (fun b => m (d, b))
    f3 (m ((SparseCore.T d).loc main_v4)) (extractStridedSlice S204800x100 ![0, 0] f3 slices_S204800x128_S204800x100_0_0)
    (fun V h => by rw [StableHlo.unary_result, h])
    (fun V => StableHlo.unary_result_ne main_v3 main_v4 _ _ _ V (r := main_v3) (by decide)) 𝒱 none) $$ [Hb Hv3 Hv4]
  · isplitl [Hb]; · iexact Hb
    isplitl [Hv3]; · iexact Hv3
    iexact Hv4
  iintro %r3 ⟨Hb, Hv3, Hv4⟩
  rw [wp_ret]; imodintro
  -- the regrouping: the lookup
  rw [wp_bind]
  iapply (wp_host2 d (x := main_v4) (y := main_v5) (by decide) (op4 (F := F)) rfl rfl (fun b => m (d, b))
    (extractStridedSlice S204800x100 ![0, 0] f3 slices_S204800x128_S204800x100_0_0) (m ((SparseCore.T d).loc main_v5))
    (Cert.Proof.Spec.out (m (a0Loc d)) (m (a1Loc d)))
    (fun V h => by rw [StableHlo.reshape_result, h]; exact final_eq _ _ _ _ _ (fun y _ hy => hgood y hy))
    (fun V => StableHlo.reshape_result_ne main_v4 main_v5 _ _ _ _ V (r := main_v4) (by decide)) 𝒱 none) $$ [Hb Hv4 Hv5]
  · isplitl [Hb]; · iexact Hb
    isplitl [Hv4]; · iexact Hv4
    iexact Hv5
  iintro %r4 ⟨Hb, Hv4, Hv5⟩
  rw [wp_ret]; imodintro
  rw [wp_pure]; imodintro
  isplitl [Hst]; · iexact Hst
  isplitl [H0]; · iexact H0
  isplitl [H1]; · iexact H1
  iexact Hv5

end Main

/-! ## The program's run -/

/-- The precondition gives the index range the tiles' proof asks: a word between 0 and 999999 as a signed number is
    that number as an unsigned one. -/
theorem preOK_of_pre [FloatOps F]
    (h : ∀ d : Dev nD, Cert.Pre_input_domain.fn (F := F) (m (a0Loc d)) (m (a1Loc d)) = fun _ => 1#1) : PreOK m := by
  intro d b l
  obtain ⟨h0, h1⟩ := Cert.Proof.PreOpen.range (F := F) (m (a0Loc d)) (m (a1Loc d)) (h d) b l
  have h2 := BitVec.toInt_eq_toNat_cond (m (a0Loc d) (ix2 b l))
  have h3 := (m (a0Loc d) (ix2 b l)).isLt
  show (m (a0Loc d) (ix2 b l)).toNat ≤ 999999
  split at h2 <;> omega

/-- From a memory whose index array names table rows, given the tiles' obligation: every weakly fair execution of the
    program terminates, the result at the lookup of the argument arrays, the arguments unchanged. -/
theorem run_main [FloatOps F] [∀ e, Nonempty (Elt F e)] (hpre : PreOK m)
    (htile : (K (F := F)).TileObl (D (F := F)) 𝒱 (P m) v₀ 0) :
    θ_run (Cert.KernelIdeal.defs (F := F)) (Cert.KernelIdeal.threads (F := F)) ⟨m, fun _ => 0, ρ⟩ (fun r => ∀ c : Dev nD,
      r.2.mem ((c.tc : Thread nD τ).loc main_v5)
          = Cert.Proof.Spec.out (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  SparseCore.Cfg.θ_run_sc (K := K (F := F)) (D := D (F := F)) (𝒱 := 𝒱) (EH := EH) (P := P m) facts v₀
    (fun q hq => match q with | 0 => nomatch hq)
    (fun q _ => match q with | 0 => htile)
    (fun q _ => match q with | 0 => SparseCore.Cfg.VecSplit.of_plain (vecSplit m))
    m ρ main (padGhost (F := F)) (FIN m) (u₀ (F := F) (padU₀ (F := F)))
    (sep_elim_left.trans (hu₀ m (padU₀ (F := F)) (padGhost (F := F)) pad_fund))
    (hmain m ρ (padGhost (F := F)) (fun _ d k Φ O W hO => pad_region m d k Φ O W hO) (split_st m) (join_dn m))
    (fq m) (hfin m) _ (fun _ h c => h c)

end Cert.Proof.KI

end
-- ==== Proof.CommonKB.lean ====
/-
  What the modules about this program's run share: the program as the launch theorem for SparseCore programs sees it,
  and the algebra of the proof's ghost state — the launch handshakes' rounds, the rounds of the table-padding call's
  staging cells, and the counters of the tiles' own transfers, side by side.
-/
import proofs.«208090_g83872121356401_cont_sun_m_474_43_alg».proof.Defs
import Idealize.ShloMosaic.Lib.SparseCore.Launch
import Idealize.ShloMosaic.Lib.StableHlo.Run
import Idealize.ShloMosaic.Lib.Pipeline.Kit
import Idealize.ShloMosaic.Lib.Tactic
import proofs.«208090_g83872121356401_cont_sun_m_474_43_alg».proof.Proof.Gen.Kernel
import proofs.«208090_g83872121356401_cont_sun_m_474_43_alg».proof.Proof.Gen.Kernel.Skeleton
import proofs.«208090_g83872121356401_cont_sun_m_474_43_alg».proof.Proof.Gen.Kernel.Launch
import proofs.«208090_g83872121356401_cont_sun_m_474_43_alg».proof.Proof.Gen.Kernel.Points

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The launch handshakes' rounds. -/
abbrev UH : Type := URounds (GSem nD τ sig) ℕ
/-- The rounds of the padding call's staging cells. -/
abbrev UP : Type := UR sig nD τ
/-- Handshakes, staging cells, and the counters of the tiles' own transfers. -/
abbrev UU : Type := UH × (UP × Counters)

local notation "𝕄" => MT nD τ sig (HIx 1) (Elt F) ℕ UU ℕ

abbrev EH : Emb UH (MT nD τ sig (HIx 1) (Elt F) ℕ UU ℕ) := embL
def EP : Emb UP (MT nD τ sig (HIx 1) (Elt F) ℕ UU ℕ) :=
  (Emb.inl : Emb UP (UP × Counters)).trans (embR (A := UH) (B := UP × Counters))

instance EP_landsIn : (EP : Emb UP 𝕄).LandsIn (upEmb : UEmb _ 𝕄) := by unfold EP embR; infer_instance

/-- The launch element splits into the handshakes' part and the rest, -/
theorem ownU_split₁ (a : UH) (b : UP × Counters) :
    (ownU (a, b) : sProp 𝕄) ⊢ iprop(BI.own (EH a) ∗ BI.own ((embR (A := UH) (B := UP × Counters)) b)) := ownU_pair a b

/-- and the rest into the staging cells' part (the counters' part dropped). -/
theorem own_rest_split (b : UP) (c : Counters) :
    (BI.own ((embR (A := UH) (B := UP × Counters)) (b, c)) : sProp 𝕄) ⊢ BI.own (EP b) := by
  have h := BI.own_op_elim (M := 𝕄) ((embR (A := UH) (B := UP × Counters)).op_of_mem
    (Prod.mk_mem_op (URA.mem_op_one b) (URA.mem_one_op c)))
  exact h.trans (sep_elim_left.trans (Entails.of_eq (show (BI.own ((embR (A := UH) (B := UP × Counters)) (b, 1)) : sProp 𝕄) = BI.own (EP b) from rfl)))

end Cert.Proof.KB

end
-- ==== Proof.PayKB.lean ====
/-
  What the launch hands each tile of the lookup kernel and what it gets back.

  The kernel's grid is 2 SparseCores by 16 tiles; tile `i` of SparseCore `c` has number `w = 2 i + c` and serves the
  6400 rows `[6400 w, 6400 w + 6400)` of the row-number list and of the result, in 50 chunks of 128 rows: chunk `j` of
  tile `w` is chunk `50 w + j` of the result.  A tile is handed its run of the row-number list, a read share of the
  padded table (any contents that agree with the table on its first 100 columns), and its 50 chunks of the result; it
  hands back the 50 chunks, each holding in its first 100 columns the table rows the list names.
-/
import proofs.«208090_g83872121356401_cont_sun_m_474_43_alg».proof.Proof.CommonKB
import Idealize.ShloMosaic.Lib.SparseCore.Stream
import Idealize.ShloMosaic.Lib.ValueIdx

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-! ## Pure data -/

/-- A row number as a table row: the word as a natural number, capped at the last row. -/
def capRow (w : BitVec 32) : Fin 1000000 := ⟨min w.toNat 999999, by omega⟩

/-- The row-number list the kernel reads: entry `l * 4096 + b` is the index array's `(b, l)`. -/
def idxArr (x : S4096x50.Idx → BitVec 32) : S204800.Idx → BitVec 32 := fun j =>
  x (ix2 ⟨(j 0).val % 4096, Nat.mod_lt _ (by decide)⟩ ⟨(j 0).val / 4096, by have h : (j 0).val < 204800 := (j 0).isLt; omega⟩)

/-- The padded table agrees with the table on its first 100 columns. -/
def PadOK (ft : S1000000x100.Idx → Elt F .f32) (fp : S1000000x128.Idx → Elt F .f32) : Prop :=
  ∀ (r : Fin 1000000) (c : Fin 100), fp (ix2 r ⟨c.val, by omega⟩) = ft (ix2 r c)

/-- The result is right at `x`: if its column is below 100, it is the table at the row the list names for `x`'s row. -/
def GoodAt (fi : S204800.Idx → BitVec 32) (ft : S1000000x100.Idx → Elt F .f32) (f : S204800x128.Idx → Elt F .f32)
    (x : S204800x128.Idx) : Prop :=
  ∀ hc : (x 1).val < 100, f x = ft (ix2 (capRow (fi (ix1 (x 0)))) ⟨(x 1).val, hc⟩)

/-- The entries of the row-number list that tile number `w` reads. -/
def idxSet (w : ℕ) : Finset S204800.Idx := Finset.univ.filter fun j => 6400 * w ≤ (j 0).val ∧ (j 0).val < 6400 * w + 6400
/-- The entries of chunk `n` of the result: its rows `[128 n, 128 n + 128)`. -/
def chunkSet (n : ℕ) : Finset S204800x128.Idx := Finset.univ.filter fun j => 128 * n ≤ (j 0).val ∧ (j 0).val < 128 * n + 128
/-- Tile number `w`'s read share of the padded table: one of 32 pieces of the whole. -/
def shareOf (w : ℕ) : PosShare TreeShare := pieceOf fullShare 32 (by decide) ⟨w % 32, Nat.mod_lt _ (by decide)⟩

/-! ## The arrays, as the TensorCore names them -/

abbrev a0Loc (d : Dev nD) : Loc nD τ sig := (SparseCore.T d).loc main_arg0
abbrev a1Loc (d : Dev nD) : Loc nD τ sig := (SparseCore.T d).loc main_arg1
abbrev iLoc (d : Dev nD) : Loc nD τ sig := (SparseCore.T d).loc main_v1
abbrev tLoc (d : Dev nD) : Loc nD τ sig := (SparseCore.T d).loc main_v2
abbrev oLoc (d : Dev nD) : Loc nD τ sig := (SparseCore.T d).loc main_v3

variable (m : (ℓ : Loc nD τ sig) → Buf (Elt F) ℓ)

/-- What tile `i` of SparseCore `c` is handed. -/
def tileRes (d : Dev nD) (c i : ℕ) : sProp 𝕄 :=
  iprop((iLoc d ↦[idxSet (2 * i + c)]{fullShare} idxArr (m (a0Loc d)))
    ∗ (∃ fp, ⌜PadOK (m (a1Loc d)) fp⌝ ∗ tLoc d ↦{shareOf (2 * i + c)} fp)
    ∗ bigSep (Finset.univ : Finset (Fin 50)) fun j => oLoc d ↦[chunkSet (50 * (2 * i + c) + j.val)]{fullShare} m (oLoc d))

/-- What it hands back. -/
def tdRes (d : Dev nD) (c i : ℕ) : sProp 𝕄 :=
  bigSep (Finset.univ : Finset (Fin 50)) fun j =>
    iprop(∃ f, ⌜∀ x ∈ chunkSet (50 * (2 * i + c) + j.val), GoodAt (idxArr (m (a0Loc d))) (m (a1Loc d)) f x⌝
      ∗ oLoc d ↦[chunkSet (50 * (2 * i + c) + j.val)]{fullShare} f)

/-- The one call's payloads: a SparseCore is handed its sixteen tiles' shares and hands their results back. -/
def P : (K (F := F)).Pay (nD := nD) (Val := Elt F) (Name := ℕ) (U := UU) where
  st := fun _ d c => bigSep (Finset.univ : Finset (Fin 16)) fun i => tileRes m d c.val i.val
  dn := fun _ d c => bigSep (Finset.univ : Finset (Fin 16)) fun i => tdRes m d c.val i.val
  go := fun _ d c i => tileRes m d c.val i.val
  td := fun _ d c i => tdRes m d c.val i.val
  x := fun _ _ => iprop(emp)

instance tileRes_storable (d : Dev nD) (c i : ℕ) : BI.Storable (upEmb : UEmb _ 𝕄) (tileRes m d c i) := by
  unfold tileRes; infer_instance
instance tdRes_storable (d : Dev nD) (c i : ℕ) : BI.Storable (upEmb : UEmb _ 𝕄) (tdRes m d c i) := by
  unfold tdRes; infer_instance

instance P_storable : (P (F := F) m).IsStorable where
  st _ d c := by unfold P; infer_instance
  dn _ d c := by unfold P; infer_instance
  go _ d c i := by unfold P; infer_instance
  td _ d c i := by unfold P; infer_instance

end Cert.Proof.KB

end
-- ==== Proof.LaunchHostKB.lean ====
/-
  The TensorCore's host operations as steps of @main's proof.  A host operation that reads one whole array and
  writes another, run holding both, leaves the read array as it was and the written one at the operation's
  value.  The TensorCore's arrays that live across regions are the two arguments and the six values of @main.
-/
import proofs.«208090_g83872121356401_cont_sun_m_474_43_alg».proof.Proof.PayKB

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)

variable {F : FTy → Type}

local notation "𝕄" => MT nD τ sig (HIx 1) (Elt F) ℕ UU ℕ

/-- The arrays of the TensorCore that are not scoped: the arguments and @main's values. -/
theorem unscopedBufs_eq (d : Dev nD) (W : (b : Ref sig .tc) → Buf (Elt F) ((d.tc : Thread nD τ).loc b)) :
    (unscopedBufs d W : sProp 𝕄) = iprop((a0Loc d ↦{fullShare} W main_arg0) ∗ (a1Loc d ↦{fullShare} W main_arg1)
      ∗ ((SparseCore.T d).loc main_v0 ↦{fullShare} W main_v0) ∗ (iLoc d ↦{fullShare} W main_v1) ∗ (tLoc d ↦{fullShare} W main_v2)
      ∗ (oLoc d ↦{fullShare} W main_v3) ∗ ((SparseCore.T d).loc main_v4 ↦{fullShare} W main_v4)
      ∗ ((SparseCore.T d).loc main_v5 ↦{fullShare} W main_v5)) := by
  unfold unscopedBufs
  rw [show (Finset.univ.filter fun b : Ref sig .tc => ¬ b.isScoped)
      = {main_arg0, main_arg1, main_v0, main_v1, main_v2, main_v3, main_v4, main_v5} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

variable [FloatOps F]

/-- A host operation over the two arrays `x` (read) and `y` (written), as a step: from both arrays held whole,
    the continuation gets `x` back as it was and `y` at the value `gy` the operation computes from `x`'s contents. -/
theorem wp_host2 (d : Dev nD) {x y : Ref sig .tc} (hne : x ≠ y) (op : HloOp τ sig (Elt F))
    (hbufs : op.bufs = {Proc.devRef .tc x, Proc.devRef .tc y}) (hf : op.fresh = ∅)
    (V0 : Valuation τ sig (Elt F))
    (fx : (Proc.devRef .tc x : DevRef τ sig).ty.Contents (Elt F)) (fy gy : (Proc.devRef .tc y : DevRef τ sig).ty.Contents (Elt F))
    (hy : ∀ V : Valuation τ sig (Elt F), V (Proc.devRef .tc x) = fx → op.result V (Proc.devRef .tc y) = gy)
    (hx : ∀ V : Valuation τ sig (Elt F), op.result V (Proc.devRef .tc x) = V (Proc.devRef .tc x))
    {Λ : Labels} {defs : Defs nD τ sig (Elt F) Λ} (𝒱 : Variants) (bd : Option 𝒱.V)
    {α : Type} {k : ((b : op.writes) → b.1.ty.Contents (Elt F)) → Prog (TpuEff nD τ sig (Elt F) Λ (SparseCore.T d : Thread nD τ).2) α}
    {Q : α → sProp 𝕄} :
    iprop(boundary (SparseCore.T d : Thread nD τ) ∗ (((SparseCore.T d : Thread nD τ).1, Proc.devRef .tc x) ↦{fullShare} fx)
        ∗ (((SparseCore.T d : Thread nD τ).1, Proc.devRef .tc y) ↦{fullShare} fy))
      ⊢ iprop((∀ r, (boundary (SparseCore.T d : Thread nD τ) ∗ (((SparseCore.T d : Thread nD τ).1, Proc.devRef .tc x) ↦{fullShare} fx)
            ∗ (((SparseCore.T d : Thread nD τ).1, Proc.devRef .tc y) ↦{fullShare} gy))
          -∗ wp frame (wpE defs 𝒱 (SparseCore.T d) bd) Set.univ (k r) Q)
        -∗ wp frame (wpE defs 𝒱 (SparseCore.T d) bd) Set.univ (hlo rfl op k) Q) := by
  have hne' : (Proc.devRef .tc x : DevRef τ sig) ≠ Proc.devRef .tc y := StableHlo.devRef_ne_of_ne hne
  let V1 : Valuation τ sig (Elt F) := Function.update (Function.update V0 (Proc.devRef .tc y) fy) (Proc.devRef .tc x) fx
  have hV1x : V1 (Proc.devRef .tc x) = fx := Function.update_self _ _ _
  have hV1y : V1 (Proc.devRef .tc y) = fy := by
    show Function.update (Function.update V0 (Proc.devRef .tc y) fy) (Proc.devRef .tc x) fx (Proc.devRef .tc y) = fy
    rw [Function.update_of_ne hne'.symm, Function.update_self]
  have hS : op.bufs ⊆ ({Proc.devRef .tc x, Proc.devRef .tc y} : Finset (DevRef τ sig)) := hbufs ▸ Finset.Subset.refl _
  have hheld : ∀ W : Valuation τ sig (Elt F), (held (SparseCore.T d) ({Proc.devRef .tc x, Proc.devRef .tc y} : Finset (DevRef τ sig)) W : sProp 𝕄)
      = iprop((((SparseCore.T d : Thread nD τ).1, Proc.devRef .tc x) ↦{fullShare} W (Proc.devRef .tc x))
          ∗ (((SparseCore.T d : Thread nD τ).1, Proc.devRef .tc y) ↦{fullShare} W (Proc.devRef .tc y))) := fun W => by
    unfold held
    rw [SparseCore.bigSep_insert' (by rw [Finset.mem_singleton]; exact hne'), bigSep_singleton]
  have hpre : (held (SparseCore.T d) ({Proc.devRef .tc x, Proc.devRef .tc y} : Finset (DevRef τ sig)) V1 : sProp 𝕄)
      = iprop((((SparseCore.T d : Thread nD τ).1, Proc.devRef .tc x) ↦{fullShare} fx)
          ∗ (((SparseCore.T d : Thread nD τ).1, Proc.devRef .tc y) ↦{fullShare} fy)) := by
    rw [hheld, hV1x, hV1y]
  have hpost : (held (SparseCore.T d) ({Proc.devRef .tc x, Proc.devRef .tc y} : Finset (DevRef τ sig)) (op.result V1) : sProp 𝕄)
      = iprop((((SparseCore.T d : Thread nD τ).1, Proc.devRef .tc x) ↦{fullShare} fx)
          ∗ (((SparseCore.T d : Thread nD τ).1, Proc.devRef .tc y) ↦{fullShare} gy)) := by
    rw [hheld, hy V1 hV1x, hx V1, hV1x]
  iintro ⟨Hb, Hx, Hy⟩ Hk
  iapply (wp_hlo_within 𝒱 (SparseCore.T d) bd Set.univ (op := op) (S := {Proc.devRef .tc x, Proc.devRef .tc y}) hS (V := V1) hf) $$ [Hb Hx Hy]
  · isplitl [Hb]; · iexact Hb
    rw [hpre]
    isplitl [Hx]; · iexact Hx
    iexact Hy
  iintro ⟨Hb, Hheld⟩
  ihave Hh := (Entails.of_eq hpost) $$ Hheld
  icases Hh with ⟨Hx, Hy⟩
  iapply Hk
  isplitl [Hb]; · iexact Hb
  isplitl [Hx]; · iexact Hx
  iexact Hy

end Cert.Proof.KB

end
-- ==== Proof.HostValueKB.lean ====
/-
  The host operations around the two calls, as values.  Before the calls the index array is transposed and
  flattened: entry l * 4096 + b of the list is the index array's (b, l), which is the row-number list the kernel
  reads.  After them the result's first 100 columns are kept and the 204800 rows are regrouped as
  [50, 1, 4096]: entry (l, 0, b, d) of the final array is entry (l * 4096 + b, d) of the kernel's output, so an
  output that holds, in its first 100 columns, the table rows the list names becomes the lookup.
-/
import proofs.«208090_g83872121356401_cont_sun_m_474_43_alg».proof.Proof.PayKB
import proofs.«208090_g83872121356401_cont_sun_m_474_43_alg».proof.Proof.Spec
import Idealize.ShloMosaic.Lib.ValueLayout

noncomputable section

namespace Cert.Proof.KB

open Idealize.ShloMosaic Idealize.ShloMosaic.ValueIdx

/-- The transposed index array, flattened, is the row-number list. -/
theorem idxArr_eq (x : (⟨2, ![4096, 50]⟩ : Shape).Idx → BitVec 32)
    (ht : (⟨2, ![4096, 50]⟩ : Shape).Transposes [1, 0] ⟨2, ![50, 4096]⟩)
    (hc : (⟨2, ![50, 4096]⟩ : Shape).ShapeCasts ⟨1, ![204800]⟩) :
    shapeCast ⟨1, ![204800]⟩ (transpose ⟨2, ![50, 4096]⟩ [1, 0] x ht) hc = idxArr x := by
  funext j
  have hj : (j 0).val < 204800 := (j 0).isLt
  have hl : (j 0).val / 4096 < 50 := by omega
  have hb : (j 0).val % 4096 < 4096 := Nat.mod_lt _ (by decide)
  rw [shapeCast_apply _ hc j (ix2 ⟨(j 0).val / 4096, hl⟩ ⟨(j 0).val % 4096, hb⟩) (by
    rw [Shape.rowMajor_val_two, Shape.rowMajor_val_one]
    show (j 0).val / 4096 * 4096 + (j 0).val % 4096 = (j 0).val
    omega)]
  exact transpose_ix2_apply x ht _ _

/-- The final array read at an index: the kernel's output at row l * 4096 + b and the same column. -/
theorem final_apply {α : Type} (f3 : (⟨2, ![204800, 128]⟩ : Shape).Idx → α)
    (hs : (⟨2, ![204800, 128]⟩ : Shape).Slices ![0, 0] ⟨2, ![204800, 100]⟩)
    (hc : (⟨2, ![204800, 100]⟩ : Shape).ShapeCasts ⟨4, ![50, 1, 4096, 100]⟩)
    (i : (⟨4, ![50, 1, 4096, 100]⟩ : Shape).Idx) :
    shapeCast ⟨4, ![50, 1, 4096, 100]⟩ (extractStridedSlice ⟨2, ![204800, 100]⟩ ![0, 0] f3 hs) hc i
      = f3 (ix2 ⟨(i 0).val * 4096 + (i 2).val, by
            have h0 : (i 0).val < 50 := (i 0).isLt
            have h2 : (i 2).val < 4096 := (i 2).isLt
            omega⟩
          ⟨(i 3).val, by have h3 : (i 3).val < 100 := (i 3).isLt; omega⟩) := by
  have h0 : (i 0).val < 50 := (i 0).isLt
  have h1 : (i 1).val < 1 := (i 1).isLt
  have h2 : (i 2).val < 4096 := (i 2).isLt
  have h3 : (i 3).val < 100 := (i 3).isLt
  rw [shapeCast_apply _ hc i (ix2 ⟨(i 0).val * 4096 + (i 2).val, by omega⟩ ⟨(i 3).val, h3⟩) (by
    rw [Shape.rowMajor_val_two, Shape.rowMajor_val_four]
    show ((i 0).val * 4096 + (i 2).val) * 100 + (i 3).val = (((i 0).val * 1 + (i 1).val) * 4096 + (i 2).val) * 100 + (i 3).val
    omega)]
  exact extractStridedSlice_apply _ f3 hs _ _ fun a => match a with
    | ⟨0, _⟩ => (Nat.zero_add _).symm
    | ⟨1, _⟩ => (Nat.zero_add _).symm

/-- An output that is right in its first 100 columns becomes, cut to those columns and regrouped, the lookup. -/
theorem final_eq {α : Type} (x : (⟨2, ![4096, 50]⟩ : Shape).Idx → BitVec 32)
    (ft : (⟨2, ![1000000, 100]⟩ : Shape).Idx → α) (f3 : (⟨2, ![204800, 128]⟩ : Shape).Idx → α)
    (hs : (⟨2, ![204800, 128]⟩ : Shape).Slices ![0, 0] ⟨2, ![204800, 100]⟩)
    (hc : (⟨2, ![204800, 100]⟩ : Shape).ShapeCasts ⟨4, ![50, 1, 4096, 100]⟩)
    (hgood : ∀ y : (⟨2, ![204800, 128]⟩ : Shape).Idx, (y 1).val < 100 →
      ∀ hy : (y 1).val < 100, f3 y = ft (ix2 (capRow (idxArr x (ix1 (y 0)))) ⟨(y 1).val, hy⟩)) :
    shapeCast ⟨4, ![50, 1, 4096, 100]⟩ (extractStridedSlice ⟨2, ![204800, 100]⟩ ![0, 0] f3 hs) hc
      = Cert.Proof.Spec.out x ft := by
  funext i
  have h0 : (i 0).val < 50 := (i 0).isLt
  have h2 : (i 2).val < 4096 := (i 2).isLt
  have h3 : (i 3).val < 100 := (i 3).isLt
  rw [final_apply f3 hs hc i, hgood _ h3 h3]
  show ft (ix2 (capRow (x (ix2 ⟨((i 0).val * 4096 + (i 2).val) % 4096, _⟩ ⟨((i 0).val * 4096 + (i 2).val) / 4096, _⟩))) ⟨(i 3).val, _⟩)
      = ft (ix2 (Cert.Proof.Spec.rowOf x (i 2) (i 0)) (i 3))
  have e1 : (⟨((i 0).val * 4096 + (i 2).val) % 4096, Nat.mod_lt _ (by decide)⟩ : Fin 4096) = i 2 := Fin.ext (by
    show ((i 0).val * 4096 + (i 2).val) % 4096 = (i 2).val
    omega)
  have e2 : (⟨((i 0).val * 4096 + (i 2).val) / 4096, by omega⟩ : Fin 50) = i 0 := Fin.ext (by
    show ((i 0).val * 4096 + (i 2).val) / 4096 = (i 0).val
    omega)
  rw [e1, e2]
  rfl

end Cert.Proof.KB

end
-- ==== Proof.LaunchSplitKB.lean ====
/-
  The bookkeeping around the lookup call.  Before it the row-number list is cut into the 32 tiles' runs of 6400
  entries, the padded table into 32 read shares, the result array into the 1600 chunks of 128 rows, fifty to a tile;
  tile i of SparseCore c has number 2 i + c and its chunk j is chunk 50 (2 i + c) + j.  After it the 1600 chunks, each
  right on its own rows, join into one result array that is right everywhere.
-/
import proofs.«208090_g83872121356401_cont_sun_m_474_43_alg».proof.Proof.PayKB
import Idealize.SL.ProofMode.BigOp

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-! ## Tiles and chunks by number -/

/-- A tile: its SparseCore and its place on it. -/
abbrev TI : Type := Fin 2 × Fin 16
/-- Its number. -/
abbrev tileNo (t : TI) : ℕ := 2 * t.2.val + t.1.val
/-- The number of a tile's chunk. -/
abbrev chunkNo (s : TI × Fin 50) : ℕ := 50 * tileNo s.1 + s.2.val

theorem tileNo_lt (t : TI) : tileNo t < 32 := by
  have h1 : t.1.val < 2 := t.1.isLt
  have h2 : t.2.val < 16 := t.2.isLt
  show 2 * t.2.val + t.1.val < 32
  omega

theorem tileNo_inj {t t' : TI} (h : tileNo t = tileNo t') : t = t' := by
  have h1 : t.1.val < 2 := t.1.isLt
  have h1' : t'.1.val < 2 := t'.1.isLt
  have h : 2 * t.2.val + t.1.val = 2 * t'.2.val + t'.1.val := h
  exact Prod.ext (Fin.ext (by omega)) (Fin.ext (by omega))

theorem chunkNo_inj {s s' : TI × Fin 50} (h : chunkNo s = chunkNo s') : s = s' := by
  have h2 : s.2.val < 50 := s.2.isLt
  have h2' : s'.2.val < 50 := s'.2.isLt
  have h : 50 * tileNo s.1 + s.2.val = 50 * tileNo s'.1 + s'.2.val := h
  exact Prod.ext (tileNo_inj (by omega)) (Fin.ext (by omega))

/-- The tiles, by number. -/
def eTI : TI ≃ Fin 32 where
  toFun t := ⟨tileNo t, tileNo_lt t⟩
  invFun w := (⟨w.val % 2, Nat.mod_lt _ (by decide)⟩, ⟨w.val / 2, by have := w.isLt; omega⟩)
  left_inv t := by
    have h1 : t.1.val < 2 := t.1.isLt
    refine Prod.ext (Fin.ext ?_) (Fin.ext ?_)
    · show (2 * t.2.val + t.1.val) % 2 = t.1.val
      omega
    · show (2 * t.2.val + t.1.val) / 2 = t.2.val
      omega
  right_inv w := by
    refine Fin.ext ?_
    show 2 * (w.val / 2) + w.val % 2 = w.val
    omega

theorem idx_disj : ∀ t ∈ (Finset.univ : Finset TI), ∀ t' ∈ (Finset.univ : Finset TI), t ≠ t' →
    Disjoint (idxSet (tileNo t)) (idxSet (tileNo t')) := by
  intro t _ t' _ hne
  rw [Finset.disjoint_left]
  intro j h1 h2
  simp only [idxSet, Finset.mem_filter, Finset.mem_univ, true_and] at h1 h2
  exact hne (tileNo_inj (by omega))

theorem idx_cover : (Finset.univ : Finset TI).biUnion (fun t => idxSet (tileNo t)) = Finset.univ := by
  ext j
  simp only [Finset.mem_biUnion, Finset.mem_univ, true_and, iff_true]
  have hj : (j 0).val < 204800 := (j 0).isLt
  refine ⟨(⟨(j 0).val / 6400 % 2, Nat.mod_lt _ (by decide)⟩, ⟨(j 0).val / 6400 / 2, by omega⟩), ?_⟩
  simp only [idxSet, Finset.mem_filter, Finset.mem_univ, true_and]
  show 6400 * (2 * ((j 0).val / 6400 / 2) + (j 0).val / 6400 % 2) ≤ (j 0).val
    ∧ (j 0).val < 6400 * (2 * ((j 0).val / 6400 / 2) + (j 0).val / 6400 % 2) + 6400
  omega

theorem chunk_disj : ∀ s ∈ (Finset.univ : Finset (TI × Fin 50)), ∀ s' ∈ (Finset.univ : Finset (TI × Fin 50)), s ≠ s' →
    Disjoint (chunkSet (chunkNo s)) (chunkSet (chunkNo s')) := by
  intro s _ s' _ hne
  rw [Finset.disjoint_left]
  intro j h1 h2
  simp only [chunkSet, Finset.mem_filter, Finset.mem_univ, true_and] at h1 h2
  exact hne (chunkNo_inj (by omega))

/-- Every row of the result lies in some tile's chunk. -/
theorem chunk_of (y : S204800x128.Idx) : ∃ s : TI × Fin 50, y ∈ chunkSet (chunkNo s) := by
  have hy : (y 0).val < 204800 := (y 0).isLt
  refine ⟨((⟨(y 0).val / 128 / 50 % 2, Nat.mod_lt _ (by decide)⟩, ⟨(y 0).val / 128 / 50 / 2, by omega⟩),
    ⟨(y 0).val / 128 % 50, Nat.mod_lt _ (by decide)⟩), ?_⟩
  simp only [chunkSet, Finset.mem_filter, Finset.mem_univ, true_and]
  show 128 * (50 * (2 * ((y 0).val / 128 / 50 / 2) + (y 0).val / 128 / 50 % 2) + (y 0).val / 128 % 50) ≤ (y 0).val
    ∧ (y 0).val < 128 * (50 * (2 * ((y 0).val / 128 / 50 / 2) + (y 0).val / 128 / 50 % 2) + (y 0).val / 128 % 50) + 128
  omega

theorem chunk_cover : (Finset.univ : Finset (TI × Fin 50)).biUnion (fun s => chunkSet (chunkNo s)) = Finset.univ := by
  ext y
  simp only [Finset.mem_biUnion, Finset.mem_univ, true_and, iff_true]
  exact chunk_of y

/-! ## The arrays cut -/

theorem iLoc_split (d : Dev nD) (f : Buf (Elt F) (iLoc d)) :
    (iLoc d ↦{fullShare} f : sProp 𝕄) = bigSep Finset.univ fun t : TI => iLoc d ↦[idxSet (tileNo t)]{fullShare} f := by
  rw [← pointsTo_biUnion Finset.univ (ℓ := iLoc d) (fun t : TI => idxSet (tileNo t)) idx_disj, idx_cover]; try rfl

theorem oLoc_split (d : Dev nD) (f : Buf (Elt F) (oLoc d)) :
    (oLoc d ↦{fullShare} f : sProp 𝕄)
      = bigSep Finset.univ fun t : TI => bigSep Finset.univ fun j : Fin 50 => oLoc d ↦[chunkSet (chunkNo (t, j))]{fullShare} f := by
  rw [← bigSep_univ_prod (fun s : TI × Fin 50 => (oLoc d ↦[chunkSet (chunkNo s)]{fullShare} f : sProp 𝕄)),
    ← pointsTo_biUnion Finset.univ (ℓ := oLoc d) (fun s : TI × Fin 50 => chunkSet (chunkNo s)) chunk_disj, chunk_cover]; try rfl

theorem tLoc_split (d : Dev nD) (f : Buf (Elt F) (tLoc d)) :
    (tLoc d ↦{fullShare} f : sProp 𝕄) = bigSep Finset.univ fun t : TI => tLoc d ↦{shareOf (tileNo t)} f := by
  rw [pointsTo_piecesOf Finset.univ f (o := 32) (by decide) fullShare, bigSep_univ_equiv eTI]
  refine bigSep_congr fun t _ => ?_
  have e : shareOf (tileNo t) = pieceOf fullShare 32 (by decide) (eTI t) := by
    unfold shareOf
    congr 1
    exact Fin.ext (Nat.mod_eq_of_lt (tileNo_lt t))
  rw [e]

/-! ## Before the call: every tile's share -/

variable (m : (ℓ : Loc nD τ sig) → Buf (Elt F) ℓ)

theorem st_eq (d : Dev nD) :
    (bigSep Finset.univ fun c : Fin ((K (F := F)).nCore 0) => (P m).st 0 d c : sProp 𝕄)
      = bigSep Finset.univ fun t : TI => tileRes m d t.1.val t.2.val :=
  (bigSep_univ_prod (fun t : TI => (tileRes m d t.1.val t.2.val : sProp 𝕄))).symm

theorem dn_eq (d : Dev nD) :
    (bigSep Finset.univ fun c : Fin ((K (F := F)).nCore 0) => (P m).dn 0 d c : sProp 𝕄)
      = bigSep Finset.univ fun t : TI => tdRes m d t.1.val t.2.val :=
  (bigSep_univ_prod (fun t : TI => (tdRes m d t.1.val t.2.val : sProp 𝕄))).symm

/-- One tile's share, from its run of the list, its read share of a padded table that is right, and its chunks. -/
theorem tile_intro (d : Dev nD) (t : TI) (fp : Buf (Elt F) (tLoc d)) (hfp : PadOK (m (a1Loc d)) fp) :
    (iprop((iLoc d ↦[idxSet (tileNo t)]{fullShare} idxArr (m (a0Loc d))) ∗ (tLoc d ↦{shareOf (tileNo t)} fp)
      ∗ (bigSep Finset.univ fun j : Fin 50 => oLoc d ↦[chunkSet (chunkNo (t, j))]{fullShare} m (oLoc d))) : sProp 𝕄)
      ⊢ tileRes m d t.1.val t.2.val := by
  unfold tileRes
  iintro ⟨Hi, Ht, Ho⟩
  isplitl [Hi]; · iexact Hi
  isplitl [Ht]
  · iexists fp
    isplitr
    · ipureintro; exact hfp
    iexact Ht
  iexact Ho

/-- The row-number list, the padded table and the result array, whole, are the tiles' shares. -/
theorem split_st (d : Dev nD) (fp : Buf (Elt F) (tLoc d)) (hfp : PadOK (m (a1Loc d)) fp) :
    iprop((iLoc d ↦{fullShare} idxArr (m (a0Loc d))) ∗ (tLoc d ↦{fullShare} fp) ∗ (oLoc d ↦{fullShare} m (oLoc d)))
      ⊢ (bigSep Finset.univ fun c : Fin ((K (F := F)).nCore 0) => (P m).st 0 d c : sProp 𝕄) := by
  rw [st_eq, iLoc_split, tLoc_split, oLoc_split, ← bigSep_sep', ← bigSep_sep']
  exact bigSep_mono fun t _ => tile_intro m d t fp hfp

/-! ## After the call: the chunks joined -/

theorem join_dn (d : Dev nD) :
    (bigSep Finset.univ fun c : Fin ((K (F := F)).nCore 0) => (P m).dn 0 d c : sProp 𝕄)
      ⊢ iprop(∃ f3 : Buf (Elt F) (oLoc d), ⌜∀ y, GoodAt (idxArr (m (a0Loc d))) (m (a1Loc d)) f3 y⌝ ∗ oLoc d ↦{fullShare} f3) := by
  haveI : Nonempty (Buf (Elt F) (oLoc d)) := ⟨m (oLoc d)⟩
  have e : (bigSep Finset.univ fun t : TI => tdRes m d t.1.val t.2.val : sProp 𝕄)
      = bigSep Finset.univ fun s : TI × Fin 50 =>
          iprop(∃ f : Buf (Elt F) (oLoc d), ⌜∀ x ∈ chunkSet (chunkNo s), GoodAt (idxArr (m (a0Loc d))) (m (a1Loc d)) f x⌝
            ∗ oLoc d ↦[chunkSet (chunkNo s)]{fullShare} f) := by
    rw [bigSep_univ_prod (fun s : TI × Fin 50 =>
      (iprop(∃ f : Buf (Elt F) (oLoc d), ⌜∀ x ∈ chunkSet (chunkNo s), GoodAt (idxArr (m (a0Loc d))) (m (a1Loc d)) f x⌝
        ∗ oLoc d ↦[chunkSet (chunkNo s)]{fullShare} f) : sProp 𝕄))]
    refine bigSep_congr fun t _ => ?_
    unfold tdRes
    rfl
  have hjoin : ∀ fs : TI × Fin 50 → Buf (Elt F) (oLoc d),
      (bigSep Finset.univ fun s : TI × Fin 50 => oLoc d ↦[chunkSet (chunkNo s)]{fullShare} fs s : sProp 𝕄)
        ⊢ iprop(∃ g, ⌜∀ s ∈ (Finset.univ : Finset (TI × Fin 50)), ∀ i ∈ chunkSet (chunkNo s), g i = fs s i⌝ ∗ oLoc d ↦{fullShare} g) := by
    intro fs
    have h : (bigSep Finset.univ fun s : TI × Fin 50 => oLoc d ↦[chunkSet (chunkNo s)]{fullShare} fs s : sProp 𝕄)
        ⊢ iprop(∃ g, ⌜∀ s ∈ (Finset.univ : Finset (TI × Fin 50)), ∀ i ∈ chunkSet (chunkNo s), g i = fs s i⌝
          ∗ oLoc d ↦[(Finset.univ : Finset (TI × Fin 50)).biUnion fun s => chunkSet (chunkNo s)]{fullShare} g) :=
      pointsTo_biUnion_join (ℓ := oLoc d) (q := fullShare) Finset.univ (fun s : TI × Fin 50 => chunkSet (chunkNo s)) fs (m (oLoc d)) chunk_disj
    rw [chunk_cover] at h
    exact h
  rw [dn_eq, e]
  refine (bigSep_exists_pi Finset.univ (fun (s : TI × Fin 50) (f : Buf (Elt F) (oLoc d)) =>
    iprop(⌜∀ x ∈ chunkSet (chunkNo s), GoodAt (idxArr (m (a0Loc d))) (m (a1Loc d)) f x⌝ ∗ oLoc d ↦[chunkSet (chunkNo s)]{fullShare} f))).trans ?_
  iintro ⟨%fs, H⟩
  ihave H2 := (bigSep_pure_sep Finset.univ (fun s : TI × Fin 50 => ∀ x ∈ chunkSet (chunkNo s), GoodAt (idxArr (m (a0Loc d))) (m (a1Loc d)) (fs s) x)
    (fun s => (oLoc d ↦[chunkSet (chunkNo s)]{fullShare} fs s : sProp 𝕄))) $$ H
  icases H2 with ⟨%hgood, H3⟩
  ihave H4 := (hjoin fs) $$ H3
  icases H4 with ⟨%g, %hg, Hg⟩
  iexists g
  isplitr
  · ipureintro
    intro y hc
    obtain ⟨s, hs⟩ := chunk_of y
    rw [hg s (Finset.mem_univ s) y hs]
    exact hgood s (Finset.mem_univ s) y hs hc
  iexact Hg

end Cert.Proof.KB

end
-- ==== Proof.PreKB.lean ====
/-
  The index range the kernel's frames need: every row number the index array holds is at most 999999.
-/
import proofs.«208090_g83872121356401_cont_sun_m_474_43_alg».proof.Proof.PayKB

noncomputable section

namespace Cert.Proof.KB

open Cert.Kernel Cert.Kernel.Gen
open Idealize.ShloMosaic Idealize.ShloMosaic.ValueIdx Idealize.SL.Sem

variable {F : FTy → Type}

/-- Every word of the index array, on every device, is at most 999999 as a natural number. -/
def PreOK (m : (ℓ : Loc nD τ sig) → Buf (Elt F) ℓ) : Prop :=
  ∀ (d : Dev nD) (b : Fin 4096) (l : Fin 50), ((m (a0Loc d) : S4096x50.Idx → BitVec 32) (ix2 b l)).toNat ≤ 999999

/-- Then so is every entry of the row-number list. -/
theorem idxArr_le {m : (ℓ : Loc nD τ sig) → Buf (Elt F) ℓ} (hpre : PreOK m) (d : Dev nD) (j : S204800.Idx) :
    (idxArr (m (a0Loc d)) j).toNat ≤ 999999 := hpre d _ _

end Cert.Proof.KB

end
-- ==== Proof.PadDatKB.lean ====
/-
  The table-padding call's proof data: the one admissible contents of its (empty) prefetched tables, the ghost state
  its staging cells are allocated from, and what is said of each staging buffer after the body at each point.
-/
import proofs.«208090_g83872121356401_cont_sun_m_474_43_alg».proof.Proof.CommonKB
import Idealize.ShloMosaic.Lib.Pipeline.Regions

noncomputable section

namespace Cert.Proof.KB

open Cert.Kernel Cert.Kernel.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## The pipeline as the region rule sees it -/

/-- The padding call has no prefetched table: its one admissible contents. -/
abbrev adm : (p : Fin 1) → (pcfgs (F := F) p).Adm := fun p => (cfgs p).toPCfg_adm

/-- The padding call's pipeline at those contents. -/
abbrev pcfg : Fin 1 → Pipeline.Cfg sig Λ₀ := Pipeline.pin (pcfgs (F := F)) adm

/-- What the launch funds device `d`'s TensorCore with for the padding call: its staging cells' launch state and the
    duty token of every transfer its loop issues. -/
def padGhost (d : Dev nD) : sProp 𝕄 :=
  iprop(Pipeline.cellsGhost (pcfg (F := F)) EP 0 d ∗ Pipeline.toksInit (pcfg (F := F)) EP 0 d)

/-- The launch element of the staging cells' rounds. -/
def padU₀ : UP := initOf (Pipeline.cells (nD := nD) (pcfg (F := F)) cellOf_inj) (Pipeline.launchToks (nD := nD) (pcfg (F := F)) cellOf_inj)

theorem pad_fund : (BI.own (EP (padU₀ (F := F))) : sProp 𝕄) ⊢ iprop(|==> bigSep Finset.univ fun d : Dev nD => padGhost (F := F) d) := by
  refine (Pipeline.fund_ghost (pcfg (F := F)) EP cellOf_inj).trans (bupd_mono ?_)
  rw [← bigSep_sep']
  refine bigSep_mono fun d _ => ?_
  unfold padGhost
  rw [Finset.univ_unique, bigSep_singleton, bigSep_singleton]
  exact BI.Entails.refl _

/-! ## The proof data -/

/-- What is said of each staging buffer after the body at a point: of the table's window nothing (it is fetched anew
    at every point), of the result's that its contents satisfy `R` at that point. -/
def padAfter (R : Fin cfg0.N → (S20000x128.Idx → Elt F .f32) → Prop) (p : Fin 1) :
    (w : Fin (pcfg (F := F) p).W) → Fin (pcfg (F := F) p).N →
      (Y X : ((pcfg (F := F) p).win w).block.Idx → Elt F ((pcfg (F := F) p).win w).elt) → Prop
  | ⟨0, _⟩, _, _, _ => True
  | ⟨1, _⟩, t, _, X => R t X

/-- The arrays' contents at the call's entry: the table's and the result's. -/
def padA (d : Dev nD) (ft : Buf (Elt F) ((T d : Thread nD τ).loc main_arg1)) (f2 : Buf (Elt F) ((T d : Thread nD τ).loc main_v2)) (p : Fin 1) :
    (w : Fin (pcfg (F := F) p).W) → Buf (Elt F) (((pcfg (F := F) p).win w).arr.view.loc (d.tc : Thread nD τ))
  | ⟨0, _⟩ => ft
  | ⟨1, _⟩ => f2

/-- The relational proof data of the padding call on device `d`'s TensorCore, which owes `O` throughout and has
    recorded the pairs `W` before the call: the arrays at their entry contents, no invariant, full shares, and of the
    result's staging buffer after the body at point `t` that it satisfies `R t`. -/
def rd (R : Fin cfg0.N → (S20000x128.Idx → Elt F .f32) → Prop) (d : Dev nD)
    (ft : Buf (Elt F) ((T d : Thread nD τ).loc main_arg1)) (f2 : Buf (Elt F) ((T d : Thread nD τ).loc main_v2))
    (O : CellTallies nD τ sig (HIx 1)) (W : Waits sig (HIx 1)) (p : Fin 1) :
    Pipeline.RDat τ (Elt F) (HIx 1) ℕ UU ℕ (pcfg (F := F) p) d where
  A := padA d ft f2 p
  after := padAfter R p
  Φ _ := iprop(emp)
  q _ := fullShare
  owed _ := O
  recorded _ := ↑W

/-- What the table's staging buffer holds once the fetch at point `t` has landed in it, if the overwrite before the
    fetch left `e`: the table's block on the part inside the table, `e` on the overhang. -/
def padFetched (d : Dev nD) (ft : Buf (Elt F) ((T d : Thread nD τ).loc main_arg1)) (t : Fin cfg0.N) (e : S20000x128.Idx → Elt F .f32) :
    S20000x128.Idx → Elt F .f32 :=
  win0_0.fill (grid0.coords t) e ((win0_0.blk t).view.read (Elt F) ft)

theorem rd_fetched (R : Fin cfg0.N → (S20000x128.Idx → Elt F .f32) → Prop) (d : Dev nD)
    (ft : Buf (Elt F) ((T d : Thread nD τ).loc main_arg1)) (f2 : Buf (Elt F) ((T d : Thread nD τ).loc main_v2))
    (O : CellTallies nD τ sig (HIx 1)) (W : Waits sig (HIx 1)) (p : Fin 1) (t : Fin cfg0.N) (e : S20000x128.Idx → Elt F .f32) :
    (rd R d ft f2 O W p).fetched (0 : Fin 2) t e = padFetched d ft t e := rfl

end Cert.Proof.KB

end
-- ==== Proof.PadBodyKB.lean ====
/-
  The padding call's body: it loads the table's staging block whole and stores it whole into the result's. So the
  result's staging buffer ends holding whatever the table's held, the words of the overhang included.
-/
import proofs.«208090_g83872121356401_cont_sun_m_474_43_alg».proof.Proof.PadDatKB

noncomputable section

namespace Cert.Proof.KB

open Cert.Kernel Cert.Kernel.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable [FloatOps F]

/-- The body on staging buffers `s0` of the table's window and `s1` of the result's: the whole load of the first, the
    dead whole load of the second, the whole store of the first load into the second — the second ends holding what
    the first holds, the first unchanged. -/
theorem pad_sound_body (d : Dev nD) (E : Set ℕ) (i : grid0.Coords) (s0 s1 : Fin 2)
    (X0 X1 : S20000x128.Idx → Elt F .f32) (Kp : PUnit → sProp 𝕄) :
    iprop((owns (d.tc : Thread nD τ) (stage0_0 s0) fullShare X0 ∗ owns (d.tc : Thread nD τ) (stage0_1 s1) fullShare X1)
          ∗ (iprop(owns (d.tc : Thread nD τ) (stage0_0 s0) fullShare X0 ∗ owns (d.tc : Thread nD τ) (stage0_1 s1) fullShare X0) -∗ Kp ⟨⟩))
      ⊢ wp frame (wpE (defs₀ (F := F)) 𝒱₀ (d.tc : Thread nD τ) none) E
          (cc0__pad_body i (stage0_0 s0) (hstage0_0 s0) (stage0_1 s1) (hstage0_1 s1)) Kp := by
  -- both accesses are at offsets zero and the buffers' own sizes: the load reads the contents, the unmasked store
  -- writes the payload, at whichever of its window's two buffers each memref is
  have hz : (![0, 0] : Fin 2 → Nat) = fun _ => 0 := funext fun a => by fin_cases a <;> rfl
  fin_cases s0 <;> fin_cases s1
  · -- the table's staging buffer 0, the result's 0
    have hr0 : (Memref.whole cc0_stg0_0 : Memref sig .tc _ _ _).view.readAt (Elt F) (Rect.unit (s := S20000x128) ![0, 0] S20000x128.size
        inb_S20000x128_S20000x128_0_0).toLoadRect = id := funext (Memref.readAt_unit_zero (Elt F) cc0_stg0_0 hz _)
    have hw1 : ∀ f w, (((Memref.whole cc0_stg1_0).access (Rect.unit (s := S20000x128) ![0, 0] S20000x128.size inb_S20000x128_S20000x128_0_0)) :
        View sig .tc _ _ _).write (Elt F) f w Finset.univ = w := Memref.write_access_unit_zero_univ (Elt F) cc0_stg1_0 hz _
    simp only [owns_whole_eq, cc0__pad_body_eq_skeleton]; unfold cc0__pad_body_skel
    simp only [Prog.lift, Prog.bind_op, Prog.bind_ret]
    iintro ⟨⟨⟨%f0, %hf0, H0⟩, ⟨%f1, %hf1, H1⟩⟩, Hk⟩
    sl_steps
    iapply Hk
    rw [hr0, hw1]
    isplitl [H0]
    · iexists f0; isplitr; · ipureintro; exact hf0
      iexact H0
    · iexists f0; isplitr; · ipureintro; exact hf0
      iexact H1
  · -- the table's staging buffer 0, the result's 1
    have hr0 : (Memref.whole cc0_stg0_0 : Memref sig .tc _ _ _).view.readAt (Elt F) (Rect.unit (s := S20000x128) ![0, 0] S20000x128.size
        inb_S20000x128_S20000x128_0_0).toLoadRect = id := funext (Memref.readAt_unit_zero (Elt F) cc0_stg0_0 hz _)
    have hw1 : ∀ f w, (((Memref.whole cc0_stg1_1).access (Rect.unit (s := S20000x128) ![0, 0] S20000x128.size inb_S20000x128_S20000x128_0_0)) :
        View sig .tc _ _ _).write (Elt F) f w Finset.univ = w := Memref.write_access_unit_zero_univ (Elt F) cc0_stg1_1 hz _
    simp only [owns_whole_eq, cc0__pad_body_eq_skeleton]; unfold cc0__pad_body_skel
    simp only [Prog.lift, Prog.bind_op, Prog.bind_ret]
    iintro ⟨⟨⟨%f0, %hf0, H0⟩, ⟨%f1, %hf1, H1⟩⟩, Hk⟩
    sl_steps
    iapply Hk
    rw [hr0, hw1]
    isplitl [H0]
    · iexists f0; isplitr; · ipureintro; exact hf0
      iexact H0
    · iexists f0; isplitr; · ipureintro; exact hf0
      iexact H1
  · -- the table's staging buffer 1, the result's 0
    have hr0 : (Memref.whole cc0_stg0_1 : Memref sig .tc _ _ _).view.readAt (Elt F) (Rect.unit (s := S20000x128) ![0, 0] S20000x128.size
        inb_S20000x128_S20000x128_0_0).toLoadRect = id := funext (Memref.readAt_unit_zero (Elt F) cc0_stg0_1 hz _)
    have hw1 : ∀ f w, (((Memref.whole cc0_stg1_0).access (Rect.unit (s := S20000x128) ![0, 0] S20000x128.size inb_S20000x128_S20000x128_0_0)) :
        View sig .tc _ _ _).write (Elt F) f w Finset.univ = w := Memref.write_access_unit_zero_univ (Elt F) cc0_stg1_0 hz _
    simp only [owns_whole_eq, cc0__pad_body_eq_skeleton]; unfold cc0__pad_body_skel
    simp only [Prog.lift, Prog.bind_op, Prog.bind_ret]
    iintro ⟨⟨⟨%f0, %hf0, H0⟩, ⟨%f1, %hf1, H1⟩⟩, Hk⟩
    sl_steps
    iapply Hk
    rw [hr0, hw1]
    isplitl [H0]
    · iexists f0; isplitr; · ipureintro; exact hf0
      iexact H0
    · iexists f0; isplitr; · ipureintro; exact hf0
      iexact H1
  · -- the table's staging buffer 1, the result's 1
    have hr0 : (Memref.whole cc0_stg0_1 : Memref sig .tc _ _ _).view.readAt (Elt F) (Rect.unit (s := S20000x128) ![0, 0] S20000x128.size
        inb_S20000x128_S20000x128_0_0).toLoadRect = id := funext (Memref.readAt_unit_zero (Elt F) cc0_stg0_1 hz _)
    have hw1 : ∀ f w, (((Memref.whole cc0_stg1_1).access (Rect.unit (s := S20000x128) ![0, 0] S20000x128.size inb_S20000x128_S20000x128_0_0)) :
        View sig .tc _ _ _).write (Elt F) f w Finset.univ = w := Memref.write_access_unit_zero_univ (Elt F) cc0_stg1_1 hz _
    simp only [owns_whole_eq, cc0__pad_body_eq_skeleton]; unfold cc0__pad_body_skel
    simp only [Prog.lift, Prog.bind_op, Prog.bind_ret]
    iintro ⟨⟨⟨%f0, %hf0, H0⟩, ⟨%f1, %hf1, H1⟩⟩, Hk⟩
    sl_steps
    iapply Hk
    rw [hr0, hw1]
    isplitl [H0]
    · iexists f0; isplitr; · ipureintro; exact hf0
      iexact H0
    · iexists f0; isplitr; · ipureintro; exact hf0
      iexact H1

/-- The body obligation over the relational data: whatever the table's current buffer was handed holding — its block
    just fetched, any words on the overhang —, the result's buffer is left holding that; so any `R` true of every
    such contents is true of what the body leaves. -/
theorem pad_body_obligation (R : Fin cfg0.N → (S20000x128.Idx → Elt F .f32) → Prop) (d : Dev nD)
    (ft : Buf (Elt F) ((T d : Thread nD τ).loc main_arg1)) (f2 : Buf (Elt F) ((T d : Thread nD τ).loc main_v2))
    (O : CellTallies nD τ sig (HIx 1)) (W : Waits sig (HIx 1)) (p : Fin 1)
    (hR : ∀ t e, R t (padFetched d ft t e)) :
    (rd R d ft f2 O W p).BodyObligation (defs₀ (F := F)) 𝒱₀ none Set.univ := fun t Y hY => by
  obtain ⟨e, he⟩ := ((rd R d ft f2 O W p).finds_of_fetch (w := (0 : Fin 2)) (fetch0_0 t) (Y (0 : Fin 2))).mp (hY (0 : Fin 2))
  rw [bigSep_W0, bigSep_W0]
  rw [show (rd R d ft f2 O W p).Φ t.succ = (rd R d ft f2 O W p).Φ t.castSucc from rfl,
    show (rd R d ft f2 O W p).owesAt none t.succ = (rd R d ft f2 O W p).owesAt none t.castSucc from rfl]
  iintro ⟨HΦ, Ho, H0, H1⟩
  iapply (pad_sound_body (F := F) d Set.univ (grid0.coords t) (cfg0.slots t 0) (cfg0.slots t 1) (Y (0 : Fin 2)) (Y (1 : Fin 2)) _)
  isplitl [H0 H1]
  · isplitl [H0]
    · iexact H0
    · iexact H1
  iintro ⟨H0, H1⟩
  isplitl [HΦ]; · iexact HΦ
  isplitl [Ho]; · iexact Ho
  isplitl [H0]
  · iexists Y (0 : Fin 2); isplitr; · ipureintro; trivial
    iexact H0
  · iexists Y (0 : Fin 2); isplitr
    · ipureintro
      show R t (Y (0 : Fin 2))
      rw [he, rd_fetched]; exact hR t e
    iexact H1

end Cert.Proof.KB

end
-- ==== Proof.PadRegionKB.lean ====
/-
  The padding call's region inside @main: its record for the region rule — layout, body obligation, wait evidence, and
  the four entailments around the thread states it is entered from and leaves —, over any predicate `R` of the
  result's staging block that every fetched table block satisfies.
-/
import proofs.«208090_g83872121356401_cont_sun_m_474_43_alg».proof.Proof.PadBodyKB

noncomputable section

namespace Cert.Proof.KB

open Cert.Kernel Cert.Kernel.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable [FloatOps F]

section Region

variable (R : Dev nD → Fin cfg0.N → (S20000x128.Idx → Elt F .f32) → Prop)
  (ft : (c : Dev nD) → Buf (Elt F) ((T c : Thread nD τ).loc main_arg1))
  (f2 : (c : Dev nD) → Buf (Elt F) ((T c : Thread nD τ).loc main_v2))
  (O : CellTallies nD τ sig (HIx 1)) (W : Waits sig (HIx 1))

/-- The proof data on every device: the arrays at `ft` and `f2`, the TensorCore owing `O` with `W` recorded. -/
abbrev rds : (p : Fin 1) → (c : Dev nD) → Pipeline.RDat τ (Elt F) (HIx 1) ℕ UU ℕ (pcfg (F := F) p) c :=
  fun p c => rd (R c) c (ft c) (f2 c) O W p

/-- The thread state the region is entered from: the table and the result array, and what the TensorCore owes. -/
def padPre (c : Dev nD) : sProp 𝕄 :=
  iprop(((T c : Thread nD τ).loc main_arg1 ↦{fullShare} ft c) ∗ ((T c : Thread nD τ).loc main_v2 ↦{fullShare} f2 c) ∗ owes (T c) O W)

/-- The thread state it leaves: the table as it was, the result array at some contents it may hold after the fifty
    write-backs, and the TensorCore owing the same, its new recorded pairs all the staging cells' at the loop's index. -/
def padPost (c : Dev nD) : sProp 𝕄 :=
  iprop(∃ fp : Buf (Elt F) ((T c : Thread nD τ).loc main_v2), ⌜(rds R ft f2 O W 0 c).ArrAt (1 : Fin 2) cfg0.N fp⌝
    ∗ ((T c : Thread nD τ).loc main_arg1 ↦{fullShare} ft c) ∗ ((T c : Thread nD τ).loc main_v2 ↦{fullShare} fp)
    ∗ ∃ W' : Waits sig (HIx 1), ⌜∀ p ∈ W', p ∈ W ∨ p.2 = none⌝ ∗ owes (T c) O W')

theorem rd_share (c : Dev nD) (w : Fin (pcfg (F := F) 0).W) : (rds R ft f2 O W 0 c).share w = fullShare := by
  unfold Pipeline.RDat.share; split <;> rfl

theorem rd_arraysAt (c : Dev nD) (n : Nat) :
    ((rds R ft f2 O W 0 c).arraysAt n : sProp 𝕄)
      = iprop((∃ G, ⌜(rds R ft f2 O W 0 c).ArrAt (0 : Fin 2) n G⌝ ∗ ((T c : Thread nD τ).loc main_arg1 ↦{fullShare} G))
          ∗ (∃ G, ⌜(rds R ft f2 O W 0 c).ArrAt (1 : Fin 2) n G⌝ ∗ ((T c : Thread nD τ).loc main_v2 ↦{fullShare} G))) := by
  have harr : ∀ w, ((pcfg (F := F) 0).spec w).arr.IsWhole := arr_whole0
  unfold Pipeline.RDat.arraysAt
  rw [show (bigSep Finset.univ fun w : Fin (pcfg (F := F) 0).W =>
        iprop(∃ G, ⌜(rds R ft f2 O W 0 c).ArrAt w n G⌝ ∗ ((pcfg (F := F) 0).win w).arr.view.loc (c.tc : Thread nD τ) ↦[((pcfg (F := F) 0).win w).arr.view.set]{(rds R ft f2 O W 0 c).share w} G) : sProp 𝕄)
      = bigSep Finset.univ fun w : Fin (pcfg (F := F) 0).W =>
        iprop(∃ G, ⌜(rds R ft f2 O W 0 c).ArrAt w n G⌝ ∗ (((c.tc : Thread nD τ).loc (Pipeline.arrRef (pcfg (F := F) 0).spec w)) ↦{fullShare} G))
      from bigSep_congr fun w _ => by rw [(harr w).set_eq_univ, rd_share R ft f2 O W c w]]
  exact bigSep_W0 _

theorem pad_prefHeld (c : Dev nD) (q) (V) : (Pipeline.prefHeld (pcfgs (F := F) 0).pre c q V : sProp 𝕄) = iprop(emp) := by
  unfold Pipeline.prefHeld
  exact bigSep_empty

/-- The padding call's region. -/
def padSeg (hR : ∀ c t e, R c t (padFetched c (ft c) t e)) (hO : ∀ g, O g none = 0) :
    Pipeline.RDat.RegionSeg (pcfgs (F := F)) adm (rds R ft f2 O W) (none : HIx 1) (defs₀ (F := F)) 𝒱₀ (K (F := F)).L (K (F := F)).lev (0 : Fin 1) where
  win := winFacts0.to₀
  block_pos := block_pos0
  stage_whole := stage_whole0
  K := PEmpty
  osem := fun k => k.elim
  ho := Pipeline.OwnSemFacts.none _
  hbody := fun c => pad_body_obligation (R c) c (ft c) (f2 c) O W 0 (hR c)
  hwaits := fun c => Pipeline.RDat.cellsWaits_intro (pcfg (F := F)) (rds R ft f2 O W) none 0 c fun w s t => (K (F := F)).mayWait_none _ hO
  pre := padPre ft f2 O W
  post := padPost R ft f2 O W
  X := fun _ => iprop(emp)
  Y := fun _ => iprop(emp)
  Z := fun _ => iprop(emp)
  hentry := fun c => by
    have harr : ∀ w, ((pcfg (F := F) 0).spec w).arr.IsWhole := arr_whole0
    rw [Pipeline.RDat.arrays_eq (pcfgs (F := F)) adm (rds R ft f2 O W) 0 c harr (rd_share R ft f2 O W c), bigSep_W0, pad_prefHeld]
    unfold padPre
    iintro ⟨⟨Ht, H2, Ho⟩, -, -⟩
    imodintro
    isplitl [Ht H2]
    · isplitl [Ht]
      · iexact Ht
      · iexact H2
    isplitr; · iempintro
    isplitl [Ho]
    · iexists W; isplitr; · ipureintro; exact Set.subset_union_left
      iexact Ho
    isplitr <;> iempintro
  hin := fun c => by iintro -; iempintro
  hout := fun c => by
    rw [scopedRest0_eq, Pipeline.ownSems0_none]
    iintro -; isplitr; · iempintro
    isplitr <;> iempintro
  hexit := fun c => by
    rw [rd_arraysAt]
    iintro ⟨⟨⟨%G0, %hG0, H0⟩, ⟨%G1, %hG1, H1⟩⟩, ⟨%W', %hW', Ho⟩, -, -⟩
    imodintro
    unfold padPost
    iexists G1
    isplitr; · ipureintro; exact hG1
    rw [(rds R ft f2 O W 0 c).ArrAt_in (0 : Fin 2) rfl] at hG0
    subst hG0
    isplitl [H0]; · iexact H0
    isplitl [H1]; · iexact H1
    iexists W'
    isplitr
    · ipureintro
      intro p hp
      rcases hW' hp with h | ⟨w, s, rfl⟩
      · exact .inl h
      · exact .inr rfl
    iexact Ho

end Region

end Cert.Proof.KB

end
-- ==== Proof.PadCallKB.lean ====
/-
  The padding call's step inside @main on the TensorCore, under the SparseCore launch's body table: the region's program
  is the pipeline library's, lifted, and its rule the library's region rule at this call's record.
-/
import proofs.«208090_g83872121356401_cont_sun_m_474_43_alg».proof.Proof.PadRegionKB

noncomputable section

namespace Cert.Proof.KB

open Cert.Kernel Cert.Kernel.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable [FloatOps F]

section Call

variable (R : Dev nD → Fin cfg0.N → (S20000x128.Idx → Elt F .f32) → Prop)
  (ft : (c : Dev nD) → Buf (Elt F) ((T c : Thread nD τ).loc main_arg1))
  (f2 : (c : Dev nD) → Buf (Elt F) ((T c : Thread nD τ).loc main_v2))
  (O : CellTallies nD τ sig (HIx 1)) (W : Waits sig (HIx 1))

/-- From the level facts, the staging cells' launch state, the region boundary and the entry state, the custom call runs
    to the boundary and the exit state for the continuation. -/
theorem pad_call [∀ e, Nonempty (Elt F e)] (hR : ∀ c t e, R c t (padFetched c (ft c) t e)) (hO : ∀ g, O g none = 0) (d : Dev nD)
    {α : Type} (k : PUnit → Prog (TpuEff nD τ sig (Elt F) (SparseCore.Sig (ΛP (F := F)) 1) .tc) α) (Φ : α → sProp 𝕄) :
    iprop(levAts (K (F := F)).L (K (F := F)).lev ∗ padGhost (F := F) d ∗ boundary (T d : Thread nD τ) ∗ padPre ft f2 O W d
        ∗ (iprop(boundary (T d : Thread nD τ) ∗ padPost R ft f2 O W d)
            -∗ wp frame (wpE ((K (F := F)).defs D) 𝒱 (T d : Thread nD τ) none) Set.univ (k ⟨⟩) Φ))
      ⊢ wp frame (wpE ((K (F := F)).defs D) 𝒱 (T d : Thread nD τ) none) Set.univ
          (Prog.lift (.customCall (SparseCore.inner (Pipeline.entry 0)) ()) >>= k) Φ := by
  rw [wp_bind]
  rw [show (Prog.lift (.customCall (SparseCore.inner (Pipeline.entry 0)) ()) : Prog (TpuEff nD τ sig (Elt F) (SparseCore.Sig (ΛP (F := F)) 1) .tc) PUnit)
      = SparseCore.liftProg (Prog.lift (.customCall (Pipeline.entry 0) ())) from rfl]
  iintro ⟨#Hla, Hg, Hbd, Hpre, Hk⟩
  unfold padGhost
  icases Hg with ⟨Hc, Ht⟩
  iapply ((K (F := F)).wp_liftProg D 𝒱 (T d) Set.univ none (Prog.lift (.customCall (Pipeline.entry 0) ())) _)
  have hwp := Pipeline.RDat.RegionSeg.wp (pcfgs (F := F)) adm (rds R ft f2 O W) none cellOf_inj EP defs₀ 𝒱₀
    (K (F := F)).L (K (F := F)).lev (padSeg R ft f2 O W hR hO) d none (fun u hu => by cases hu) (fun x => .ret x)
    (fun a => wp frame (wpE ((K (F := F)).defs D) 𝒱 (T d : Thread nD τ) none) Set.univ (k a) Φ)
  rw [show (padSeg R ft f2 O W hR hO).pre d = padPre ft f2 O W d from rfl,
    show (padSeg R ft f2 O W hR hO).post d = padPost R ft f2 O W d from rfl] at hwp
  iapply hwp
  isplitl [Hk]
  · iintro H
    rw [wp_ret]
    imodintro
    iapply Hk
    iexact H
  isplitl [Hbd]; · iexact Hbd
  isplitl [Hpre]; · iexact Hpre
  isplitr; · iexact Hla
  isplitl [Hc]
  · iexact Hc
  · iexact Ht

end Call

/-- The same from what @main holds at the call on device `d`: the table at its contents in `m`, the result array at
    any contents, the TensorCore owing `O` (nothing at the loop's index) with `W` recorded. The continuation receives the
    table unchanged, the result array at some contents it may hold after the fifty write-backs, and the TensorCore owing
    the same, every newly recorded pair at the loop's index. -/
theorem pad_region_of [∀ e, Nonempty (Elt F e)] (m : (ℓ : Loc nD τ sig) → Buf (Elt F) ℓ)
    (R : Dev nD → Fin cfg0.N → (S20000x128.Idx → Elt F .f32) → Prop)
    (hR : ∀ c t e, R c t (padFetched c (m ((T c : Thread nD τ).loc main_arg1)) t e)) (d : Dev nD)
    {α : Type} (k : PUnit → Prog (TpuEff nD τ sig (Elt F) (SparseCore.Sig (ΛP (F := F)) 1) .tc) α) (Φ : α → sProp 𝕄)
    (O : CellTallies nD τ sig (HIx 1)) (W : Waits sig (HIx 1)) (hO : ∀ g, O g none = 0) :
    iprop(levAts (K (F := F)).L (K (F := F)).lev ∗ padGhost (F := F) d ∗ boundary (T d : Thread nD τ) ∗ owes (T d : Thread nD τ) O W
        ∗ ((T d : Thread nD τ).loc main_arg1 ↦{fullShare} m ((T d : Thread nD τ).loc main_arg1))
        ∗ (∃ f, ((T d : Thread nD τ).loc main_v2 ↦{fullShare} f))
        ∗ (∀ (f fp : Buf (Elt F) ((T d : Thread nD τ).loc main_v2)),
            ⌜(rd (R d) d (m ((T d : Thread nD τ).loc main_arg1)) f O W 0).ArrAt (1 : Fin 2) cfg0.N fp⌝
            -∗ iprop(boundary (T d : Thread nD τ) ∗ (∃ W' : Waits sig (HIx 1), ⌜∀ p ∈ W', p ∈ W ∨ p.2 = none⌝ ∗ owes (T d : Thread nD τ) O W')
              ∗ ((T d : Thread nD τ).loc main_arg1 ↦{fullShare} m ((T d : Thread nD τ).loc main_arg1))
              ∗ ((T d : Thread nD τ).loc main_v2 ↦{fullShare} fp))
            -∗ wp frame (wpE ((K (F := F)).defs D) 𝒱 (T d : Thread nD τ) none) Set.univ (k ⟨⟩) Φ))
      ⊢ wp frame (wpE ((K (F := F)).defs D) 𝒱 (T d : Thread nD τ) none) Set.univ
          (Prog.lift (.customCall (SparseCore.inner (Pipeline.entry 0)) ()) >>= k) Φ := by
  iintro ⟨#Hla, Hg, Hbd, Ho, Ht, ⟨%f, H2⟩, Hk⟩
  -- the result array's entry contents on every device: `f` on `d`, anything elsewhere
  have hf2 : (fun c : Dev nD => if h : c = d then (h ▸ f : Buf (Elt F) ((T c : Thread nD τ).loc main_v2)) else Classical.arbitrary _) d = f := by
    simp only [dif_pos]
  iapply (pad_call R (fun c => m ((T c : Thread nD τ).loc main_arg1))
    (fun c : Dev nD => if h : c = d then (h ▸ f : Buf (Elt F) ((T c : Thread nD τ).loc main_v2)) else Classical.arbitrary _) O W hR hO d k Φ)
  isplitr; · iexact Hla
  isplitl [Hg]; · iexact Hg
  isplitl [Hbd]; · iexact Hbd
  isplitl [Ho Ht H2]
  · unfold padPre
    rw [hf2]
    isplitl [Ht]; · iexact Ht
    isplitl [H2]; · iexact H2
    iexact Ho
  iintro ⟨Hbd, Hpost⟩
  unfold padPost
  icases Hpost with ⟨%fp, %hfp, Ht, H2, HW⟩
  unfold rds at hfp
  rw [hf2] at hfp
  iapply Hk $$ %f %fp %hfp
  isplitl [Hbd]; · iexact Hbd
  isplitl [HW]; · iexact HW
  isplitl [Ht]; · iexact Ht
  iexact H2

/-- The call's step with nothing said of the result array's contents. -/
theorem pad_region_frame [∀ e, Nonempty (Elt F e)] (m : (ℓ : Loc nD τ sig) → Buf (Elt F) ℓ) (d : Dev nD)
    {α : Type} (k : PUnit → Prog (TpuEff nD τ sig (Elt F) (SparseCore.Sig (ΛP (F := F)) 1) .tc) α) (Φ : α → sProp 𝕄)
    (O : CellTallies nD τ sig (HIx 1)) (W : Waits sig (HIx 1)) (hO : ∀ g, O g none = 0) :
    iprop(levAts (K (F := F)).L (K (F := F)).lev ∗ padGhost (F := F) d ∗ boundary (T d : Thread nD τ) ∗ owes (T d : Thread nD τ) O W
        ∗ ((T d : Thread nD τ).loc main_arg1 ↦{fullShare} m ((T d : Thread nD τ).loc main_arg1))
        ∗ (∃ f, ((T d : Thread nD τ).loc main_v2 ↦{fullShare} f))
        ∗ (∀ (fp : Buf (Elt F) ((T d : Thread nD τ).loc main_v2)),
            iprop(boundary (T d : Thread nD τ) ∗ (∃ W' : Waits sig (HIx 1), ⌜∀ p ∈ W', p ∈ W ∨ p.2 = none⌝ ∗ owes (T d : Thread nD τ) O W')
              ∗ ((T d : Thread nD τ).loc main_arg1 ↦{fullShare} m ((T d : Thread nD τ).loc main_arg1))
              ∗ ((T d : Thread nD τ).loc main_v2 ↦{fullShare} fp))
            -∗ wp frame (wpE ((K (F := F)).defs D) 𝒱 (T d : Thread nD τ) none) Set.univ (k ⟨⟩) Φ))
      ⊢ wp frame (wpE ((K (F := F)).defs D) 𝒱 (T d : Thread nD τ) none) Set.univ
          (Prog.lift (.customCall (SparseCore.inner (Pipeline.entry 0)) ()) >>= k) Φ := by
  iintro ⟨#Hla, Hg, Hbd, Ho, Ht, H2, Hk⟩
  iapply (pad_region_of m (fun _ _ _ => True) (fun _ _ _ => trivial) d k Φ O W hO)
  isplitr; · iexact Hla
  isplitl [Hg]; · iexact Hg
  isplitl [Hbd]; · iexact Hbd
  isplitl [Ho]; · iexact Ho
  isplitl [Ht]; · iexact Ht
  isplitl [H2]; · iexact H2
  iintro %f %fp %_ H
  iapply Hk $$ %fp
  iexact H

end Cert.Proof.KB

end
-- ==== Proof.PadValueKB.lean ====
/-
  The padding call's value: the result's staging block at each point agrees with the table's block on the table's
  hundred columns, and so, write-back after write-back, does the padded table with the table.
-/
import proofs.«208090_g83872121356401_cont_sun_m_474_43_alg».proof.Proof.PadDatKB
import proofs.«208090_g83872121356401_cont_sun_m_474_43_alg».proof.Proof.PayKB
import Idealize.ShloMosaic.Lib.ValueIdx
import Idealize.ShloMosaic.Lib.Pipeline.Value

noncomputable section

namespace Cert.Proof.KB

open Cert.Kernel Cert.Kernel.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

open Idealize.ShloMosaic.ValueIdx

/-! ## Where the blocks sit -/

theorem lt50 (t : Fin cfg0.N) : t.val < 50 := lt_of_lt_of_eq t.isLt N_0

/-- Block `u` of either window starts at row `20000 u`, column 0; the table's is cut to its hundred columns. -/
theorem pad_index0 : ∀ u : Fin grid0.N, win0_0.index u 0 = u.val ∧ win0_0.index u 1 = 0 := by decide +kernel
theorem pad_index1 : ∀ u : Fin grid0.N, win0_1.index u 0 = u.val ∧ win0_1.index u 1 = 0 := by decide +kernel
theorem pad_xsize0 : ∀ u : Fin grid0.N, win0_0.xsize (grid0.coords u) 0 = 20000 ∧ win0_0.xsize (grid0.coords u) 1 = 100 := by
  decide +kernel

/-- A staging block agrees with the table's block `t` on the table's hundred columns. -/
def padR (ft : (⟨2, ![1000000, 100]⟩ : Shape).Idx → Elt F .f32) (t : Fin cfg0.N) (X : S20000x128.Idx → Elt F .f32) : Prop :=
  ∀ (r : Fin 20000) (c : Fin 100),
    X (ix2 r ⟨c.val, by omega⟩) = ft (ix2 ⟨20000 * t.val + r.val, by have := lt50 t; omega⟩ c)

/-! ## One block, one write-back, all fifty -/

/-- The table's block at point `t`, read at an index of its part inside the table. -/
theorem read_blk0 (d : Dev nD) (ft : Buf (Elt F) ((T d : Thread nD τ).loc main_arg1)) (t : Fin cfg0.N)
    (y : (win0_0.xblock (grid0.coords t)).Idx) (r : Fin 20000) (c : Fin 100) (h0 : (y 0).val = r.val) (h1 : (y 1).val = c.val) :
    (win0_0.blk t).view.read (Elt F) ft y = ft (ix2 ⟨20000 * t.val + r.val, by have := lt50 t; omega⟩ c) := by
  rw [View.read_apply]
  refine (eq_of_heq (cast_heq _ _)).trans (congrArg ft ?_)
  funext a
  apply Fin.ext
  have hv : ∀ a, (((win0_0.blk t).view.emb y) a : Nat) = win0_0.index t a * win0_0.size a + y a := fun a => win0_0.rect_emb_val t y a
  match a with
  | ⟨0, _⟩ =>
    refine (hv 0).trans ?_
    rw [(pad_index0 t).1, h0]
    show t.val * 20000 + r.val = 20000 * t.val + r.val
    omega
  | ⟨1, _⟩ =>
    refine (hv 1).trans ?_
    rw [(pad_index0 t).2, h1]
    show 0 * 128 + c.val = c.val
    omega

/-- What the table's staging buffer holds after the fetch at point `t` agrees with the table's block on the table's
    columns, whatever the overwrite before the fetch left on the overhang. -/
theorem padR_fetched (d : Dev nD) (ft : Buf (Elt F) ((T d : Thread nD τ).loc main_arg1)) (t : Fin cfg0.N) (e : S20000x128.Idx → Elt F .f32) :
    padR ft t (padFetched d ft t e) := by
  intro r c
  have hm : win0_0.moved (grid0.coords t) (ix2 r ⟨c.val, by omega⟩ : S20000x128.Idx) = true :=
    (win0_0.moved_iff _ _).mpr fun a => by
      match a with
      | ⟨0, _⟩ => exact lt_of_lt_of_eq r.isLt (pad_xsize0 t).1.symm
      | ⟨1, _⟩ => exact lt_of_lt_of_eq c.isLt (pad_xsize0 t).2.symm
  unfold padFetched Pipeline.Window.fill
  rw [dif_pos hm]
  exact read_blk0 d ft t _ r c rfl rfl

/-- The result array after the write-back of point `u`, read at an index: under the block's rows what the staging
    buffer held, elsewhere what the array held. -/
theorem write_blk1 (d : Dev nD) (G₀ : Buf (Elt F) ((T d : Thread nD τ).loc main_v2)) (u : Fin cfg0.N) (X : S20000x128.Idx → Elt F .f32)
    (r : Fin 1000000) (c : Fin 128) :
    (win0_1.blk u).view.write (Elt F) G₀ (win0_1.cut (grid0.coords u) X) Finset.univ (ix2 r c)
      = if h : 20000 * u.val ≤ r.val ∧ r.val < 20000 * u.val + 20000 then X (ix2 ⟨r.val - 20000 * u.val, by omega⟩ c) else G₀ (ix2 r c) := by
  have hv : ∀ (y : (win0_1.xblock (grid0.coords u)).Idx) a, (((win0_1.blk u).view.emb y) a : Nat) = win0_1.index u a * win0_1.size a + y a :=
    fun y a => win0_1.rect_emb_val u y a
  split
  · next h =>
    have hy : (win0_1.blk u).view.emb (ix2 ⟨r.val - 20000 * u.val, by omega⟩ c : (win0_1.xblock (grid0.coords u)).Idx) = ix2 r c := by
      funext a
      apply Fin.ext
      match a with
      | ⟨0, _⟩ =>
        refine (hv _ 0).trans ?_
        rw [(pad_index1 u).1]
        show u.val * 20000 + (r.val - 20000 * u.val) = r.val
        omega
      | ⟨1, _⟩ =>
        refine (hv _ 1).trans ?_
        rw [(pad_index1 u).2]
        show 0 * 128 + c.val = c.val
        omega
    conv_lhs => rw [← hy, View.write_emb_of_mem _ _ (Finset.mem_univ _)]
    exact eq_of_heq (cast_heq _ _)
  · next h =>
    refine View.write_of_not_mem _ _ _ fun hmem => h ?_
    rw [View.setOn_univ] at hmem
    obtain ⟨y, hy⟩ := View.exists_emb_of_mem_set _ hmem
    have h0 := hv y 0
    rw [hy, (pad_index1 u).1] at h0
    have hlt : (y 0).val < 20000 := (y 0).isLt
    have h0' : r.val = u.val * 20000 + (y 0).val := h0
    omega

/-- After the write-backs below `n` the result array agrees with the table on the table's columns of the rows below
    `20000 n`: each write-back lays the staging block, which agrees with the table's block there, under its rows. -/
theorem pad_arrAt (d : Dev nD) (ft : Buf (Elt F) ((T d : Thread nD τ).loc main_arg1)) (f2 : Buf (Elt F) ((T d : Thread nD τ).loc main_v2))
    (O : CellTallies nD τ sig (HIx 1)) (W : Waits sig (HIx 1)) :
    ∀ n, n ≤ 50 → ∀ G : Buf (Elt F) ((T d : Thread nD τ).loc main_v2), (rd (padR ft) d ft f2 O W 0).ArrAt (1 : Fin 2) n G →
      ∀ (r : Fin 1000000) (c : Fin 100), r.val < 20000 * n → G (ix2 r ⟨c.val, by omega⟩) = ft (ix2 r c)
  | 0, _, _, _, r, _, hr => absurd hr (by omega)
  | n + 1, hn, G, hG, r, c, hr => by
    have hs := (rd (padR ft) d ft f2 O W 0).ArrAt_succ (1 : Fin 2) ⟨n, lt_of_lt_of_eq (by omega : n < 50) N_0.symm⟩
    rw [show (⟨n, lt_of_lt_of_eq (by omega : n < 50) N_0.symm⟩ : Fin cfg0.N).val + 1 = n + 1 from rfl, if_pos (flush0_1 _)] at hs
    rw [hs] at hG
    obtain ⟨G₀, X, hG₀, ⟨Y, -, hYX⟩, rfl⟩ := hG
    have hX : padR ft ⟨n, lt_of_lt_of_eq (by omega : n < 50) N_0.symm⟩ X := hYX
    refine (write_blk1 d G₀ ⟨n, lt_of_lt_of_eq (by omega : n < 50) N_0.symm⟩ X r ⟨c.val, by omega⟩).trans ?_
    split
    · next h =>
      have h' : 20000 * n ≤ r.val ∧ r.val < 20000 * n + 20000 := h
      refine (hX ⟨r.val - 20000 * n, by omega⟩ c).trans (congrArg ft ?_)
      funext a
      apply Fin.ext
      match a with
      | ⟨0, _⟩ => show 20000 * n + (r.val - 20000 * n) = r.val; omega
      | ⟨1, _⟩ => rfl
    · next h =>
      exact pad_arrAt d ft f2 O W n (by omega) G₀ hG₀ r c (by
        have h' : ¬(20000 * n ≤ r.val ∧ r.val < 20000 * n + 20000) := h
        omega)

/-- So after all fifty the padded table agrees with the table on its hundred columns. -/
theorem padOK_of_arrAt (d : Dev nD) (ft : Buf (Elt F) ((T d : Thread nD τ).loc main_arg1)) (f2 fp : Buf (Elt F) ((T d : Thread nD τ).loc main_v2))
    (O : CellTallies nD τ sig (HIx 1)) (W : Waits sig (HIx 1)) (h : (rd (padR ft) d ft f2 O W 0).ArrAt (1 : Fin 2) cfg0.N fp) :
    PadOK ft fp := fun r c =>
  pad_arrAt d ft f2 O W 50 le_rfl fp (by rw [show cfg0.N = 50 from N_0] at h; exact h) r c (by have := r.isLt; omega)

end Cert.Proof.KB

end
-- ==== Proof.PadStepKB.lean ====
/-
  The padding call's step inside @main with its value: after it the padded table agrees with the table on the table's
  hundred columns.
-/
import proofs.«208090_g83872121356401_cont_sun_m_474_43_alg».proof.Proof.PadCallKB
import proofs.«208090_g83872121356401_cont_sun_m_474_43_alg».proof.Proof.PadValueKB

noncomputable section

namespace Cert.Proof.KB

open Cert.Kernel Cert.Kernel.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable [FloatOps F]

/-- On the TensorCore of `d`, under the SparseCore launch's body table: from the level facts, the staging cells' launch
    state, the region boundary, the TensorCore owing `O` (nothing at the loop's index) with `W` recorded, the table at its
    contents in `m` and the result array at any contents, the custom call runs; the continuation receives the boundary,
    the TensorCore owing the same with every newly recorded pair at the loop's index, the table unchanged, and the result
    array at contents that agree with the table on its hundred columns. -/
theorem pad_region [∀ e, Nonempty (Elt F e)] (m : (ℓ : Loc nD τ sig) → Buf (Elt F) ℓ) (d : Dev nD)
    {α : Type} (k : PUnit → Prog (TpuEff nD τ sig (Elt F) (SparseCore.Sig (ΛP (F := F)) 1) .tc) α) (Φ : α → sProp 𝕄)
    (O : CellTallies nD τ sig (HIx 1)) (W : Waits sig (HIx 1)) (hO : ∀ g, O g none = 0) :
    iprop(levAts (K (F := F)).L (K (F := F)).lev ∗ padGhost (F := F) d ∗ boundary (T d : Thread nD τ) ∗ owes (T d : Thread nD τ) O W
        ∗ ((T d : Thread nD τ).loc main_arg1 ↦{fullShare} m ((T d : Thread nD τ).loc main_arg1))
        ∗ (∃ f, ((T d : Thread nD τ).loc main_v2 ↦{fullShare} f))
        ∗ (∀ (fp : Buf (Elt F) ((T d : Thread nD τ).loc main_v2)), ⌜PadOK (m ((T d : Thread nD τ).loc main_arg1)) fp⌝
            -∗ iprop(boundary (T d : Thread nD τ) ∗ (∃ W' : Waits sig (HIx 1), ⌜∀ p ∈ W', p ∈ W ∨ p.2 = none⌝ ∗ owes (T d : Thread nD τ) O W')
              ∗ ((T d : Thread nD τ).loc main_arg1 ↦{fullShare} m ((T d : Thread nD τ).loc main_arg1))
              ∗ ((T d : Thread nD τ).loc main_v2 ↦{fullShare} fp))
            -∗ wp frame (wpE ((K (F := F)).defs D) 𝒱 (T d : Thread nD τ) none) Set.univ (k ⟨⟩) Φ))
      ⊢ wp frame (wpE ((K (F := F)).defs D) 𝒱 (T d : Thread nD τ) none) Set.univ
          (Prog.lift (.customCall (SparseCore.inner (Pipeline.entry 0)) ()) >>= k) Φ := by
  iintro ⟨#Hla, Hg, Hbd, Ho, Ht, H2, Hk⟩
  iapply (pad_region_of m (fun c => padR (m ((T c : Thread nD τ).loc main_arg1))) (fun c t e => padR_fetched c _ t e) d k Φ O W hO)
  isplitr; · iexact Hla
  isplitl [Hg]; · iexact Hg
  isplitl [Hbd]; · iexact Hbd
  isplitl [Ho]; · iexact Ho
  isplitl [Ht]; · iexact Ht
  isplitl [H2]; · iexact H2
  iintro %f %fp %hfp H
  iapply Hk $$ %fp %(padOK_of_arrAt d _ f fp O W hfp)
  iexact H

end Cert.Proof.KB

end
-- ==== Proof.LaunchKB.lean ====
/-
  The launch of the lookup program.  A SparseCore is handed its sixteen tiles' shares and hands back their results;
  the launch element funds the handshakes and the padding call's staging cells; @main on the TensorCore transposes and
  flattens the index array into the row-number list, runs the padding call, hands the list, the padded table and the
  result array to the tiles and takes the result back, keeps its first 100 columns and regroups them into the
  lookup.  With the tiles' obligation as a hypothesis this gives the program's run.
-/
import proofs.«208090_g83872121356401_cont_sun_m_474_43_alg».proof.Proof.LaunchHostKB
import proofs.«208090_g83872121356401_cont_sun_m_474_43_alg».proof.Proof.HostValueKB
import proofs.«208090_g83872121356401_cont_sun_m_474_43_alg».proof.Proof.LaunchSplitKB
import proofs.«208090_g83872121356401_cont_sun_m_474_43_alg».proof.Proof.PreKB
import proofs.«208090_g83872121356401_cont_sun_m_474_43_alg».proof.Proof.PreOpen
import proofs.«208090_g83872121356401_cont_sun_m_474_43_alg».proof.Proof.PadStepKB

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)

variable {F : FTy → Type}

local notation "𝕄" => MT nD τ sig (HIx 1) (Elt F) ℕ UU ℕ

variable (m : (ℓ : Loc nD τ sig) → Buf (Elt F) ℓ) (ρ : Dev nD → PrngReg)

/-! ## How a SparseCore's operands split among its tiles -/

/-- A SparseCore is handed exactly its sixteen tiles' shares and hands back exactly their results. -/
theorem vecSplit : (K (F := F)).VecSplit' (P m) 0 := by
  intro d c
  have e1 : (P m).st 0 d c = bigSep Finset.univ fun i : Fin ((K (F := F)).nSub 0) => (P m).go 0 d c i := rfl
  have e2 : (P m).dn 0 d c = bigSep Finset.univ fun i : Fin ((K (F := F)).nSub 0) => (P m).td 0 d c i := rfl
  rw [e1, e2]
  iintro H; imodintro
  isplitl [H]; · iexact H
  iintro H; iexact H

/-! ## The launch element -/

section Elem

variable (padU₀ : UP) (padGhost : Dev nD → sProp (MT nD τ sig (HIx 1) (Elt F) ℕ UU ℕ))

/-- The handshakes' rounds, the padding call's staging cells' element, and no counter. -/
def u₀ : UU := (initOf (K (F := F)).hsCells (K (F := F)).hsToks, (padU₀, (1 : Counters)))

theorem bigSep_emp' {I : Type} (s : Finset I) : (bigSep s fun _ => iprop(emp)) = (iprop(emp) : sProp 𝕄) := bigSep_emp_const s

theorem hu₀ (hfund : (BI.own (EP padU₀) : sProp 𝕄) ⊢ iprop(|==> bigSep Finset.univ fun d : Dev nD => padGhost d)) :
    (ownU (u₀ (F := F) padU₀) : sProp 𝕄)
    ⊢ |={Set.univ}=> iprop(BI.own (EH (initOf (K (F := F)).hsCells (K (F := F)).hsToks)) ∗ (bigSep Finset.univ fun d : Dev nD => padGhost d)
        ∗ bigSep Finset.univ fun thr : Thread nD τ => bigSep Finset.univ fun q : Fin 1 => (P m).x q thr) := by
  unfold u₀
  iintro Hu
  ihave H := (ownU_split₁ _ _) $$ Hu
  icases H with ⟨HH, HR⟩
  ihave HP := (own_rest_split _ _) $$ HR
  imod hfund $$ HP with HG
  imodintro
  isplitl [HH]; · iexact HH
  isplitl [HG]; · iexact HG
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end Elem

/-! ## What @main leaves the claim -/

/-- The arguments as they were, and the result at the lookup. -/
abbrev FIN (d : Dev nD) : sProp 𝕄 :=
  iprop((a0Loc d ↦{fullShare} m (a0Loc d)) ∗ (a1Loc d ↦{fullShare} m (a1Loc d))
    ∗ ((SparseCore.T d).loc main_v5 ↦{fullShare} Cert.Proof.Spec.out (m (a0Loc d)) (m (a1Loc d))))

def fq (d : Dev nD) (s' : Phys nD τ sig (Elt F)) : Prop :=
  s'.mem.mem ((SparseCore.T d).loc main_v5) = Cert.Proof.Spec.out (m (a0Loc d)) (m (a1Loc d))
    ∧ s'.mem.mem (a0Loc d) = m (a0Loc d) ∧ s'.mem.mem (a1Loc d) = m (a1Loc d)

theorem hfin (d : Dev nD) (s' : Phys nD τ sig (Elt F)) : iprop(FIN m d ∗ SI s') ⊢ (⌜fq m d s'⌝ : sProp 𝕄) := by
  iintro ⟨⟨H0, H1, H5⟩, HSI⟩
  ihave H := (persistent_entails_right (SI_pointsTo_agree (st := s') (ℓ := a0Loc d) (I := Finset.univ) (q := fullShare) (f := m (a0Loc d)))) $$ [HSI H0]
  · isplitl [HSI] <;> iassumption
  icases H with ⟨%h0, HSI, -⟩
  ihave H := (persistent_entails_right (SI_pointsTo_agree (st := s') (ℓ := a1Loc d) (I := Finset.univ) (q := fullShare) (f := m (a1Loc d)))) $$ [HSI H1]
  · isplitl [HSI] <;> iassumption
  icases H with ⟨%h1, HSI, -⟩
  ihave H := (SI_pointsTo_agree (st := s') (ℓ := (SparseCore.T d).loc main_v5) (I := Finset.univ) (q := fullShare)
    (f := Cert.Proof.Spec.out (m (a0Loc d)) (m (a1Loc d)))) $$ [HSI H5]
  · isplitl [HSI] <;> iassumption
  icases H with %h5
  ipureintro
  exact ⟨funext fun i => h5 i (Finset.mem_univ i), funext fun i => h0 i (Finset.mem_univ i), funext fun i => h1 i (Finset.mem_univ i)⟩

variable [FloatOps F]

section Main

variable (padGhost : Dev nD → sProp (MT nD τ sig (HIx 1) (Elt F) ℕ UU ℕ))

theorem Otc_none (d : Dev nD) (g : GSem nD τ sig) : (K (F := F)).Otc d 0 g none = 0 := by
  by_contra h
  have := (K (F := F)).lev_of_Otc_pos (Nat.pos_of_ne_zero h)
  rw [SparseCore.Cfg.lev_none] at this
  omega

/-- The TensorCore's state before a call, but what it owes. -/
def tcRest (d : Dev nD) (n : ℕ) : sProp 𝕄 :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom n) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))

theorem tcSt_eq (d : Dev nD) (n : ℕ) :
    ((K (F := F)).tcSt EH d n : sProp 𝕄)
      = iprop((∃ W, ⌜(K (F := F)).WBelow (T d) W (8 * n)⌝ ∗ owes (T d) ((K (F := F)).Otc d n) W) ∗ tcRest (F := F) d n) := rfl

/-- The four host operations of @main. -/
abbrev op1 : HloOp τ sig (Elt F) :=
  StableHlo.unary main_arg0 main_v0 ((transpose S50x4096 [1, 0] · transposes_S4096x50_S50x4096_1_0) : (⟨S4096x50, .i32⟩ : BufTy).Contents (Elt F) → (⟨S50x4096, .i32⟩ : BufTy).Contents (Elt F))
abbrev op2 : HloOp τ sig (Elt F) := StableHlo.reshape main_v0 main_v1 rfl shapeCasts_S50x4096_S204800
abbrev op3 : HloOp τ sig (Elt F) :=
  StableHlo.unary main_v3 main_v4 ((extractStridedSlice S204800x100 ![0, 0] · slices_S204800x128_S204800x100_0_0) : (⟨S204800x128, .f32⟩ : BufTy).Contents (Elt F) → (⟨S204800x100, .f32⟩ : BufTy).Contents (Elt F))
abbrev op4 : HloOp τ sig (Elt F) := StableHlo.reshape main_v4 main_v5 rfl shapeCasts_S204800x100_S50x1x4096x100

theorem hmain
    (hpad : ∀ (κ : GSem nD τ sig → ℕ) (d : Dev nD) (k : PUnit → Prog (TpuEff nD τ sig (Elt F) (SparseCore.Sig (ΛP (F := F)) 1) .tc) PUnit)
      (Φ : PUnit → sProp 𝕄) (O : CellTallies nD τ sig (HIx 1)) (W : Waits sig (HIx 1)), (∀ g, O g none = 0) →
        iprop(levAts (K (F := F)).L (K (F := F)).lev ∗ padGhost d ∗ boundary (T d) ∗ owes (T d) O W ∗ (a1Loc d ↦{fullShare} m (a1Loc d)) ∗ (∃ f, tLoc d ↦{fullShare} f)
            ∗ (∀ fp, ⌜PadOK (m (a1Loc d)) fp⌝ -∗ boundary (T d) ∗ (∃ W', ⌜∀ p ∈ W', p ∈ W ∨ p.2 = none⌝ ∗ owes (T d) O W') ∗ (a1Loc d ↦{fullShare} m (a1Loc d)) ∗ (tLoc d ↦{fullShare} fp)
                  -∗ wp frame (wpE ((K (F := F)).defs (D (F := F))) 𝒱 (T d) none) Set.univ (k ⟨⟩) Φ))
          ⊢ wp frame (wpE ((K (F := F)).defs (D (F := F))) 𝒱 (T d) none) Set.univ (Prog.lift (.customCall (SparseCore.inner (Pipeline.entry 0)) ()) >>= k) Φ)
    (hsplit : ∀ (d : Dev nD) (fp : Buf (Elt F) (tLoc d)), PadOK (m (a1Loc d)) fp →
      iprop((iLoc d ↦{fullShare} idxArr (m (a0Loc d))) ∗ (tLoc d ↦{fullShare} fp) ∗ (oLoc d ↦{fullShare} m (oLoc d)))
        ⊢ (bigSep Finset.univ fun c : Fin ((K (F := F)).nCore 0) => (P m).st 0 d c : sProp 𝕄))
    (hjoin : ∀ d : Dev nD, (bigSep Finset.univ fun c : Fin ((K (F := F)).nCore 0) => (P m).dn 0 d c : sProp 𝕄)
        ⊢ iprop(∃ f3 : Buf (Elt F) (oLoc d), ⌜∀ y, GoodAt (idxArr (m (a0Loc d))) (m (a1Loc d)) f3 y⌝ ∗ oLoc d ↦{fullShare} f3))
    (κ : GSem nD τ sig → ℕ) (d : Dev nD) :
    iprop((K (F := F)).ctx EH (P m) κ ∗ (K (F := F)).tcSt EH d 0 ∗ (K (F := F)).tcRes m ρ d ∗ padGhost d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq, tcSt_eq]
  unfold main
  iintro ⟨#Hctx, ⟨⟨%W, %hW, HO⟩, Hrest⟩, ⟨Hb, ⟨H0, H1, Hv0, Hv1, Hv2, Hv3, Hv4, Hv5⟩, -, -⟩, HG⟩
  -- the transpose
  rw [wp_bind]
  iapply (wp_host2 d (x := main_arg0) (y := main_v0) (by decide) (op1 (F := F)) rfl rfl (fun b => m (d, b))
    (m (a0Loc d)) (m ((SparseCore.T d).loc main_v0)) (transpose S50x4096 [1, 0] (m (a0Loc d)) transposes_S4096x50_S50x4096_1_0)
    (fun V h => by rw [StableHlo.unary_result, h])
    (fun V => StableHlo.unary_result_ne main_arg0 main_v0 _ _ _ V (r := main_arg0) (by decide)) 𝒱 none) $$ [Hb H0 Hv0]
  · isplitl [Hb]; · iexact Hb
    isplitl [H0]; · iexact H0
    iexact Hv0
  iintro %r1 ⟨Hb, H0, Hv0⟩
  rw [wp_ret]; imodintro
  -- the flattening: the row-number list
  rw [wp_bind]
  iapply (wp_host2 d (x := main_v0) (y := main_v1) (by decide) (op2 (F := F)) rfl rfl (fun b => m (d, b))
    (transpose S50x4096 [1, 0] (m (a0Loc d)) transposes_S4096x50_S50x4096_1_0) (m (iLoc d)) (idxArr (m (a0Loc d)))
    (fun V h => by rw [StableHlo.reshape_result, h]; exact idxArr_eq _ _ _)
    (fun V => StableHlo.reshape_result_ne main_v0 main_v1 _ _ _ _ V (r := main_v0) (by decide)) 𝒱 none) $$ [Hb Hv0 Hv1]
  · isplitl [Hb]; · iexact Hb
    isplitl [Hv0]; · iexact Hv0
    iexact Hv1
  iintro %r2 ⟨Hb, Hv0, Hv1⟩
  rw [wp_ret]; imodintro
  -- the padding call
  iapply (hpad κ d _ _ ((K (F := F)).Otc d 0) W (Otc_none d))
  isplitr
  · iapply (SparseCore.Cfg.ctx_levAts (K := K (F := F)) (EH := EH) (P := P m) κ); iexact Hctx
  isplitl [HG]; · iexact HG
  isplitl [Hb]; · iexact Hb
  isplitl [HO]; · iexact HO
  isplitl [H1]; · iexact H1
  isplitl [Hv2]; · iexists _; iexact Hv2
  iintro %fp %hfp ⟨Hb, ⟨%W', %hW', HO⟩, H1, Hv2⟩
  have hWB : (K (F := F)).WBelow (T d) W' (8 * 0) := fun p hp => (hW' p hp).elim (hW p) fun h => by
    rw [h, SparseCore.Cfg.lev_none]
  -- the SparseCore call
  rw [wp_bind]
  iapply ((K (F := F)).wp_run (D (F := F)) 𝒱 (EH := EH) (P := P m) κ d 0)
  isplitr; · iexact Hctx
  isplitl [HO Hrest]
  · rw [tcSt_eq]
    isplitl [HO]
    · iexists W'; isplitr
      · ipureintro; exact hWB
      iexact HO
    iexact Hrest
  isplitl [Hv1 Hv2 Hv3]
  · iapply (hsplit d fp hfp)
    isplitl [Hv1]; · iexact Hv1
    isplitl [Hv2]; · iexact Hv2
    iexact Hv3
  iintro ⟨Hst, Hdn⟩
  ihave Hj := (hjoin d) $$ Hdn
  icases Hj with ⟨%f3, %hgood, Hv3⟩
  -- the first 100 columns
  rw [wp_bind]
  iapply (wp_host2 d (x := main_v3) (y := main_v4) (by decide) (op3 (F := F)) rfl rfl (fun b => m (d, b))
    f3 (m ((SparseCore.T d).loc main_v4)) (extractStridedSlice S204800x100 ![0, 0] f3 slices_S204800x128_S204800x100_0_0)
    (fun V h => by rw [StableHlo.unary_result, h])
    (fun V => StableHlo.unary_result_ne main_v3 main_v4 _ _ _ V (r := main_v3) (by decide)) 𝒱 none) $$ [Hb Hv3 Hv4]
  · isplitl [Hb]; · iexact Hb
    isplitl [Hv3]; · iexact Hv3
    iexact Hv4
  iintro %r3 ⟨Hb, Hv3, Hv4⟩
  rw [wp_ret]; imodintro
  -- the regrouping: the lookup
  rw [wp_bind]
  iapply (wp_host2 d (x := main_v4) (y := main_v5) (by decide) (op4 (F := F)) rfl rfl (fun b => m (d, b))
    (extractStridedSlice S204800x100 ![0, 0] f3 slices_S204800x128_S204800x100_0_0) (m ((SparseCore.T d).loc main_v5))
    (Cert.Proof.Spec.out (m (a0Loc d)) (m (a1Loc d)))
    (fun V h => by rw [StableHlo.reshape_result, h]; exact final_eq _ _ _ _ _ (fun y _ hy => hgood y hy))
    (fun V => StableHlo.reshape_result_ne main_v4 main_v5 _ _ _ _ V (r := main_v4) (by decide)) 𝒱 none) $$ [Hb Hv4 Hv5]
  · isplitl [Hb]; · iexact Hb
    isplitl [Hv4]; · iexact Hv4
    iexact Hv5
  iintro %r4 ⟨Hb, Hv4, Hv5⟩
  rw [wp_ret]; imodintro
  rw [wp_pure]; imodintro
  isplitl [Hst]; · iexact Hst
  isplitl [H0]; · iexact H0
  isplitl [H1]; · iexact H1
  iexact Hv5

end Main

/-! ## The program's run -/

/-- The precondition gives the index range the tiles' proof asks: a word between 0 and 999999 as a signed number is
    that number as an unsigned one. -/
theorem preOK_of_pre [FloatOps F]
    (h : ∀ d : Dev nD, Cert.Pre_input_domain.fn (F := F) (m (a0Loc d)) (m (a1Loc d)) = fun _ => 1#1) : PreOK m := by
  intro d b l
  obtain ⟨h0, h1⟩ := Cert.Proof.PreOpen.range (F := F) (m (a0Loc d)) (m (a1Loc d)) (h d) b l
  have h2 := BitVec.toInt_eq_toNat_cond (m (a0Loc d) (ix2 b l))
  have h3 := (m (a0Loc d) (ix2 b l)).isLt
  show (m (a0Loc d) (ix2 b l)).toNat ≤ 999999
  split at h2 <;> omega

/-- From a memory whose index array names table rows, given the tiles' obligation: every weakly fair execution of the
    program terminates, the result at the lookup of the argument arrays, the arguments unchanged. -/
theorem run_main [FloatOps F] [∀ e, Nonempty (Elt F e)] (hpre : PreOK m)
    (htile : (K (F := F)).TileObl (D (F := F)) 𝒱 (P m) v₀ 0) :
    θ_run (Cert.Kernel.defs (F := F)) (Cert.Kernel.threads (F := F)) ⟨m, fun _ => 0, ρ⟩ (fun r => ∀ c : Dev nD,
      r.2.mem ((c.tc : Thread nD τ).loc main_v5)
          = Cert.Proof.Spec.out (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  SparseCore.Cfg.θ_run_sc (K := K (F := F)) (D := D (F := F)) (𝒱 := 𝒱) (EH := EH) (P := P m) facts v₀
    (fun q hq => match q with | 0 => nomatch hq)
    (fun q _ => match q with | 0 => htile)
    (fun q _ => match q with | 0 => SparseCore.Cfg.VecSplit.of_plain (vecSplit m))
    m ρ main (padGhost (F := F)) (FIN m) (u₀ (F := F) (padU₀ (F := F)))
    (sep_elim_left.trans (hu₀ m (padU₀ (F := F)) (padGhost (F := F)) pad_fund))
    (hmain m ρ (padGhost (F := F)) (fun _ d k Φ O W hO => pad_region m d k Φ O W hO) (split_st m) (join_dn m))
    (fq m) (hfin m) _ (fun _ h c => h c)

end Cert.Proof.KB

end
-- ==== Proof.LibRowBlocks.lean ====
/-
  LibRowBlocks — a two-axis array cut into blocks of whole rows, read and written at coordinates.

  An array of shape A × C is seen as A rows of C entries.  The BLOCK WINDOW of `n` rows from row `g` is the unit-stride
  slice of sizes n × C at offsets (g, 0): its entry (a, c) is the array's (g + a, c) (`unit2_emb`, `emb_blkWin2`), so it
  covers exactly the entries whose row number lies in [g, g + n) (`unit2_set`, `set_blkWin2`), a read through it reads the
  array at (g + a, c) (`read_blkWin2`), and a write through it on every index puts the payload's (a, c) at (g + a, c)
  (`read_write_blkWin2`).  The offsets are any function `off` with `off 0 = g` and `off 1 = 0`.

  Beside them, two facts about iterated separating conjunctions: one over a list mapped through a function is the one over
  the list of the composed family (`bigSepL_map`), and one over a finite type may be re-indexed along a bijection
  (`bigSep_equiv`).
-/
import Idealize.ShloMosaic.Lib.Transfers
import Idealize.ShloMosaic.Lib.ValueIdx
import Idealize.ShloMosaic.Lib.Pipeline.Kit

noncomputable section

namespace Idealize.ShloMosaic.RowBlocks

open Idealize.ShloMosaic Idealize.ShloMosaic.ValueIdx

/-! ## Indices and element sets -/

section Sets

variable {A C : ℕ}

/-- The entries of a block of `n` whole rows from row `g`: the indices whose row number is in `[g, g + n)`. -/
theorem unit2_set {off : Fin 2 → ℕ} {n : ℕ} (g : ℕ)
    (h : ∀ a, off a + (![n, C] : Fin 2 → ℕ) a ≤ (⟨2, ![A, C]⟩ : Shape).size a) (h0 : off 0 = g) (h1 : off 1 = 0) :
    (Rect.unit (s := ⟨2, ![A, C]⟩) off ![n, C] h).set
      = Finset.univ.filter fun i : (⟨2, ![A, C]⟩ : Shape).Idx => g ≤ (i 0).val ∧ (i 0).val < g + n := by
  ext i
  rw [Rect.mem_set_unit, Finset.mem_filter]
  simp only [Finset.mem_univ, true_and]
  constructor
  · intro hh
    have h00 : off 0 ≤ (i 0).val ∧ (i 0).val < off 0 + n := hh 0
    rw [h0] at h00; exact h00
  · intro hh a
    match a with
    | ⟨0, _⟩ => show off 0 ≤ (i 0).val ∧ (i 0).val < off 0 + n; rw [h0]; exact hh
    | ⟨1, _⟩ =>
      have hc : (i 1).val < C := (i 1).isLt
      show off 1 ≤ (i 1).val ∧ (i 1).val < off 1 + C; omega

/-- A block of `n` whole rows from row `g` places its index `(a, c)` at `(g + a, c)`. -/
theorem unit2_emb {off : Fin 2 → ℕ} {n : ℕ} (g : ℕ)
    (h : ∀ a, off a + (![n, C] : Fin 2 → ℕ) a ≤ (⟨2, ![A, C]⟩ : Shape).size a) (h0 : off 0 = g) (h1 : off 1 = 0)
    (a : Fin n) (c : Fin C) (ha : g + a.val < A) :
    (Rect.unit (s := ⟨2, ![A, C]⟩) off ![n, C] h).emb (ix2 a c) = ix2 ⟨g + a.val, ha⟩ c := by
  funext d; refine Fin.ext ?_
  match d with
  | ⟨0, _⟩ => show off 0 + 1 * a.val = g + a.val; omega
  | ⟨1, _⟩ => show off 1 + 1 * c.val = c.val; omega

end Sets

/-! ## The block window of a two-axis array -/

section Window

variable {sig : RefSig} {κ : Kind} {sp : Space} {e : EltTy} {A C : ℕ} {Val : EltTy → Type}

/-- The `n` rows from row `off 0` of a two-axis array: the slice of sizes `n × C`. -/
abbrev blkWin2 (M : Memref sig κ sp ⟨2, ![A, C]⟩ e) (off : Fin 2 → ℕ) (n : ℕ)
    (h : ∀ a, off a + (![n, C] : Fin 2 → ℕ) a ≤ (⟨2, ![A, C]⟩ : Shape).size a) : Memref sig κ sp ⟨2, ![n, C]⟩ e :=
  M.slice (Rect.unit (s := ⟨2, ![A, C]⟩) off ![n, C] h) (fun _ => rfl)

variable (M : Memref sig κ sp ⟨2, ![A, C]⟩ e) {off : Fin 2 → ℕ} {n : ℕ} (g : ℕ)

/-- Where the block window's entry `(a, c)` sits: at the array's `(g + a, c)`. -/
theorem emb_blkWin2 (h : ∀ a, off a + (![n, C] : Fin 2 → ℕ) a ≤ (⟨2, ![A, C]⟩ : Shape).size a) (h0 : off 0 = g) (h1 : off 1 = 0)
    (a : Fin n) (c : Fin C) (ha : g + a.val < A) :
    (blkWin2 M off n h).view.emb (ix2 a c) = M.view.emb (ix2 ⟨g + a.val, ha⟩ c) := by
  show M.view.emb ((Rect.unit (s := ⟨2, ![A, C]⟩) off ![n, C] h).emb (ix2 a c)) = _
  rw [unit2_emb g h h0 h1 a c ha]

/-- The block window's entries: the array's at the indices whose row number is in `[g, g + n)`. -/
theorem set_blkWin2 (h : ∀ a, off a + (![n, C] : Fin 2 → ℕ) a ≤ (⟨2, ![A, C]⟩ : Shape).size a) (h0 : off 0 = g) (h1 : off 1 = 0) :
    (blkWin2 M off n h).view.set
      = M.view.setOn (Finset.univ.filter fun j : (⟨2, ![A, C]⟩ : Shape).Idx => g ≤ (j 0).val ∧ (j 0).val < g + n) := by
  show (M.view.slice (Rect.unit (s := ⟨2, ![A, C]⟩) off ![n, C] h)).set = _
  rw [View.set_slice, unit2_set g h h0 h1]; rfl

/-- Reading the block window at `(a, c)` is reading the array at `(g + a, c)`. -/
theorem read_blkWin2 (h : ∀ a, off a + (![n, C] : Fin 2 → ℕ) a ≤ (⟨2, ![A, C]⟩ : Shape).size a) (h0 : off 0 = g) (h1 : off 1 = 0)
    (f : M.view.ty.Contents Val) (a : Fin n) (c : Fin C) (ha : g + a.val < A) :
    (blkWin2 M off n h).view.read Val f (ix2 a c) = M.view.read Val f (ix2 ⟨g + a.val, ha⟩ c) := by
  rw [View.read_apply, View.read_apply, emb_blkWin2 M g h h0 h1 a c ha]

/-- Written through the block window on every index, the array reads the payload's `(a, c)` at `(g + a, c)`. -/
theorem read_write_blkWin2 (h : ∀ a, off a + (![n, C] : Fin 2 → ℕ) a ≤ (⟨2, ![A, C]⟩ : Shape).size a) (h0 : off 0 = g) (h1 : off 1 = 0)
    (f : M.view.ty.Contents Val) (p : (⟨2, ![n, C]⟩ : Shape).Idx → Val e) (a : Fin n) (c : Fin C) (ha : g + a.val < A) :
    M.view.read Val ((blkWin2 M off n h).view.write Val f p Finset.univ) (ix2 ⟨g + a.val, ha⟩ c) = p (ix2 a c) := by
  rw [View.read_apply, ← emb_blkWin2 M g h h0 h1 a c ha, View.write_emb_of_mem _ _ (Finset.mem_univ _), cast_cast, cast_eq]

end Window

/-! ## Iterated separating conjunctions re-indexed -/

section BigSep

open Idealize.SL Idealize.SL.BI Idealize.SL.RA

variable {M : Type} [URA M]

/-- The chain over a list mapped through `f` is the chain over the list of the family composed with `f`. -/
theorem bigSepL_map {I J : Type} (f : I → J) (l : List I) (Φ : J → sProp M) :
    bigSepL (l.map f) Φ = bigSepL l (fun i => Φ (f i)) := by
  induction l with
  | nil => rfl
  | cons i l ih => rw [List.map_cons, bigSepL_cons, bigSepL_cons, ih]

/-- A conjunction over a finite type, re-indexed along a bijection. -/
theorem bigSep_equiv {α β : Type} [Fintype α] [Fintype β] [DecidableEq α] [DecidableEq β] (e : α ≃ β) (Φ : β → sProp M) :
    bigSep Finset.univ Φ = bigSep Finset.univ fun a : α => Φ (e a) := by
  rw [← Finset.map_univ_equiv e, bigSep_map]; rfl

end BigSep

end Idealize.ShloMosaic.RowBlocks

end
-- ==== Proof.LibWindows.lean ====
/-
  ROW WINDOWS OF A THREE-AXIS ARRAY, read and written at coordinates.

  An array of shape A × B × C is seen as A rows, each a B × C matrix. Windows on it are described by coordinates, for
  ANY memref M of that shape: what M itself reads, writes and covers is expressed through M's own view, and for a whole
  buffer these are the buffer's contents, indices and elements themselves (`View.read_whole`, `View.write_whole_univ`,
  `setOn_whole`, `emb_whole_apply`).

  * The ROW WINDOW — the unit-stride slice of sizes 1 × B × C at offsets (g, 0, 0) with its leading axis of size one
    dropped, a B × C memref: its element (r, c) is the array's (g, r, c) (`emb_rowWin`), so it covers the elements whose
    leading coordinate is g (`set_rowWin`), reads the array at (g, r, c) (`read_rowWin`), and a write through it puts
    the payload's (r, c) at (g, r, c) and leaves every other row alone (`read_write_rowWin`, `read_write_rowWin_of_ne`).

  * The BLOCK WINDOW — the unit-stride slice of sizes n × B × C at offsets (g, 0, 0): its element (a, r, c) is the
    array's (g + a, r, c) (`emb_blkWin`, `set_blkWin`, `read_blkWin`, `read_write_blkWin`,
    `read_write_blkWin_of_not_mem`).

  * The same for a ONE-AXIS array of length A and its slice of n elements from g (`emb_blkWin1`, `set_blkWin1`,
    `read_blkWin1`, `read_write_blkWin1`, `read_write_blkWin1_of_not_mem`).

  * A LOAD OR STORE THROUGH A UNIT-STRIDE RECTANGLE of sizes n0 × n1 × n2 at offsets (t, r, c0): index (a, b, c) of the
    rectangle is the array's (t + a, r + b, c0 + c) (`unit3_emb`, `readAt_unit3`, `read_write_unit3`,
    `set_access_unit3`), in particular a piece of n consecutive elements of one row of one matrix (`readAt_unit_row`).

  Then the array's points-to assertion is cut along the leading axis: into its A rows (`pointsTo_rows`), or, when
  A = n * m, into n blocks of m consecutive rows (`pointsTo_blocks`; block w is the rows [w * m, w * m + m),
  `blockIdx_eq`); pieces held at different contents are joined back into the array at some contents agreeing with each
  piece on its rows (`pointsTo_rows_join`, `pointsTo_blocks_join`). Both are instances of cutting a view's index set into
  the fibres of a function (`pointsTo_fibres`, `pointsTo_fibres_join`). For a whole buffer the view's elements are all
  the elements of its location (`pointsTo_univ_eq_set`; the `_whole` forms).

  The offsets are any function `off` with `off 0 = g`, `off 1 = 0`, `off 2 = 0` (for offsets written as a literal vector
  the three equations hold by `rfl`).
-/
import Idealize.ShloMosaic.Lib.Transfers
import Idealize.ShloMosaic.Lib.ValueIdx

noncomputable section

namespace Idealize.ShloMosaic.Windows

open Idealize.ShloMosaic Idealize.ShloMosaic.ValueIdx

/-! ## Indices -/

section Index

variable {A B C : ℕ}

/-- Dropping the leading axis of size one: the index `(r, c)` of the `B × C` shape is matched with `(0, r, c)` of `1 × B × C`
    (both sit at row-major position `r * C + c`). -/
theorem reshape_ix2 (h : (⟨2, ![B, C]⟩ : Shape).numel = (⟨3, ![1, B, C]⟩ : Shape).numel) (r : Fin B) (c : Fin C) :
    Shape.reshapeEquiv h (ix2 r c) = ix3 (⟨0, Nat.one_pos⟩ : Fin 1) r c := by
  refine Shape.reshapeEquiv_eq_of_rowMajor h ?_
  rw [Shape.rowMajor_val_three, Shape.rowMajor_val_two]
  show ((0 * B + r.val) * C + c.val) = r.val * C + c.val
  rw [Nat.zero_mul, Nat.zero_add]

/-- A unit-stride rectangle of sizes `n0 × n1 × n2` at offsets `(t, r, c0)` places its index `(a, b, c)` at
    `(t + a, r + b, c0 + c)`. -/
theorem unit3_emb {off : Fin 3 → ℕ} {n0 n1 n2 : ℕ} (t r c0 : ℕ)
    (h : ∀ a, off a + (![n0, n1, n2] : Fin 3 → ℕ) a ≤ (⟨3, ![A, B, C]⟩ : Shape).size a)
    (h0 : off 0 = t) (h1 : off 1 = r) (h2 : off 2 = c0) (a : Fin n0) (b : Fin n1) (c : Fin n2)
    (ha : t + a.val < A) (hb : r + b.val < B) (hc : c0 + c.val < C) :
    (Rect.unit (s := ⟨3, ![A, B, C]⟩) off ![n0, n1, n2] h).emb (ix3 a b c)
      = ix3 ⟨t + a.val, ha⟩ ⟨r + b.val, hb⟩ ⟨c0 + c.val, hc⟩ := by
  funext d; refine Fin.ext ?_
  match d with
  | ⟨0, _⟩ => show off 0 + 1 * a.val = t + a.val; omega
  | ⟨1, _⟩ => show off 1 + 1 * b.val = r + b.val; omega
  | ⟨2, _⟩ => show off 2 + 1 * c.val = c0 + c.val; omega

/-- A unit-stride block of `n` whole rows from row `g` places its index `(a, r, c)` at `(g + a, r, c)`. -/
theorem unit_emb_ix3 {off : Fin 3 → ℕ} {n : ℕ} (g : ℕ)
    (h : ∀ a, off a + (![n, B, C] : Fin 3 → ℕ) a ≤ (⟨3, ![A, B, C]⟩ : Shape).size a)
    (h0 : off 0 = g) (h1 : off 1 = 0) (h2 : off 2 = 0) (a : Fin n) (r : Fin B) (c : Fin C) (ha : g + a.val < A) :
    (Rect.unit (s := ⟨3, ![A, B, C]⟩) off ![n, B, C] h).emb (ix3 a r c) = ix3 ⟨g + a.val, ha⟩ r c := by
  funext d; refine Fin.ext ?_
  match d with
  | ⟨0, _⟩ => show off 0 + 1 * a.val = g + a.val; omega
  | ⟨1, _⟩ => show off 1 + 1 * r.val = r.val; omega
  | ⟨2, _⟩ => show off 2 + 1 * c.val = c.val; omega

/-- A unit-stride run of `n` elements from element `g` of a one-axis shape places its index `a` at `g + a`. -/
theorem unit1_emb {off : Fin 1 → ℕ} {n : ℕ} (g : ℕ)
    (h : ∀ a, off a + (![n] : Fin 1 → ℕ) a ≤ (⟨1, ![A]⟩ : Shape).size a)
    (h0 : off 0 = g) (a : Fin n) (ha : g + a.val < A) :
    (Rect.unit (s := ⟨1, ![A]⟩) off ![n] h).emb (ix1 a) = ix1 ⟨g + a.val, ha⟩ := by
  funext d; refine Fin.ext ?_
  match d with
  | ⟨0, _⟩ => show off 0 + 1 * a.val = g + a.val; omega

end Index

/-! ## Element sets -/

section Sets

variable {A B C : ℕ}

/-- The elements of a block of `n` whole rows from row `g`: the indices whose leading coordinate is in `[g, g + n)`. -/
theorem unit_set_rows {off : Fin 3 → ℕ} {n : ℕ} (g : ℕ)
    (h : ∀ a, off a + (![n, B, C] : Fin 3 → ℕ) a ≤ (⟨3, ![A, B, C]⟩ : Shape).size a)
    (h0 : off 0 = g) (h1 : off 1 = 0) (h2 : off 2 = 0) :
    (Rect.unit (s := ⟨3, ![A, B, C]⟩) off ![n, B, C] h).set
      = Finset.univ.filter fun i : (⟨3, ![A, B, C]⟩ : Shape).Idx => g ≤ (i 0).val ∧ (i 0).val < g + n := by
  ext i
  rw [Rect.mem_set_unit, Finset.mem_filter]
  simp only [Finset.mem_univ, true_and]
  constructor
  · intro hh
    have h00 : off 0 ≤ (i 0).val ∧ (i 0).val < off 0 + n := hh 0
    rw [h0] at h00; exact h00
  · intro hh a
    match a with
    | ⟨0, _⟩ => show off 0 ≤ (i 0).val ∧ (i 0).val < off 0 + n; rw [h0]; exact hh
    | ⟨1, _⟩ =>
      have hb : (i 1).val < B := (i 1).isLt
      show off 1 ≤ (i 1).val ∧ (i 1).val < off 1 + B; omega
    | ⟨2, _⟩ =>
      have hc : (i 2).val < C := (i 2).isLt
      show off 2 ≤ (i 2).val ∧ (i 2).val < off 2 + C; omega

/-- The elements of a run of `n` elements from element `g` of a one-axis shape: the indices in `[g, g + n)`. -/
theorem unit1_set {off : Fin 1 → ℕ} {n : ℕ} (g : ℕ)
    (h : ∀ a, off a + (![n] : Fin 1 → ℕ) a ≤ (⟨1, ![A]⟩ : Shape).size a) (h0 : off 0 = g) :
    (Rect.unit (s := ⟨1, ![A]⟩) off ![n] h).set
      = Finset.univ.filter fun j : (⟨1, ![A]⟩ : Shape).Idx => g ≤ (j 0).val ∧ (j 0).val < g + n := by
  ext i
  rw [Rect.mem_set_unit, Finset.mem_filter]
  simp only [Finset.mem_univ, true_and]
  constructor
  · intro hh
    have h00 : off 0 ≤ (i 0).val ∧ (i 0).val < off 0 + n := hh 0
    rw [h0] at h00; exact h00
  · intro hh a
    match a with
    | ⟨0, _⟩ => show off 0 ≤ (i 0).val ∧ (i 0).val < off 0 + n; rw [h0]; exact hh

end Sets

/-! ## Windows of a three-axis array -/

section Windows

variable {sig : RefSig} {κ : Kind} {sp : Space} {e : EltTy} {A B C : ℕ} {Val : EltTy → Type}

/-- Row `off 0` of a three-axis array as a two-axis memref: the slice of sizes `1 × B × C` with its leading axis dropped. -/
abbrev rowWin (M : Memref sig κ sp ⟨3, ![A, B, C]⟩ e) (off : Fin 3 → ℕ)
    (h : ∀ a, off a + (![1, B, C] : Fin 3 → ℕ) a ≤ (⟨3, ![A, B, C]⟩ : Shape).size a)
    (hs : (⟨3, ![1, B, C]⟩ : Shape).Squeezes ⟨2, ![B, C]⟩) : Memref sig κ sp ⟨2, ![B, C]⟩ e :=
  (M.slice (Rect.unit (s := ⟨3, ![A, B, C]⟩) off ![1, B, C] h) (fun _ => rfl)).squeeze ⟨2, ![B, C]⟩ hs

/-- The `n` rows from row `off 0` of a three-axis array: the slice of sizes `n × B × C`. -/
abbrev blkWin (M : Memref sig κ sp ⟨3, ![A, B, C]⟩ e) (off : Fin 3 → ℕ) (n : ℕ)
    (h : ∀ a, off a + (![n, B, C] : Fin 3 → ℕ) a ≤ (⟨3, ![A, B, C]⟩ : Shape).size a) : Memref sig κ sp ⟨3, ![n, B, C]⟩ e :=
  M.slice (Rect.unit (s := ⟨3, ![A, B, C]⟩) off ![n, B, C] h) (fun _ => rfl)

variable (M : Memref sig κ sp ⟨3, ![A, B, C]⟩ e) {off : Fin 3 → ℕ} {n : ℕ} (g : ℕ)

/-- WHERE THE ROW WINDOW'S ELEMENT `(r, c)` SITS: at the array's `(g, r, c)`. -/
theorem emb_rowWin (h : ∀ a, off a + (![1, B, C] : Fin 3 → ℕ) a ≤ (⟨3, ![A, B, C]⟩ : Shape).size a)
    (hs : (⟨3, ![1, B, C]⟩ : Shape).Squeezes ⟨2, ![B, C]⟩) (h0 : off 0 = g) (h1 : off 1 = 0) (h2 : off 2 = 0) (hg : g < A)
    (r : Fin B) (c : Fin C) :
    (rowWin M off h hs).view.emb (ix2 r c) = M.view.emb (ix3 ⟨g, hg⟩ r c) := by
  show M.view.emb ((Rect.unit (s := ⟨3, ![A, B, C]⟩) off ![1, B, C] h).emb (Shape.reshapeEquiv hs.numel_eq (ix2 r c))) = _
  rw [reshape_ix2, unit_emb_ix3 g h h0 h1 h2 ⟨0, Nat.one_pos⟩ r c (by show g + 0 < A; omega)]
  rfl

/-- WHERE THE BLOCK WINDOW'S ELEMENT `(a, r, c)` SITS: at the array's `(g + a, r, c)`. -/
theorem emb_blkWin (h : ∀ a, off a + (![n, B, C] : Fin 3 → ℕ) a ≤ (⟨3, ![A, B, C]⟩ : Shape).size a)
    (h0 : off 0 = g) (h1 : off 1 = 0) (h2 : off 2 = 0) (a : Fin n) (ha : g + a.val < A) (r : Fin B) (c : Fin C) :
    (blkWin M off n h).view.emb (ix3 a r c) = M.view.emb (ix3 ⟨g + a.val, ha⟩ r c) := by
  show M.view.emb ((Rect.unit (s := ⟨3, ![A, B, C]⟩) off ![n, B, C] h).emb (ix3 a r c)) = _
  rw [unit_emb_ix3 g h h0 h1 h2 a r c ha]

/-- READING THE ROW WINDOW at `(r, c)` is reading the array at `(g, r, c)`. -/
theorem read_rowWin (h : ∀ a, off a + (![1, B, C] : Fin 3 → ℕ) a ≤ (⟨3, ![A, B, C]⟩ : Shape).size a)
    (hs : (⟨3, ![1, B, C]⟩ : Shape).Squeezes ⟨2, ![B, C]⟩) (h0 : off 0 = g) (h1 : off 1 = 0) (h2 : off 2 = 0) (hg : g < A)
    (f : M.view.ty.Contents Val) (r : Fin B) (c : Fin C) :
    (rowWin M off h hs).view.read Val f (ix2 r c) = M.view.read Val f (ix3 ⟨g, hg⟩ r c) := by
  rw [View.read_apply, View.read_apply, emb_rowWin M g h hs h0 h1 h2 hg r c]

/-- READING THE BLOCK WINDOW at `(a, r, c)` is reading the array at `(g + a, r, c)`. -/
theorem read_blkWin (h : ∀ a, off a + (![n, B, C] : Fin 3 → ℕ) a ≤ (⟨3, ![A, B, C]⟩ : Shape).size a)
    (h0 : off 0 = g) (h1 : off 1 = 0) (h2 : off 2 = 0) (f : M.view.ty.Contents Val)
    (a : Fin n) (ha : g + a.val < A) (r : Fin B) (c : Fin C) :
    (blkWin M off n h).view.read Val f (ix3 a r c) = M.view.read Val f (ix3 ⟨g + a.val, ha⟩ r c) := by
  rw [View.read_apply, View.read_apply, emb_blkWin M g h h0 h1 h2 a ha r c]

/-- THE BLOCK WINDOW'S ELEMENTS: the array's elements whose leading coordinate is in `[g, g + n)`. -/
theorem set_blkWin (h : ∀ a, off a + (![n, B, C] : Fin 3 → ℕ) a ≤ (⟨3, ![A, B, C]⟩ : Shape).size a)
    (h0 : off 0 = g) (h1 : off 1 = 0) (h2 : off 2 = 0) :
    (blkWin M off n h).view.set
      = M.view.setOn (Finset.univ.filter fun i : (⟨3, ![A, B, C]⟩ : Shape).Idx => g ≤ (i 0).val ∧ (i 0).val < g + n) := by
  show (M.view.slice (Rect.unit (s := ⟨3, ![A, B, C]⟩) off ![n, B, C] h)).set = _
  rw [View.set_slice, unit_set_rows g h h0 h1 h2]; rfl

/-- THE ROW WINDOW'S ELEMENTS: the array's elements whose leading coordinate is `g`. -/
theorem set_rowWin (h : ∀ a, off a + (![1, B, C] : Fin 3 → ℕ) a ≤ (⟨3, ![A, B, C]⟩ : Shape).size a)
    (hs : (⟨3, ![1, B, C]⟩ : Shape).Squeezes ⟨2, ![B, C]⟩) (h0 : off 0 = g) (h1 : off 1 = 0) (h2 : off 2 = 0) :
    (rowWin M off h hs).view.set
      = M.view.setOn (Finset.univ.filter fun i : (⟨3, ![A, B, C]⟩ : Shape).Idx => (i 0).val = g) := by
  show ((M.view.slice (Rect.unit (s := ⟨3, ![A, B, C]⟩) off ![1, B, C] h)).reshape ⟨2, ![B, C]⟩ hs.numel_eq).set = _
  rw [View.set_reshape, View.set_slice, unit_set_rows g h h0 h1 h2]
  show M.view.setOn _ = _
  congr 1
  refine Finset.filter_congr fun i _ => ?_
  omega

/-- WRITTEN THROUGH THE ROW WINDOW on every index, the array reads the payload's `(r, c)` at `(g, r, c)`. -/
theorem read_write_rowWin (h : ∀ a, off a + (![1, B, C] : Fin 3 → ℕ) a ≤ (⟨3, ![A, B, C]⟩ : Shape).size a)
    (hs : (⟨3, ![1, B, C]⟩ : Shape).Squeezes ⟨2, ![B, C]⟩) (h0 : off 0 = g) (h1 : off 1 = 0) (h2 : off 2 = 0) (hg : g < A)
    (f : M.view.ty.Contents Val) (p : (⟨2, ![B, C]⟩ : Shape).Idx → Val e) (r : Fin B) (c : Fin C) :
    M.view.read Val ((rowWin M off h hs).view.write Val f p Finset.univ) (ix3 ⟨g, hg⟩ r c) = p (ix2 r c) := by
  rw [View.read_apply, ← emb_rowWin M g h hs h0 h1 h2 hg r c, View.write_emb_of_mem _ _ (Finset.mem_univ _), cast_cast, cast_eq]

/-- Written through the row window (on any mask), the array reads what it held before at every index off row `g`. -/
theorem read_write_rowWin_of_ne (h : ∀ a, off a + (![1, B, C] : Fin 3 → ℕ) a ≤ (⟨3, ![A, B, C]⟩ : Shape).size a)
    (hs : (⟨3, ![1, B, C]⟩ : Shape).Squeezes ⟨2, ![B, C]⟩) (h0 : off 0 = g) (h1 : off 1 = 0) (h2 : off 2 = 0)
    (f : M.view.ty.Contents Val) (p : (⟨2, ![B, C]⟩ : Shape).Idx → Val e) (M' : Finset (⟨2, ![B, C]⟩ : Shape).Idx)
    (y : (⟨3, ![A, B, C]⟩ : Shape).Idx) (hy : (y 0).val ≠ g) :
    M.view.read Val ((rowWin M off h hs).view.write Val f p M') y = M.view.read Val f y := by
  rw [View.read_apply, View.read_apply, View.write_of_not_mem]
  intro hm
  have hm' := (rowWin M off h hs).view.setOn_subset_set M' hm
  rw [set_rowWin M g h hs h0 h1 h2, View.mem_setOn, Finset.mem_filter] at hm'
  exact hy hm'.2

/-- WRITTEN THROUGH THE BLOCK WINDOW on every index, the array reads the payload's `(a, r, c)` at `(g + a, r, c)`. -/
theorem read_write_blkWin (h : ∀ a, off a + (![n, B, C] : Fin 3 → ℕ) a ≤ (⟨3, ![A, B, C]⟩ : Shape).size a)
    (h0 : off 0 = g) (h1 : off 1 = 0) (h2 : off 2 = 0)
    (f : M.view.ty.Contents Val) (p : (⟨3, ![n, B, C]⟩ : Shape).Idx → Val e) (a : Fin n) (ha : g + a.val < A) (r : Fin B) (c : Fin C) :
    M.view.read Val ((blkWin M off n h).view.write Val f p Finset.univ) (ix3 ⟨g + a.val, ha⟩ r c) = p (ix3 a r c) := by
  rw [View.read_apply, ← emb_blkWin M g h h0 h1 h2 a ha r c, View.write_emb_of_mem _ _ (Finset.mem_univ _), cast_cast, cast_eq]

/-- Written through the block window (on any mask), the array reads what it held before at every index off the rows
    `[g, g + n)`. -/
theorem read_write_blkWin_of_not_mem (h : ∀ a, off a + (![n, B, C] : Fin 3 → ℕ) a ≤ (⟨3, ![A, B, C]⟩ : Shape).size a)
    (h0 : off 0 = g) (h1 : off 1 = 0) (h2 : off 2 = 0)
    (f : M.view.ty.Contents Val) (p : (⟨3, ![n, B, C]⟩ : Shape).Idx → Val e) (M' : Finset (⟨3, ![n, B, C]⟩ : Shape).Idx)
    (y : (⟨3, ![A, B, C]⟩ : Shape).Idx) (hy : ¬ (g ≤ (y 0).val ∧ (y 0).val < g + n)) :
    M.view.read Val ((blkWin M off n h).view.write Val f p M') y = M.view.read Val f y := by
  rw [View.read_apply, View.read_apply, View.write_of_not_mem]
  intro hm
  have hm' := (blkWin M off n h).view.setOn_subset_set M' hm
  rw [set_blkWin M g h h0 h1 h2, View.mem_setOn, Finset.mem_filter] at hm'
  exact hy hm'.2

end Windows

/-! ## A whole buffer through itself -/

section Whole

variable {sig : RefSig} {κ : Kind}

/-- A whole buffer's indices sit at themselves. -/
theorem emb_whole_apply (b : Ref sig κ) (x : b.ty.shape.Idx) : (Memref.whole b).view.emb x = x := rfl

/-- A set of a whole buffer's indices is the same set of its elements. -/
theorem setOn_whole (b : Ref sig κ) (S : Finset b.ty.shape.Idx) : (Memref.whole b).view.setOn S = S := Finset.map_refl

end Whole

/-! ## A run of elements of a one-axis array -/

section OneAxis

variable {sig : RefSig} {κ : Kind} {sp : Space} {e : EltTy} {A : ℕ} {Val : EltTy → Type}

/-- The `n` elements from element `off 0` of a one-axis array: the slice of size `n`. -/
abbrev blkWin1 (M : Memref sig κ sp ⟨1, ![A]⟩ e) (off : Fin 1 → ℕ) (n : ℕ)
    (h : ∀ a, off a + (![n] : Fin 1 → ℕ) a ≤ (⟨1, ![A]⟩ : Shape).size a) : Memref sig κ sp ⟨1, ![n]⟩ e :=
  M.slice (Rect.unit (s := ⟨1, ![A]⟩) off ![n] h) (fun _ => rfl)

variable (M : Memref sig κ sp ⟨1, ![A]⟩ e) {off : Fin 1 → ℕ} {n : ℕ} (g : ℕ)

/-- WHERE THE RUN'S ELEMENT `a` SITS: at the array's `g + a`. -/
theorem emb_blkWin1 (h : ∀ a, off a + (![n] : Fin 1 → ℕ) a ≤ (⟨1, ![A]⟩ : Shape).size a) (h0 : off 0 = g)
    (a : Fin n) (ha : g + a.val < A) :
    (blkWin1 M off n h).view.emb (ix1 a) = M.view.emb (ix1 ⟨g + a.val, ha⟩) := by
  show M.view.emb ((Rect.unit (s := ⟨1, ![A]⟩) off ![n] h).emb (ix1 a)) = _
  rw [unit1_emb g h h0 a ha]

/-- THE RUN'S ELEMENTS: the array's elements at the indices in `[g, g + n)`. -/
theorem set_blkWin1 (h : ∀ a, off a + (![n] : Fin 1 → ℕ) a ≤ (⟨1, ![A]⟩ : Shape).size a) (h0 : off 0 = g) :
    (blkWin1 M off n h).view.set
      = M.view.setOn (Finset.univ.filter fun j : (⟨1, ![A]⟩ : Shape).Idx => g ≤ (j 0).val ∧ (j 0).val < g + n) := by
  show (M.view.slice (Rect.unit (s := ⟨1, ![A]⟩) off ![n] h)).set = _
  rw [View.set_slice, unit1_set g h h0]; rfl

/-- READING THE RUN at `a` is reading the array at `g + a`. -/
theorem read_blkWin1 (h : ∀ a, off a + (![n] : Fin 1 → ℕ) a ≤ (⟨1, ![A]⟩ : Shape).size a) (h0 : off 0 = g)
    (f : M.view.ty.Contents Val) (a : Fin n) (ha : g + a.val < A) :
    (blkWin1 M off n h).view.read Val f (ix1 a) = M.view.read Val f (ix1 ⟨g + a.val, ha⟩) := by
  rw [View.read_apply, View.read_apply, emb_blkWin1 M g h h0 a ha]

/-- WRITTEN THROUGH THE RUN on every index, the array reads the payload's `a` at `g + a`. -/
theorem read_write_blkWin1 (h : ∀ a, off a + (![n] : Fin 1 → ℕ) a ≤ (⟨1, ![A]⟩ : Shape).size a) (h0 : off 0 = g)
    (f : M.view.ty.Contents Val) (p : (⟨1, ![n]⟩ : Shape).Idx → Val e) (a : Fin n) (ha : g + a.val < A) :
    M.view.read Val ((blkWin1 M off n h).view.write Val f p Finset.univ) (ix1 ⟨g + a.val, ha⟩) = p (ix1 a) := by
  rw [View.read_apply, ← emb_blkWin1 M g h h0 a ha, View.write_emb_of_mem _ _ (Finset.mem_univ _), cast_cast, cast_eq]

/-- Written through the run (on any mask), the array reads what it held before at every index off `[g, g + n)`. -/
theorem read_write_blkWin1_of_not_mem (h : ∀ a, off a + (![n] : Fin 1 → ℕ) a ≤ (⟨1, ![A]⟩ : Shape).size a) (h0 : off 0 = g)
    (f : M.view.ty.Contents Val) (p : (⟨1, ![n]⟩ : Shape).Idx → Val e) (M' : Finset (⟨1, ![n]⟩ : Shape).Idx)
    (y : (⟨1, ![A]⟩ : Shape).Idx) (hy : ¬ (g ≤ (y 0).val ∧ (y 0).val < g + n)) :
    M.view.read Val ((blkWin1 M off n h).view.write Val f p M') y = M.view.read Val f y := by
  rw [View.read_apply, View.read_apply, View.write_of_not_mem]
  intro hm
  have hm' := (blkWin1 M off n h).view.setOn_subset_set M' hm
  rw [set_blkWin1 M g h h0, View.mem_setOn, Finset.mem_filter] at hm'
  exact hy hm'.2

end OneAxis

/-! ## A load or a store through a unit-stride rectangle of a three-axis array -/

section Access

variable {sig : RefSig} {κ : Kind} {sp : Space} {e : EltTy} {A B C : ℕ} {Val : EltTy → Type}
variable (M : Memref sig κ sp ⟨3, ![A, B, C]⟩ e) {off : Fin 3 → ℕ} {n0 n1 n2 : ℕ} (t r c0 : ℕ)

/-- A LOAD through the unit-stride rectangle of sizes `n0 × n1 × n2` at offsets `(t, r, c0)` reads, at `(a, b, c)`, the
    array at `(t + a, r + b, c0 + c)`. -/
theorem readAt_unit3 (h : ∀ a, off a + (![n0, n1, n2] : Fin 3 → ℕ) a ≤ (⟨3, ![A, B, C]⟩ : Shape).size a)
    (h0 : off 0 = t) (h1 : off 1 = r) (h2 : off 2 = c0) (f : M.view.ty.Contents Val)
    (a : Fin n0) (b : Fin n1) (c : Fin n2) (ha : t + a.val < A) (hb : r + b.val < B) (hc : c0 + c.val < C) :
    M.view.readAt Val (Rect.unit (s := ⟨3, ![A, B, C]⟩) off ![n0, n1, n2] h).toLoadRect f (ix3 a b c)
      = M.view.read Val f (ix3 ⟨t + a.val, ha⟩ ⟨r + b.val, hb⟩ ⟨c0 + c.val, hc⟩) := by
  rw [View.readAt_apply]
  show M.view.read Val f ((Rect.unit (s := ⟨3, ![A, B, C]⟩) off ![n0, n1, n2] h).emb (ix3 a b c)) = _
  rw [unit3_emb t r c0 h h0 h1 h2 a b c ha hb hc]

/-- A LOAD OF `n` CONSECUTIVE ELEMENTS OF ONE ROW OF ONE MATRIX — the rectangle of sizes `1 × 1 × n` at `(t, r, c0)` — reads,
    at any index `x`, the array at `(t, r, c0 + x 2)`. -/
theorem readAt_unit_row {n : ℕ} (h : ∀ a, off a + (![1, 1, n] : Fin 3 → ℕ) a ≤ (⟨3, ![A, B, C]⟩ : Shape).size a)
    (h0 : off 0 = t) (h1 : off 1 = r) (h2 : off 2 = c0) (f : M.view.ty.Contents Val)
    (x : (⟨3, ![1, 1, n]⟩ : Shape).Idx) (ht : t < A) (hr : r < B) (hc : c0 + (x 2).val < C) :
    M.view.readAt Val (Rect.unit (s := ⟨3, ![A, B, C]⟩) off ![1, 1, n] h).toLoadRect f x
      = M.view.read Val f (ix3 ⟨t, ht⟩ ⟨r, hr⟩ ⟨c0 + (x 2).val, hc⟩) := by
  have hx0 : (x 0).val = 0 := by have : (x 0).val < 1 := (x 0).isLt; omega
  have hx1 : (x 1).val = 0 := by have : (x 1).val < 1 := (x 1).isLt; omega
  have key := readAt_unit3 M t r c0 h h0 h1 h2 f (x 0) (x 1) (x 2) (by omega) (by omega) hc
  refine (congrArg (M.view.readAt Val (Rect.unit (s := ⟨3, ![A, B, C]⟩) off ![1, 1, n] h).toLoadRect f) (eq_ix3 x)).trans (key.trans ?_)
  have e0 : (⟨t + (x 0).val, by omega⟩ : Fin A) = ⟨t, ht⟩ := Fin.ext (by show t + (x 0).val = t; omega)
  have e1 : (⟨r + (x 1).val, by omega⟩ : Fin B) = ⟨r, hr⟩ := Fin.ext (by show r + (x 1).val = r; omega)
  rw [e0, e1]

/-- A STORE through the unit-stride rectangle of sizes `n0 × n1 × n2` at offsets `(t, r, c0)`, on every index: the array
    then reads the payload's `(a, b, c)` at `(t + a, r + b, c0 + c)`. -/
theorem read_write_unit3 (h : ∀ a, off a + (![n0, n1, n2] : Fin 3 → ℕ) a ≤ (⟨3, ![A, B, C]⟩ : Shape).size a)
    (h0 : off 0 = t) (h1 : off 1 = r) (h2 : off 2 = c0) (f : M.view.ty.Contents Val)
    (p : (⟨3, ![n0, n1, n2]⟩ : Shape).Idx → Val e)
    (a : Fin n0) (b : Fin n1) (c : Fin n2) (ha : t + a.val < A) (hb : r + b.val < B) (hc : c0 + c.val < C) :
    M.view.read Val ((M.access (Rect.unit (s := ⟨3, ![A, B, C]⟩) off ![n0, n1, n2] h)).write Val f p Finset.univ)
        (ix3 ⟨t + a.val, ha⟩ ⟨r + b.val, hb⟩ ⟨c0 + c.val, hc⟩) = p (ix3 a b c) := by
  rw [← unit3_emb t r c0 h h0 h1 h2 a b c ha hb hc]
  exact View.read_slice_write_emb (v := M.view) (Rect.unit (s := ⟨3, ![A, B, C]⟩) off ![n0, n1, n2] h) f p (Finset.mem_univ _)

/-- The elements such a store writes: the array's at the indices inside the rectangle on every axis. -/
theorem set_access_unit3 (h : ∀ a, off a + (![n0, n1, n2] : Fin 3 → ℕ) a ≤ (⟨3, ![A, B, C]⟩ : Shape).size a)
    (h0 : off 0 = t) (h1 : off 1 = r) (h2 : off 2 = c0) :
    (M.access (Rect.unit (s := ⟨3, ![A, B, C]⟩) off ![n0, n1, n2] h)).set
      = M.view.setOn (Finset.univ.filter fun i : (⟨3, ![A, B, C]⟩ : Shape).Idx =>
          (t ≤ (i 0).val ∧ (i 0).val < t + n0) ∧ (r ≤ (i 1).val ∧ (i 1).val < r + n1) ∧ (c0 ≤ (i 2).val ∧ (i 2).val < c0 + n2)) := by
  rw [View.set_slice]
  show M.view.setOn _ = _
  congr 1
  ext i
  rw [Rect.mem_set_unit, Finset.mem_filter]
  simp only [Finset.mem_univ, true_and]
  constructor
  · intro hh
    have h00 : off 0 ≤ (i 0).val ∧ (i 0).val < off 0 + n0 := hh 0
    have h11 : off 1 ≤ (i 1).val ∧ (i 1).val < off 1 + n1 := hh 1
    have h22 : off 2 ≤ (i 2).val ∧ (i 2).val < off 2 + n2 := hh 2
    rw [h0] at h00; rw [h1] at h11; rw [h2] at h22
    exact ⟨h00, h11, h22⟩
  · intro hh a
    match a with
    | ⟨0, _⟩ => show off 0 ≤ (i 0).val ∧ (i 0).val < off 0 + n0; rw [h0]; exact hh.1
    | ⟨1, _⟩ => show off 1 ≤ (i 1).val ∧ (i 1).val < off 1 + n1; rw [h1]; exact hh.2.1
    | ⟨2, _⟩ => show off 2 ≤ (i 2).val ∧ (i 2).val < off 2 + n2; rw [h2]; exact hh.2.2

end Access

/-! ## The array's points-to assertion cut along its leading axis -/

section PointsTo

open Idealize.SL
open Idealize.SL.BI (sProp bigSep)
open scoped Idealize.SL.BI
open Idealize.SL.BI.BIBase Idealize.SL.BI.Laws Idealize.SL.ProofMode
open Idealize.SL.RA

variable {nD : Nat} {τ : Topo} {sig : RefSig} {Ix : Type} [DecidableEq Ix]
variable {Val : EltTy → Type} {Name : Type} [DecidableEq Name]
variable {U : Type} [URA U] {Lvl : Type}

local notation "𝕄" => MT nD τ sig Ix Val Name U Lvl

variable (c : Thread nD τ) {sp : Space} {s : Shape} {e : EltTy} (v : View sig c.2.kind sp s e) {q : PosShare TreeShare}

/-- The fibres of a function on a view's indices sit on pairwise disjoint elements, -/
theorem fibres_disjoint {T : Type} (φ : s.Idx → T) (K : T → Finset s.Idx) (hK : ∀ t i, i ∈ K t ↔ φ i = t)
    (S : Finset T) : ∀ t ∈ S, ∀ t' ∈ S, t ≠ t' → Disjoint (v.setOn (K t)) (v.setOn (K t')) := by
  intro t _ t' _ hne
  unfold View.setOn
  rw [Finset.disjoint_map, Finset.disjoint_left]
  intro i h1 h2
  exact hne (((hK t i).mp h1).symm.trans ((hK t' i).mp h2))

/-- and together they are the view's elements. -/
theorem fibres_cover {T : Type} [Fintype T] (φ : s.Idx → T) (K : T → Finset s.Idx) (hK : ∀ t i, i ∈ K t ↔ φ i = t) :
    (Finset.univ : Finset T).biUnion (fun t => v.setOn (K t)) = v.set := by
  ext j
  simp only [Finset.mem_biUnion, Finset.mem_univ, true_and, View.setOn, View.set, Finset.mem_map]
  constructor
  · rintro ⟨t, i, _, rfl⟩; exact ⟨i, rfl⟩
  · rintro ⟨i, rfl⟩; exact ⟨φ i, i, (hK _ i).mpr rfl, rfl⟩

/-- CUT INTO FIBRES: the view's elements, held at one contents, are the fibres' elements held side by side. -/
theorem pointsTo_fibres {T : Type} [Fintype T] (φ : s.Idx → T) (K : T → Finset s.Idx) (hK : ∀ t i, i ∈ K t ↔ φ i = t)
    (f : Buf Val (v.loc c)) :
    (v.loc c ↦[v.set]{q} f : sProp 𝕄) = bigSep Finset.univ fun t : T => v.loc c ↦[v.setOn (K t)]{q} f := by
  rw [← pointsTo_biUnion (ℓ := v.loc c) Finset.univ (fun t : T => v.setOn (K t)) (fibres_disjoint c v φ K hK Finset.univ),
    fibres_cover c v φ K hK]

/-- JOINED BACK: the fibres' elements held at different contents are the view's elements held at some contents that
    agrees with each fibre's on that fibre. -/
theorem pointsTo_fibres_join {T : Type} [Fintype T] (φ : s.Idx → T) (K : T → Finset s.Idx) (hK : ∀ t i, i ∈ K t ↔ φ i = t)
    (fs : T → Buf Val (v.loc c)) (f₀ : Buf Val (v.loc c)) :
    bigSep Finset.univ (fun t : T => v.loc c ↦[v.setOn (K t)]{q} fs t)
      ⊢ (iprop(∃ f, ⌜∀ t, ∀ i ∈ v.setOn (K t), f i = fs t i⌝ ∗ v.loc c ↦[v.set]{q} f) : sProp 𝕄) := by
  refine (pointsTo_biUnion_join (ℓ := v.loc c) Finset.univ (fun t : T => v.setOn (K t)) fs f₀
    (fibres_disjoint c v φ K hK Finset.univ)).trans ?_
  rw [fibres_cover c v φ K hK]
  iintro ⟨%g, %hg, H⟩
  iexists g
  isplitr
  · ipureintro; exact fun t => hg t (Finset.mem_univ t)
  · iexact H

variable {A B C : ℕ} (M : Memref sig c.2.kind sp ⟨3, ![A, B, C]⟩ e)

/-- The indices of row `g`. -/
abbrev rowIdx (A B C g : ℕ) : Finset (⟨3, ![A, B, C]⟩ : Shape).Idx :=
  Finset.univ.filter fun i : (⟨3, ![A, B, C]⟩ : Shape).Idx => (i 0).val = g

/-- The indices of the `w`-th block of `m` consecutive rows. -/
abbrev blockIdx (A B C m w : ℕ) : Finset (⟨3, ![A, B, C]⟩ : Shape).Idx :=
  Finset.univ.filter fun i : (⟨3, ![A, B, C]⟩ : Shape).Idx => (i 0).val / m = w

/-- The `w`-th block of `m` rows is the rows `[w * m, w * m + m)`: the element set of the block window at offset `w * m`. -/
theorem blockIdx_eq {m : ℕ} (hm : 0 < m) (w : ℕ) :
    blockIdx A B C m w
      = Finset.univ.filter fun i : (⟨3, ![A, B, C]⟩ : Shape).Idx => w * m ≤ (i 0).val ∧ (i 0).val < w * m + m := by
  refine Finset.filter_congr fun i _ => ?_
  constructor
  · intro h; subst h; exact ⟨Nat.div_mul_le_self _ _, Nat.lt_div_mul_add hm⟩
  · intro h
    refine Nat.le_antisymm (Nat.lt_succ_iff.mp ((Nat.div_lt_iff_lt_mul hm).mpr ?_)) ((Nat.le_div_iff_mul_le hm).mpr h.1)
    rw [Nat.succ_mul]; exact h.2

/-- THE ARRAY IS ITS ROWS: its elements held at one contents are its `A` rows' elements held side by side. -/
theorem pointsTo_rows (f : Buf Val (M.view.loc c)) :
    (M.view.loc c ↦[M.view.set]{q} f : sProp 𝕄)
      = bigSep Finset.univ fun g : Fin A => M.view.loc c ↦[M.view.setOn (rowIdx A B C g.val)]{q} f :=
  pointsTo_fibres c M.view (fun i : (⟨3, ![A, B, C]⟩ : Shape).Idx => (i 0 : Fin A)) (fun g : Fin A => rowIdx A B C g.val)
    (fun t i => by simp only [Finset.mem_filter, Finset.mem_univ, true_and, Fin.ext_iff]) f

/-- The rows held at different contents are the array held at some contents agreeing with each row's on that row. -/
theorem pointsTo_rows_join (fs : Fin A → Buf Val (M.view.loc c)) (f₀ : Buf Val (M.view.loc c)) :
    bigSep Finset.univ (fun g : Fin A => M.view.loc c ↦[M.view.setOn (rowIdx A B C g.val)]{q} fs g)
      ⊢ (iprop(∃ f, ⌜∀ g : Fin A, ∀ i ∈ M.view.setOn (rowIdx A B C g.val), f i = fs g i⌝ ∗ M.view.loc c ↦[M.view.set]{q} f) : sProp 𝕄) :=
  pointsTo_fibres_join c M.view (fun i : (⟨3, ![A, B, C]⟩ : Shape).Idx => (i 0 : Fin A)) (fun g : Fin A => rowIdx A B C g.val)
    (fun t i => by simp only [Finset.mem_filter, Finset.mem_univ, true_and, Fin.ext_iff]) fs f₀

/-- THE ARRAY IS ITS BLOCKS OF ROWS when `A = n * m`: its elements held at one contents are the elements of its `n` blocks
    of `m` consecutive rows held side by side. -/
theorem pointsTo_blocks (n m : ℕ) (hA : A = n * m) (f : Buf Val (M.view.loc c)) :
    (M.view.loc c ↦[M.view.set]{q} f : sProp 𝕄)
      = bigSep Finset.univ fun w : Fin n => M.view.loc c ↦[M.view.setOn (blockIdx A B C m w.val)]{q} f :=
  pointsTo_fibres c M.view
    (fun i : (⟨3, ![A, B, C]⟩ : Shape).Idx => (⟨(i 0).val / m, Nat.div_lt_of_lt_mul (by
      have hi : (i 0).val < A := (i 0).isLt
      rw [Nat.mul_comm]; omega)⟩ : Fin n))
    (fun w : Fin n => blockIdx A B C m w.val)
    (fun t i => by simp only [Finset.mem_filter, Finset.mem_univ, true_and, Fin.ext_iff]) f

/-- The blocks held at different contents are the array held at some contents agreeing with each block's on that block. -/
theorem pointsTo_blocks_join (n m : ℕ) (hA : A = n * m) (fs : Fin n → Buf Val (M.view.loc c)) (f₀ : Buf Val (M.view.loc c)) :
    bigSep Finset.univ (fun w : Fin n => M.view.loc c ↦[M.view.setOn (blockIdx A B C m w.val)]{q} fs w)
      ⊢ (iprop(∃ f, ⌜∀ w : Fin n, ∀ i ∈ M.view.setOn (blockIdx A B C m w.val), f i = fs w i⌝ ∗ M.view.loc c ↦[M.view.set]{q} f) : sProp 𝕄) :=
  pointsTo_fibres_join c M.view
    (fun i : (⟨3, ![A, B, C]⟩ : Shape).Idx => (⟨(i 0).val / m, Nat.div_lt_of_lt_mul (by
      have hi : (i 0).val < A := (i 0).isLt
      rw [Nat.mul_comm]; omega)⟩ : Fin n))
    (fun w : Fin n => blockIdx A B C m w.val)
    (fun t i => by simp only [Finset.mem_filter, Finset.mem_univ, true_and, Fin.ext_iff]) fs f₀

/-- A whole buffer's elements are all of its location's: what is held of the whole array is held of all its elements. -/
theorem pointsTo_univ_eq_set (hM : M.IsWhole) (f : Buf Val (M.view.loc c)) :
    (M.view.loc c ↦{q} f : sProp 𝕄) = (M.view.loc c ↦[M.view.set]{q} f) :=
  congrArg (fun S => (pointsTo (M.view.loc c) S q f : sProp 𝕄)) hM.set_eq_univ.symm

/-- A whole array is its rows. -/
theorem pointsTo_rows_whole (hM : M.IsWhole) (f : Buf Val (M.view.loc c)) :
    (M.view.loc c ↦{q} f : sProp 𝕄)
      = bigSep Finset.univ fun g : Fin A => M.view.loc c ↦[M.view.setOn (rowIdx A B C g.val)]{q} f :=
  (pointsTo_univ_eq_set c M hM f).trans (pointsTo_rows c M f)

/-- The rows of a whole array held at different contents are the array held at some contents agreeing with each row's
    on that row. -/
theorem pointsTo_rows_join_whole (hM : M.IsWhole) (fs : Fin A → Buf Val (M.view.loc c)) (f₀ : Buf Val (M.view.loc c)) :
    bigSep Finset.univ (fun g : Fin A => M.view.loc c ↦[M.view.setOn (rowIdx A B C g.val)]{q} fs g)
      ⊢ (iprop(∃ f, ⌜∀ g : Fin A, ∀ i ∈ M.view.setOn (rowIdx A B C g.val), f i = fs g i⌝ ∗ M.view.loc c ↦{q} f) : sProp 𝕄) := by
  refine (pointsTo_rows_join c M fs f₀).trans ?_
  iintro ⟨%f, %hf, H⟩
  iexists f
  isplitr
  · ipureintro; exact hf
  · rw [pointsTo_univ_eq_set c M hM f]; iexact H

/-- A whole array of `n * m` rows is its `n` blocks of `m` rows. -/
theorem pointsTo_blocks_whole (hM : M.IsWhole) (n m : ℕ) (hA : A = n * m) (f : Buf Val (M.view.loc c)) :
    (M.view.loc c ↦{q} f : sProp 𝕄)
      = bigSep Finset.univ fun w : Fin n => M.view.loc c ↦[M.view.setOn (blockIdx A B C m w.val)]{q} f :=
  (pointsTo_univ_eq_set c M hM f).trans (pointsTo_blocks c M n m hA f)

/-- The blocks of a whole array held at different contents are the array held at some contents agreeing with each
    block's on that block. -/
theorem pointsTo_blocks_join_whole (hM : M.IsWhole) (n m : ℕ) (hA : A = n * m) (fs : Fin n → Buf Val (M.view.loc c))
    (f₀ : Buf Val (M.view.loc c)) :
    bigSep Finset.univ (fun w : Fin n => M.view.loc c ↦[M.view.setOn (blockIdx A B C m w.val)]{q} fs w)
      ⊢ (iprop(∃ f, ⌜∀ w : Fin n, ∀ i ∈ M.view.setOn (blockIdx A B C m w.val), f i = fs w i⌝ ∗ M.view.loc c ↦{q} f) : sProp 𝕄) := by
  refine (pointsTo_blocks_join c M n m hA fs f₀).trans ?_
  iintro ⟨%f, %hf, H⟩
  iexists f
  isplitr
  · ipureintro; exact hf
  · rw [pointsTo_univ_eq_set c M hM f]; iexact H

end PointsTo

end Idealize.ShloMosaic.Windows

end
-- ==== Proof.TilePrepKI.lean ====
/-
  The tile's view of what it is handed: its run of the row-number list, its chunks of the result and its list buffer cut
  into runs, each as the window the kernel slices; and its own semaphores and buffers taken one by one.
-/
import proofs.«208090_g83872121356401_cont_sun_m_474_43_alg».proof.Proof.PayKI
import proofs.«208090_g83872121356401_cont_sun_m_474_43_alg».proof.Proof.LibRowBlocks
import proofs.«208090_g83872121356401_cont_sun_m_474_43_alg».proof.Proof.LibWindows

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iW" => (Memref.whole Cert.KernelIdeal.main_v1_scv : Memref Cert.KernelIdeal.sig Kind.scVector Space.hbm Cert.KernelIdeal.S204800 EltTy.i32)
local notation "tW" => (Memref.whole Cert.KernelIdeal.main_v2_scv : Memref Cert.KernelIdeal.sig Kind.scVector Space.hbm Cert.KernelIdeal.S1000000x128 EltTy.f32)
local notation "oW" => (Memref.whole Cert.KernelIdeal.main_v3_scv : Memref Cert.KernelIdeal.sig Kind.scVector Space.hbm Cert.KernelIdeal.S204800x128 EltTy.f32)
local notation "s0W" => (Memref.whole Cert.KernelIdeal.cc1_scratch0 : Memref Cert.KernelIdeal.sig Kind.scVector Space.vmem Cert.KernelIdeal.S6400 EltTy.i32)
local notation "s1W" => (Memref.whole Cert.KernelIdeal.cc1_scratch1 : Memref Cert.KernelIdeal.sig Kind.scVector Space.vmem Cert.KernelIdeal.S128x128 EltTy.f32)
local notation "s2W" => (Memref.whole Cert.KernelIdeal.cc1_scratch2 : Memref Cert.KernelIdeal.sig Kind.scVector Space.vmem Cert.KernelIdeal.S128x128 EltTy.f32)

/-! ## The tile and its windows -/

abbrev cV (L : grid1.Coords) : Fin τ.nSC := (L 0).castLE hcore1
abbrev jV (L : grid1.Coords) : Fin τ.nSub := (L 1).castLE hsub1
abbrev thr (d : Dev nD) (L : grid1.Coords) : Thread nD τ := V d (cV L) (jV L)
/-- The tile's number: `2 i + c` at coordinates `(c, i)`. -/
abbrev wOf (L : grid1.Coords) : ℕ := 2 * (L 1).val + (L 0).val

/-- The tile's run of the row-number list, as the kernel slices it. -/
abbrev idxWin (L : grid1.Coords) : Memref sig .scVector .hbm S6400 .i32 :=
  (iW).slice (Rect.unit (s := S204800) (k1_off1 L) S6400.size (k1_off1_inb L)) (fun _ => rfl)
/-- Chunk `r` of the tile's rows of the result, as the kernel slices it. -/
abbrev outWinR (L : grid1.Coords) (r : Fin 50) : Memref sig .scVector .hbm S128x128 .f32 :=
  (oW).slice (Rect.unit (s := S204800x128) (k1_off2 L (BitVec.ofNat 32 (128 * r.val))) S128x128.size (k1_off2_inb L r)) (fun _ => rfl)
theorem listInb (r : Fin 50) : ∀ a, (![128 * r.val] : Fin 1 → ℕ) a + S128.size a ≤ S6400.size a := by
  intro a; have hr := r.isLt
  match a with
  | ⟨0, _⟩ => show 128 * r.val + 128 ≤ 6400; omega
/-- Run `r` of the tile's list buffer, as the kernel slices it. -/
abbrev listWinR (r : Fin 50) : Memref sig .scVector .vmem S128 .i32 :=
  (s0W).slice (Rect.unit (s := S6400) ![128 * r.val] S128.size (listInb r)) (fun _ => rfl)

/-! ## The TensorCore's element sets are the windows' -/

theorem off1_zero (L : grid1.Coords) : k1_off1 L 0 = 6400 * wOf L := by
  rw [k1_off1_eq]; show 12800 * (L 1).val + 6400 * (L 0).val = 6400 * (2 * (L 1).val + (L 0).val); omega
theorem off2_zero (L : grid1.Coords) (r : Fin 50) : k1_off2 L (BitVec.ofNat 32 (128 * r.val)) 0 = 128 * (50 * wOf L + r.val) := by
  rw [k1_off2_eq]; show 12800 * (L 1).val + 6400 * (L 0).val + 128 * r.val = 128 * (50 * (2 * (L 1).val + (L 0).val) + r.val); omega
theorem off2_one (L : grid1.Coords) (r : Fin 50) : k1_off2 L (BitVec.ofNat 32 (128 * r.val)) 1 = 0 := by
  rw [k1_off2_eq]; rfl

theorem set_idxWin (L : grid1.Coords) : (idxWin L).view.set = idxSet (wOf L) := by
  have h := Windows.set_blkWin1 (iW) (6400 * wOf L) (k1_off1_inb L) (off1_zero L)
  rw [Windows.setOn_whole] at h
  exact h
theorem set_outWinR (L : grid1.Coords) (r : Fin 50) : (outWinR L r).view.set = chunkSet (50 * wOf L + r.val) := by
  have h := RowBlocks.set_blkWin2 (oW) (128 * (50 * wOf L + r.val)) (k1_off2_inb L r) (off2_zero L r) (off2_one L r)
  rw [Windows.setOn_whole] at h
  exact h

theorem idx_pts (d : Dev nD) (L : grid1.Coords) (q : PosShare TreeShare) (f : Buf (Elt F) (iLoc d)) :
    (iLoc d ↦[idxSet (wOf L)]{q} f : sProp 𝕄) = ((idxWin L).view.loc (thr d L) ↦[(idxWin L).view.set]{q} f) := by
  rw [set_idxWin]
theorem out_pts (d : Dev nD) (L : grid1.Coords) (r : Fin 50) (q : PosShare TreeShare) (f : Buf (Elt F) (oLoc d)) :
    (oLoc d ↦[chunkSet (50 * wOf L + r.val)]{q} f : sProp 𝕄) = ((outWinR L r).view.loc (thr d L) ↦[(outWinR L r).view.set]{q} f) := by
  rw [set_outWinR]

/-! ## The list buffer cut into its fifty runs -/

/-- The run an entry of the list buffer lies in. -/
def runOf (x : S6400.Idx) : Fin 50 := ⟨(x 0).val / 128, by have h : (x 0).val < 6400 := (x 0).isLt; omega⟩
def runSet (t : Fin 50) : Finset S6400.Idx := Finset.univ.filter fun j => 128 * t.val ≤ (j 0).val ∧ (j 0).val < 128 * t.val + 128
theorem mem_runSet (t : Fin 50) (x : S6400.Idx) : x ∈ runSet t ↔ runOf x = t := by
  unfold runSet runOf
  rw [Finset.mem_filter]
  simp only [Finset.mem_univ, true_and]
  constructor
  · intro h; apply Fin.ext; show (x 0).val / 128 = t.val; omega
  · intro h; have h' : (x 0).val / 128 = t.val := congrArg Fin.val h; omega
theorem set_listWinR (r : Fin 50) : (listWinR r).view.set = runSet r := by
  have h := Windows.set_blkWin1 (s0W) (128 * r.val) (listInb r) rfl
  rw [Windows.setOn_whole] at h
  exact h

theorem list_pts (d : Dev nD) (L : grid1.Coords) (q : PosShare TreeShare) (g : Buf (Elt F) ((s0W).view.loc (thr d L))) :
    ((s0W).view.loc (thr d L) ↦{q} g : sProp 𝕄)
      = bigSep Finset.univ fun r : Fin 50 => ((listWinR r).view.loc (thr d L) ↦[(listWinR r).view.set]{q} g) := by
  have h := Windows.pointsTo_fibres (Ix := HIx 1) (Val := Elt F) (Name := ℕ) (U := UU) (Lvl := ℕ) (thr d L) (s0W).view (q := q) runOf runSet mem_runSet g
  rw [(Memref.isWhole_whole (cc1_scratch0 : Ref sig .scVector)).set_eq_univ] at h
  rw [show ((s0W).view.loc (thr d L) ↦{q} g : sProp 𝕄) = ((s0W).view.loc (thr d L) ↦[Finset.univ]{q} g) from rfl, h]
  refine bigSep_congr fun r _ => ?_
  rw [set_listWinR, Windows.setOn_whole]

end Cert.Proof.KI

end
-- ==== Proof.TileOwnKI.lean ====
/-
  A tile's own semaphores, one by one, and its three scratch buffers among its own buffers.
-/
import proofs.«208090_g83872121356401_cont_sun_m_474_43_alg».proof.Proof.PayKI
import proofs.«208090_g83872121356401_cont_sun_m_474_43_alg».proof.Proof.LibRowBlocks
import proofs.«208090_g83872121356401_cont_sun_m_474_43_alg».proof.Proof.LibWindows
import proofs.«208090_g83872121356401_cont_sun_m_474_43_alg».proof.Proof.TilePrepKI

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iW" => (Memref.whole Cert.KernelIdeal.main_v1_scv : Memref Cert.KernelIdeal.sig Kind.scVector Space.hbm Cert.KernelIdeal.S204800 EltTy.i32)
local notation "tW" => (Memref.whole Cert.KernelIdeal.main_v2_scv : Memref Cert.KernelIdeal.sig Kind.scVector Space.hbm Cert.KernelIdeal.S1000000x128 EltTy.f32)
local notation "oW" => (Memref.whole Cert.KernelIdeal.main_v3_scv : Memref Cert.KernelIdeal.sig Kind.scVector Space.hbm Cert.KernelIdeal.S204800x128 EltTy.f32)
local notation "s0W" => (Memref.whole Cert.KernelIdeal.cc1_scratch0 : Memref Cert.KernelIdeal.sig Kind.scVector Space.vmem Cert.KernelIdeal.S6400 EltTy.i32)
local notation "s1W" => (Memref.whole Cert.KernelIdeal.cc1_scratch1 : Memref Cert.KernelIdeal.sig Kind.scVector Space.vmem Cert.KernelIdeal.S128x128 EltTy.f32)
local notation "s2W" => (Memref.whole Cert.KernelIdeal.cc1_scratch2 : Memref Cert.KernelIdeal.sig Kind.scVector Space.vmem Cert.KernelIdeal.S128x128 EltTy.f32)

/-- A tile's scoped semaphores: all fifty-seven DMA semaphores. -/
def semList : List (SemLoc sig) := [SemLoc.dma (⟨0, by decide⟩ : DmaSem sig), SemLoc.dma (⟨1, by decide⟩ : DmaSem sig), SemLoc.dma (⟨2, by decide⟩ : DmaSem sig), SemLoc.dma (⟨3, by decide⟩ : DmaSem sig), SemLoc.dma (⟨4, by decide⟩ : DmaSem sig), SemLoc.dma (⟨5, by decide⟩ : DmaSem sig), SemLoc.dma (⟨6, by decide⟩ : DmaSem sig), SemLoc.dma (⟨7, by decide⟩ : DmaSem sig), SemLoc.dma (⟨8, by decide⟩ : DmaSem sig), SemLoc.dma (⟨9, by decide⟩ : DmaSem sig), SemLoc.dma (⟨10, by decide⟩ : DmaSem sig), SemLoc.dma (⟨11, by decide⟩ : DmaSem sig), SemLoc.dma (⟨12, by decide⟩ : DmaSem sig), SemLoc.dma (⟨13, by decide⟩ : DmaSem sig), SemLoc.dma (⟨14, by decide⟩ : DmaSem sig), SemLoc.dma (⟨15, by decide⟩ : DmaSem sig), SemLoc.dma (⟨16, by decide⟩ : DmaSem sig), SemLoc.dma (⟨17, by decide⟩ : DmaSem sig), SemLoc.dma (⟨18, by decide⟩ : DmaSem sig), SemLoc.dma (⟨19, by decide⟩ : DmaSem sig), SemLoc.dma (⟨20, by decide⟩ : DmaSem sig), SemLoc.dma (⟨21, by decide⟩ : DmaSem sig), SemLoc.dma (⟨22, by decide⟩ : DmaSem sig), SemLoc.dma (⟨23, by decide⟩ : DmaSem sig), SemLoc.dma (⟨24, by decide⟩ : DmaSem sig), SemLoc.dma (⟨25, by decide⟩ : DmaSem sig), SemLoc.dma (⟨26, by decide⟩ : DmaSem sig), SemLoc.dma (⟨27, by decide⟩ : DmaSem sig), SemLoc.dma (⟨28, by decide⟩ : DmaSem sig), SemLoc.dma (⟨29, by decide⟩ : DmaSem sig), SemLoc.dma (⟨30, by decide⟩ : DmaSem sig), SemLoc.dma (⟨31, by decide⟩ : DmaSem sig), SemLoc.dma (⟨32, by decide⟩ : DmaSem sig), SemLoc.dma (⟨33, by decide⟩ : DmaSem sig), SemLoc.dma (⟨34, by decide⟩ : DmaSem sig), SemLoc.dma (⟨35, by decide⟩ : DmaSem sig), SemLoc.dma (⟨36, by decide⟩ : DmaSem sig), SemLoc.dma (⟨37, by decide⟩ : DmaSem sig), SemLoc.dma (⟨38, by decide⟩ : DmaSem sig), SemLoc.dma (⟨39, by decide⟩ : DmaSem sig), SemLoc.dma (⟨40, by decide⟩ : DmaSem sig), SemLoc.dma (⟨41, by decide⟩ : DmaSem sig), SemLoc.dma (⟨42, by decide⟩ : DmaSem sig), SemLoc.dma (⟨43, by decide⟩ : DmaSem sig), SemLoc.dma (⟨44, by decide⟩ : DmaSem sig), SemLoc.dma (⟨45, by decide⟩ : DmaSem sig), SemLoc.dma (⟨46, by decide⟩ : DmaSem sig), SemLoc.dma (⟨47, by decide⟩ : DmaSem sig), SemLoc.dma (⟨48, by decide⟩ : DmaSem sig), SemLoc.dma (⟨49, by decide⟩ : DmaSem sig), SemLoc.dma (⟨50, by decide⟩ : DmaSem sig), SemLoc.dma (⟨51, by decide⟩ : DmaSem sig), SemLoc.dma (⟨52, by decide⟩ : DmaSem sig), SemLoc.dma (⟨53, by decide⟩ : DmaSem sig), SemLoc.dma (⟨54, by decide⟩ : DmaSem sig), SemLoc.dma (⟨55, by decide⟩ : DmaSem sig), SemLoc.dma (⟨56, by decide⟩ : DmaSem sig)]

theorem semList_nodup : semList.Nodup := by decide
theorem scoped_iff : ∀ s : SemLoc sig, s.isScoped .scVector = true ↔ s ∈ semList := by decide

theorem ownCells_tile (d : Dev nD) (c : Fin τ.nSC) (i : Fin τ.nSub) :
    (ownCells (V d c i) : Finset (GSem nD τ sig)) = (semList.map fun s => ((V d c i, s) : GSem nD τ sig)).toFinset := by
  ext g
  rcases g with ⟨t, s⟩
  rw [mem_ownCells, List.mem_toFinset, List.mem_map]
  constructor
  · rintro ⟨e, hs⟩
    cases e
    exact ⟨s, (scoped_iff s).mp hs, rfl⟩
  · rintro ⟨s', hs', e⟩
    obtain ⟨e1, e2⟩ := Prod.mk.inj e
    subst e1 e2
    exact ⟨rfl, (scoped_iff _).mpr hs'⟩

/-- The tile's own semaphores at zero are the fifty-seven counters at zero, in order. -/
theorem ownSems0_tile (d : Dev nD) (c : Fin τ.nSC) (i : Fin τ.nSub) :
    (ownSems0 (V d c i) : sProp 𝕄) = bigSepL semList fun s => semVal ((V d c i, s) : GSem nD τ sig) 0 := by
  unfold SparseCore.Cfg.ownSems0
  rw [bigSep_eq_bigSepL_of_eq _ (ownCells_tile d c i)
      (List.Nodup.map (fun a b e => (Prod.mk.inj e).2) semList_nodup), RowBlocks.bigSepL_map]

/-- The three scratch buffers are among the tile's own: they are them, at some contents, and the rest. -/
theorem ownBufs_tile (d : Dev nD) (c : Fin τ.nSC) (i : Fin τ.nSub) :
    (ownBufs (V d c i) : sProp 𝕄)
      = iprop((∃ f, (V d c i).loc cc1_scratch0 ↦{fullShare} f) ∗ (∃ f, (V d c i).loc cc1_scratch1 ↦{fullShare} f)
          ∗ (∃ f, (V d c i).loc cc1_scratch2 ↦{fullShare} f)
          ∗ bigSep ((((ownRefs (τ := τ) (.scVector c i)).erase ((Proc.scVector c i).devRef cc1_scratch0)).erase
              ((Proc.scVector c i).devRef cc1_scratch1)).erase ((Proc.scVector c i).devRef cc1_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector c i)
    (b := (Proc.scVector c i).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector c i) (b := (Proc.scVector c i).devRef cc1_scratch1) rfl⟩),
    SparseCore.bigSep_erase' (Finset.mem_erase.mpr ⟨fun e => absurd (Proc.devRef_injective _ e) (show (cc1_scratch2 : Ref sig .scVector) ≠ cc1_scratch1 by decide),
      Finset.mem_erase.mpr ⟨fun e => absurd (Proc.devRef_injective _ e) (show (cc1_scratch2 : Ref sig .scVector) ≠ cc1_scratch0 by decide),
    SparseCore.Cfg.mem_ownRefs_of_owner (p := Proc.scVector c i) (b := (Proc.scVector c i).devRef cc1_scratch2) rfl⟩⟩)]

end Cert.Proof.KI

end
-- ==== Proof.TileChainsKI.lean ====
/-
  The tile's list buffer as its fifty runs, its fifty chunks of the result, and its fifty-seven semaphores, each as the
  chain of the windows and counters the kernel's text names.
-/
import proofs.«208090_g83872121356401_cont_sun_m_474_43_alg».proof.Proof.PayKI
import proofs.«208090_g83872121356401_cont_sun_m_474_43_alg».proof.Proof.LibRowBlocks
import proofs.«208090_g83872121356401_cont_sun_m_474_43_alg».proof.Proof.LibWindows
import proofs.«208090_g83872121356401_cont_sun_m_474_43_alg».proof.Proof.TileOwnKI

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iW" => (Memref.whole Cert.KernelIdeal.main_v1_scv : Memref Cert.KernelIdeal.sig Kind.scVector Space.hbm Cert.KernelIdeal.S204800 EltTy.i32)
local notation "tW" => (Memref.whole Cert.KernelIdeal.main_v2_scv : Memref Cert.KernelIdeal.sig Kind.scVector Space.hbm Cert.KernelIdeal.S1000000x128 EltTy.f32)
local notation "oW" => (Memref.whole Cert.KernelIdeal.main_v3_scv : Memref Cert.KernelIdeal.sig Kind.scVector Space.hbm Cert.KernelIdeal.S204800x128 EltTy.f32)
local notation "s0W" => (Memref.whole Cert.KernelIdeal.cc1_scratch0 : Memref Cert.KernelIdeal.sig Kind.scVector Space.vmem Cert.KernelIdeal.S6400 EltTy.i32)
local notation "s1W" => (Memref.whole Cert.KernelIdeal.cc1_scratch1 : Memref Cert.KernelIdeal.sig Kind.scVector Space.vmem Cert.KernelIdeal.S128x128 EltTy.f32)
local notation "s2W" => (Memref.whole Cert.KernelIdeal.cc1_scratch2 : Memref Cert.KernelIdeal.sig Kind.scVector Space.vmem Cert.KernelIdeal.S128x128 EltTy.f32)

theorem fin50_univ : (Finset.univ : Finset (Fin 50)) = ([(0 : Fin 50), (1 : Fin 50), (2 : Fin 50), (3 : Fin 50), (4 : Fin 50), (5 : Fin 50), (6 : Fin 50), (7 : Fin 50), (8 : Fin 50), (9 : Fin 50), (10 : Fin 50), (11 : Fin 50), (12 : Fin 50), (13 : Fin 50), (14 : Fin 50), (15 : Fin 50), (16 : Fin 50), (17 : Fin 50), (18 : Fin 50), (19 : Fin 50), (20 : Fin 50), (21 : Fin 50), (22 : Fin 50), (23 : Fin 50), (24 : Fin 50), (25 : Fin 50), (26 : Fin 50), (27 : Fin 50), (28 : Fin 50), (29 : Fin 50), (30 : Fin 50), (31 : Fin 50), (32 : Fin 50), (33 : Fin 50), (34 : Fin 50), (35 : Fin 50), (36 : Fin 50), (37 : Fin 50), (38 : Fin 50), (39 : Fin 50), (40 : Fin 50), (41 : Fin 50), (42 : Fin 50), (43 : Fin 50), (44 : Fin 50), (45 : Fin 50), (46 : Fin 50), (47 : Fin 50), (48 : Fin 50), (49 : Fin 50)] : List (Fin 50)).toFinset := by decide
theorem fin50_nodup : ([(0 : Fin 50), (1 : Fin 50), (2 : Fin 50), (3 : Fin 50), (4 : Fin 50), (5 : Fin 50), (6 : Fin 50), (7 : Fin 50), (8 : Fin 50), (9 : Fin 50), (10 : Fin 50), (11 : Fin 50), (12 : Fin 50), (13 : Fin 50), (14 : Fin 50), (15 : Fin 50), (16 : Fin 50), (17 : Fin 50), (18 : Fin 50), (19 : Fin 50), (20 : Fin 50), (21 : Fin 50), (22 : Fin 50), (23 : Fin 50), (24 : Fin 50), (25 : Fin 50), (26 : Fin 50), (27 : Fin 50), (28 : Fin 50), (29 : Fin 50), (30 : Fin 50), (31 : Fin 50), (32 : Fin 50), (33 : Fin 50), (34 : Fin 50), (35 : Fin 50), (36 : Fin 50), (37 : Fin 50), (38 : Fin 50), (39 : Fin 50), (40 : Fin 50), (41 : Fin 50), (42 : Fin 50), (43 : Fin 50), (44 : Fin 50), (45 : Fin 50), (46 : Fin 50), (47 : Fin 50), (48 : Fin 50), (49 : Fin 50)] : List (Fin 50)).Nodup := by decide

set_option maxRecDepth 8192 in
/-- The list buffer held whole is its fifty runs held side by side. -/
theorem list_chain (d : Dev nD) (L : grid1.Coords) (q : PosShare TreeShare) (g : Buf (Elt F) ((s0W).view.loc (thr d L))) :
    ((s0W).view.loc (thr d L) ↦{q} g : sProp 𝕄)
      = iprop((((s0W).slice (Rect.unit (s := S6400) ![0] S128.size inb_S6400_S128_0) (fun _ => rfl)).view.loc (thr d L) ↦[((s0W).slice (Rect.unit (s := S6400) ![0] S128.size inb_S6400_S128_0) (fun _ => rfl)).view.set]{q} g)
      ∗ (((s0W).slice (Rect.unit (s := S6400) ![128] S128.size inb_S6400_S128_128) (fun _ => rfl)).view.loc (thr d L) ↦[((s0W).slice (Rect.unit (s := S6400) ![128] S128.size inb_S6400_S128_128) (fun _ => rfl)).view.set]{q} g)
      ∗ (((s0W).slice (Rect.unit (s := S6400) ![256] S128.size inb_S6400_S128_256) (fun _ => rfl)).view.loc (thr d L) ↦[((s0W).slice (Rect.unit (s := S6400) ![256] S128.size inb_S6400_S128_256) (fun _ => rfl)).view.set]{q} g)
      ∗ (((s0W).slice (Rect.unit (s := S6400) ![384] S128.size inb_S6400_S128_384) (fun _ => rfl)).view.loc (thr d L) ↦[((s0W).slice (Rect.unit (s := S6400) ![384] S128.size inb_S6400_S128_384) (fun _ => rfl)).view.set]{q} g)
      ∗ (((s0W).slice (Rect.unit (s := S6400) ![512] S128.size inb_S6400_S128_512) (fun _ => rfl)).view.loc (thr d L) ↦[((s0W).slice (Rect.unit (s := S6400) ![512] S128.size inb_S6400_S128_512) (fun _ => rfl)).view.set]{q} g)
      ∗ (((s0W).slice (Rect.unit (s := S6400) ![640] S128.size inb_S6400_S128_640) (fun _ => rfl)).view.loc (thr d L) ↦[((s0W).slice (Rect.unit (s := S6400) ![640] S128.size inb_S6400_S128_640) (fun _ => rfl)).view.set]{q} g)
      ∗ (((s0W).slice (Rect.unit (s := S6400) ![768] S128.size inb_S6400_S128_768) (fun _ => rfl)).view.loc (thr d L) ↦[((s0W).slice (Rect.unit (s := S6400) ![768] S128.size inb_S6400_S128_768) (fun _ => rfl)).view.set]{q} g)
      ∗ (((s0W).slice (Rect.unit (s := S6400) ![896] S128.size inb_S6400_S128_896) (fun _ => rfl)).view.loc (thr d L) ↦[((s0W).slice (Rect.unit (s := S6400) ![896] S128.size inb_S6400_S128_896) (fun _ => rfl)).view.set]{q} g)
      ∗ (((s0W).slice (Rect.unit (s := S6400) ![1024] S128.size inb_S6400_S128_1024) (fun _ => rfl)).view.loc (thr d L) ↦[((s0W).slice (Rect.unit (s := S6400) ![1024] S128.size inb_S6400_S128_1024) (fun _ => rfl)).view.set]{q} g)
      ∗ (((s0W).slice (Rect.unit (s := S6400) ![1152] S128.size inb_S6400_S128_1152) (fun _ => rfl)).view.loc (thr d L) ↦[((s0W).slice (Rect.unit (s := S6400) ![1152] S128.size inb_S6400_S128_1152) (fun _ => rfl)).view.set]{q} g)
      ∗ (((s0W).slice (Rect.unit (s := S6400) ![1280] S128.size inb_S6400_S128_1280) (fun _ => rfl)).view.loc (thr d L) ↦[((s0W).slice (Rect.unit (s := S6400) ![1280] S128.size inb_S6400_S128_1280) (fun _ => rfl)).view.set]{q} g)
      ∗ (((s0W).slice (Rect.unit (s := S6400) ![1408] S128.size inb_S6400_S128_1408) (fun _ => rfl)).view.loc (thr d L) ↦[((s0W).slice (Rect.unit (s := S6400) ![1408] S128.size inb_S6400_S128_1408) (fun _ => rfl)).view.set]{q} g)
      ∗ (((s0W).slice (Rect.unit (s := S6400) ![1536] S128.size inb_S6400_S128_1536) (fun _ => rfl)).view.loc (thr d L) ↦[((s0W).slice (Rect.unit (s := S6400) ![1536] S128.size inb_S6400_S128_1536) (fun _ => rfl)).view.set]{q} g)
      ∗ (((s0W).slice (Rect.unit (s := S6400) ![1664] S128.size inb_S6400_S128_1664) (fun _ => rfl)).view.loc (thr d L) ↦[((s0W).slice (Rect.unit (s := S6400) ![1664] S128.size inb_S6400_S128_1664) (fun _ => rfl)).view.set]{q} g)
      ∗ (((s0W).slice (Rect.unit (s := S6400) ![1792] S128.size inb_S6400_S128_1792) (fun _ => rfl)).view.loc (thr d L) ↦[((s0W).slice (Rect.unit (s := S6400) ![1792] S128.size inb_S6400_S128_1792) (fun _ => rfl)).view.set]{q} g)
      ∗ (((s0W).slice (Rect.unit (s := S6400) ![1920] S128.size inb_S6400_S128_1920) (fun _ => rfl)).view.loc (thr d L) ↦[((s0W).slice (Rect.unit (s := S6400) ![1920] S128.size inb_S6400_S128_1920) (fun _ => rfl)).view.set]{q} g)
      ∗ (((s0W).slice (Rect.unit (s := S6400) ![2048] S128.size inb_S6400_S128_2048) (fun _ => rfl)).view.loc (thr d L) ↦[((s0W).slice (Rect.unit (s := S6400) ![2048] S128.size inb_S6400_S128_2048) (fun _ => rfl)).view.set]{q} g)
      ∗ (((s0W).slice (Rect.unit (s := S6400) ![2176] S128.size inb_S6400_S128_2176) (fun _ => rfl)).view.loc (thr d L) ↦[((s0W).slice (Rect.unit (s := S6400) ![2176] S128.size inb_S6400_S128_2176) (fun _ => rfl)).view.set]{q} g)
      ∗ (((s0W).slice (Rect.unit (s := S6400) ![2304] S128.size inb_S6400_S128_2304) (fun _ => rfl)).view.loc (thr d L) ↦[((s0W).slice (Rect.unit (s := S6400) ![2304] S128.size inb_S6400_S128_2304) (fun _ => rfl)).view.set]{q} g)
      ∗ (((s0W).slice (Rect.unit (s := S6400) ![2432] S128.size inb_S6400_S128_2432) (fun _ => rfl)).view.loc (thr d L) ↦[((s0W).slice (Rect.unit (s := S6400) ![2432] S128.size inb_S6400_S128_2432) (fun _ => rfl)).view.set]{q} g)
      ∗ (((s0W).slice (Rect.unit (s := S6400) ![2560] S128.size inb_S6400_S128_2560) (fun _ => rfl)).view.loc (thr d L) ↦[((s0W).slice (Rect.unit (s := S6400) ![2560] S128.size inb_S6400_S128_2560) (fun _ => rfl)).view.set]{q} g)
      ∗ (((s0W).slice (Rect.unit (s := S6400) ![2688] S128.size inb_S6400_S128_2688) (fun _ => rfl)).view.loc (thr d L) ↦[((s0W).slice (Rect.unit (s := S6400) ![2688] S128.size inb_S6400_S128_2688) (fun _ => rfl)).view.set]{q} g)
      ∗ (((s0W).slice (Rect.unit (s := S6400) ![2816] S128.size inb_S6400_S128_2816) (fun _ => rfl)).view.loc (thr d L) ↦[((s0W).slice (Rect.unit (s := S6400) ![2816] S128.size inb_S6400_S128_2816) (fun _ => rfl)).view.set]{q} g)
      ∗ (((s0W).slice (Rect.unit (s := S6400) ![2944] S128.size inb_S6400_S128_2944) (fun _ => rfl)).view.loc (thr d L) ↦[((s0W).slice (Rect.unit (s := S6400) ![2944] S128.size inb_S6400_S128_2944) (fun _ => rfl)).view.set]{q} g)
      ∗ (((s0W).slice (Rect.unit (s := S6400) ![3072] S128.size inb_S6400_S128_3072) (fun _ => rfl)).view.loc (thr d L) ↦[((s0W).slice (Rect.unit (s := S6400) ![3072] S128.size inb_S6400_S128_3072) (fun _ => rfl)).view.set]{q} g)
      ∗ (((s0W).slice (Rect.unit (s := S6400) ![3200] S128.size inb_S6400_S128_3200) (fun _ => rfl)).view.loc (thr d L) ↦[((s0W).slice (Rect.unit (s := S6400) ![3200] S128.size inb_S6400_S128_3200) (fun _ => rfl)).view.set]{q} g)
      ∗ (((s0W).slice (Rect.unit (s := S6400) ![3328] S128.size inb_S6400_S128_3328) (fun _ => rfl)).view.loc (thr d L) ↦[((s0W).slice (Rect.unit (s := S6400) ![3328] S128.size inb_S6400_S128_3328) (fun _ => rfl)).view.set]{q} g)
      ∗ (((s0W).slice (Rect.unit (s := S6400) ![3456] S128.size inb_S6400_S128_3456) (fun _ => rfl)).view.loc (thr d L) ↦[((s0W).slice (Rect.unit (s := S6400) ![3456] S128.size inb_S6400_S128_3456) (fun _ => rfl)).view.set]{q} g)
      ∗ (((s0W).slice (Rect.unit (s := S6400) ![3584] S128.size inb_S6400_S128_3584) (fun _ => rfl)).view.loc (thr d L) ↦[((s0W).slice (Rect.unit (s := S6400) ![3584] S128.size inb_S6400_S128_3584) (fun _ => rfl)).view.set]{q} g)
      ∗ (((s0W).slice (Rect.unit (s := S6400) ![3712] S128.size inb_S6400_S128_3712) (fun _ => rfl)).view.loc (thr d L) ↦[((s0W).slice (Rect.unit (s := S6400) ![3712] S128.size inb_S6400_S128_3712) (fun _ => rfl)).view.set]{q} g)
      ∗ (((s0W).slice (Rect.unit (s := S6400) ![3840] S128.size inb_S6400_S128_3840) (fun _ => rfl)).view.loc (thr d L) ↦[((s0W).slice (Rect.unit (s := S6400) ![3840] S128.size inb_S6400_S128_3840) (fun _ => rfl)).view.set]{q} g)
      ∗ (((s0W).slice (Rect.unit (s := S6400) ![3968] S128.size inb_S6400_S128_3968) (fun _ => rfl)).view.loc (thr d L) ↦[((s0W).slice (Rect.unit (s := S6400) ![3968] S128.size inb_S6400_S128_3968) (fun _ => rfl)).view.set]{q} g)
      ∗ (((s0W).slice (Rect.unit (s := S6400) ![4096] S128.size inb_S6400_S128_4096) (fun _ => rfl)).view.loc (thr d L) ↦[((s0W).slice (Rect.unit (s := S6400) ![4096] S128.size inb_S6400_S128_4096) (fun _ => rfl)).view.set]{q} g)
      ∗ (((s0W).slice (Rect.unit (s := S6400) ![4224] S128.size inb_S6400_S128_4224) (fun _ => rfl)).view.loc (thr d L) ↦[((s0W).slice (Rect.unit (s := S6400) ![4224] S128.size inb_S6400_S128_4224) (fun _ => rfl)).view.set]{q} g)
      ∗ (((s0W).slice (Rect.unit (s := S6400) ![4352] S128.size inb_S6400_S128_4352) (fun _ => rfl)).view.loc (thr d L) ↦[((s0W).slice (Rect.unit (s := S6400) ![4352] S128.size inb_S6400_S128_4352) (fun _ => rfl)).view.set]{q} g)
      ∗ (((s0W).slice (Rect.unit (s := S6400) ![4480] S128.size inb_S6400_S128_4480) (fun _ => rfl)).view.loc (thr d L) ↦[((s0W).slice (Rect.unit (s := S6400) ![4480] S128.size inb_S6400_S128_4480) (fun _ => rfl)).view.set]{q} g)
      ∗ (((s0W).slice (Rect.unit (s := S6400) ![4608] S128.size inb_S6400_S128_4608) (fun _ => rfl)).view.loc (thr d L) ↦[((s0W).slice (Rect.unit (s := S6400) ![4608] S128.size inb_S6400_S128_4608) (fun _ => rfl)).view.set]{q} g)
      ∗ (((s0W).slice (Rect.unit (s := S6400) ![4736] S128.size inb_S6400_S128_4736) (fun _ => rfl)).view.loc (thr d L) ↦[((s0W).slice (Rect.unit (s := S6400) ![4736] S128.size inb_S6400_S128_4736) (fun _ => rfl)).view.set]{q} g)
      ∗ (((s0W).slice (Rect.unit (s := S6400) ![4864] S128.size inb_S6400_S128_4864) (fun _ => rfl)).view.loc (thr d L) ↦[((s0W).slice (Rect.unit (s := S6400) ![4864] S128.size inb_S6400_S128_4864) (fun _ => rfl)).view.set]{q} g)
      ∗ (((s0W).slice (Rect.unit (s := S6400) ![4992] S128.size inb_S6400_S128_4992) (fun _ => rfl)).view.loc (thr d L) ↦[((s0W).slice (Rect.unit (s := S6400) ![4992] S128.size inb_S6400_S128_4992) (fun _ => rfl)).view.set]{q} g)
      ∗ (((s0W).slice (Rect.unit (s := S6400) ![5120] S128.size inb_S6400_S128_5120) (fun _ => rfl)).view.loc (thr d L) ↦[((s0W).slice (Rect.unit (s := S6400) ![5120] S128.size inb_S6400_S128_5120) (fun _ => rfl)).view.set]{q} g)
      ∗ (((s0W).slice (Rect.unit (s := S6400) ![5248] S128.size inb_S6400_S128_5248) (fun _ => rfl)).view.loc (thr d L) ↦[((s0W).slice (Rect.unit (s := S6400) ![5248] S128.size inb_S6400_S128_5248) (fun _ => rfl)).view.set]{q} g)
      ∗ (((s0W).slice (Rect.unit (s := S6400) ![5376] S128.size inb_S6400_S128_5376) (fun _ => rfl)).view.loc (thr d L) ↦[((s0W).slice (Rect.unit (s := S6400) ![5376] S128.size inb_S6400_S128_5376) (fun _ => rfl)).view.set]{q} g)
      ∗ (((s0W).slice (Rect.unit (s := S6400) ![5504] S128.size inb_S6400_S128_5504) (fun _ => rfl)).view.loc (thr d L) ↦[((s0W).slice (Rect.unit (s := S6400) ![5504] S128.size inb_S6400_S128_5504) (fun _ => rfl)).view.set]{q} g)
      ∗ (((s0W).slice (Rect.unit (s := S6400) ![5632] S128.size inb_S6400_S128_5632) (fun _ => rfl)).view.loc (thr d L) ↦[((s0W).slice (Rect.unit (s := S6400) ![5632] S128.size inb_S6400_S128_5632) (fun _ => rfl)).view.set]{q} g)
      ∗ (((s0W).slice (Rect.unit (s := S6400) ![5760] S128.size inb_S6400_S128_5760) (fun _ => rfl)).view.loc (thr d L) ↦[((s0W).slice (Rect.unit (s := S6400) ![5760] S128.size inb_S6400_S128_5760) (fun _ => rfl)).view.set]{q} g)
      ∗ (((s0W).slice (Rect.unit (s := S6400) ![5888] S128.size inb_S6400_S128_5888) (fun _ => rfl)).view.loc (thr d L) ↦[((s0W).slice (Rect.unit (s := S6400) ![5888] S128.size inb_S6400_S128_5888) (fun _ => rfl)).view.set]{q} g)
      ∗ (((s0W).slice (Rect.unit (s := S6400) ![6016] S128.size inb_S6400_S128_6016) (fun _ => rfl)).view.loc (thr d L) ↦[((s0W).slice (Rect.unit (s := S6400) ![6016] S128.size inb_S6400_S128_6016) (fun _ => rfl)).view.set]{q} g)
      ∗ (((s0W).slice (Rect.unit (s := S6400) ![6144] S128.size inb_S6400_S128_6144) (fun _ => rfl)).view.loc (thr d L) ↦[((s0W).slice (Rect.unit (s := S6400) ![6144] S128.size inb_S6400_S128_6144) (fun _ => rfl)).view.set]{q} g)
      ∗ (((s0W).slice (Rect.unit (s := S6400) ![6272] S128.size inb_S6400_S128_6272) (fun _ => rfl)).view.loc (thr d L) ↦[((s0W).slice (Rect.unit (s := S6400) ![6272] S128.size inb_S6400_S128_6272) (fun _ => rfl)).view.set]{q} g)) := by
  rw [list_pts, bigSep_univ_eq_bigSepL _ fin50_univ fin50_nodup]
  rfl

set_option maxRecDepth 8192 in
/-- The tile's fifty chunks of the result, as the TensorCore names them, are the fifty windows the kernel slices. -/
theorem out_chain (d : Dev nD) (L : grid1.Coords) (q : PosShare TreeShare) (f : Buf (Elt F) (oLoc d)) :
    (bigSep (Finset.univ : Finset (Fin 50)) fun j => (oLoc d ↦[chunkSet (50 * wOf L + j.val)]{q} f : sProp 𝕄))
      = iprop((((oW).slice (Rect.unit (s := S204800x128) (k1_off2 L 0#32) S128x128.size (k1_off2_inb L 0)) (fun _ => rfl)).view.loc (thr d L) ↦[((oW).slice (Rect.unit (s := S204800x128) (k1_off2 L 0#32) S128x128.size (k1_off2_inb L 0)) (fun _ => rfl)).view.set]{q} f)
      ∗ (((oW).slice (Rect.unit (s := S204800x128) (k1_off2 L 128#32) S128x128.size (k1_off2_inb L 1)) (fun _ => rfl)).view.loc (thr d L) ↦[((oW).slice (Rect.unit (s := S204800x128) (k1_off2 L 128#32) S128x128.size (k1_off2_inb L 1)) (fun _ => rfl)).view.set]{q} f)
      ∗ (((oW).slice (Rect.unit (s := S204800x128) (k1_off2 L 256#32) S128x128.size (k1_off2_inb L 2)) (fun _ => rfl)).view.loc (thr d L) ↦[((oW).slice (Rect.unit (s := S204800x128) (k1_off2 L 256#32) S128x128.size (k1_off2_inb L 2)) (fun _ => rfl)).view.set]{q} f)
      ∗ (((oW).slice (Rect.unit (s := S204800x128) (k1_off2 L 384#32) S128x128.size (k1_off2_inb L 3)) (fun _ => rfl)).view.loc (thr d L) ↦[((oW).slice (Rect.unit (s := S204800x128) (k1_off2 L 384#32) S128x128.size (k1_off2_inb L 3)) (fun _ => rfl)).view.set]{q} f)
      ∗ (((oW).slice (Rect.unit (s := S204800x128) (k1_off2 L 512#32) S128x128.size (k1_off2_inb L 4)) (fun _ => rfl)).view.loc (thr d L) ↦[((oW).slice (Rect.unit (s := S204800x128) (k1_off2 L 512#32) S128x128.size (k1_off2_inb L 4)) (fun _ => rfl)).view.set]{q} f)
      ∗ (((oW).slice (Rect.unit (s := S204800x128) (k1_off2 L 640#32) S128x128.size (k1_off2_inb L 5)) (fun _ => rfl)).view.loc (thr d L) ↦[((oW).slice (Rect.unit (s := S204800x128) (k1_off2 L 640#32) S128x128.size (k1_off2_inb L 5)) (fun _ => rfl)).view.set]{q} f)
      ∗ (((oW).slice (Rect.unit (s := S204800x128) (k1_off2 L 768#32) S128x128.size (k1_off2_inb L 6)) (fun _ => rfl)).view.loc (thr d L) ↦[((oW).slice (Rect.unit (s := S204800x128) (k1_off2 L 768#32) S128x128.size (k1_off2_inb L 6)) (fun _ => rfl)).view.set]{q} f)
      ∗ (((oW).slice (Rect.unit (s := S204800x128) (k1_off2 L 896#32) S128x128.size (k1_off2_inb L 7)) (fun _ => rfl)).view.loc (thr d L) ↦[((oW).slice (Rect.unit (s := S204800x128) (k1_off2 L 896#32) S128x128.size (k1_off2_inb L 7)) (fun _ => rfl)).view.set]{q} f)
      ∗ (((oW).slice (Rect.unit (s := S204800x128) (k1_off2 L 1024#32) S128x128.size (k1_off2_inb L 8)) (fun _ => rfl)).view.loc (thr d L) ↦[((oW).slice (Rect.unit (s := S204800x128) (k1_off2 L 1024#32) S128x128.size (k1_off2_inb L 8)) (fun _ => rfl)).view.set]{q} f)
      ∗ (((oW).slice (Rect.unit (s := S204800x128) (k1_off2 L 1152#32) S128x128.size (k1_off2_inb L 9)) (fun _ => rfl)).view.loc (thr d L) ↦[((oW).slice (Rect.unit (s := S204800x128) (k1_off2 L 1152#32) S128x128.size (k1_off2_inb L 9)) (fun _ => rfl)).view.set]{q} f)
      ∗ (((oW).slice (Rect.unit (s := S204800x128) (k1_off2 L 1280#32) S128x128.size (k1_off2_inb L 10)) (fun _ => rfl)).view.loc (thr d L) ↦[((oW).slice (Rect.unit (s := S204800x128) (k1_off2 L 1280#32) S128x128.size (k1_off2_inb L 10)) (fun _ => rfl)).view.set]{q} f)
      ∗ (((oW).slice (Rect.unit (s := S204800x128) (k1_off2 L 1408#32) S128x128.size (k1_off2_inb L 11)) (fun _ => rfl)).view.loc (thr d L) ↦[((oW).slice (Rect.unit (s := S204800x128) (k1_off2 L 1408#32) S128x128.size (k1_off2_inb L 11)) (fun _ => rfl)).view.set]{q} f)
      ∗ (((oW).slice (Rect.unit (s := S204800x128) (k1_off2 L 1536#32) S128x128.size (k1_off2_inb L 12)) (fun _ => rfl)).view.loc (thr d L) ↦[((oW).slice (Rect.unit (s := S204800x128) (k1_off2 L 1536#32) S128x128.size (k1_off2_inb L 12)) (fun _ => rfl)).view.set]{q} f)
      ∗ (((oW).slice (Rect.unit (s := S204800x128) (k1_off2 L 1664#32) S128x128.size (k1_off2_inb L 13)) (fun _ => rfl)).view.loc (thr d L) ↦[((oW).slice (Rect.unit (s := S204800x128) (k1_off2 L 1664#32) S128x128.size (k1_off2_inb L 13)) (fun _ => rfl)).view.set]{q} f)
      ∗ (((oW).slice (Rect.unit (s := S204800x128) (k1_off2 L 1792#32) S128x128.size (k1_off2_inb L 14)) (fun _ => rfl)).view.loc (thr d L) ↦[((oW).slice (Rect.unit (s := S204800x128) (k1_off2 L 1792#32) S128x128.size (k1_off2_inb L 14)) (fun _ => rfl)).view.set]{q} f)
      ∗ (((oW).slice (Rect.unit (s := S204800x128) (k1_off2 L 1920#32) S128x128.size (k1_off2_inb L 15)) (fun _ => rfl)).view.loc (thr d L) ↦[((oW).slice (Rect.unit (s := S204800x128) (k1_off2 L 1920#32) S128x128.size (k1_off2_inb L 15)) (fun _ => rfl)).view.set]{q} f)
      ∗ (((oW).slice (Rect.unit (s := S204800x128) (k1_off2 L 2048#32) S128x128.size (k1_off2_inb L 16)) (fun _ => rfl)).view.loc (thr d L) ↦[((oW).slice (Rect.unit (s := S204800x128) (k1_off2 L 2048#32) S128x128.size (k1_off2_inb L 16)) (fun _ => rfl)).view.set]{q} f)
      ∗ (((oW).slice (Rect.unit (s := S204800x128) (k1_off2 L 2176#32) S128x128.size (k1_off2_inb L 17)) (fun _ => rfl)).view.loc (thr d L) ↦[((oW).slice (Rect.unit (s := S204800x128) (k1_off2 L 2176#32) S128x128.size (k1_off2_inb L 17)) (fun _ => rfl)).view.set]{q} f)
      ∗ (((oW).slice (Rect.unit (s := S204800x128) (k1_off2 L 2304#32) S128x128.size (k1_off2_inb L 18)) (fun _ => rfl)).view.loc (thr d L) ↦[((oW).slice (Rect.unit (s := S204800x128) (k1_off2 L 2304#32) S128x128.size (k1_off2_inb L 18)) (fun _ => rfl)).view.set]{q} f)
      ∗ (((oW).slice (Rect.unit (s := S204800x128) (k1_off2 L 2432#32) S128x128.size (k1_off2_inb L 19)) (fun _ => rfl)).view.loc (thr d L) ↦[((oW).slice (Rect.unit (s := S204800x128) (k1_off2 L 2432#32) S128x128.size (k1_off2_inb L 19)) (fun _ => rfl)).view.set]{q} f)
      ∗ (((oW).slice (Rect.unit (s := S204800x128) (k1_off2 L 2560#32) S128x128.size (k1_off2_inb L 20)) (fun _ => rfl)).view.loc (thr d L) ↦[((oW).slice (Rect.unit (s := S204800x128) (k1_off2 L 2560#32) S128x128.size (k1_off2_inb L 20)) (fun _ => rfl)).view.set]{q} f)
      ∗ (((oW).slice (Rect.unit (s := S204800x128) (k1_off2 L 2688#32) S128x128.size (k1_off2_inb L 21)) (fun _ => rfl)).view.loc (thr d L) ↦[((oW).slice (Rect.unit (s := S204800x128) (k1_off2 L 2688#32) S128x128.size (k1_off2_inb L 21)) (fun _ => rfl)).view.set]{q} f)
      ∗ (((oW).slice (Rect.unit (s := S204800x128) (k1_off2 L 2816#32) S128x128.size (k1_off2_inb L 22)) (fun _ => rfl)).view.loc (thr d L) ↦[((oW).slice (Rect.unit (s := S204800x128) (k1_off2 L 2816#32) S128x128.size (k1_off2_inb L 22)) (fun _ => rfl)).view.set]{q} f)
      ∗ (((oW).slice (Rect.unit (s := S204800x128) (k1_off2 L 2944#32) S128x128.size (k1_off2_inb L 23)) (fun _ => rfl)).view.loc (thr d L) ↦[((oW).slice (Rect.unit (s := S204800x128) (k1_off2 L 2944#32) S128x128.size (k1_off2_inb L 23)) (fun _ => rfl)).view.set]{q} f)
      ∗ (((oW).slice (Rect.unit (s := S204800x128) (k1_off2 L 3072#32) S128x128.size (k1_off2_inb L 24)) (fun _ => rfl)).view.loc (thr d L) ↦[((oW).slice (Rect.unit (s := S204800x128) (k1_off2 L 3072#32) S128x128.size (k1_off2_inb L 24)) (fun _ => rfl)).view.set]{q} f)
      ∗ (((oW).slice (Rect.unit (s := S204800x128) (k1_off2 L 3200#32) S128x128.size (k1_off2_inb L 25)) (fun _ => rfl)).view.loc (thr d L) ↦[((oW).slice (Rect.unit (s := S204800x128) (k1_off2 L 3200#32) S128x128.size (k1_off2_inb L 25)) (fun _ => rfl)).view.set]{q} f)
      ∗ (((oW).slice (Rect.unit (s := S204800x128) (k1_off2 L 3328#32) S128x128.size (k1_off2_inb L 26)) (fun _ => rfl)).view.loc (thr d L) ↦[((oW).slice (Rect.unit (s := S204800x128) (k1_off2 L 3328#32) S128x128.size (k1_off2_inb L 26)) (fun _ => rfl)).view.set]{q} f)
      ∗ (((oW).slice (Rect.unit (s := S204800x128) (k1_off2 L 3456#32) S128x128.size (k1_off2_inb L 27)) (fun _ => rfl)).view.loc (thr d L) ↦[((oW).slice (Rect.unit (s := S204800x128) (k1_off2 L 3456#32) S128x128.size (k1_off2_inb L 27)) (fun _ => rfl)).view.set]{q} f)
      ∗ (((oW).slice (Rect.unit (s := S204800x128) (k1_off2 L 3584#32) S128x128.size (k1_off2_inb L 28)) (fun _ => rfl)).view.loc (thr d L) ↦[((oW).slice (Rect.unit (s := S204800x128) (k1_off2 L 3584#32) S128x128.size (k1_off2_inb L 28)) (fun _ => rfl)).view.set]{q} f)
      ∗ (((oW).slice (Rect.unit (s := S204800x128) (k1_off2 L 3712#32) S128x128.size (k1_off2_inb L 29)) (fun _ => rfl)).view.loc (thr d L) ↦[((oW).slice (Rect.unit (s := S204800x128) (k1_off2 L 3712#32) S128x128.size (k1_off2_inb L 29)) (fun _ => rfl)).view.set]{q} f)
      ∗ (((oW).slice (Rect.unit (s := S204800x128) (k1_off2 L 3840#32) S128x128.size (k1_off2_inb L 30)) (fun _ => rfl)).view.loc (thr d L) ↦[((oW).slice (Rect.unit (s := S204800x128) (k1_off2 L 3840#32) S128x128.size (k1_off2_inb L 30)) (fun _ => rfl)).view.set]{q} f)
      ∗ (((oW).slice (Rect.unit (s := S204800x128) (k1_off2 L 3968#32) S128x128.size (k1_off2_inb L 31)) (fun _ => rfl)).view.loc (thr d L) ↦[((oW).slice (Rect.unit (s := S204800x128) (k1_off2 L 3968#32) S128x128.size (k1_off2_inb L 31)) (fun _ => rfl)).view.set]{q} f)
      ∗ (((oW).slice (Rect.unit (s := S204800x128) (k1_off2 L 4096#32) S128x128.size (k1_off2_inb L 32)) (fun _ => rfl)).view.loc (thr d L) ↦[((oW).slice (Rect.unit (s := S204800x128) (k1_off2 L 4096#32) S128x128.size (k1_off2_inb L 32)) (fun _ => rfl)).view.set]{q} f)
      ∗ (((oW).slice (Rect.unit (s := S204800x128) (k1_off2 L 4224#32) S128x128.size (k1_off2_inb L 33)) (fun _ => rfl)).view.loc (thr d L) ↦[((oW).slice (Rect.unit (s := S204800x128) (k1_off2 L 4224#32) S128x128.size (k1_off2_inb L 33)) (fun _ => rfl)).view.set]{q} f)
      ∗ (((oW).slice (Rect.unit (s := S204800x128) (k1_off2 L 4352#32) S128x128.size (k1_off2_inb L 34)) (fun _ => rfl)).view.loc (thr d L) ↦[((oW).slice (Rect.unit (s := S204800x128) (k1_off2 L 4352#32) S128x128.size (k1_off2_inb L 34)) (fun _ => rfl)).view.set]{q} f)
      ∗ (((oW).slice (Rect.unit (s := S204800x128) (k1_off2 L 4480#32) S128x128.size (k1_off2_inb L 35)) (fun _ => rfl)).view.loc (thr d L) ↦[((oW).slice (Rect.unit (s := S204800x128) (k1_off2 L 4480#32) S128x128.size (k1_off2_inb L 35)) (fun _ => rfl)).view.set]{q} f)
      ∗ (((oW).slice (Rect.unit (s := S204800x128) (k1_off2 L 4608#32) S128x128.size (k1_off2_inb L 36)) (fun _ => rfl)).view.loc (thr d L) ↦[((oW).slice (Rect.unit (s := S204800x128) (k1_off2 L 4608#32) S128x128.size (k1_off2_inb L 36)) (fun _ => rfl)).view.set]{q} f)
      ∗ (((oW).slice (Rect.unit (s := S204800x128) (k1_off2 L 4736#32) S128x128.size (k1_off2_inb L 37)) (fun _ => rfl)).view.loc (thr d L) ↦[((oW).slice (Rect.unit (s := S204800x128) (k1_off2 L 4736#32) S128x128.size (k1_off2_inb L 37)) (fun _ => rfl)).view.set]{q} f)
      ∗ (((oW).slice (Rect.unit (s := S204800x128) (k1_off2 L 4864#32) S128x128.size (k1_off2_inb L 38)) (fun _ => rfl)).view.loc (thr d L) ↦[((oW).slice (Rect.unit (s := S204800x128) (k1_off2 L 4864#32) S128x128.size (k1_off2_inb L 38)) (fun _ => rfl)).view.set]{q} f)
      ∗ (((oW).slice (Rect.unit (s := S204800x128) (k1_off2 L 4992#32) S128x128.size (k1_off2_inb L 39)) (fun _ => rfl)).view.loc (thr d L) ↦[((oW).slice (Rect.unit (s := S204800x128) (k1_off2 L 4992#32) S128x128.size (k1_off2_inb L 39)) (fun _ => rfl)).view.set]{q} f)
      ∗ (((oW).slice (Rect.unit (s := S204800x128) (k1_off2 L 5120#32) S128x128.size (k1_off2_inb L 40)) (fun _ => rfl)).view.loc (thr d L) ↦[((oW).slice (Rect.unit (s := S204800x128) (k1_off2 L 5120#32) S128x128.size (k1_off2_inb L 40)) (fun _ => rfl)).view.set]{q} f)
      ∗ (((oW).slice (Rect.unit (s := S204800x128) (k1_off2 L 5248#32) S128x128.size (k1_off2_inb L 41)) (fun _ => rfl)).view.loc (thr d L) ↦[((oW).slice (Rect.unit (s := S204800x128) (k1_off2 L 5248#32) S128x128.size (k1_off2_inb L 41)) (fun _ => rfl)).view.set]{q} f)
      ∗ (((oW).slice (Rect.unit (s := S204800x128) (k1_off2 L 5376#32) S128x128.size (k1_off2_inb L 42)) (fun _ => rfl)).view.loc (thr d L) ↦[((oW).slice (Rect.unit (s := S204800x128) (k1_off2 L 5376#32) S128x128.size (k1_off2_inb L 42)) (fun _ => rfl)).view.set]{q} f)
      ∗ (((oW).slice (Rect.unit (s := S204800x128) (k1_off2 L 5504#32) S128x128.size (k1_off2_inb L 43)) (fun _ => rfl)).view.loc (thr d L) ↦[((oW).slice (Rect.unit (s := S204800x128) (k1_off2 L 5504#32) S128x128.size (k1_off2_inb L 43)) (fun _ => rfl)).view.set]{q} f)
      ∗ (((oW).slice (Rect.unit (s := S204800x128) (k1_off2 L 5632#32) S128x128.size (k1_off2_inb L 44)) (fun _ => rfl)).view.loc (thr d L) ↦[((oW).slice (Rect.unit (s := S204800x128) (k1_off2 L 5632#32) S128x128.size (k1_off2_inb L 44)) (fun _ => rfl)).view.set]{q} f)
      ∗ (((oW).slice (Rect.unit (s := S204800x128) (k1_off2 L 5760#32) S128x128.size (k1_off2_inb L 45)) (fun _ => rfl)).view.loc (thr d L) ↦[((oW).slice (Rect.unit (s := S204800x128) (k1_off2 L 5760#32) S128x128.size (k1_off2_inb L 45)) (fun _ => rfl)).view.set]{q} f)
      ∗ (((oW).slice (Rect.unit (s := S204800x128) (k1_off2 L 5888#32) S128x128.size (k1_off2_inb L 46)) (fun _ => rfl)).view.loc (thr d L) ↦[((oW).slice (Rect.unit (s := S204800x128) (k1_off2 L 5888#32) S128x128.size (k1_off2_inb L 46)) (fun _ => rfl)).view.set]{q} f)
      ∗ (((oW).slice (Rect.unit (s := S204800x128) (k1_off2 L 6016#32) S128x128.size (k1_off2_inb L 47)) (fun _ => rfl)).view.loc (thr d L) ↦[((oW).slice (Rect.unit (s := S204800x128) (k1_off2 L 6016#32) S128x128.size (k1_off2_inb L 47)) (fun _ => rfl)).view.set]{q} f)
      ∗ (((oW).slice (Rect.unit (s := S204800x128) (k1_off2 L 6144#32) S128x128.size (k1_off2_inb L 48)) (fun _ => rfl)).view.loc (thr d L) ↦[((oW).slice (Rect.unit (s := S204800x128) (k1_off2 L 6144#32) S128x128.size (k1_off2_inb L 48)) (fun _ => rfl)).view.set]{q} f)
      ∗ (((oW).slice (Rect.unit (s := S204800x128) (k1_off2 L 6272#32) S128x128.size (k1_off2_inb L 49)) (fun _ => rfl)).view.loc (thr d L) ↦[((oW).slice (Rect.unit (s := S204800x128) (k1_off2 L 6272#32) S128x128.size (k1_off2_inb L 49)) (fun _ => rfl)).view.set]{q} f)) := by
  rw [bigSep_congr (fun j _ => out_pts d L j q f), bigSep_univ_eq_bigSepL _ fin50_univ fin50_nodup]
  rfl

set_option maxRecDepth 8192 in
/-- The tile's own semaphores at zero, in the kernel's names for them. -/
theorem sem_chain (d : Dev nD) (L : grid1.Coords) :
    (ownSems0 (thr d L) : sProp 𝕄)
      = iprop(semVal ((thr d L, SemLoc.dma (⟨0, by decide⟩ : DmaSem sig)) : GSem nD τ sig) 0
      ∗ semVal ((thr d L, SemLoc.dma (⟨1, by decide⟩ : DmaSem sig)) : GSem nD τ sig) 0
      ∗ semVal ((thr d L, SemLoc.dma (⟨2, by decide⟩ : DmaSem sig)) : GSem nD τ sig) 0
      ∗ semVal ((thr d L, SemLoc.dma (⟨3, by decide⟩ : DmaSem sig)) : GSem nD τ sig) 0
      ∗ semVal ((thr d L, SemLoc.dma cc1_scratch3.sem) : GSem nD τ sig) 0
      ∗ semVal ((thr d L, SemLoc.dma cc1_scratch4.sem) : GSem nD τ sig) 0
      ∗ semVal ((thr d L, SemLoc.dma cc1_scoped0.sem) : GSem nD τ sig) 0
      ∗ semVal ((thr d L, SemLoc.dma cc1_scoped1.sem) : GSem nD τ sig) 0
      ∗ semVal ((thr d L, SemLoc.dma cc1_scoped2.sem) : GSem nD τ sig) 0
      ∗ semVal ((thr d L, SemLoc.dma cc1_scoped3.sem) : GSem nD τ sig) 0
      ∗ semVal ((thr d L, SemLoc.dma cc1_scoped4.sem) : GSem nD τ sig) 0
      ∗ semVal ((thr d L, SemLoc.dma cc1_scoped5.sem) : GSem nD τ sig) 0
      ∗ semVal ((thr d L, SemLoc.dma cc1_scoped6.sem) : GSem nD τ sig) 0
      ∗ semVal ((thr d L, SemLoc.dma cc1_scoped7.sem) : GSem nD τ sig) 0
      ∗ semVal ((thr d L, SemLoc.dma cc1_scoped8.sem) : GSem nD τ sig) 0
      ∗ semVal ((thr d L, SemLoc.dma cc1_scoped9.sem) : GSem nD τ sig) 0
      ∗ semVal ((thr d L, SemLoc.dma cc1_scoped10.sem) : GSem nD τ sig) 0
      ∗ semVal ((thr d L, SemLoc.dma cc1_scoped11.sem) : GSem nD τ sig) 0
      ∗ semVal ((thr d L, SemLoc.dma cc1_scoped12.sem) : GSem nD τ sig) 0
      ∗ semVal ((thr d L, SemLoc.dma cc1_scoped13.sem) : GSem nD τ sig) 0
      ∗ semVal ((thr d L, SemLoc.dma cc1_scoped14.sem) : GSem nD τ sig) 0
      ∗ semVal ((thr d L, SemLoc.dma cc1_scoped15.sem) : GSem nD τ sig) 0
      ∗ semVal ((thr d L, SemLoc.dma cc1_scoped16.sem) : GSem nD τ sig) 0
      ∗ semVal ((thr d L, SemLoc.dma cc1_scoped17.sem) : GSem nD τ sig) 0
      ∗ semVal ((thr d L, SemLoc.dma cc1_scoped18.sem) : GSem nD τ sig) 0
      ∗ semVal ((thr d L, SemLoc.dma cc1_scoped19.sem) : GSem nD τ sig) 0
      ∗ semVal ((thr d L, SemLoc.dma cc1_scoped20.sem) : GSem nD τ sig) 0
      ∗ semVal ((thr d L, SemLoc.dma cc1_scoped21.sem) : GSem nD τ sig) 0
      ∗ semVal ((thr d L, SemLoc.dma cc1_scoped22.sem) : GSem nD τ sig) 0
      ∗ semVal ((thr d L, SemLoc.dma cc1_scoped23.sem) : GSem nD τ sig) 0
      ∗ semVal ((thr d L, SemLoc.dma cc1_scoped24.sem) : GSem nD τ sig) 0
      ∗ semVal ((thr d L, SemLoc.dma cc1_scoped25.sem) : GSem nD τ sig) 0
      ∗ semVal ((thr d L, SemLoc.dma cc1_scoped26.sem) : GSem nD τ sig) 0
      ∗ semVal ((thr d L, SemLoc.dma cc1_scoped27.sem) : GSem nD τ sig) 0
      ∗ semVal ((thr d L, SemLoc.dma cc1_scoped28.sem) : GSem nD τ sig) 0
      ∗ semVal ((thr d L, SemLoc.dma cc1_scoped29.sem) : GSem nD τ sig) 0
      ∗ semVal ((thr d L, SemLoc.dma cc1_scoped30.sem) : GSem nD τ sig) 0
      ∗ semVal ((thr d L, SemLoc.dma cc1_scoped31.sem) : GSem nD τ sig) 0
      ∗ semVal ((thr d L, SemLoc.dma cc1_scoped32.sem) : GSem nD τ sig) 0
      ∗ semVal ((thr d L, SemLoc.dma cc1_scoped33.sem) : GSem nD τ sig) 0
      ∗ semVal ((thr d L, SemLoc.dma cc1_scoped34.sem) : GSem nD τ sig) 0
      ∗ semVal ((thr d L, SemLoc.dma cc1_scoped35.sem) : GSem nD τ sig) 0
      ∗ semVal ((thr d L, SemLoc.dma cc1_scoped36.sem) : GSem nD τ sig) 0
      ∗ semVal ((thr d L, SemLoc.dma cc1_scoped37.sem) : GSem nD τ sig) 0
      ∗ semVal ((thr d L, SemLoc.dma cc1_scoped38.sem) : GSem nD τ sig) 0
      ∗ semVal ((thr d L, SemLoc.dma cc1_scoped39.sem) : GSem nD τ sig) 0
      ∗ semVal ((thr d L, SemLoc.dma cc1_scoped40.sem) : GSem nD τ sig) 0
      ∗ semVal ((thr d L, SemLoc.dma cc1_scoped41.sem) : GSem nD τ sig) 0
      ∗ semVal ((thr d L, SemLoc.dma cc1_scoped42.sem) : GSem nD τ sig) 0
      ∗ semVal ((thr d L, SemLoc.dma cc1_scoped43.sem) : GSem nD τ sig) 0
      ∗ semVal ((thr d L, SemLoc.dma cc1_scoped44.sem) : GSem nD τ sig) 0
      ∗ semVal ((thr d L, SemLoc.dma cc1_scoped45.sem) : GSem nD τ sig) 0
      ∗ semVal ((thr d L, SemLoc.dma cc1_scoped46.sem) : GSem nD τ sig) 0
      ∗ semVal ((thr d L, SemLoc.dma cc1_scoped47.sem) : GSem nD τ sig) 0
      ∗ semVal ((thr d L, SemLoc.dma cc1_scoped48.sem) : GSem nD τ sig) 0
      ∗ semVal ((thr d L, SemLoc.dma cc1_scoped49.sem) : GSem nD τ sig) 0
      ∗ semVal ((thr d L, SemLoc.dma cc1_scoped50.sem) : GSem nD τ sig) 0) := by
  rw [ownSems0_tile]
  rfl

end Cert.Proof.KI

end
-- ==== Proof.TileValKI.lean ====
/-
  What a chunk of the result holds after the tile's run, read at coordinates.

  Chunk `r` is written from a row buffer whose newest contents are the gather of the padded table at list run `r`; the
  list buffer holds the tile's run of the row-number list.  So entry `(a, c)` of chunk `r` is the padded table at column
  `c` of the row that entry `128 r + a` of the tile's run names.
-/
import proofs.«208090_g83872121356401_cont_sun_m_474_43_alg».proof.Proof.PayKI
import proofs.«208090_g83872121356401_cont_sun_m_474_43_alg».proof.Proof.LibRowBlocks
import proofs.«208090_g83872121356401_cont_sun_m_474_43_alg».proof.Proof.LibWindows
import proofs.«208090_g83872121356401_cont_sun_m_474_43_alg».proof.Proof.TilePrepKI

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iW" => (Memref.whole Cert.KernelIdeal.main_v1_scv : Memref Cert.KernelIdeal.sig Kind.scVector Space.hbm Cert.KernelIdeal.S204800 EltTy.i32)
local notation "tW" => (Memref.whole Cert.KernelIdeal.main_v2_scv : Memref Cert.KernelIdeal.sig Kind.scVector Space.hbm Cert.KernelIdeal.S1000000x128 EltTy.f32)
local notation "oW" => (Memref.whole Cert.KernelIdeal.main_v3_scv : Memref Cert.KernelIdeal.sig Kind.scVector Space.hbm Cert.KernelIdeal.S204800x128 EltTy.f32)
local notation "s0W" => (Memref.whole Cert.KernelIdeal.cc1_scratch0 : Memref Cert.KernelIdeal.sig Kind.scVector Space.vmem Cert.KernelIdeal.S6400 EltTy.i32)
local notation "s1W" => (Memref.whole Cert.KernelIdeal.cc1_scratch1 : Memref Cert.KernelIdeal.sig Kind.scVector Space.vmem Cert.KernelIdeal.S128x128 EltTy.f32)
local notation "s2W" => (Memref.whole Cert.KernelIdeal.cc1_scratch2 : Memref Cert.KernelIdeal.sig Kind.scVector Space.vmem Cert.KernelIdeal.S128x128 EltTy.f32)

/-- The padded table as each gather slices it (the whole of it). -/
abbrev tabWin : Memref sig .scVector .hbm S1000000x128 .f32 :=
  (tW).slice (Rect.unit (s := S1000000x128) ![0, 0] S1000000x128.size inb_S1000000x128_S1000000x128_0_0) (fun _ => rfl)

/-- A buffer whose newest write covers it whole reads that write's payload. -/
theorem read_top {sig' : RefSig} {κ : Kind} {sp : Space} {s : Shape} {e : EltTy} {Val : EltTy → Type}
    (v : View sig' κ sp s e) (f : v.ty.Contents Val) (gp : s.Idx → Val e) (rest : List (View.Piece Val s e)) (x : s.Idx) :
    v.read Val (v.writes Val f (⟨Rect.whole s, gp⟩ :: rest)) x = gp x := by
  have h := View.read_writes_cons_emb v f (Rect.whole s) gp rest x
  rwa [Rect.emb_whole_apply] at h

/-- The gather's payload at `(a, c)`: the source at the row the list names for `a`, column `c`. -/
theorem gather_at (src : S1000000x128.Idx → Elt F .f32)
    (r : Fin (S128x128.size gathers_S1000000x128_S128x128.axis') → Fin (S1000000x128.size gathers_S1000000x128_S128x128.axis))
    (a c : Fin 128) :
    SparseCore.gatherPayload gathers_S1000000x128_S128x128 src r (ix2 a c) = src (ix2 (r a) c) := by
  unfold SparseCore.gatherPayload
  congr 1
  funext b
  refine Fin.ext ?_
  match b with
  | ⟨0, _⟩ => exact congrArg Fin.val (Shape.Gathers.idx_axis gathers_S1000000x128_S128x128 r (ix2 a c))
  | ⟨1, _⟩ => exact Shape.Gathers.idx_of_ne gathers_S1000000x128_S128x128 r (ix2 a c) ⟨1, by decide⟩ (by decide)

/-- The row a one-axis list of 128 words names for `a`: its word at `a`. -/
theorem rows_at (idxf : S128.Idx → Elt F .i32) (hn : S128.numel = S128x128.size gathers_S1000000x128_S128x128.axis')
    (h : ∀ x, (idxf x).toNat < S1000000x128.size gathers_S1000000x128_S128x128.axis) (a : Fin 128) :
    (SparseCore.rows idxf hn h a).val = (idxf (ix1 a)).toNat := by
  show (idxf (S128.rowMajor.symm ((a : Fin (S128x128.size gathers_S1000000x128_S128x128.axis')).cast hn.symm))).toNat = _
  congr 2
  rw [Equiv.symm_apply_eq]
  refine Fin.ext ?_
  rw [Shape.rowMajor_val_one]
  rfl

/-- Chunk `r` of the tile's rows is right in `f`: entry `(a, c)` is the padded table at the row that entry
    `128 r + a` of the tile's run of the list names, column `c`. -/
def ChunkOK (d : Dev nD) (L : grid1.Coords) (r : Fin 50) (fi : Buf (Elt F) ((idxWin L).view.loc (thr d L)))
    (ft : Buf (Elt F) ((tW).view.loc (thr d L))) (f : Buf (Elt F) ((oW).view.loc (thr d L))) : Prop :=
  ∀ (a c : Fin 128), (outWinR L r).view.read (Elt F) f (ix2 a c)
    = (tabWin).view.read (Elt F) ft
        (ix2 (capRow ((idxWin L).view.read (Elt F) fi (ix1 ⟨128 * r.val + a.val, by have := r.isLt; have := a.isLt; omega⟩))) c)

/-- What list run `r` reads of a list buffer filled from the tile's run of the list. -/
theorem list_read (d : Dev nD) (L : grid1.Coords) (r : Fin 50) (fi : Buf (Elt F) ((idxWin L).view.loc (thr d L)))
    (f0 : Buf (Elt F) ((s0W).view.loc (thr d L))) (a : Fin 128) :
    (listWinR r).view.read (Elt F)
        (View.write (Elt F) (s0W).view f0 (ReadAs.same.apply ((idxWin L).view.read (Elt F) fi)) Finset.univ) (ix1 a)
      = (idxWin L).view.read (Elt F) fi (ix1 ⟨128 * r.val + a.val, by have := r.isLt; have := a.isLt; omega⟩) := by
  rw [View.write_whole_univ]
  have h := Windows.read_blkWin1 (Val := Elt F) (s0W) (128 * r.val) (listInb r) rfl
    (ReadAs.same.apply ((idxWin L).view.read (Elt F) fi)) a (by have := r.isLt; have := a.isLt; omega)
  rw [h]
  rfl

/-- A chunk written whole from a row buffer whose newest write is the gather at list run `r` is right. -/
theorem chunk_ok (d : Dev nD) (L : grid1.Coords) (r : Fin 50) (fi : Buf (Elt F) ((idxWin L).view.loc (thr d L)))
    (ft : Buf (Elt F) ((tW).view.loc (thr d L))) (f0 : Buf (Elt F) ((s0W).view.loc (thr d L)))
    (fo : Buf (Elt F) ((oW).view.loc (thr d L)))
    (hidx : ∀ k, ((idxWin L).view.read (Elt F) fi k).toNat ≤ 999999)
    (v : View sig .scVector .vmem S128x128 .f32) (fb : v.ty.Contents (Elt F)) (rest : List (View.Piece (Elt F) S128x128 .f32))
    (hn : S128.numel = S128x128.size gathers_S1000000x128_S128x128.axis')
    (hin' : ∀ x, ((listWinR r).view.read (Elt F)
        (View.write (Elt F) (s0W).view f0 (ReadAs.same.apply ((idxWin L).view.read (Elt F) fi)) Finset.univ) x).toNat
          < S1000000x128.size gathers_S1000000x128_S128x128.axis)
    (pay : S128x128.Idx → Elt F .f32)
    (hpay : pay = ReadAs.same.apply (v.read (Elt F) (v.writes (Elt F) fb
        (⟨Rect.whole S128x128, SparseCore.gatherPayload gathers_S1000000x128_S128x128 ((tabWin).view.read (Elt F) ft)
          (SparseCore.rows ((listWinR r).view.read (Elt F)
            (View.write (Elt F) (s0W).view f0 (ReadAs.same.apply ((idxWin L).view.read (Elt F) fi)) Finset.univ)) hn hin')⟩ :: rest)))) :
    ChunkOK d L r fi ft ((outWinR L r).view.writes (Elt F) fo [⟨Rect.whole S128x128, pay⟩]) := by
  intro a c
  rw [read_top, hpay]
  show v.read (Elt F) _ (ix2 a c) = _
  rw [read_top, gather_at]
  congr 2
  refine Fin.ext ?_
  rw [rows_at, list_read]
  show _ = min _ 999999
  exact (Nat.min_eq_left (hidx _)).symm

end Cert.Proof.KI

end
-- ==== Proof.TileOkKI.lean ====
/-
  The tile's fifty chunks, each held at contents that are right, as one assertion and chunk by chunk; the tile's
  semaphores by number; and the bound on the waits a run records.
-/
import proofs.«208090_g83872121356401_cont_sun_m_474_43_alg».proof.Proof.PayKI
import proofs.«208090_g83872121356401_cont_sun_m_474_43_alg».proof.Proof.LibRowBlocks
import proofs.«208090_g83872121356401_cont_sun_m_474_43_alg».proof.Proof.LibWindows
import proofs.«208090_g83872121356401_cont_sun_m_474_43_alg».proof.Proof.TileChainsKI
import proofs.«208090_g83872121356401_cont_sun_m_474_43_alg».proof.Proof.TileValKI

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iW" => (Memref.whole Cert.KernelIdeal.main_v1_scv : Memref Cert.KernelIdeal.sig Kind.scVector Space.hbm Cert.KernelIdeal.S204800 EltTy.i32)
local notation "tW" => (Memref.whole Cert.KernelIdeal.main_v2_scv : Memref Cert.KernelIdeal.sig Kind.scVector Space.hbm Cert.KernelIdeal.S1000000x128 EltTy.f32)
local notation "oW" => (Memref.whole Cert.KernelIdeal.main_v3_scv : Memref Cert.KernelIdeal.sig Kind.scVector Space.hbm Cert.KernelIdeal.S204800x128 EltTy.f32)
local notation "s0W" => (Memref.whole Cert.KernelIdeal.cc1_scratch0 : Memref Cert.KernelIdeal.sig Kind.scVector Space.vmem Cert.KernelIdeal.S6400 EltTy.i32)
local notation "s1W" => (Memref.whole Cert.KernelIdeal.cc1_scratch1 : Memref Cert.KernelIdeal.sig Kind.scVector Space.vmem Cert.KernelIdeal.S128x128 EltTy.f32)
local notation "s2W" => (Memref.whole Cert.KernelIdeal.cc1_scratch2 : Memref Cert.KernelIdeal.sig Kind.scVector Space.vmem Cert.KernelIdeal.S128x128 EltTy.f32)

/-- The tile's fifty chunks, each held at contents that are right. -/
def okChain (d : Dev nD) (L : grid1.Coords) (fi : Buf (Elt F) ((idxWin L).view.loc (thr d L)))
    (ft : Buf (Elt F) ((tW).view.loc (thr d L))) : sProp 𝕄 :=
  bigSep (Finset.univ : Finset (Fin 50)) fun r =>
    iprop(∃ f, ((outWinR L r).view.loc (thr d L) ↦[(outWinR L r).view.set]{fullShare} f) ∗ ⌜ChunkOK d L r fi ft f⌝)

/-- A wait recorded at the kernel's own index keeps the recorded waits within the bound. -/
theorem W_ins {W W' : Waits sig (HIx 1)} (s : SemLoc sig) (h : ∀ p ∈ W', p ∈ W ∨ p.2 = none) :
    ∀ p ∈ insert (s, (default : HIx 1)) W', p ∈ W ∨ p.2 = none := by
  intro p hp
  rcases Finset.mem_insert.mp hp with rfl | hp
  · exact .inr rfl
  · exact h p hp

set_option maxRecDepth 8192 in
set_option maxHeartbeats 8000000 in
/-- The fifty chunks held right, one by one. -/
theorem ok_chain (d : Dev nD) (L : grid1.Coords) (fi : Buf (Elt F) ((idxWin L).view.loc (thr d L)))
    (ft : Buf (Elt F) ((tW).view.loc (thr d L))) :
    (okChain d L fi ft : sProp 𝕄)
      = iprop((∃ f, (((oW).slice (Rect.unit (s := S204800x128) (k1_off2 L 0#32) S128x128.size (k1_off2_inb L 0)) (fun _ => rfl)).view.loc (thr d L) ↦[((oW).slice (Rect.unit (s := S204800x128) (k1_off2 L 0#32) S128x128.size (k1_off2_inb L 0)) (fun _ => rfl)).view.set]{fullShare} f) ∗ ⌜ChunkOK d L (0 : Fin 50) fi ft f⌝)
      ∗ (∃ f, (((oW).slice (Rect.unit (s := S204800x128) (k1_off2 L 128#32) S128x128.size (k1_off2_inb L 1)) (fun _ => rfl)).view.loc (thr d L) ↦[((oW).slice (Rect.unit (s := S204800x128) (k1_off2 L 128#32) S128x128.size (k1_off2_inb L 1)) (fun _ => rfl)).view.set]{fullShare} f) ∗ ⌜ChunkOK d L (1 : Fin 50) fi ft f⌝)
      ∗ (∃ f, (((oW).slice (Rect.unit (s := S204800x128) (k1_off2 L 256#32) S128x128.size (k1_off2_inb L 2)) (fun _ => rfl)).view.loc (thr d L) ↦[((oW).slice (Rect.unit (s := S204800x128) (k1_off2 L 256#32) S128x128.size (k1_off2_inb L 2)) (fun _ => rfl)).view.set]{fullShare} f) ∗ ⌜ChunkOK d L (2 : Fin 50) fi ft f⌝)
      ∗ (∃ f, (((oW).slice (Rect.unit (s := S204800x128) (k1_off2 L 384#32) S128x128.size (k1_off2_inb L 3)) (fun _ => rfl)).view.loc (thr d L) ↦[((oW).slice (Rect.unit (s := S204800x128) (k1_off2 L 384#32) S128x128.size (k1_off2_inb L 3)) (fun _ => rfl)).view.set]{fullShare} f) ∗ ⌜ChunkOK d L (3 : Fin 50) fi ft f⌝)
      ∗ (∃ f, (((oW).slice (Rect.unit (s := S204800x128) (k1_off2 L 512#32) S128x128.size (k1_off2_inb L 4)) (fun _ => rfl)).view.loc (thr d L) ↦[((oW).slice (Rect.unit (s := S204800x128) (k1_off2 L 512#32) S128x128.size (k1_off2_inb L 4)) (fun _ => rfl)).view.set]{fullShare} f) ∗ ⌜ChunkOK d L (4 : Fin 50) fi ft f⌝)
      ∗ (∃ f, (((oW).slice (Rect.unit (s := S204800x128) (k1_off2 L 640#32) S128x128.size (k1_off2_inb L 5)) (fun _ => rfl)).view.loc (thr d L) ↦[((oW).slice (Rect.unit (s := S204800x128) (k1_off2 L 640#32) S128x128.size (k1_off2_inb L 5)) (fun _ => rfl)).view.set]{fullShare} f) ∗ ⌜ChunkOK d L (5 : Fin 50) fi ft f⌝)
      ∗ (∃ f, (((oW).slice (Rect.unit (s := S204800x128) (k1_off2 L 768#32) S128x128.size (k1_off2_inb L 6)) (fun _ => rfl)).view.loc (thr d L) ↦[((oW).slice (Rect.unit (s := S204800x128) (k1_off2 L 768#32) S128x128.size (k1_off2_inb L 6)) (fun _ => rfl)).view.set]{fullShare} f) ∗ ⌜ChunkOK d L (6 : Fin 50) fi ft f⌝)
      ∗ (∃ f, (((oW).slice (Rect.unit (s := S204800x128) (k1_off2 L 896#32) S128x128.size (k1_off2_inb L 7)) (fun _ => rfl)).view.loc (thr d L) ↦[((oW).slice (Rect.unit (s := S204800x128) (k1_off2 L 896#32) S128x128.size (k1_off2_inb L 7)) (fun _ => rfl)).view.set]{fullShare} f) ∗ ⌜ChunkOK d L (7 : Fin 50) fi ft f⌝)
      ∗ (∃ f, (((oW).slice (Rect.unit (s := S204800x128) (k1_off2 L 1024#32) S128x128.size (k1_off2_inb L 8)) (fun _ => rfl)).view.loc (thr d L) ↦[((oW).slice (Rect.unit (s := S204800x128) (k1_off2 L 1024#32) S128x128.size (k1_off2_inb L 8)) (fun _ => rfl)).view.set]{fullShare} f) ∗ ⌜ChunkOK d L (8 : Fin 50) fi ft f⌝)
      ∗ (∃ f, (((oW).slice (Rect.unit (s := S204800x128) (k1_off2 L 1152#32) S128x128.size (k1_off2_inb L 9)) (fun _ => rfl)).view.loc (thr d L) ↦[((oW).slice (Rect.unit (s := S204800x128) (k1_off2 L 1152#32) S128x128.size (k1_off2_inb L 9)) (fun _ => rfl)).view.set]{fullShare} f) ∗ ⌜ChunkOK d L (9 : Fin 50) fi ft f⌝)
      ∗ (∃ f, (((oW).slice (Rect.unit (s := S204800x128) (k1_off2 L 1280#32) S128x128.size (k1_off2_inb L 10)) (fun _ => rfl)).view.loc (thr d L) ↦[((oW).slice (Rect.unit (s := S204800x128) (k1_off2 L 1280#32) S128x128.size (k1_off2_inb L 10)) (fun _ => rfl)).view.set]{fullShare} f) ∗ ⌜ChunkOK d L (10 : Fin 50) fi ft f⌝)
      ∗ (∃ f, (((oW).slice (Rect.unit (s := S204800x128) (k1_off2 L 1408#32) S128x128.size (k1_off2_inb L 11)) (fun _ => rfl)).view.loc (thr d L) ↦[((oW).slice (Rect.unit (s := S204800x128) (k1_off2 L 1408#32) S128x128.size (k1_off2_inb L 11)) (fun _ => rfl)).view.set]{fullShare} f) ∗ ⌜ChunkOK d L (11 : Fin 50) fi ft f⌝)
      ∗ (∃ f, (((oW).slice (Rect.unit (s := S204800x128) (k1_off2 L 1536#32) S128x128.size (k1_off2_inb L 12)) (fun _ => rfl)).view.loc (thr d L) ↦[((oW).slice (Rect.unit (s := S204800x128) (k1_off2 L 1536#32) S128x128.size (k1_off2_inb L 12)) (fun _ => rfl)).view.set]{fullShare} f) ∗ ⌜ChunkOK d L (12 : Fin 50) fi ft f⌝)
      ∗ (∃ f, (((oW).slice (Rect.unit (s := S204800x128) (k1_off2 L 1664#32) S128x128.size (k1_off2_inb L 13)) (fun _ => rfl)).view.loc (thr d L) ↦[((oW).slice (Rect.unit (s := S204800x128) (k1_off2 L 1664#32) S128x128.size (k1_off2_inb L 13)) (fun _ => rfl)).view.set]{fullShare} f) ∗ ⌜ChunkOK d L (13 : Fin 50) fi ft f⌝)
      ∗ (∃ f, (((oW).slice (Rect.unit (s := S204800x128) (k1_off2 L 1792#32) S128x128.size (k1_off2_inb L 14)) (fun _ => rfl)).view.loc (thr d L) ↦[((oW).slice (Rect.unit (s := S204800x128) (k1_off2 L 1792#32) S128x128.size (k1_off2_inb L 14)) (fun _ => rfl)).view.set]{fullShare} f) ∗ ⌜ChunkOK d L (14 : Fin 50) fi ft f⌝)
      ∗ (∃ f, (((oW).slice (Rect.unit (s := S204800x128) (k1_off2 L 1920#32) S128x128.size (k1_off2_inb L 15)) (fun _ => rfl)).view.loc (thr d L) ↦[((oW).slice (Rect.unit (s := S204800x128) (k1_off2 L 1920#32) S128x128.size (k1_off2_inb L 15)) (fun _ => rfl)).view.set]{fullShare} f) ∗ ⌜ChunkOK d L (15 : Fin 50) fi ft f⌝)
      ∗ (∃ f, (((oW).slice (Rect.unit (s := S204800x128) (k1_off2 L 2048#32) S128x128.size (k1_off2_inb L 16)) (fun _ => rfl)).view.loc (thr d L) ↦[((oW).slice (Rect.unit (s := S204800x128) (k1_off2 L 2048#32) S128x128.size (k1_off2_inb L 16)) (fun _ => rfl)).view.set]{fullShare} f) ∗ ⌜ChunkOK d L (16 : Fin 50) fi ft f⌝)
      ∗ (∃ f, (((oW).slice (Rect.unit (s := S204800x128) (k1_off2 L 2176#32) S128x128.size (k1_off2_inb L 17)) (fun _ => rfl)).view.loc (thr d L) ↦[((oW).slice (Rect.unit (s := S204800x128) (k1_off2 L 2176#32) S128x128.size (k1_off2_inb L 17)) (fun _ => rfl)).view.set]{fullShare} f) ∗ ⌜ChunkOK d L (17 : Fin 50) fi ft f⌝)
      ∗ (∃ f, (((oW).slice (Rect.unit (s := S204800x128) (k1_off2 L 2304#32) S128x128.size (k1_off2_inb L 18)) (fun _ => rfl)).view.loc (thr d L) ↦[((oW).slice (Rect.unit (s := S204800x128) (k1_off2 L 2304#32) S128x128.size (k1_off2_inb L 18)) (fun _ => rfl)).view.set]{fullShare} f) ∗ ⌜ChunkOK d L (18 : Fin 50) fi ft f⌝)
      ∗ (∃ f, (((oW).slice (Rect.unit (s := S204800x128) (k1_off2 L 2432#32) S128x128.size (k1_off2_inb L 19)) (fun _ => rfl)).view.loc (thr d L) ↦[((oW).slice (Rect.unit (s := S204800x128) (k1_off2 L 2432#32) S128x128.size (k1_off2_inb L 19)) (fun _ => rfl)).view.set]{fullShare} f) ∗ ⌜ChunkOK d L (19 : Fin 50) fi ft f⌝)
      ∗ (∃ f, (((oW).slice (Rect.unit (s := S204800x128) (k1_off2 L 2560#32) S128x128.size (k1_off2_inb L 20)) (fun _ => rfl)).view.loc (thr d L) ↦[((oW).slice (Rect.unit (s := S204800x128) (k1_off2 L 2560#32) S128x128.size (k1_off2_inb L 20)) (fun _ => rfl)).view.set]{fullShare} f) ∗ ⌜ChunkOK d L (20 : Fin 50) fi ft f⌝)
      ∗ (∃ f, (((oW).slice (Rect.unit (s := S204800x128) (k1_off2 L 2688#32) S128x128.size (k1_off2_inb L 21)) (fun _ => rfl)).view.loc (thr d L) ↦[((oW).slice (Rect.unit (s := S204800x128) (k1_off2 L 2688#32) S128x128.size (k1_off2_inb L 21)) (fun _ => rfl)).view.set]{fullShare} f) ∗ ⌜ChunkOK d L (21 : Fin 50) fi ft f⌝)
      ∗ (∃ f, (((oW).slice (Rect.unit (s := S204800x128) (k1_off2 L 2816#32) S128x128.size (k1_off2_inb L 22)) (fun _ => rfl)).view.loc (thr d L) ↦[((oW).slice (Rect.unit (s := S204800x128) (k1_off2 L 2816#32) S128x128.size (k1_off2_inb L 22)) (fun _ => rfl)).view.set]{fullShare} f) ∗ ⌜ChunkOK d L (22 : Fin 50) fi ft f⌝)
      ∗ (∃ f, (((oW).slice (Rect.unit (s := S204800x128) (k1_off2 L 2944#32) S128x128.size (k1_off2_inb L 23)) (fun _ => rfl)).view.loc (thr d L) ↦[((oW).slice (Rect.unit (s := S204800x128) (k1_off2 L 2944#32) S128x128.size (k1_off2_inb L 23)) (fun _ => rfl)).view.set]{fullShare} f) ∗ ⌜ChunkOK d L (23 : Fin 50) fi ft f⌝)
      ∗ (∃ f, (((oW).slice (Rect.unit (s := S204800x128) (k1_off2 L 3072#32) S128x128.size (k1_off2_inb L 24)) (fun _ => rfl)).view.loc (thr d L) ↦[((oW).slice (Rect.unit (s := S204800x128) (k1_off2 L 3072#32) S128x128.size (k1_off2_inb L 24)) (fun _ => rfl)).view.set]{fullShare} f) ∗ ⌜ChunkOK d L (24 : Fin 50) fi ft f⌝)
      ∗ (∃ f, (((oW).slice (Rect.unit (s := S204800x128) (k1_off2 L 3200#32) S128x128.size (k1_off2_inb L 25)) (fun _ => rfl)).view.loc (thr d L) ↦[((oW).slice (Rect.unit (s := S204800x128) (k1_off2 L 3200#32) S128x128.size (k1_off2_inb L 25)) (fun _ => rfl)).view.set]{fullShare} f) ∗ ⌜ChunkOK d L (25 : Fin 50) fi ft f⌝)
      ∗ (∃ f, (((oW).slice (Rect.unit (s := S204800x128) (k1_off2 L 3328#32) S128x128.size (k1_off2_inb L 26)) (fun _ => rfl)).view.loc (thr d L) ↦[((oW).slice (Rect.unit (s := S204800x128) (k1_off2 L 3328#32) S128x128.size (k1_off2_inb L 26)) (fun _ => rfl)).view.set]{fullShare} f) ∗ ⌜ChunkOK d L (26 : Fin 50) fi ft f⌝)
      ∗ (∃ f, (((oW).slice (Rect.unit (s := S204800x128) (k1_off2 L 3456#32) S128x128.size (k1_off2_inb L 27)) (fun _ => rfl)).view.loc (thr d L) ↦[((oW).slice (Rect.unit (s := S204800x128) (k1_off2 L 3456#32) S128x128.size (k1_off2_inb L 27)) (fun _ => rfl)).view.set]{fullShare} f) ∗ ⌜ChunkOK d L (27 : Fin 50) fi ft f⌝)
      ∗ (∃ f, (((oW).slice (Rect.unit (s := S204800x128) (k1_off2 L 3584#32) S128x128.size (k1_off2_inb L 28)) (fun _ => rfl)).view.loc (thr d L) ↦[((oW).slice (Rect.unit (s := S204800x128) (k1_off2 L 3584#32) S128x128.size (k1_off2_inb L 28)) (fun _ => rfl)).view.set]{fullShare} f) ∗ ⌜ChunkOK d L (28 : Fin 50) fi ft f⌝)
      ∗ (∃ f, (((oW).slice (Rect.unit (s := S204800x128) (k1_off2 L 3712#32) S128x128.size (k1_off2_inb L 29)) (fun _ => rfl)).view.loc (thr d L) ↦[((oW).slice (Rect.unit (s := S204800x128) (k1_off2 L 3712#32) S128x128.size (k1_off2_inb L 29)) (fun _ => rfl)).view.set]{fullShare} f) ∗ ⌜ChunkOK d L (29 : Fin 50) fi ft f⌝)
      ∗ (∃ f, (((oW).slice (Rect.unit (s := S204800x128) (k1_off2 L 3840#32) S128x128.size (k1_off2_inb L 30)) (fun _ => rfl)).view.loc (thr d L) ↦[((oW).slice (Rect.unit (s := S204800x128) (k1_off2 L 3840#32) S128x128.size (k1_off2_inb L 30)) (fun _ => rfl)).view.set]{fullShare} f) ∗ ⌜ChunkOK d L (30 : Fin 50) fi ft f⌝)
      ∗ (∃ f, (((oW).slice (Rect.unit (s := S204800x128) (k1_off2 L 3968#32) S128x128.size (k1_off2_inb L 31)) (fun _ => rfl)).view.loc (thr d L) ↦[((oW).slice (Rect.unit (s := S204800x128) (k1_off2 L 3968#32) S128x128.size (k1_off2_inb L 31)) (fun _ => rfl)).view.set]{fullShare} f) ∗ ⌜ChunkOK d L (31 : Fin 50) fi ft f⌝)
      ∗ (∃ f, (((oW).slice (Rect.unit (s := S204800x128) (k1_off2 L 4096#32) S128x128.size (k1_off2_inb L 32)) (fun _ => rfl)).view.loc (thr d L) ↦[((oW).slice (Rect.unit (s := S204800x128) (k1_off2 L 4096#32) S128x128.size (k1_off2_inb L 32)) (fun _ => rfl)).view.set]{fullShare} f) ∗ ⌜ChunkOK d L (32 : Fin 50) fi ft f⌝)
      ∗ (∃ f, (((oW).slice (Rect.unit (s := S204800x128) (k1_off2 L 4224#32) S128x128.size (k1_off2_inb L 33)) (fun _ => rfl)).view.loc (thr d L) ↦[((oW).slice (Rect.unit (s := S204800x128) (k1_off2 L 4224#32) S128x128.size (k1_off2_inb L 33)) (fun _ => rfl)).view.set]{fullShare} f) ∗ ⌜ChunkOK d L (33 : Fin 50) fi ft f⌝)
      ∗ (∃ f, (((oW).slice (Rect.unit (s := S204800x128) (k1_off2 L 4352#32) S128x128.size (k1_off2_inb L 34)) (fun _ => rfl)).view.loc (thr d L) ↦[((oW).slice (Rect.unit (s := S204800x128) (k1_off2 L 4352#32) S128x128.size (k1_off2_inb L 34)) (fun _ => rfl)).view.set]{fullShare} f) ∗ ⌜ChunkOK d L (34 : Fin 50) fi ft f⌝)
      ∗ (∃ f, (((oW).slice (Rect.unit (s := S204800x128) (k1_off2 L 4480#32) S128x128.size (k1_off2_inb L 35)) (fun _ => rfl)).view.loc (thr d L) ↦[((oW).slice (Rect.unit (s := S204800x128) (k1_off2 L 4480#32) S128x128.size (k1_off2_inb L 35)) (fun _ => rfl)).view.set]{fullShare} f) ∗ ⌜ChunkOK d L (35 : Fin 50) fi ft f⌝)
      ∗ (∃ f, (((oW).slice (Rect.unit (s := S204800x128) (k1_off2 L 4608#32) S128x128.size (k1_off2_inb L 36)) (fun _ => rfl)).view.loc (thr d L) ↦[((oW).slice (Rect.unit (s := S204800x128) (k1_off2 L 4608#32) S128x128.size (k1_off2_inb L 36)) (fun _ => rfl)).view.set]{fullShare} f) ∗ ⌜ChunkOK d L (36 : Fin 50) fi ft f⌝)
      ∗ (∃ f, (((oW).slice (Rect.unit (s := S204800x128) (k1_off2 L 4736#32) S128x128.size (k1_off2_inb L 37)) (fun _ => rfl)).view.loc (thr d L) ↦[((oW).slice (Rect.unit (s := S204800x128) (k1_off2 L 4736#32) S128x128.size (k1_off2_inb L 37)) (fun _ => rfl)).view.set]{fullShare} f) ∗ ⌜ChunkOK d L (37 : Fin 50) fi ft f⌝)
      ∗ (∃ f, (((oW).slice (Rect.unit (s := S204800x128) (k1_off2 L 4864#32) S128x128.size (k1_off2_inb L 38)) (fun _ => rfl)).view.loc (thr d L) ↦[((oW).slice (Rect.unit (s := S204800x128) (k1_off2 L 4864#32) S128x128.size (k1_off2_inb L 38)) (fun _ => rfl)).view.set]{fullShare} f) ∗ ⌜ChunkOK d L (38 : Fin 50) fi ft f⌝)
      ∗ (∃ f, (((oW).slice (Rect.unit (s := S204800x128) (k1_off2 L 4992#32) S128x128.size (k1_off2_inb L 39)) (fun _ => rfl)).view.loc (thr d L) ↦[((oW).slice (Rect.unit (s := S204800x128) (k1_off2 L 4992#32) S128x128.size (k1_off2_inb L 39)) (fun _ => rfl)).view.set]{fullShare} f) ∗ ⌜ChunkOK d L (39 : Fin 50) fi ft f⌝)
      ∗ (∃ f, (((oW).slice (Rect.unit (s := S204800x128) (k1_off2 L 5120#32) S128x128.size (k1_off2_inb L 40)) (fun _ => rfl)).view.loc (thr d L) ↦[((oW).slice (Rect.unit (s := S204800x128) (k1_off2 L 5120#32) S128x128.size (k1_off2_inb L 40)) (fun _ => rfl)).view.set]{fullShare} f) ∗ ⌜ChunkOK d L (40 : Fin 50) fi ft f⌝)
      ∗ (∃ f, (((oW).slice (Rect.unit (s := S204800x128) (k1_off2 L 5248#32) S128x128.size (k1_off2_inb L 41)) (fun _ => rfl)).view.loc (thr d L) ↦[((oW).slice (Rect.unit (s := S204800x128) (k1_off2 L 5248#32) S128x128.size (k1_off2_inb L 41)) (fun _ => rfl)).view.set]{fullShare} f) ∗ ⌜ChunkOK d L (41 : Fin 50) fi ft f⌝)
      ∗ (∃ f, (((oW).slice (Rect.unit (s := S204800x128) (k1_off2 L 5376#32) S128x128.size (k1_off2_inb L 42)) (fun _ => rfl)).view.loc (thr d L) ↦[((oW).slice (Rect.unit (s := S204800x128) (k1_off2 L 5376#32) S128x128.size (k1_off2_inb L 42)) (fun _ => rfl)).view.set]{fullShare} f) ∗ ⌜ChunkOK d L (42 : Fin 50) fi ft f⌝)
      ∗ (∃ f, (((oW).slice (Rect.unit (s := S204800x128) (k1_off2 L 5504#32) S128x128.size (k1_off2_inb L 43)) (fun _ => rfl)).view.loc (thr d L) ↦[((oW).slice (Rect.unit (s := S204800x128) (k1_off2 L 5504#32) S128x128.size (k1_off2_inb L 43)) (fun _ => rfl)).view.set]{fullShare} f) ∗ ⌜ChunkOK d L (43 : Fin 50) fi ft f⌝)
      ∗ (∃ f, (((oW).slice (Rect.unit (s := S204800x128) (k1_off2 L 5632#32) S128x128.size (k1_off2_inb L 44)) (fun _ => rfl)).view.loc (thr d L) ↦[((oW).slice (Rect.unit (s := S204800x128) (k1_off2 L 5632#32) S128x128.size (k1_off2_inb L 44)) (fun _ => rfl)).view.set]{fullShare} f) ∗ ⌜ChunkOK d L (44 : Fin 50) fi ft f⌝)
      ∗ (∃ f, (((oW).slice (Rect.unit (s := S204800x128) (k1_off2 L 5760#32) S128x128.size (k1_off2_inb L 45)) (fun _ => rfl)).view.loc (thr d L) ↦[((oW).slice (Rect.unit (s := S204800x128) (k1_off2 L 5760#32) S128x128.size (k1_off2_inb L 45)) (fun _ => rfl)).view.set]{fullShare} f) ∗ ⌜ChunkOK d L (45 : Fin 50) fi ft f⌝)
      ∗ (∃ f, (((oW).slice (Rect.unit (s := S204800x128) (k1_off2 L 5888#32) S128x128.size (k1_off2_inb L 46)) (fun _ => rfl)).view.loc (thr d L) ↦[((oW).slice (Rect.unit (s := S204800x128) (k1_off2 L 5888#32) S128x128.size (k1_off2_inb L 46)) (fun _ => rfl)).view.set]{fullShare} f) ∗ ⌜ChunkOK d L (46 : Fin 50) fi ft f⌝)
      ∗ (∃ f, (((oW).slice (Rect.unit (s := S204800x128) (k1_off2 L 6016#32) S128x128.size (k1_off2_inb L 47)) (fun _ => rfl)).view.loc (thr d L) ↦[((oW).slice (Rect.unit (s := S204800x128) (k1_off2 L 6016#32) S128x128.size (k1_off2_inb L 47)) (fun _ => rfl)).view.set]{fullShare} f) ∗ ⌜ChunkOK d L (47 : Fin 50) fi ft f⌝)
      ∗ (∃ f, (((oW).slice (Rect.unit (s := S204800x128) (k1_off2 L 6144#32) S128x128.size (k1_off2_inb L 48)) (fun _ => rfl)).view.loc (thr d L) ↦[((oW).slice (Rect.unit (s := S204800x128) (k1_off2 L 6144#32) S128x128.size (k1_off2_inb L 48)) (fun _ => rfl)).view.set]{fullShare} f) ∗ ⌜ChunkOK d L (48 : Fin 50) fi ft f⌝)
      ∗ (∃ f, (((oW).slice (Rect.unit (s := S204800x128) (k1_off2 L 6272#32) S128x128.size (k1_off2_inb L 49)) (fun _ => rfl)).view.loc (thr d L) ↦[((oW).slice (Rect.unit (s := S204800x128) (k1_off2 L 6272#32) S128x128.size (k1_off2_inb L 49)) (fun _ => rfl)).view.set]{fullShare} f) ∗ ⌜ChunkOK d L (49 : Fin 50) fi ft f⌝)) := by
  unfold okChain
  rw [bigSep_univ_eq_bigSepL _ fin50_univ fin50_nodup]
  rfl

set_option maxRecDepth 8192 in
set_option maxHeartbeats 4000000 in
/-- The tile's own semaphores at zero, by number. -/
theorem sem_chain' (d : Dev nD) (L : grid1.Coords) :
    (ownSems0 (thr d L) : sProp 𝕄)
      = iprop(semVal ((thr d L, SemLoc.dma (⟨0, by decide⟩ : DmaSem sig)) : GSem nD τ sig) 0
      ∗ semVal ((thr d L, SemLoc.dma (⟨1, by decide⟩ : DmaSem sig)) : GSem nD τ sig) 0
      ∗ semVal ((thr d L, SemLoc.dma (⟨2, by decide⟩ : DmaSem sig)) : GSem nD τ sig) 0
      ∗ semVal ((thr d L, SemLoc.dma (⟨3, by decide⟩ : DmaSem sig)) : GSem nD τ sig) 0
      ∗ semVal ((thr d L, SemLoc.dma (⟨4, by decide⟩ : DmaSem sig)) : GSem nD τ sig) 0
      ∗ semVal ((thr d L, SemLoc.dma (⟨5, by decide⟩ : DmaSem sig)) : GSem nD τ sig) 0
      ∗ semVal ((thr d L, SemLoc.dma (⟨6, by decide⟩ : DmaSem sig)) : GSem nD τ sig) 0
      ∗ semVal ((thr d L, SemLoc.dma (⟨7, by decide⟩ : DmaSem sig)) : GSem nD τ sig) 0
      ∗ semVal ((thr d L, SemLoc.dma (⟨8, by decide⟩ : DmaSem sig)) : GSem nD τ sig) 0
      ∗ semVal ((thr d L, SemLoc.dma (⟨9, by decide⟩ : DmaSem sig)) : GSem nD τ sig) 0
      ∗ semVal ((thr d L, SemLoc.dma (⟨10, by decide⟩ : DmaSem sig)) : GSem nD τ sig) 0
      ∗ semVal ((thr d L, SemLoc.dma (⟨11, by decide⟩ : DmaSem sig)) : GSem nD τ sig) 0
      ∗ semVal ((thr d L, SemLoc.dma (⟨12, by decide⟩ : DmaSem sig)) : GSem nD τ sig) 0
      ∗ semVal ((thr d L, SemLoc.dma (⟨13, by decide⟩ : DmaSem sig)) : GSem nD τ sig) 0
      ∗ semVal ((thr d L, SemLoc.dma (⟨14, by decide⟩ : DmaSem sig)) : GSem nD τ sig) 0
      ∗ semVal ((thr d L, SemLoc.dma (⟨15, by decide⟩ : DmaSem sig)) : GSem nD τ sig) 0
      ∗ semVal ((thr d L, SemLoc.dma (⟨16, by decide⟩ : DmaSem sig)) : GSem nD τ sig) 0
      ∗ semVal ((thr d L, SemLoc.dma (⟨17, by decide⟩ : DmaSem sig)) : GSem nD τ sig) 0
      ∗ semVal ((thr d L, SemLoc.dma (⟨18, by decide⟩ : DmaSem sig)) : GSem nD τ sig) 0
      ∗ semVal ((thr d L, SemLoc.dma (⟨19, by decide⟩ : DmaSem sig)) : GSem nD τ sig) 0
      ∗ semVal ((thr d L, SemLoc.dma (⟨20, by decide⟩ : DmaSem sig)) : GSem nD τ sig) 0
      ∗ semVal ((thr d L, SemLoc.dma (⟨21, by decide⟩ : DmaSem sig)) : GSem nD τ sig) 0
      ∗ semVal ((thr d L, SemLoc.dma (⟨22, by decide⟩ : DmaSem sig)) : GSem nD τ sig) 0
      ∗ semVal ((thr d L, SemLoc.dma (⟨23, by decide⟩ : DmaSem sig)) : GSem nD τ sig) 0
      ∗ semVal ((thr d L, SemLoc.dma (⟨24, by decide⟩ : DmaSem sig)) : GSem nD τ sig) 0
      ∗ semVal ((thr d L, SemLoc.dma (⟨25, by decide⟩ : DmaSem sig)) : GSem nD τ sig) 0
      ∗ semVal ((thr d L, SemLoc.dma (⟨26, by decide⟩ : DmaSem sig)) : GSem nD τ sig) 0
      ∗ semVal ((thr d L, SemLoc.dma (⟨27, by decide⟩ : DmaSem sig)) : GSem nD τ sig) 0
      ∗ semVal ((thr d L, SemLoc.dma (⟨28, by decide⟩ : DmaSem sig)) : GSem nD τ sig) 0
      ∗ semVal ((thr d L, SemLoc.dma (⟨29, by decide⟩ : DmaSem sig)) : GSem nD τ sig) 0
      ∗ semVal ((thr d L, SemLoc.dma (⟨30, by decide⟩ : DmaSem sig)) : GSem nD τ sig) 0
      ∗ semVal ((thr d L, SemLoc.dma (⟨31, by decide⟩ : DmaSem sig)) : GSem nD τ sig) 0
      ∗ semVal ((thr d L, SemLoc.dma (⟨32, by decide⟩ : DmaSem sig)) : GSem nD τ sig) 0
      ∗ semVal ((thr d L, SemLoc.dma (⟨33, by decide⟩ : DmaSem sig)) : GSem nD τ sig) 0
      ∗ semVal ((thr d L, SemLoc.dma (⟨34, by decide⟩ : DmaSem sig)) : GSem nD τ sig) 0
      ∗ semVal ((thr d L, SemLoc.dma (⟨35, by decide⟩ : DmaSem sig)) : GSem nD τ sig) 0
      ∗ semVal ((thr d L, SemLoc.dma (⟨36, by decide⟩ : DmaSem sig)) : GSem nD τ sig) 0
      ∗ semVal ((thr d L, SemLoc.dma (⟨37, by decide⟩ : DmaSem sig)) : GSem nD τ sig) 0
      ∗ semVal ((thr d L, SemLoc.dma (⟨38, by decide⟩ : DmaSem sig)) : GSem nD τ sig) 0
      ∗ semVal ((thr d L, SemLoc.dma (⟨39, by decide⟩ : DmaSem sig)) : GSem nD τ sig) 0
      ∗ semVal ((thr d L, SemLoc.dma (⟨40, by decide⟩ : DmaSem sig)) : GSem nD τ sig) 0
      ∗ semVal ((thr d L, SemLoc.dma (⟨41, by decide⟩ : DmaSem sig)) : GSem nD τ sig) 0
      ∗ semVal ((thr d L, SemLoc.dma (⟨42, by decide⟩ : DmaSem sig)) : GSem nD τ sig) 0
      ∗ semVal ((thr d L, SemLoc.dma (⟨43, by decide⟩ : DmaSem sig)) : GSem nD τ sig) 0
      ∗ semVal ((thr d L, SemLoc.dma (⟨44, by decide⟩ : DmaSem sig)) : GSem nD τ sig) 0
      ∗ semVal ((thr d L, SemLoc.dma (⟨45, by decide⟩ : DmaSem sig)) : GSem nD τ sig) 0
      ∗ semVal ((thr d L, SemLoc.dma (⟨46, by decide⟩ : DmaSem sig)) : GSem nD τ sig) 0
      ∗ semVal ((thr d L, SemLoc.dma (⟨47, by decide⟩ : DmaSem sig)) : GSem nD τ sig) 0
      ∗ semVal ((thr d L, SemLoc.dma (⟨48, by decide⟩ : DmaSem sig)) : GSem nD τ sig) 0
      ∗ semVal ((thr d L, SemLoc.dma (⟨49, by decide⟩ : DmaSem sig)) : GSem nD τ sig) 0
      ∗ semVal ((thr d L, SemLoc.dma (⟨50, by decide⟩ : DmaSem sig)) : GSem nD τ sig) 0
      ∗ semVal ((thr d L, SemLoc.dma (⟨51, by decide⟩ : DmaSem sig)) : GSem nD τ sig) 0
      ∗ semVal ((thr d L, SemLoc.dma (⟨52, by decide⟩ : DmaSem sig)) : GSem nD τ sig) 0
      ∗ semVal ((thr d L, SemLoc.dma (⟨53, by decide⟩ : DmaSem sig)) : GSem nD τ sig) 0
      ∗ semVal ((thr d L, SemLoc.dma (⟨54, by decide⟩ : DmaSem sig)) : GSem nD τ sig) 0
      ∗ semVal ((thr d L, SemLoc.dma (⟨55, by decide⟩ : DmaSem sig)) : GSem nD τ sig) 0
      ∗ semVal ((thr d L, SemLoc.dma (⟨56, by decide⟩ : DmaSem sig)) : GSem nD τ sig) 0) := by
  rw [ownSems0_tile]
  rfl

end Cert.Proof.KI

end
-- ==== Proof.TileRunKI.lean ====
/-
  One tile's run of the lookup kernel.

  The tile copies its 6400 row numbers into its list buffer, then serves its 50 chunks of 128 rows with two row buffers
  in turn: while the gather of chunk `j` is awaited and its rows copied out, the gather of chunk `j + 1` is already in
  flight into the other buffer.  Each gather has a DMA semaphore of its own buffer's, each copy-out one of its own, so at
  no time are two transfers outstanding on one semaphore, and no buffer is touched while a transfer reads or writes it.
  From the list run, two read shares of the padded table, the fifty chunks and the tile's own buffers and semaphores, the
  run ends with every chunk holding the padded table's rows that its list run names, and everything else handed back.
-/
import proofs.«208090_g83872121356401_cont_sun_m_474_43_alg».proof.Proof.PayKI
import proofs.«208090_g83872121356401_cont_sun_m_474_43_alg».proof.Proof.LibRowBlocks
import proofs.«208090_g83872121356401_cont_sun_m_474_43_alg».proof.Proof.LibWindows
import proofs.«208090_g83872121356401_cont_sun_m_474_43_alg».proof.Proof.TileOkKI

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iW" => (Memref.whole Cert.KernelIdeal.main_v1_scv : Memref Cert.KernelIdeal.sig Kind.scVector Space.hbm Cert.KernelIdeal.S204800 EltTy.i32)
local notation "tW" => (Memref.whole Cert.KernelIdeal.main_v2_scv : Memref Cert.KernelIdeal.sig Kind.scVector Space.hbm Cert.KernelIdeal.S1000000x128 EltTy.f32)
local notation "oW" => (Memref.whole Cert.KernelIdeal.main_v3_scv : Memref Cert.KernelIdeal.sig Kind.scVector Space.hbm Cert.KernelIdeal.S204800x128 EltTy.f32)
local notation "s0W" => (Memref.whole Cert.KernelIdeal.cc1_scratch0 : Memref Cert.KernelIdeal.sig Kind.scVector Space.vmem Cert.KernelIdeal.S6400 EltTy.i32)
local notation "s1W" => (Memref.whole Cert.KernelIdeal.cc1_scratch1 : Memref Cert.KernelIdeal.sig Kind.scVector Space.vmem Cert.KernelIdeal.S128x128 EltTy.f32)
local notation "s2W" => (Memref.whole Cert.KernelIdeal.cc1_scratch2 : Memref Cert.KernelIdeal.sig Kind.scVector Space.vmem Cert.KernelIdeal.S128x128 EltTy.f32)

variable [FloatOps F]

set_option maxHeartbeats 16000000 in
set_option maxRecDepth 8192 in
theorem tile_run (d : Dev nD) (L : grid1.Coords) (O : CellTallies nD τ sig (HIx 1)) (W : Waits sig (HIx 1)) (hO : ∀ g, O g none = 0) (q1 q2 : PosShare TreeShare)
    (fi : Buf (Elt F) ((idxWin L).view.loc (thr d L))) (ft : Buf (Elt F) ((tW).view.loc (thr d L)))
    (f0 : Buf (Elt F) ((s0W).view.loc (thr d L))) (f1 : Buf (Elt F) ((s1W).view.loc (thr d L))) (f2 : Buf (Elt F) ((s2W).view.loc (thr d L)))
    (fo : Buf (Elt F) ((oW).view.loc (thr d L)))
    (hidx : ∀ k, ((idxWin L).view.read (Elt F) fi k).toNat ≤ 999999) (R : sProp 𝕄) :
    iprop((levAts (K (F := F)).L (K (F := F)).lev : sProp 𝕄)
      ∗ ((idxWin L).view.loc (thr d L) ↦[(idxWin L).view.set]{fullShare} fi)
      ∗ ((tW).view.loc (thr d L) ↦{q1} ft) ∗ ((tW).view.loc (thr d L) ↦{q2} ft)
      ∗ ((s0W).view.loc (thr d L) ↦{fullShare} f0) ∗ ((s1W).view.loc (thr d L) ↦{fullShare} f1) ∗ ((s2W).view.loc (thr d L) ↦{fullShare} f2)
      ∗ (((oW).slice (Rect.unit (s := S204800x128) (k1_off2 L 0#32) S128x128.size (k1_off2_inb L 0)) (fun _ => rfl)).view.loc (thr d L) ↦[((oW).slice (Rect.unit (s := S204800x128) (k1_off2 L 0#32) S128x128.size (k1_off2_inb L 0)) (fun _ => rfl)).view.set]{fullShare} fo)
      ∗ (((oW).slice (Rect.unit (s := S204800x128) (k1_off2 L 128#32) S128x128.size (k1_off2_inb L 1)) (fun _ => rfl)).view.loc (thr d L) ↦[((oW).slice (Rect.unit (s := S204800x128) (k1_off2 L 128#32) S128x128.size (k1_off2_inb L 1)) (fun _ => rfl)).view.set]{fullShare} fo)
      ∗ (((oW).slice (Rect.unit (s := S204800x128) (k1_off2 L 256#32) S128x128.size (k1_off2_inb L 2)) (fun _ => rfl)).view.loc (thr d L) ↦[((oW).slice (Rect.unit (s := S204800x128) (k1_off2 L 256#32) S128x128.size (k1_off2_inb L 2)) (fun _ => rfl)).view.set]{fullShare} fo)
      ∗ (((oW).slice (Rect.unit (s := S204800x128) (k1_off2 L 384#32) S128x128.size (k1_off2_inb L 3)) (fun _ => rfl)).view.loc (thr d L) ↦[((oW).slice (Rect.unit (s := S204800x128) (k1_off2 L 384#32) S128x128.size (k1_off2_inb L 3)) (fun _ => rfl)).view.set]{fullShare} fo)
      ∗ (((oW).slice (Rect.unit (s := S204800x128) (k1_off2 L 512#32) S128x128.size (k1_off2_inb L 4)) (fun _ => rfl)).view.loc (thr d L) ↦[((oW).slice (Rect.unit (s := S204800x128) (k1_off2 L 512#32) S128x128.size (k1_off2_inb L 4)) (fun _ => rfl)).view.set]{fullShare} fo)
      ∗ (((oW).slice (Rect.unit (s := S204800x128) (k1_off2 L 640#32) S128x128.size (k1_off2_inb L 5)) (fun _ => rfl)).view.loc (thr d L) ↦[((oW).slice (Rect.unit (s := S204800x128) (k1_off2 L 640#32) S128x128.size (k1_off2_inb L 5)) (fun _ => rfl)).view.set]{fullShare} fo)
      ∗ (((oW).slice (Rect.unit (s := S204800x128) (k1_off2 L 768#32) S128x128.size (k1_off2_inb L 6)) (fun _ => rfl)).view.loc (thr d L) ↦[((oW).slice (Rect.unit (s := S204800x128) (k1_off2 L 768#32) S128x128.size (k1_off2_inb L 6)) (fun _ => rfl)).view.set]{fullShare} fo)
      ∗ (((oW).slice (Rect.unit (s := S204800x128) (k1_off2 L 896#32) S128x128.size (k1_off2_inb L 7)) (fun _ => rfl)).view.loc (thr d L) ↦[((oW).slice (Rect.unit (s := S204800x128) (k1_off2 L 896#32) S128x128.size (k1_off2_inb L 7)) (fun _ => rfl)).view.set]{fullShare} fo)
      ∗ (((oW).slice (Rect.unit (s := S204800x128) (k1_off2 L 1024#32) S128x128.size (k1_off2_inb L 8)) (fun _ => rfl)).view.loc (thr d L) ↦[((oW).slice (Rect.unit (s := S204800x128) (k1_off2 L 1024#32) S128x128.size (k1_off2_inb L 8)) (fun _ => rfl)).view.set]{fullShare} fo)
      ∗ (((oW).slice (Rect.unit (s := S204800x128) (k1_off2 L 1152#32) S128x128.size (k1_off2_inb L 9)) (fun _ => rfl)).view.loc (thr d L) ↦[((oW).slice (Rect.unit (s := S204800x128) (k1_off2 L 1152#32) S128x128.size (k1_off2_inb L 9)) (fun _ => rfl)).view.set]{fullShare} fo)
      ∗ (((oW).slice (Rect.unit (s := S204800x128) (k1_off2 L 1280#32) S128x128.size (k1_off2_inb L 10)) (fun _ => rfl)).view.loc (thr d L) ↦[((oW).slice (Rect.unit (s := S204800x128) (k1_off2 L 1280#32) S128x128.size (k1_off2_inb L 10)) (fun _ => rfl)).view.set]{fullShare} fo)
      ∗ (((oW).slice (Rect.unit (s := S204800x128) (k1_off2 L 1408#32) S128x128.size (k1_off2_inb L 11)) (fun _ => rfl)).view.loc (thr d L) ↦[((oW).slice (Rect.unit (s := S204800x128) (k1_off2 L 1408#32) S128x128.size (k1_off2_inb L 11)) (fun _ => rfl)).view.set]{fullShare} fo)
      ∗ (((oW).slice (Rect.unit (s := S204800x128) (k1_off2 L 1536#32) S128x128.size (k1_off2_inb L 12)) (fun _ => rfl)).view.loc (thr d L) ↦[((oW).slice (Rect.unit (s := S204800x128) (k1_off2 L 1536#32) S128x128.size (k1_off2_inb L 12)) (fun _ => rfl)).view.set]{fullShare} fo)
      ∗ (((oW).slice (Rect.unit (s := S204800x128) (k1_off2 L 1664#32) S128x128.size (k1_off2_inb L 13)) (fun _ => rfl)).view.loc (thr d L) ↦[((oW).slice (Rect.unit (s := S204800x128) (k1_off2 L 1664#32) S128x128.size (k1_off2_inb L 13)) (fun _ => rfl)).view.set]{fullShare} fo)
      ∗ (((oW).slice (Rect.unit (s := S204800x128) (k1_off2 L 1792#32) S128x128.size (k1_off2_inb L 14)) (fun _ => rfl)).view.loc (thr d L) ↦[((oW).slice (Rect.unit (s := S204800x128) (k1_off2 L 1792#32) S128x128.size (k1_off2_inb L 14)) (fun _ => rfl)).view.set]{fullShare} fo)
      ∗ (((oW).slice (Rect.unit (s := S204800x128) (k1_off2 L 1920#32) S128x128.size (k1_off2_inb L 15)) (fun _ => rfl)).view.loc (thr d L) ↦[((oW).slice (Rect.unit (s := S204800x128) (k1_off2 L 1920#32) S128x128.size (k1_off2_inb L 15)) (fun _ => rfl)).view.set]{fullShare} fo)
      ∗ (((oW).slice (Rect.unit (s := S204800x128) (k1_off2 L 2048#32) S128x128.size (k1_off2_inb L 16)) (fun _ => rfl)).view.loc (thr d L) ↦[((oW).slice (Rect.unit (s := S204800x128) (k1_off2 L 2048#32) S128x128.size (k1_off2_inb L 16)) (fun _ => rfl)).view.set]{fullShare} fo)
      ∗ (((oW).slice (Rect.unit (s := S204800x128) (k1_off2 L 2176#32) S128x128.size (k1_off2_inb L 17)) (fun _ => rfl)).view.loc (thr d L) ↦[((oW).slice (Rect.unit (s := S204800x128) (k1_off2 L 2176#32) S128x128.size (k1_off2_inb L 17)) (fun _ => rfl)).view.set]{fullShare} fo)
      ∗ (((oW).slice (Rect.unit (s := S204800x128) (k1_off2 L 2304#32) S128x128.size (k1_off2_inb L 18)) (fun _ => rfl)).view.loc (thr d L) ↦[((oW).slice (Rect.unit (s := S204800x128) (k1_off2 L 2304#32) S128x128.size (k1_off2_inb L 18)) (fun _ => rfl)).view.set]{fullShare} fo)
      ∗ (((oW).slice (Rect.unit (s := S204800x128) (k1_off2 L 2432#32) S128x128.size (k1_off2_inb L 19)) (fun _ => rfl)).view.loc (thr d L) ↦[((oW).slice (Rect.unit (s := S204800x128) (k1_off2 L 2432#32) S128x128.size (k1_off2_inb L 19)) (fun _ => rfl)).view.set]{fullShare} fo)
      ∗ (((oW).slice (Rect.unit (s := S204800x128) (k1_off2 L 2560#32) S128x128.size (k1_off2_inb L 20)) (fun _ => rfl)).view.loc (thr d L) ↦[((oW).slice (Rect.unit (s := S204800x128) (k1_off2 L 2560#32) S128x128.size (k1_off2_inb L 20)) (fun _ => rfl)).view.set]{fullShare} fo)
      ∗ (((oW).slice (Rect.unit (s := S204800x128) (k1_off2 L 2688#32) S128x128.size (k1_off2_inb L 21)) (fun _ => rfl)).view.loc (thr d L) ↦[((oW).slice (Rect.unit (s := S204800x128) (k1_off2 L 2688#32) S128x128.size (k1_off2_inb L 21)) (fun _ => rfl)).view.set]{fullShare} fo)
      ∗ (((oW).slice (Rect.unit (s := S204800x128) (k1_off2 L 2816#32) S128x128.size (k1_off2_inb L 22)) (fun _ => rfl)).view.loc (thr d L) ↦[((oW).slice (Rect.unit (s := S204800x128) (k1_off2 L 2816#32) S128x128.size (k1_off2_inb L 22)) (fun _ => rfl)).view.set]{fullShare} fo)
      ∗ (((oW).slice (Rect.unit (s := S204800x128) (k1_off2 L 2944#32) S128x128.size (k1_off2_inb L 23)) (fun _ => rfl)).view.loc (thr d L) ↦[((oW).slice (Rect.unit (s := S204800x128) (k1_off2 L 2944#32) S128x128.size (k1_off2_inb L 23)) (fun _ => rfl)).view.set]{fullShare} fo)
      ∗ (((oW).slice (Rect.unit (s := S204800x128) (k1_off2 L 3072#32) S128x128.size (k1_off2_inb L 24)) (fun _ => rfl)).view.loc (thr d L) ↦[((oW).slice (Rect.unit (s := S204800x128) (k1_off2 L 3072#32) S128x128.size (k1_off2_inb L 24)) (fun _ => rfl)).view.set]{fullShare} fo)
      ∗ (((oW).slice (Rect.unit (s := S204800x128) (k1_off2 L 3200#32) S128x128.size (k1_off2_inb L 25)) (fun _ => rfl)).view.loc (thr d L) ↦[((oW).slice (Rect.unit (s := S204800x128) (k1_off2 L 3200#32) S128x128.size (k1_off2_inb L 25)) (fun _ => rfl)).view.set]{fullShare} fo)
      ∗ (((oW).slice (Rect.unit (s := S204800x128) (k1_off2 L 3328#32) S128x128.size (k1_off2_inb L 26)) (fun _ => rfl)).view.loc (thr d L) ↦[((oW).slice (Rect.unit (s := S204800x128) (k1_off2 L 3328#32) S128x128.size (k1_off2_inb L 26)) (fun _ => rfl)).view.set]{fullShare} fo)
      ∗ (((oW).slice (Rect.unit (s := S204800x128) (k1_off2 L 3456#32) S128x128.size (k1_off2_inb L 27)) (fun _ => rfl)).view.loc (thr d L) ↦[((oW).slice (Rect.unit (s := S204800x128) (k1_off2 L 3456#32) S128x128.size (k1_off2_inb L 27)) (fun _ => rfl)).view.set]{fullShare} fo)
      ∗ (((oW).slice (Rect.unit (s := S204800x128) (k1_off2 L 3584#32) S128x128.size (k1_off2_inb L 28)) (fun _ => rfl)).view.loc (thr d L) ↦[((oW).slice (Rect.unit (s := S204800x128) (k1_off2 L 3584#32) S128x128.size (k1_off2_inb L 28)) (fun _ => rfl)).view.set]{fullShare} fo)
      ∗ (((oW).slice (Rect.unit (s := S204800x128) (k1_off2 L 3712#32) S128x128.size (k1_off2_inb L 29)) (fun _ => rfl)).view.loc (thr d L) ↦[((oW).slice (Rect.unit (s := S204800x128) (k1_off2 L 3712#32) S128x128.size (k1_off2_inb L 29)) (fun _ => rfl)).view.set]{fullShare} fo)
      ∗ (((oW).slice (Rect.unit (s := S204800x128) (k1_off2 L 3840#32) S128x128.size (k1_off2_inb L 30)) (fun _ => rfl)).view.loc (thr d L) ↦[((oW).slice (Rect.unit (s := S204800x128) (k1_off2 L 3840#32) S128x128.size (k1_off2_inb L 30)) (fun _ => rfl)).view.set]{fullShare} fo)
      ∗ (((oW).slice (Rect.unit (s := S204800x128) (k1_off2 L 3968#32) S128x128.size (k1_off2_inb L 31)) (fun _ => rfl)).view.loc (thr d L) ↦[((oW).slice (Rect.unit (s := S204800x128) (k1_off2 L 3968#32) S128x128.size (k1_off2_inb L 31)) (fun _ => rfl)).view.set]{fullShare} fo)
      ∗ (((oW).slice (Rect.unit (s := S204800x128) (k1_off2 L 4096#32) S128x128.size (k1_off2_inb L 32)) (fun _ => rfl)).view.loc (thr d L) ↦[((oW).slice (Rect.unit (s := S204800x128) (k1_off2 L 4096#32) S128x128.size (k1_off2_inb L 32)) (fun _ => rfl)).view.set]{fullShare} fo)
      ∗ (((oW).slice (Rect.unit (s := S204800x128) (k1_off2 L 4224#32) S128x128.size (k1_off2_inb L 33)) (fun _ => rfl)).view.loc (thr d L) ↦[((oW).slice (Rect.unit (s := S204800x128) (k1_off2 L 4224#32) S128x128.size (k1_off2_inb L 33)) (fun _ => rfl)).view.set]{fullShare} fo)
      ∗ (((oW).slice (Rect.unit (s := S204800x128) (k1_off2 L 4352#32) S128x128.size (k1_off2_inb L 34)) (fun _ => rfl)).view.loc (thr d L) ↦[((oW).slice (Rect.unit (s := S204800x128) (k1_off2 L 4352#32) S128x128.size (k1_off2_inb L 34)) (fun _ => rfl)).view.set]{fullShare} fo)
      ∗ (((oW).slice (Rect.unit (s := S204800x128) (k1_off2 L 4480#32) S128x128.size (k1_off2_inb L 35)) (fun _ => rfl)).view.loc (thr d L) ↦[((oW).slice (Rect.unit (s := S204800x128) (k1_off2 L 4480#32) S128x128.size (k1_off2_inb L 35)) (fun _ => rfl)).view.set]{fullShare} fo)
      ∗ (((oW).slice (Rect.unit (s := S204800x128) (k1_off2 L 4608#32) S128x128.size (k1_off2_inb L 36)) (fun _ => rfl)).view.loc (thr d L) ↦[((oW).slice (Rect.unit (s := S204800x128) (k1_off2 L 4608#32) S128x128.size (k1_off2_inb L 36)) (fun _ => rfl)).view.set]{fullShare} fo)
      ∗ (((oW).slice (Rect.unit (s := S204800x128) (k1_off2 L 4736#32) S128x128.size (k1_off2_inb L 37)) (fun _ => rfl)).view.loc (thr d L) ↦[((oW).slice (Rect.unit (s := S204800x128) (k1_off2 L 4736#32) S128x128.size (k1_off2_inb L 37)) (fun _ => rfl)).view.set]{fullShare} fo)
      ∗ (((oW).slice (Rect.unit (s := S204800x128) (k1_off2 L 4864#32) S128x128.size (k1_off2_inb L 38)) (fun _ => rfl)).view.loc (thr d L) ↦[((oW).slice (Rect.unit (s := S204800x128) (k1_off2 L 4864#32) S128x128.size (k1_off2_inb L 38)) (fun _ => rfl)).view.set]{fullShare} fo)
      ∗ (((oW).slice (Rect.unit (s := S204800x128) (k1_off2 L 4992#32) S128x128.size (k1_off2_inb L 39)) (fun _ => rfl)).view.loc (thr d L) ↦[((oW).slice (Rect.unit (s := S204800x128) (k1_off2 L 4992#32) S128x128.size (k1_off2_inb L 39)) (fun _ => rfl)).view.set]{fullShare} fo)
      ∗ (((oW).slice (Rect.unit (s := S204800x128) (k1_off2 L 5120#32) S128x128.size (k1_off2_inb L 40)) (fun _ => rfl)).view.loc (thr d L) ↦[((oW).slice (Rect.unit (s := S204800x128) (k1_off2 L 5120#32) S128x128.size (k1_off2_inb L 40)) (fun _ => rfl)).view.set]{fullShare} fo)
      ∗ (((oW).slice (Rect.unit (s := S204800x128) (k1_off2 L 5248#32) S128x128.size (k1_off2_inb L 41)) (fun _ => rfl)).view.loc (thr d L) ↦[((oW).slice (Rect.unit (s := S204800x128) (k1_off2 L 5248#32) S128x128.size (k1_off2_inb L 41)) (fun _ => rfl)).view.set]{fullShare} fo)
      ∗ (((oW).slice (Rect.unit (s := S204800x128) (k1_off2 L 5376#32) S128x128.size (k1_off2_inb L 42)) (fun _ => rfl)).view.loc (thr d L) ↦[((oW).slice (Rect.unit (s := S204800x128) (k1_off2 L 5376#32) S128x128.size (k1_off2_inb L 42)) (fun _ => rfl)).view.set]{fullShare} fo)
      ∗ (((oW).slice (Rect.unit (s := S204800x128) (k1_off2 L 5504#32) S128x128.size (k1_off2_inb L 43)) (fun _ => rfl)).view.loc (thr d L) ↦[((oW).slice (Rect.unit (s := S204800x128) (k1_off2 L 5504#32) S128x128.size (k1_off2_inb L 43)) (fun _ => rfl)).view.set]{fullShare} fo)
      ∗ (((oW).slice (Rect.unit (s := S204800x128) (k1_off2 L 5632#32) S128x128.size (k1_off2_inb L 44)) (fun _ => rfl)).view.loc (thr d L) ↦[((oW).slice (Rect.unit (s := S204800x128) (k1_off2 L 5632#32) S128x128.size (k1_off2_inb L 44)) (fun _ => rfl)).view.set]{fullShare} fo)
      ∗ (((oW).slice (Rect.unit (s := S204800x128) (k1_off2 L 5760#32) S128x128.size (k1_off2_inb L 45)) (fun _ => rfl)).view.loc (thr d L) ↦[((oW).slice (Rect.unit (s := S204800x128) (k1_off2 L 5760#32) S128x128.size (k1_off2_inb L 45)) (fun _ => rfl)).view.set]{fullShare} fo)
      ∗ (((oW).slice (Rect.unit (s := S204800x128) (k1_off2 L 5888#32) S128x128.size (k1_off2_inb L 46)) (fun _ => rfl)).view.loc (thr d L) ↦[((oW).slice (Rect.unit (s := S204800x128) (k1_off2 L 5888#32) S128x128.size (k1_off2_inb L 46)) (fun _ => rfl)).view.set]{fullShare} fo)
      ∗ (((oW).slice (Rect.unit (s := S204800x128) (k1_off2 L 6016#32) S128x128.size (k1_off2_inb L 47)) (fun _ => rfl)).view.loc (thr d L) ↦[((oW).slice (Rect.unit (s := S204800x128) (k1_off2 L 6016#32) S128x128.size (k1_off2_inb L 47)) (fun _ => rfl)).view.set]{fullShare} fo)
      ∗ (((oW).slice (Rect.unit (s := S204800x128) (k1_off2 L 6144#32) S128x128.size (k1_off2_inb L 48)) (fun _ => rfl)).view.loc (thr d L) ↦[((oW).slice (Rect.unit (s := S204800x128) (k1_off2 L 6144#32) S128x128.size (k1_off2_inb L 48)) (fun _ => rfl)).view.set]{fullShare} fo)
      ∗ (((oW).slice (Rect.unit (s := S204800x128) (k1_off2 L 6272#32) S128x128.size (k1_off2_inb L 49)) (fun _ => rfl)).view.loc (thr d L) ↦[((oW).slice (Rect.unit (s := S204800x128) (k1_off2 L 6272#32) S128x128.size (k1_off2_inb L 49)) (fun _ => rfl)).view.set]{fullShare} fo)
      ∗ semVal ((thr d L, SemLoc.dma (⟨0, by decide⟩ : DmaSem sig)) : GSem nD τ sig) 0
      ∗ semVal ((thr d L, SemLoc.dma (⟨1, by decide⟩ : DmaSem sig)) : GSem nD τ sig) 0
      ∗ semVal ((thr d L, SemLoc.dma (⟨2, by decide⟩ : DmaSem sig)) : GSem nD τ sig) 0
      ∗ semVal ((thr d L, SemLoc.dma (⟨3, by decide⟩ : DmaSem sig)) : GSem nD τ sig) 0
      ∗ semVal ((thr d L, SemLoc.dma cc1_scratch3.sem) : GSem nD τ sig) 0
      ∗ semVal ((thr d L, SemLoc.dma cc1_scratch4.sem) : GSem nD τ sig) 0
      ∗ semVal ((thr d L, SemLoc.dma cc1_scoped0.sem) : GSem nD τ sig) 0
      ∗ semVal ((thr d L, SemLoc.dma cc1_scoped1.sem) : GSem nD τ sig) 0
      ∗ semVal ((thr d L, SemLoc.dma cc1_scoped2.sem) : GSem nD τ sig) 0
      ∗ semVal ((thr d L, SemLoc.dma cc1_scoped3.sem) : GSem nD τ sig) 0
      ∗ semVal ((thr d L, SemLoc.dma cc1_scoped4.sem) : GSem nD τ sig) 0
      ∗ semVal ((thr d L, SemLoc.dma cc1_scoped5.sem) : GSem nD τ sig) 0
      ∗ semVal ((thr d L, SemLoc.dma cc1_scoped6.sem) : GSem nD τ sig) 0
      ∗ semVal ((thr d L, SemLoc.dma cc1_scoped7.sem) : GSem nD τ sig) 0
      ∗ semVal ((thr d L, SemLoc.dma cc1_scoped8.sem) : GSem nD τ sig) 0
      ∗ semVal ((thr d L, SemLoc.dma cc1_scoped9.sem) : GSem nD τ sig) 0
      ∗ semVal ((thr d L, SemLoc.dma cc1_scoped10.sem) : GSem nD τ sig) 0
      ∗ semVal ((thr d L, SemLoc.dma cc1_scoped11.sem) : GSem nD τ sig) 0
      ∗ semVal ((thr d L, SemLoc.dma cc1_scoped12.sem) : GSem nD τ sig) 0
      ∗ semVal ((thr d L, SemLoc.dma cc1_scoped13.sem) : GSem nD τ sig) 0
      ∗ semVal ((thr d L, SemLoc.dma cc1_scoped14.sem) : GSem nD τ sig) 0
      ∗ semVal ((thr d L, SemLoc.dma cc1_scoped15.sem) : GSem nD τ sig) 0
      ∗ semVal ((thr d L, SemLoc.dma cc1_scoped16.sem) : GSem nD τ sig) 0
      ∗ semVal ((thr d L, SemLoc.dma cc1_scoped17.sem) : GSem nD τ sig) 0
      ∗ semVal ((thr d L, SemLoc.dma cc1_scoped18.sem) : GSem nD τ sig) 0
      ∗ semVal ((thr d L, SemLoc.dma cc1_scoped19.sem) : GSem nD τ sig) 0
      ∗ semVal ((thr d L, SemLoc.dma cc1_scoped20.sem) : GSem nD τ sig) 0
      ∗ semVal ((thr d L, SemLoc.dma cc1_scoped21.sem) : GSem nD τ sig) 0
      ∗ semVal ((thr d L, SemLoc.dma cc1_scoped22.sem) : GSem nD τ sig) 0
      ∗ semVal ((thr d L, SemLoc.dma cc1_scoped23.sem) : GSem nD τ sig) 0
      ∗ semVal ((thr d L, SemLoc.dma cc1_scoped24.sem) : GSem nD τ sig) 0
      ∗ semVal ((thr d L, SemLoc.dma cc1_scoped25.sem) : GSem nD τ sig) 0
      ∗ semVal ((thr d L, SemLoc.dma cc1_scoped26.sem) : GSem nD τ sig) 0
      ∗ semVal ((thr d L, SemLoc.dma cc1_scoped27.sem) : GSem nD τ sig) 0
      ∗ semVal ((thr d L, SemLoc.dma cc1_scoped28.sem) : GSem nD τ sig) 0
      ∗ semVal ((thr d L, SemLoc.dma cc1_scoped29.sem) : GSem nD τ sig) 0
      ∗ semVal ((thr d L, SemLoc.dma cc1_scoped30.sem) : GSem nD τ sig) 0
      ∗ semVal ((thr d L, SemLoc.dma cc1_scoped31.sem) : GSem nD τ sig) 0
      ∗ semVal ((thr d L, SemLoc.dma cc1_scoped32.sem) : GSem nD τ sig) 0
      ∗ semVal ((thr d L, SemLoc.dma cc1_scoped33.sem) : GSem nD τ sig) 0
      ∗ semVal ((thr d L, SemLoc.dma cc1_scoped34.sem) : GSem nD τ sig) 0
      ∗ semVal ((thr d L, SemLoc.dma cc1_scoped35.sem) : GSem nD τ sig) 0
      ∗ semVal ((thr d L, SemLoc.dma cc1_scoped36.sem) : GSem nD τ sig) 0
      ∗ semVal ((thr d L, SemLoc.dma cc1_scoped37.sem) : GSem nD τ sig) 0
      ∗ semVal ((thr d L, SemLoc.dma cc1_scoped38.sem) : GSem nD τ sig) 0
      ∗ semVal ((thr d L, SemLoc.dma cc1_scoped39.sem) : GSem nD τ sig) 0
      ∗ semVal ((thr d L, SemLoc.dma cc1_scoped40.sem) : GSem nD τ sig) 0
      ∗ semVal ((thr d L, SemLoc.dma cc1_scoped41.sem) : GSem nD τ sig) 0
      ∗ semVal ((thr d L, SemLoc.dma cc1_scoped42.sem) : GSem nD τ sig) 0
      ∗ semVal ((thr d L, SemLoc.dma cc1_scoped43.sem) : GSem nD τ sig) 0
      ∗ semVal ((thr d L, SemLoc.dma cc1_scoped44.sem) : GSem nD τ sig) 0
      ∗ semVal ((thr d L, SemLoc.dma cc1_scoped45.sem) : GSem nD τ sig) 0
      ∗ semVal ((thr d L, SemLoc.dma cc1_scoped46.sem) : GSem nD τ sig) 0
      ∗ semVal ((thr d L, SemLoc.dma cc1_scoped47.sem) : GSem nD τ sig) 0
      ∗ semVal ((thr d L, SemLoc.dma cc1_scoped48.sem) : GSem nD τ sig) 0
      ∗ semVal ((thr d L, SemLoc.dma cc1_scoped49.sem) : GSem nD τ sig) 0
      ∗ semVal ((thr d L, SemLoc.dma cc1_scoped50.sem) : GSem nD τ sig) 0
      ∗ owes (thr d L) O W)
      ∗ R
      ⊢ wp frame (wpE (defs₀ (F := F)) 𝒱₀ (thr d L) none) Set.univ
          (cc1__gather_kernel_skel L iW (Memref.isWhole_whole _) tW (Memref.isWhole_whole _) oW (Memref.isWhole_whole _)
            s0W (Memref.isWhole_whole _) s1W (Memref.isWhole_whole _) s2W (Memref.isWhole_whole _) cc1_scratch3 cc1_scratch4 cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16 cc1_scoped17 cc1_scoped18 cc1_scoped19 cc1_scoped20 cc1_scoped21 cc1_scoped22 cc1_scoped23 cc1_scoped24 cc1_scoped25 cc1_scoped26 cc1_scoped27 cc1_scoped28 cc1_scoped29 cc1_scoped30 cc1_scoped31 cc1_scoped32 cc1_scoped33 cc1_scoped34 cc1_scoped35 cc1_scoped36 cc1_scoped37 cc1_scoped38 cc1_scoped39 cc1_scoped40 cc1_scoped41 cc1_scoped42 cc1_scoped43 cc1_scoped44 cc1_scoped45 cc1_scoped46 cc1_scoped47 cc1_scoped48 cc1_scoped49 cc1_scoped50)
          fun _ => iprop(okChain d L fi ft
            ∗ (∃ f, (s0W).view.loc (thr d L) ↦{fullShare} f) ∗ (∃ f, (s1W).view.loc (thr d L) ↦{fullShare} f)
            ∗ (∃ f, (s2W).view.loc (thr d L) ↦{fullShare} f)
            ∗ ownSems0 (thr d L)
            ∗ (∃ W', ⌜∀ p ∈ W', p ∈ W ∨ p.2 = none⌝ ∗ owes (thr d L) O W')
            ∗ R
            ∗ ((idxWin L).view.loc (thr d L) ↦[(idxWin L).view.set]{fullShare} fi)
            ∗ ((tW).view.loc (thr d L) ↦{q1} ft) ∗ ((tW).view.loc (thr d L) ↦{q2} ft)) := by
  unfold cc1__gather_kernel_skel
  iintro ⟨⟨#Hlv, Hi, Ht1, Ht2, Hs0, Hs1, Hs2, Ho0, Ho1, Ho2, Ho3, Ho4, Ho5, Ho6, Ho7, Ho8, Ho9, Ho10, Ho11, Ho12, Ho13, Ho14, Ho15, Ho16, Ho17, Ho18, Ho19, Ho20, Ho21, Ho22, Ho23, Ho24, Ho25, Ho26, Ho27, Ho28, Ho29, Ho30, Ho31, Ho32, Ho33, Ho34, Ho35, Ho36, Ho37, Ho38, Ho39, Ho40, Ho41, Ho42, Ho43, Ho44, Ho45, Ho46, Ho47, Ho48, Ho49, Hc0, Hc1, Hc2, Hc3, Hc4, Hc5, Hc6, Hc7, Hc8, Hc9, Hc10, Hc11, Hc12, Hc13, Hc14, Hc15, Hc16, Hc17, Hc18, Hc19, Hc20, Hc21, Hc22, Hc23, Hc24, Hc25, Hc26, Hc27, Hc28, Hc29, Hc30, Hc31, Hc32, Hc33, Hc34, Hc35, Hc36, Hc37, Hc38, Hc39, Hc40, Hc41, Hc42, Hc43, Hc44, Hc45, Hc46, Hc47, Hc48, Hc49, Hc50, Hc51, Hc52, Hc53, Hc54, Hc55, Hc56, HO⟩, HR⟩
  ihave Hmw := ((K (F := F)).mayWaits_none (thr := thr d L) hO) $$ Hlv
  sl_exec_parts
  have hin : ∀ (n : ℕ) (h : ∀ a, (![n] : Fin 1 → ℕ) a + S128.size a ≤ S6400.size a) (x : S128.Idx),
      ((((s0W).slice (Rect.unit (s := S6400) ![n] S128.size h) (fun _ => rfl)).view.read (Elt F)
        (View.write (Elt F) (s0W).view f0 (tile_run.sl.dma0 d L fi) Finset.univ) x)).toNat
          < S1000000x128.size gathers_S1000000x128_S128x128.axis := by
    intro n h x
    rw [View.write_whole_univ]
    exact Nat.lt_of_le_of_lt (hidx (((s0W).slice (Rect.unit (s := S6400) ![n] S128.size h) (fun _ => rfl)).view.emb x)) (by decide)
  ihave Hl := (Entails.of_eq (list_chain (F := F) d L fullShare _)) $$ Hs0
  icases Hl with ⟨Hl0, Hl1, Hl2, Hl3, Hl4, Hl5, Hl6, Hl7, Hl8, Hl9, Hl10, Hl11, Hl12, Hl13, Hl14, Hl15, Hl16, Hl17, Hl18, Hl19, Hl20, Hl21, Hl22, Hl23, Hl24, Hl25, Hl26, Hl27, Hl28, Hl29, Hl30, Hl31, Hl32, Hl33, Hl34, Hl35, Hl36, Hl37, Hl38, Hl39, Hl40, Hl41, Hl42, Hl43, Hl44, Hl45, Hl46, Hl47, Hl48, Hl49⟩
  sl_exec_parts
  sl_step
  isplitl [Ho0 Ho1 Ho2 Ho3 Ho4 Ho5 Ho6 Ho7 Ho8 Ho9 Ho10 Ho11 Ho12 Ho13 Ho14 Ho15 Ho16 Ho17 Ho18 Ho19 Ho20 Ho21 Ho22 Ho23 Ho24 Ho25 Ho26 Ho27 Ho28 Ho29 Ho30 Ho31 Ho32 Ho33 Ho34 Ho35 Ho36 Ho37 Ho38 Ho39 Ho40 Ho41 Ho42 Ho43 Ho44 Ho45 Ho46 Ho47 Ho48 Ho49]
  · rw [ok_chain]
    isplitl [Ho0]
    · iexists _; isplitl [Ho0]
      · iexact Ho0
      · ipureintro; exact chunk_ok d L 0 fi ft f0 fo hidx _ _ _ _ _ _ rfl
    isplitl [Ho1]
    · iexists _; isplitl [Ho1]
      · iexact Ho1
      · ipureintro; exact chunk_ok d L 1 fi ft f0 fo hidx _ _ _ _ _ _ rfl
    isplitl [Ho2]
    · iexists _; isplitl [Ho2]
      · iexact Ho2
      · ipureintro; exact chunk_ok d L 2 fi ft f0 fo hidx _ _ _ _ _ _ rfl
    isplitl [Ho3]
    · iexists _; isplitl [Ho3]
      · iexact Ho3
      · ipureintro; exact chunk_ok d L 3 fi ft f0 fo hidx _ _ _ _ _ _ rfl
    isplitl [Ho4]
    · iexists _; isplitl [Ho4]
      · iexact Ho4
      · ipureintro; exact chunk_ok d L 4 fi ft f0 fo hidx _ _ _ _ _ _ rfl
    isplitl [Ho5]
    · iexists _; isplitl [Ho5]
      · iexact Ho5
      · ipureintro; exact chunk_ok d L 5 fi ft f0 fo hidx _ _ _ _ _ _ rfl
    isplitl [Ho6]
    · iexists _; isplitl [Ho6]
      · iexact Ho6
      · ipureintro; exact chunk_ok d L 6 fi ft f0 fo hidx _ _ _ _ _ _ rfl
    isplitl [Ho7]
    · iexists _; isplitl [Ho7]
      · iexact Ho7
      · ipureintro; exact chunk_ok d L 7 fi ft f0 fo hidx _ _ _ _ _ _ rfl
    isplitl [Ho8]
    · iexists _; isplitl [Ho8]
      · iexact Ho8
      · ipureintro; exact chunk_ok d L 8 fi ft f0 fo hidx _ _ _ _ _ _ rfl
    isplitl [Ho9]
    · iexists _; isplitl [Ho9]
      · iexact Ho9
      · ipureintro; exact chunk_ok d L 9 fi ft f0 fo hidx _ _ _ _ _ _ rfl
    isplitl [Ho10]
    · iexists _; isplitl [Ho10]
      · iexact Ho10
      · ipureintro; exact chunk_ok d L 10 fi ft f0 fo hidx _ _ _ _ _ _ rfl
    isplitl [Ho11]
    · iexists _; isplitl [Ho11]
      · iexact Ho11
      · ipureintro; exact chunk_ok d L 11 fi ft f0 fo hidx _ _ _ _ _ _ rfl
    isplitl [Ho12]
    · iexists _; isplitl [Ho12]
      · iexact Ho12
      · ipureintro; exact chunk_ok d L 12 fi ft f0 fo hidx _ _ _ _ _ _ rfl
    isplitl [Ho13]
    · iexists _; isplitl [Ho13]
      · iexact Ho13
      · ipureintro; exact chunk_ok d L 13 fi ft f0 fo hidx _ _ _ _ _ _ rfl
    isplitl [Ho14]
    · iexists _; isplitl [Ho14]
      · iexact Ho14
      · ipureintro; exact chunk_ok d L 14 fi ft f0 fo hidx _ _ _ _ _ _ rfl
    isplitl [Ho15]
    · iexists _; isplitl [Ho15]
      · iexact Ho15
      · ipureintro; exact chunk_ok d L 15 fi ft f0 fo hidx _ _ _ _ _ _ rfl
    isplitl [Ho16]
    · iexists _; isplitl [Ho16]
      · iexact Ho16
      · ipureintro; exact chunk_ok d L 16 fi ft f0 fo hidx _ _ _ _ _ _ rfl
    isplitl [Ho17]
    · iexists _; isplitl [Ho17]
      · iexact Ho17
      · ipureintro; exact chunk_ok d L 17 fi ft f0 fo hidx _ _ _ _ _ _ rfl
    isplitl [Ho18]
    · iexists _; isplitl [Ho18]
      · iexact Ho18
      · ipureintro; exact chunk_ok d L 18 fi ft f0 fo hidx _ _ _ _ _ _ rfl
    isplitl [Ho19]
    · iexists _; isplitl [Ho19]
      · iexact Ho19
      · ipureintro; exact chunk_ok d L 19 fi ft f0 fo hidx _ _ _ _ _ _ rfl
    isplitl [Ho20]
    · iexists _; isplitl [Ho20]
      · iexact Ho20
      · ipureintro; exact chunk_ok d L 20 fi ft f0 fo hidx _ _ _ _ _ _ rfl
    isplitl [Ho21]
    · iexists _; isplitl [Ho21]
      · iexact Ho21
      · ipureintro; exact chunk_ok d L 21 fi ft f0 fo hidx _ _ _ _ _ _ rfl
    isplitl [Ho22]
    · iexists _; isplitl [Ho22]
      · iexact Ho22
      · ipureintro; exact chunk_ok d L 22 fi ft f0 fo hidx _ _ _ _ _ _ rfl
    isplitl [Ho23]
    · iexists _; isplitl [Ho23]
      · iexact Ho23
      · ipureintro; exact chunk_ok d L 23 fi ft f0 fo hidx _ _ _ _ _ _ rfl
    isplitl [Ho24]
    · iexists _; isplitl [Ho24]
      · iexact Ho24
      · ipureintro; exact chunk_ok d L 24 fi ft f0 fo hidx _ _ _ _ _ _ rfl
    isplitl [Ho25]
    · iexists _; isplitl [Ho25]
      · iexact Ho25
      · ipureintro; exact chunk_ok d L 25 fi ft f0 fo hidx _ _ _ _ _ _ rfl
    isplitl [Ho26]
    · iexists _; isplitl [Ho26]
      · iexact Ho26
      · ipureintro; exact chunk_ok d L 26 fi ft f0 fo hidx _ _ _ _ _ _ rfl
    isplitl [Ho27]
    · iexists _; isplitl [Ho27]
      · iexact Ho27
      · ipureintro; exact chunk_ok d L 27 fi ft f0 fo hidx _ _ _ _ _ _ rfl
    isplitl [Ho28]
    · iexists _; isplitl [Ho28]
      · iexact Ho28
      · ipureintro; exact chunk_ok d L 28 fi ft f0 fo hidx _ _ _ _ _ _ rfl
    isplitl [Ho29]
    · iexists _; isplitl [Ho29]
      · iexact Ho29
      · ipureintro; exact chunk_ok d L 29 fi ft f0 fo hidx _ _ _ _ _ _ rfl
    isplitl [Ho30]
    · iexists _; isplitl [Ho30]
      · iexact Ho30
      · ipureintro; exact chunk_ok d L 30 fi ft f0 fo hidx _ _ _ _ _ _ rfl
    isplitl [Ho31]
    · iexists _; isplitl [Ho31]
      · iexact Ho31
      · ipureintro; exact chunk_ok d L 31 fi ft f0 fo hidx _ _ _ _ _ _ rfl
    isplitl [Ho32]
    · iexists _; isplitl [Ho32]
      · iexact Ho32
      · ipureintro; exact chunk_ok d L 32 fi ft f0 fo hidx _ _ _ _ _ _ rfl
    isplitl [Ho33]
    · iexists _; isplitl [Ho33]
      · iexact Ho33
      · ipureintro; exact chunk_ok d L 33 fi ft f0 fo hidx _ _ _ _ _ _ rfl
    isplitl [Ho34]
    · iexists _; isplitl [Ho34]
      · iexact Ho34
      · ipureintro; exact chunk_ok d L 34 fi ft f0 fo hidx _ _ _ _ _ _ rfl
    isplitl [Ho35]
    · iexists _; isplitl [Ho35]
      · iexact Ho35
      · ipureintro; exact chunk_ok d L 35 fi ft f0 fo hidx _ _ _ _ _ _ rfl
    isplitl [Ho36]
    · iexists _; isplitl [Ho36]
      · iexact Ho36
      · ipureintro; exact chunk_ok d L 36 fi ft f0 fo hidx _ _ _ _ _ _ rfl
    isplitl [Ho37]
    · iexists _; isplitl [Ho37]
      · iexact Ho37
      · ipureintro; exact chunk_ok d L 37 fi ft f0 fo hidx _ _ _ _ _ _ rfl
    isplitl [Ho38]
    · iexists _; isplitl [Ho38]
      · iexact Ho38
      · ipureintro; exact chunk_ok d L 38 fi ft f0 fo hidx _ _ _ _ _ _ rfl
    isplitl [Ho39]
    · iexists _; isplitl [Ho39]
      · iexact Ho39
      · ipureintro; exact chunk_ok d L 39 fi ft f0 fo hidx _ _ _ _ _ _ rfl
    isplitl [Ho40]
    · iexists _; isplitl [Ho40]
      · iexact Ho40
      · ipureintro; exact chunk_ok d L 40 fi ft f0 fo hidx _ _ _ _ _ _ rfl
    isplitl [Ho41]
    · iexists _; isplitl [Ho41]
      · iexact Ho41
      · ipureintro; exact chunk_ok d L 41 fi ft f0 fo hidx _ _ _ _ _ _ rfl
    isplitl [Ho42]
    · iexists _; isplitl [Ho42]
      · iexact Ho42
      · ipureintro; exact chunk_ok d L 42 fi ft f0 fo hidx _ _ _ _ _ _ rfl
    isplitl [Ho43]
    · iexists _; isplitl [Ho43]
      · iexact Ho43
      · ipureintro; exact chunk_ok d L 43 fi ft f0 fo hidx _ _ _ _ _ _ rfl
    isplitl [Ho44]
    · iexists _; isplitl [Ho44]
      · iexact Ho44
      · ipureintro; exact chunk_ok d L 44 fi ft f0 fo hidx _ _ _ _ _ _ rfl
    isplitl [Ho45]
    · iexists _; isplitl [Ho45]
      · iexact Ho45
      · ipureintro; exact chunk_ok d L 45 fi ft f0 fo hidx _ _ _ _ _ _ rfl
    isplitl [Ho46]
    · iexists _; isplitl [Ho46]
      · iexact Ho46
      · ipureintro; exact chunk_ok d L 46 fi ft f0 fo hidx _ _ _ _ _ _ rfl
    isplitl [Ho47]
    · iexists _; isplitl [Ho47]
      · iexact Ho47
      · ipureintro; exact chunk_ok d L 47 fi ft f0 fo hidx _ _ _ _ _ _ rfl
    isplitl [Ho48]
    · iexists _; isplitl [Ho48]
      · iexact Ho48
      · ipureintro; exact chunk_ok d L 48 fi ft f0 fo hidx _ _ _ _ _ _ rfl
    · iexists _; isplitl [Ho49]
      · iexact Ho49
      · ipureintro; exact chunk_ok d L 49 fi ft f0 fo hidx _ _ _ _ _ _ rfl
  isplitl [Hl0 Hl1 Hl2 Hl3 Hl4 Hl5 Hl6 Hl7 Hl8 Hl9 Hl10 Hl11 Hl12 Hl13 Hl14 Hl15 Hl16 Hl17 Hl18 Hl19 Hl20 Hl21 Hl22 Hl23 Hl24 Hl25 Hl26 Hl27 Hl28 Hl29 Hl30 Hl31 Hl32 Hl33 Hl34 Hl35 Hl36 Hl37 Hl38 Hl39 Hl40 Hl41 Hl42 Hl43 Hl44 Hl45 Hl46 Hl47 Hl48 Hl49]
  · iexists (View.write (Elt F) (s0W).view f0 (tile_run.sl.dma0 d L fi) Finset.univ)
    iapply (Entails.of_eq (list_chain (F := F) d L fullShare _).symm)
    isplitl [Hl0]; · iexact Hl0
    isplitl [Hl1]; · iexact Hl1
    isplitl [Hl2]; · iexact Hl2
    isplitl [Hl3]; · iexact Hl3
    isplitl [Hl4]; · iexact Hl4
    isplitl [Hl5]; · iexact Hl5
    isplitl [Hl6]; · iexact Hl6
    isplitl [Hl7]; · iexact Hl7
    isplitl [Hl8]; · iexact Hl8
    isplitl [Hl9]; · iexact Hl9
    isplitl [Hl10]; · iexact Hl10
    isplitl [Hl11]; · iexact Hl11
    isplitl [Hl12]; · iexact Hl12
    isplitl [Hl13]; · iexact Hl13
    isplitl [Hl14]; · iexact Hl14
    isplitl [Hl15]; · iexact Hl15
    isplitl [Hl16]; · iexact Hl16
    isplitl [Hl17]; · iexact Hl17
    isplitl [Hl18]; · iexact Hl18
    isplitl [Hl19]; · iexact Hl19
    isplitl [Hl20]; · iexact Hl20
    isplitl [Hl21]; · iexact Hl21
    isplitl [Hl22]; · iexact Hl22
    isplitl [Hl23]; · iexact Hl23
    isplitl [Hl24]; · iexact Hl24
    isplitl [Hl25]; · iexact Hl25
    isplitl [Hl26]; · iexact Hl26
    isplitl [Hl27]; · iexact Hl27
    isplitl [Hl28]; · iexact Hl28
    isplitl [Hl29]; · iexact Hl29
    isplitl [Hl30]; · iexact Hl30
    isplitl [Hl31]; · iexact Hl31
    isplitl [Hl32]; · iexact Hl32
    isplitl [Hl33]; · iexact Hl33
    isplitl [Hl34]; · iexact Hl34
    isplitl [Hl35]; · iexact Hl35
    isplitl [Hl36]; · iexact Hl36
    isplitl [Hl37]; · iexact Hl37
    isplitl [Hl38]; · iexact Hl38
    isplitl [Hl39]; · iexact Hl39
    isplitl [Hl40]; · iexact Hl40
    isplitl [Hl41]; · iexact Hl41
    isplitl [Hl42]; · iexact Hl42
    isplitl [Hl43]; · iexact Hl43
    isplitl [Hl44]; · iexact Hl44
    isplitl [Hl45]; · iexact Hl45
    isplitl [Hl46]; · iexact Hl46
    isplitl [Hl47]; · iexact Hl47
    isplitl [Hl48]; · iexact Hl48
    iexact Hl49
  isplitl [Hs1]
  · iexists _; iexact Hs1
  isplitl [Hs2]
  · iexists _; iexact Hs2
  isplitl [Hc0 Hc1 Hc2 Hc3 Hc4 Hc5 Hc6 Hc7 Hc8 Hc9 Hc10 Hc11 Hc12 Hc13 Hc14 Hc15 Hc16 Hc17 Hc18 Hc19 Hc20 Hc21 Hc22 Hc23 Hc24 Hc25 Hc26 Hc27 Hc28 Hc29 Hc30 Hc31 Hc32 Hc33 Hc34 Hc35 Hc36 Hc37 Hc38 Hc39 Hc40 Hc41 Hc42 Hc43 Hc44 Hc45 Hc46 Hc47 Hc48 Hc49 Hc50 Hc51 Hc52 Hc53 Hc54 Hc55 Hc56]
  · rw [sem_chain']
    isplitl [Hc0]; · iexact Hc0
    isplitl [Hc1]; · iexact Hc1
    isplitl [Hc2]; · iexact Hc2
    isplitl [Hc3]; · iexact Hc3
    isplitl [Hc4]; · iexact Hc4
    isplitl [Hc5]; · iexact Hc5
    isplitl [Hc6]; · iexact Hc6
    isplitl [Hc7]; · iexact Hc7
    isplitl [Hc8]; · iexact Hc8
    isplitl [Hc9]; · iexact Hc9
    isplitl [Hc10]; · iexact Hc10
    isplitl [Hc11]; · iexact Hc11
    isplitl [Hc12]; · iexact Hc12
    isplitl [Hc13]; · iexact Hc13
    isplitl [Hc14]; · iexact Hc14
    isplitl [Hc15]; · iexact Hc15
    isplitl [Hc16]; · iexact Hc16
    isplitl [Hc17]; · iexact Hc17
    isplitl [Hc18]; · iexact Hc18
    isplitl [Hc19]; · iexact Hc19
    isplitl [Hc20]; · iexact Hc20
    isplitl [Hc21]; · iexact Hc21
    isplitl [Hc22]; · iexact Hc22
    isplitl [Hc23]; · iexact Hc23
    isplitl [Hc24]; · iexact Hc24
    isplitl [Hc25]; · iexact Hc25
    isplitl [Hc26]; · iexact Hc26
    isplitl [Hc27]; · iexact Hc27
    isplitl [Hc28]; · iexact Hc28
    isplitl [Hc29]; · iexact Hc29
    isplitl [Hc30]; · iexact Hc30
    isplitl [Hc31]; · iexact Hc31
    isplitl [Hc32]; · iexact Hc32
    isplitl [Hc33]; · iexact Hc33
    isplitl [Hc34]; · iexact Hc34
    isplitl [Hc35]; · iexact Hc35
    isplitl [Hc36]; · iexact Hc36
    isplitl [Hc37]; · iexact Hc37
    isplitl [Hc38]; · iexact Hc38
    isplitl [Hc39]; · iexact Hc39
    isplitl [Hc40]; · iexact Hc40
    isplitl [Hc41]; · iexact Hc41
    isplitl [Hc42]; · iexact Hc42
    isplitl [Hc43]; · iexact Hc43
    isplitl [Hc44]; · iexact Hc44
    isplitl [Hc45]; · iexact Hc45
    isplitl [Hc46]; · iexact Hc46
    isplitl [Hc47]; · iexact Hc47
    isplitl [Hc48]; · iexact Hc48
    isplitl [Hc49]; · iexact Hc49
    isplitl [Hc50]; · iexact Hc50
    isplitl [Hc51]; · iexact Hc51
    isplitl [Hc52]; · iexact Hc52
    isplitl [Hc53]; · iexact Hc53
    isplitl [Hc54]; · iexact Hc54
    isplitl [Hc55]; · iexact Hc55
    iexact Hc56
  isplitl [HO]
  · iexists _; isplitr
    swap
    · iexact HO
    · ipureintro
      repeat (first | exact fun p hp => Or.inl hp | refine W_ins _ ?_)
  isplitl [HR]
  · iexact HR
  isplitl [Hi]
  · iexact Hi
  isplitl [Ht1]
  · iexact Ht1
  iexact Ht2

end Cert.Proof.KI

end
-- ==== Proof.TileGoodKI.lean ====
/-
  From a chunk that is right in the tile's coordinates to the statement the launch asks for: on the chunk's entries, the
  first 100 columns hold the table's rows that the row-number list names.
-/
import proofs.«208090_g83872121356401_cont_sun_m_474_43_alg».proof.Proof.PayKI
import proofs.«208090_g83872121356401_cont_sun_m_474_43_alg».proof.Proof.LibRowBlocks
import proofs.«208090_g83872121356401_cont_sun_m_474_43_alg».proof.Proof.LibWindows
import proofs.«208090_g83872121356401_cont_sun_m_474_43_alg».proof.Proof.TileValKI

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iW" => (Memref.whole Cert.KernelIdeal.main_v1_scv : Memref Cert.KernelIdeal.sig Kind.scVector Space.hbm Cert.KernelIdeal.S204800 EltTy.i32)
local notation "tW" => (Memref.whole Cert.KernelIdeal.main_v2_scv : Memref Cert.KernelIdeal.sig Kind.scVector Space.hbm Cert.KernelIdeal.S1000000x128 EltTy.f32)
local notation "oW" => (Memref.whole Cert.KernelIdeal.main_v3_scv : Memref Cert.KernelIdeal.sig Kind.scVector Space.hbm Cert.KernelIdeal.S204800x128 EltTy.f32)
local notation "s0W" => (Memref.whole Cert.KernelIdeal.cc1_scratch0 : Memref Cert.KernelIdeal.sig Kind.scVector Space.vmem Cert.KernelIdeal.S6400 EltTy.i32)
local notation "s1W" => (Memref.whole Cert.KernelIdeal.cc1_scratch1 : Memref Cert.KernelIdeal.sig Kind.scVector Space.vmem Cert.KernelIdeal.S128x128 EltTy.f32)
local notation "s2W" => (Memref.whole Cert.KernelIdeal.cc1_scratch2 : Memref Cert.KernelIdeal.sig Kind.scVector Space.vmem Cert.KernelIdeal.S128x128 EltTy.f32)

/-- The tile's run of the list reads the list at `6400 w + k`. -/
theorem idxWin_read (L : grid1.Coords) (fi : S204800.Idx → BitVec 32) (k : Fin 6400) (hk : 6400 * wOf L + k.val < 204800) :
    (idxWin L).view.read (Elt F) fi (ix1 k) = fi (ix1 ⟨6400 * wOf L + k.val, hk⟩) :=
  Windows.read_blkWin1 (Val := Elt F) (iW) (6400 * wOf L) (k1_off1_inb L) (off1_zero L) fi k hk

/-- The padded table as the gathers slice it reads the padded table. -/
theorem tabWin_read (fp : S1000000x128.Idx → Elt F .f32) (r : Fin 1000000) (c : Fin 128) :
    (tabWin).view.read (Elt F) fp (ix2 r c) = fp (ix2 r c) := by
  have h := RowBlocks.read_blkWin2 (Val := Elt F) (tW) 0 inb_S1000000x128_S1000000x128_0_0 rfl rfl fp r c (by have := r.isLt; omega)
  rw [h]
  show fp (ix2 ⟨0 + r.val, _⟩ c) = fp (ix2 r c)
  congr 2
  exact Fin.ext (Nat.zero_add _)

/-- Chunk `r` read at `(a, c)` is the result at row `128 (50 w + r) + a`. -/
theorem outWinR_read (L : grid1.Coords) (r : Fin 50) (f : S204800x128.Idx → Elt F .f32) (a c : Fin 128)
    (ha : 128 * (50 * wOf L + r.val) + a.val < 204800) :
    (outWinR L r).view.read (Elt F) f (ix2 a c) = f (ix2 ⟨128 * (50 * wOf L + r.val) + a.val, ha⟩ c) :=
  RowBlocks.read_blkWin2 (Val := Elt F) (oW) (128 * (50 * wOf L + r.val)) (k1_off2_inb L r) (off2_zero L r) (off2_one L r) f a c ha

theorem wOf_lt (L : grid1.Coords) : wOf L < 32 := by
  have h0 : (L 0).val < 2 := (L 0).isLt
  have h1 : (L 1).val < 16 := (L 1).isLt
  show 2 * (L 1).val + (L 0).val < 32
  omega

/-- A chunk that is right in the tile's coordinates is right on its entries. -/
theorem chunk_good (d : Dev nD) (L : grid1.Coords) (r : Fin 50) (fi : S204800.Idx → BitVec 32)
    (ft0 : S1000000x100.Idx → Elt F .f32) (fp : S1000000x128.Idx → Elt F .f32) (hpad : PadOK ft0 fp)
    (f : S204800x128.Idx → Elt F .f32) (hok : ChunkOK d L r fi fp f) :
    ∀ y ∈ chunkSet (50 * wOf L + r.val), GoodAt fi ft0 f y := by
  intro y hy hc
  unfold chunkSet at hy
  rw [Finset.mem_filter] at hy
  obtain ⟨-, hlo, hhi⟩ := hy
  have hw := wOf_lt L
  have hr := r.isLt
  have hy1 : (y 1).val < 128 := (y 1).isLt
  have hya : (y 0).val - 128 * (50 * wOf L + r.val) < 128 := by omega
  have h := hok ⟨(y 0).val - 128 * (50 * wOf L + r.val), hya⟩ ⟨(y 1).val, hy1⟩
  rw [outWinR_read L r f _ _ (by show 128 * (50 * wOf L + r.val) + ((y 0).val - 128 * (50 * wOf L + r.val)) < 204800; omega),
    idxWin_read L fi ⟨128 * r.val + ((y 0).val - 128 * (50 * wOf L + r.val)), by omega⟩
      (by show 6400 * wOf L + (128 * r.val + ((y 0).val - 128 * (50 * wOf L + r.val))) < 204800; omega),
    tabWin_read] at h
  have e0 : (ix2 ⟨128 * (50 * wOf L + r.val) + ((y 0).val - 128 * (50 * wOf L + r.val)), by omega⟩ ⟨(y 1).val, hy1⟩ : S204800x128.Idx) = y := by
    funext b
    refine Fin.ext ?_
    match b with
    | ⟨0, _⟩ => show 128 * (50 * wOf L + r.val) + ((y 0).val - 128 * (50 * wOf L + r.val)) = (y 0).val; omega
    | ⟨1, _⟩ => rfl
  have e1 : (ix1 ⟨6400 * wOf L + (128 * r.val + ((y 0).val - 128 * (50 * wOf L + r.val))), by omega⟩ : S204800.Idx) = ix1 (y 0) := by
    funext b
    refine Fin.ext ?_
    match b with
    | ⟨0, _⟩ => show 6400 * wOf L + (128 * r.val + ((y 0).val - 128 * (50 * wOf L + r.val))) = (y 0).val; omega
  rw [e0, e1] at h
  rw [h]
  exact hpad _ ⟨(y 1).val, hc⟩

end Cert.Proof.KI

end
-- ==== Proof.TileOblKI.lean ====
/-
  The tiles' obligation to the launch: from what a tile is handed to what it hands back, by the tile's run.
-/
import proofs.«208090_g83872121356401_cont_sun_m_474_43_alg».proof.Proof.PayKI
import proofs.«208090_g83872121356401_cont_sun_m_474_43_alg».proof.Proof.LibRowBlocks
import proofs.«208090_g83872121356401_cont_sun_m_474_43_alg».proof.Proof.LibWindows
import proofs.«208090_g83872121356401_cont_sun_m_474_43_alg».proof.Proof.TileRunKI
import proofs.«208090_g83872121356401_cont_sun_m_474_43_alg».proof.Proof.TileGoodKI
import proofs.«208090_g83872121356401_cont_sun_m_474_43_alg».proof.Proof.PreKI

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iW" => (Memref.whole Cert.KernelIdeal.main_v1_scv : Memref Cert.KernelIdeal.sig Kind.scVector Space.hbm Cert.KernelIdeal.S204800 EltTy.i32)
local notation "tW" => (Memref.whole Cert.KernelIdeal.main_v2_scv : Memref Cert.KernelIdeal.sig Kind.scVector Space.hbm Cert.KernelIdeal.S1000000x128 EltTy.f32)
local notation "oW" => (Memref.whole Cert.KernelIdeal.main_v3_scv : Memref Cert.KernelIdeal.sig Kind.scVector Space.hbm Cert.KernelIdeal.S204800x128 EltTy.f32)
local notation "s0W" => (Memref.whole Cert.KernelIdeal.cc1_scratch0 : Memref Cert.KernelIdeal.sig Kind.scVector Space.vmem Cert.KernelIdeal.S6400 EltTy.i32)
local notation "s1W" => (Memref.whole Cert.KernelIdeal.cc1_scratch1 : Memref Cert.KernelIdeal.sig Kind.scVector Space.vmem Cert.KernelIdeal.S128x128 EltTy.f32)
local notation "s2W" => (Memref.whole Cert.KernelIdeal.cc1_scratch2 : Memref Cert.KernelIdeal.sig Kind.scVector Space.vmem Cert.KernelIdeal.S128x128 EltTy.f32)

variable [FloatOps F] (m : (ℓ : Loc nD τ sig) → Buf (Elt F) ℓ)

/-- The tile's own buffers other than its three scratch buffers. -/
def bufsRest (d : Dev nD) (c : Fin τ.nSC) (i : Fin τ.nSub) : sProp 𝕄 :=
  bigSep ((((ownRefs (τ := τ) (.scVector c i)).erase ((Proc.scVector c i).devRef cc1_scratch0)).erase
      ((Proc.scVector c i).devRef cc1_scratch1)).erase ((Proc.scVector c i).devRef cc1_scratch2))
    fun b => iprop(∃ f, ((d, b) : Loc nD τ sig) ↦{fullShare} f)

omit [FloatOps F] in
theorem ownBufs_tile' (d : Dev nD) (c : Fin τ.nSC) (i : Fin τ.nSub) :
    (ownBufs (V d c i) : sProp 𝕄)
      = iprop((∃ f, (V d c i).loc cc1_scratch0 ↦{fullShare} f) ∗ (∃ f, (V d c i).loc cc1_scratch1 ↦{fullShare} f)
          ∗ (∃ f, (V d c i).loc cc1_scratch2 ↦{fullShare} f) ∗ bufsRest d c i) := ownBufs_tile d c i

/-- One chunk right in the tile's coordinates is one chunk of what the launch is handed back. -/
theorem chunk_td (d : Dev nD) (L : grid1.Coords) (r : Fin 50) (fp : S1000000x128.Idx → Elt F .f32) (hpad : PadOK (m (a1Loc d)) fp) :
    (iprop(∃ f, ((outWinR L r).view.loc (thr d L) ↦[(outWinR L r).view.set]{fullShare} f)
        ∗ ⌜ChunkOK d L r (idxArr (m (a0Loc d))) fp f⌝) : sProp 𝕄)
      ⊢ iprop(∃ f, ⌜∀ x ∈ chunkSet (50 * (2 * (L 1).val + (L 0).val) + r.val), GoodAt (idxArr (m (a0Loc d))) (m (a1Loc d)) f x⌝
        ∗ oLoc d ↦[chunkSet (50 * (2 * (L 1).val + (L 0).val) + r.val)]{fullShare} f) := by
  iintro ⟨%f, H, %hok⟩
  iexists f
  isplitr
  · ipureintro; exact chunk_good d L r _ _ fp hpad f hok
  · iapply (Entails.of_eq (out_pts (F := F) d L r fullShare f).symm); iexact H

/-- Chunks right in the tile's coordinates are what the launch is handed back. -/
theorem td_of_ok (d : Dev nD) (L : grid1.Coords) (fp : S1000000x128.Idx → Elt F .f32) (hpad : PadOK (m (a1Loc d)) fp) :
    okChain d L (idxArr (m (a0Loc d))) fp ⊢ tdRes m d (L 0).val (L 1).val := by
  unfold okChain tdRes
  exact bigSep_mono fun r _ => chunk_td m d L r fp hpad

/-- The tile's task, from the launch's hand to the launch's hand. -/
theorem tile_body (hpre : PreOK m) (d : Dev nD) (L : grid1.Coords) (O : CellTallies nD τ sig (HIx 1)) (W : Waits sig (HIx 1))
    (hO : ∀ g, O g none = 0) :
    iprop((levAts (K (F := F)).L (K (F := F)).lev : sProp 𝕄) ∗ emp ∗ tileRes m d (L 0).val (L 1).val
        ∗ scopedBufs (thr d L) ∗ scopedSems0 (thr d L) ∗ owes (thr d L) O W)
      ⊢ wp frame (wpE (defs₀ (F := F)) 𝒱₀ (thr d L) none) Set.univ
          (cc1__gather_kernel L iW (Memref.isWhole_whole _) tW (Memref.isWhole_whole _) oW (Memref.isWhole_whole _)
            s0W (Memref.isWhole_whole _) s1W (Memref.isWhole_whole _) s2W (Memref.isWhole_whole _) cc1_scratch3 cc1_scratch4 cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16 cc1_scoped17 cc1_scoped18 cc1_scoped19 cc1_scoped20 cc1_scoped21 cc1_scoped22 cc1_scoped23 cc1_scoped24 cc1_scoped25 cc1_scoped26 cc1_scoped27 cc1_scoped28 cc1_scoped29 cc1_scoped30 cc1_scoped31 cc1_scoped32 cc1_scoped33 cc1_scoped34 cc1_scoped35 cc1_scoped36 cc1_scoped37 cc1_scoped38 cc1_scoped39 cc1_scoped40 cc1_scoped41 cc1_scoped42 cc1_scoped43 cc1_scoped44 cc1_scoped45 cc1_scoped46 cc1_scoped47 cc1_scoped48 cc1_scoped49 cc1_scoped50)
          fun _ => iprop(tdRes m d (L 0).val (L 1).val ∗ scopedBufs (thr d L) ∗ scopedSems0 (thr d L)
            ∗ ∃ W', ⌜∀ p ∈ W', p ∈ W ∨ p.2 = none⌝ ∗ owes (thr d L) O W') := by
  rw [cc1__gather_kernel_eq_skeleton]
  rw [(K (F := F)).scopedBufs_V facts d (cV L) (jV L), SparseCore.Cfg.scopedSems0_V (Val := Elt F) d (cV L) (jV L), ownBufs_tile']
  unfold tileRes
  iintro ⟨#Hlv, -, ⟨Hi, ⟨%fp, %hpad, Ht⟩, Hob⟩, ⟨⟨%f0, Hs0⟩, ⟨%f1, Hs1⟩, ⟨%f2, Hs2⟩, Hbufs⟩, Hsems, HO⟩
  ihave Hi' := (Entails.of_eq (idx_pts (F := F) d L fullShare _)) $$ Hi
  ihave Ht' := (pointsTo_share (PosShare.mem_left_op_right (shareOf (wOf L)))).1 $$ Ht
  icases Ht' with ⟨Ht1, Ht2⟩
  ihave Hob' := (Entails.of_eq (out_chain (F := F) d L fullShare _)) $$ Hob
  ihave Hsems' := (Entails.of_eq (sem_chain (F := F) d L)) $$ Hsems
  icases Hob' with ⟨Ho0, Ho1, Ho2, Ho3, Ho4, Ho5, Ho6, Ho7, Ho8, Ho9, Ho10, Ho11, Ho12, Ho13, Ho14, Ho15, Ho16, Ho17, Ho18, Ho19, Ho20, Ho21, Ho22, Ho23, Ho24, Ho25, Ho26, Ho27, Ho28, Ho29, Ho30, Ho31, Ho32, Ho33, Ho34, Ho35, Ho36, Ho37, Ho38, Ho39, Ho40, Ho41, Ho42, Ho43, Ho44, Ho45, Ho46, Ho47, Ho48, Ho49⟩
  icases Hsems' with ⟨Hc0, Hc1, Hc2, Hc3, Hc4, Hc5, Hc6, Hc7, Hc8, Hc9, Hc10, Hc11, Hc12, Hc13, Hc14, Hc15, Hc16, Hc17, Hc18, Hc19, Hc20, Hc21, Hc22, Hc23, Hc24, Hc25, Hc26, Hc27, Hc28, Hc29, Hc30, Hc31, Hc32, Hc33, Hc34, Hc35, Hc36, Hc37, Hc38, Hc39, Hc40, Hc41, Hc42, Hc43, Hc44, Hc45, Hc46, Hc47, Hc48, Hc49, Hc50, Hc51, Hc52, Hc53, Hc54, Hc55, Hc56⟩
  iapply ((tile_run (F := F) d L O W hO (shareOf (wOf L)).left (shareOf (wOf L)).right (idxArr (m (a0Loc d))) fp f0 f1 f2 (m (oLoc d))
      (fun k => idxArr_le hpre d _) (bufsRest d (cV L) (jV L))).trans (wp_mono frame _ _ fun _ => ?post)) $$ [Hi' Ht1 Ht2 Hs0 Hs1 Hs2 Ho0 Ho1 Ho2 Ho3 Ho4 Ho5 Ho6 Ho7 Ho8 Ho9 Ho10 Ho11 Ho12 Ho13 Ho14 Ho15 Ho16 Ho17 Ho18 Ho19 Ho20 Ho21 Ho22 Ho23 Ho24 Ho25 Ho26 Ho27 Ho28 Ho29 Ho30 Ho31 Ho32 Ho33 Ho34 Ho35 Ho36 Ho37 Ho38 Ho39 Ho40 Ho41 Ho42 Ho43 Ho44 Ho45 Ho46 Ho47 Ho48 Ho49 Hc0 Hc1 Hc2 Hc3 Hc4 Hc5 Hc6 Hc7 Hc8 Hc9 Hc10 Hc11 Hc12 Hc13 Hc14 Hc15 Hc16 Hc17 Hc18 Hc19 Hc20 Hc21 Hc22 Hc23 Hc24 Hc25 Hc26 Hc27 Hc28 Hc29 Hc30 Hc31 Hc32 Hc33 Hc34 Hc35 Hc36 Hc37 Hc38 Hc39 Hc40 Hc41 Hc42 Hc43 Hc44 Hc45 Hc46 Hc47 Hc48 Hc49 Hc50 Hc51 Hc52 Hc53 Hc54 Hc55 Hc56 HO Hbufs]
  case post =>
    iintro ⟨Hok, Hs0, Hs1, Hs2, Hsems, HO, HR, -, -, -⟩
    isplitl [Hok]
    · iapply (td_of_ok m d L fp hpad); iexact Hok
    isplitl [Hs0 Hs1 Hs2 HR]
    · isplitl [Hs0]; · iexact Hs0
      isplitl [Hs1]; · iexact Hs1
      isplitl [Hs2]; · iexact Hs2
      iexact HR
    isplitl [Hsems]
    · iexact Hsems
    iexact HO
  isplitr [Hbufs]
  · isplitr; · iexact Hlv
    isplitl [Hi']; · iexact Hi'
    isplitl [Ht1]; · iexact Ht1
    isplitl [Ht2]; · iexact Ht2
    isplitl [Hs0]; · iexact Hs0
    isplitl [Hs1]; · iexact Hs1
    isplitl [Hs2]; · iexact Hs2
    isplitl [Ho0]; · iexact Ho0
    isplitl [Ho1]; · iexact Ho1
    isplitl [Ho2]; · iexact Ho2
    isplitl [Ho3]; · iexact Ho3
    isplitl [Ho4]; · iexact Ho4
    isplitl [Ho5]; · iexact Ho5
    isplitl [Ho6]; · iexact Ho6
    isplitl [Ho7]; · iexact Ho7
    isplitl [Ho8]; · iexact Ho8
    isplitl [Ho9]; · iexact Ho9
    isplitl [Ho10]; · iexact Ho10
    isplitl [Ho11]; · iexact Ho11
    isplitl [Ho12]; · iexact Ho12
    isplitl [Ho13]; · iexact Ho13
    isplitl [Ho14]; · iexact Ho14
    isplitl [Ho15]; · iexact Ho15
    isplitl [Ho16]; · iexact Ho16
    isplitl [Ho17]; · iexact Ho17
    isplitl [Ho18]; · iexact Ho18
    isplitl [Ho19]; · iexact Ho19
    isplitl [Ho20]; · iexact Ho20
    isplitl [Ho21]; · iexact Ho21
    isplitl [Ho22]; · iexact Ho22
    isplitl [Ho23]; · iexact Ho23
    isplitl [Ho24]; · iexact Ho24
    isplitl [Ho25]; · iexact Ho25
    isplitl [Ho26]; · iexact Ho26
    isplitl [Ho27]; · iexact Ho27
    isplitl [Ho28]; · iexact Ho28
    isplitl [Ho29]; · iexact Ho29
    isplitl [Ho30]; · iexact Ho30
    isplitl [Ho31]; · iexact Ho31
    isplitl [Ho32]; · iexact Ho32
    isplitl [Ho33]; · iexact Ho33
    isplitl [Ho34]; · iexact Ho34
    isplitl [Ho35]; · iexact Ho35
    isplitl [Ho36]; · iexact Ho36
    isplitl [Ho37]; · iexact Ho37
    isplitl [Ho38]; · iexact Ho38
    isplitl [Ho39]; · iexact Ho39
    isplitl [Ho40]; · iexact Ho40
    isplitl [Ho41]; · iexact Ho41
    isplitl [Ho42]; · iexact Ho42
    isplitl [Ho43]; · iexact Ho43
    isplitl [Ho44]; · iexact Ho44
    isplitl [Ho45]; · iexact Ho45
    isplitl [Ho46]; · iexact Ho46
    isplitl [Ho47]; · iexact Ho47
    isplitl [Ho48]; · iexact Ho48
    isplitl [Ho49]; · iexact Ho49
    isplitl [Hc0]; · iexact Hc0
    isplitl [Hc1]; · iexact Hc1
    isplitl [Hc2]; · iexact Hc2
    isplitl [Hc3]; · iexact Hc3
    isplitl [Hc4]; · iexact Hc4
    isplitl [Hc5]; · iexact Hc5
    isplitl [Hc6]; · iexact Hc6
    isplitl [Hc7]; · iexact Hc7
    isplitl [Hc8]; · iexact Hc8
    isplitl [Hc9]; · iexact Hc9
    isplitl [Hc10]; · iexact Hc10
    isplitl [Hc11]; · iexact Hc11
    isplitl [Hc12]; · iexact Hc12
    isplitl [Hc13]; · iexact Hc13
    isplitl [Hc14]; · iexact Hc14
    isplitl [Hc15]; · iexact Hc15
    isplitl [Hc16]; · iexact Hc16
    isplitl [Hc17]; · iexact Hc17
    isplitl [Hc18]; · iexact Hc18
    isplitl [Hc19]; · iexact Hc19
    isplitl [Hc20]; · iexact Hc20
    isplitl [Hc21]; · iexact Hc21
    isplitl [Hc22]; · iexact Hc22
    isplitl [Hc23]; · iexact Hc23
    isplitl [Hc24]; · iexact Hc24
    isplitl [Hc25]; · iexact Hc25
    isplitl [Hc26]; · iexact Hc26
    isplitl [Hc27]; · iexact Hc27
    isplitl [Hc28]; · iexact Hc28
    isplitl [Hc29]; · iexact Hc29
    isplitl [Hc30]; · iexact Hc30
    isplitl [Hc31]; · iexact Hc31
    isplitl [Hc32]; · iexact Hc32
    isplitl [Hc33]; · iexact Hc33
    isplitl [Hc34]; · iexact Hc34
    isplitl [Hc35]; · iexact Hc35
    isplitl [Hc36]; · iexact Hc36
    isplitl [Hc37]; · iexact Hc37
    isplitl [Hc38]; · iexact Hc38
    isplitl [Hc39]; · iexact Hc39
    isplitl [Hc40]; · iexact Hc40
    isplitl [Hc41]; · iexact Hc41
    isplitl [Hc42]; · iexact Hc42
    isplitl [Hc43]; · iexact Hc43
    isplitl [Hc44]; · iexact Hc44
    isplitl [Hc45]; · iexact Hc45
    isplitl [Hc46]; · iexact Hc46
    isplitl [Hc47]; · iexact Hc47
    isplitl [Hc48]; · iexact Hc48
    isplitl [Hc49]; · iexact Hc49
    isplitl [Hc50]; · iexact Hc50
    isplitl [Hc51]; · iexact Hc51
    isplitl [Hc52]; · iexact Hc52
    isplitl [Hc53]; · iexact Hc53
    isplitl [Hc54]; · iexact Hc54
    isplitl [Hc55]; · iexact Hc55
    isplitl [Hc56]; · iexact Hc56
    iexact HO
  · iexact Hbufs

/-! ## The launch theorem's obligation -/

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1__gather_kernel (coordsV c s)
          iW (Memref.isWhole_whole _) tW (Memref.isWhole_whole _) oW (Memref.isWhole_whole _)
          s0W (Memref.isWhole_whole _) s1W (Memref.isWhole_whole _) s2W (Memref.isWhole_whole _) cc1_scratch3 cc1_scratch4 cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16 cc1_scoped17 cc1_scoped18 cc1_scoped19 cc1_scoped20 cc1_scoped21 cc1_scoped22 cc1_scoped23 cc1_scoped24 cc1_scoped25 cc1_scoped26 cc1_scoped27 cc1_scoped28 cc1_scoped29 cc1_scoped30 cc1_scoped31 cc1_scoped32 cc1_scoped33 cc1_scoped34 cc1_scoped35 cc1_scoped36 cc1_scoped37 cc1_scoped38 cc1_scoped39 cc1_scoped40 cc1_scoped41 cc1_scoped42 cc1_scoped43 cc1_scoped44 cc1_scoped45 cc1_scoped46 cc1_scoped47 cc1_scoped48 cc1_scoped49 cc1_scoped50) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hpre : PreOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  exact (tile_body m hpre d (coordsV ⟨_, hc.1⟩ ⟨_, hc.2⟩) O W hO).trans (wp_mono frame _ _ fun _ => obl_post)

end Cert.Proof.KI

end
-- ==== Proof.TilePrepKB.lean ====
/-
  The tile's view of what it is handed: its run of the row-number list, its chunks of the result and its list buffer cut
  into runs, each as the window the kernel slices; and its own semaphores and buffers taken one by one.
-/
import proofs.«208090_g83872121356401_cont_sun_m_474_43_alg».proof.Proof.PayKB
import proofs.«208090_g83872121356401_cont_sun_m_474_43_alg».proof.Proof.LibRowBlocks
import proofs.«208090_g83872121356401_cont_sun_m_474_43_alg».proof.Proof.LibWindows

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iW" => (Memref.whole Cert.Kernel.main_v1_scv : Memref Cert.Kernel.sig Kind.scVector Space.hbm Cert.Kernel.S204800 EltTy.i32)
local notation "tW" => (Memref.whole Cert.Kernel.main_v2_scv : Memref Cert.Kernel.sig Kind.scVector Space.hbm Cert.Kernel.S1000000x128 EltTy.f32)
local notation "oW" => (Memref.whole Cert.Kernel.main_v3_scv : Memref Cert.Kernel.sig Kind.scVector Space.hbm Cert.Kernel.S204800x128 EltTy.f32)
local notation "s0W" => (Memref.whole Cert.Kernel.cc1_scratch0 : Memref Cert.Kernel.sig Kind.scVector Space.vmem Cert.Kernel.S6400 EltTy.i32)
local notation "s1W" => (Memref.whole Cert.Kernel.cc1_scratch1 : Memref Cert.Kernel.sig Kind.scVector Space.vmem Cert.Kernel.S128x128 EltTy.f32)
local notation "s2W" => (Memref.whole Cert.Kernel.cc1_scratch2 : Memref Cert.Kernel.sig Kind.scVector Space.vmem Cert.Kernel.S128x128 EltTy.f32)

/-! ## The tile and its windows -/

abbrev cV (L : grid1.Coords) : Fin τ.nSC := (L 0).castLE hcore1
abbrev jV (L : grid1.Coords) : Fin τ.nSub := (L 1).castLE hsub1
abbrev thr (d : Dev nD) (L : grid1.Coords) : Thread nD τ := V d (cV L) (jV L)
/-- The tile's number: `2 i + c` at coordinates `(c, i)`. -/
abbrev wOf (L : grid1.Coords) : ℕ := 2 * (L 1).val + (L 0).val

/-- The tile's run of the row-number list, as the kernel slices it. -/
abbrev idxWin (L : grid1.Coords) : Memref sig .scVector .hbm S6400 .i32 :=
  (iW).slice (Rect.unit (s := S204800) (k1_off1 L) S6400.size (k1_off1_inb L)) (fun _ => rfl)
/-- Chunk `r` of the tile's rows of the result, as the kernel slices it. -/
abbrev outWinR (L : grid1.Coords) (r : Fin 50) : Memref sig .scVector .hbm S128x128 .f32 :=
  (oW).slice (Rect.unit (s := S204800x128) (k1_off2 L (BitVec.ofNat 32 (128 * r.val))) S128x128.size (k1_off2_inb L r)) (fun _ => rfl)
theorem listInb (r : Fin 50) : ∀ a, (![128 * r.val] : Fin 1 → ℕ) a + S128.size a ≤ S6400.size a := by
  intro a; have hr := r.isLt
  match a with
  | ⟨0, _⟩ => show 128 * r.val + 128 ≤ 6400; omega
/-- Run `r` of the tile's list buffer, as the kernel slices it. -/
abbrev listWinR (r : Fin 50) : Memref sig .scVector .vmem S128 .i32 :=
  (s0W).slice (Rect.unit (s := S6400) ![128 * r.val] S128.size (listInb r)) (fun _ => rfl)

/-! ## The TensorCore's element sets are the windows' -/

theorem off1_zero (L : grid1.Coords) : k1_off1 L 0 = 6400 * wOf L := by
  rw [k1_off1_eq]; show 12800 * (L 1).val + 6400 * (L 0).val = 6400 * (2 * (L 1).val + (L 0).val); omega
theorem off2_zero (L : grid1.Coords) (r : Fin 50) : k1_off2 L (BitVec.ofNat 32 (128 * r.val)) 0 = 128 * (50 * wOf L + r.val) := by
  rw [k1_off2_eq]; show 12800 * (L 1).val + 6400 * (L 0).val + 128 * r.val = 128 * (50 * (2 * (L 1).val + (L 0).val) + r.val); omega
theorem off2_one (L : grid1.Coords) (r : Fin 50) : k1_off2 L (BitVec.ofNat 32 (128 * r.val)) 1 = 0 := by
  rw [k1_off2_eq]; rfl

theorem set_idxWin (L : grid1.Coords) : (idxWin L).view.set = idxSet (wOf L) := by
  have h := Windows.set_blkWin1 (iW) (6400 * wOf L) (k1_off1_inb L) (off1_zero L)
  rw [Windows.setOn_whole] at h
  exact h
theorem set_outWinR (L : grid1.Coords) (r : Fin 50) : (outWinR L r).view.set = chunkSet (50 * wOf L + r.val) := by
  have h := RowBlocks.set_blkWin2 (oW) (128 * (50 * wOf L + r.val)) (k1_off2_inb L r) (off2_zero L r) (off2_one L r)
  rw [Windows.setOn_whole] at h
  exact h

theorem idx_pts (d : Dev nD) (L : grid1.Coords) (q : PosShare TreeShare) (f : Buf (Elt F) (iLoc d)) :
    (iLoc d ↦[idxSet (wOf L)]{q} f : sProp 𝕄) = ((idxWin L).view.loc (thr d L) ↦[(idxWin L).view.set]{q} f) := by
  rw [set_idxWin]
theorem out_pts (d : Dev nD) (L : grid1.Coords) (r : Fin 50) (q : PosShare TreeShare) (f : Buf (Elt F) (oLoc d)) :
    (oLoc d ↦[chunkSet (50 * wOf L + r.val)]{q} f : sProp 𝕄) = ((outWinR L r).view.loc (thr d L) ↦[(outWinR L r).view.set]{q} f) := by
  rw [set_outWinR]

/-! ## The list buffer cut into its fifty runs -/

/-- The run an entry of the list buffer lies in. -/
def runOf (x : S6400.Idx) : Fin 50 := ⟨(x 0).val / 128, by have h : (x 0).val < 6400 := (x 0).isLt; omega⟩
def runSet (t : Fin 50) : Finset S6400.Idx := Finset.univ.filter fun j => 128 * t.val ≤ (j 0).val ∧ (j 0).val < 128 * t.val + 128
theorem mem_runSet (t : Fin 50) (x : S6400.Idx) : x ∈ runSet t ↔ runOf x = t := by
  unfold runSet runOf
  rw [Finset.mem_filter]
  simp only [Finset.mem_univ, true_and]
  constructor
  · intro h; apply Fin.ext; show (x 0).val / 128 = t.val; omega
  · intro h; have h' : (x 0).val / 128 = t.val := congrArg Fin.val h; omega
theorem set_listWinR (r : Fin 50) : (listWinR r).view.set = runSet r := by
  have h := Windows.set_blkWin1 (s0W) (128 * r.val) (listInb r) rfl
  rw [Windows.setOn_whole] at h
  exact h

theorem list_pts (d : Dev nD) (L : grid1.Coords) (q : PosShare TreeShare) (g : Buf (Elt F) ((s0W).view.loc (thr d L))) :
    ((s0W).view.loc (thr d L) ↦{q} g : sProp 𝕄)
      = bigSep Finset.univ fun r : Fin 50 => ((listWinR r).view.loc (thr d L) ↦[(listWinR r).view.set]{q} g) := by
  have h := Windows.pointsTo_fibres (Ix := HIx 1) (Val := Elt F) (Name := ℕ) (U := UU) (Lvl := ℕ) (thr d L) (s0W).view (q := q) runOf runSet mem_runSet g
  rw [(Memref.isWhole_whole (cc1_scratch0 : Ref sig .scVector)).set_eq_univ] at h
  rw [show ((s0W).view.loc (thr d L) ↦{q} g : sProp 𝕄) = ((s0W).view.loc (thr d L) ↦[Finset.univ]{q} g) from rfl, h]
  refine bigSep_congr fun r _ => ?_
  rw [set_listWinR, Windows.setOn_whole]

end Cert.Proof.KB

end
-- ==== Proof.TileOwnKB.lean ====
/-
  A tile's own semaphores, one by one, and its three scratch buffers among its own buffers.
-/
import proofs.«208090_g83872121356401_cont_sun_m_474_43_alg».proof.Proof.PayKB
import proofs.«208090_g83872121356401_cont_sun_m_474_43_alg».proof.Proof.LibRowBlocks
import proofs.«208090_g83872121356401_cont_sun_m_474_43_alg».proof.Proof.LibWindows
import proofs.«208090_g83872121356401_cont_sun_m_474_43_alg».proof.Proof.TilePrepKB

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iW" => (Memref.whole Cert.Kernel.main_v1_scv : Memref Cert.Kernel.sig Kind.scVector Space.hbm Cert.Kernel.S204800 EltTy.i32)
local notation "tW" => (Memref.whole Cert.Kernel.main_v2_scv : Memref Cert.Kernel.sig Kind.scVector Space.hbm Cert.Kernel.S1000000x128 EltTy.f32)
local notation "oW" => (Memref.whole Cert.Kernel.main_v3_scv : Memref Cert.Kernel.sig Kind.scVector Space.hbm Cert.Kernel.S204800x128 EltTy.f32)
local notation "s0W" => (Memref.whole Cert.Kernel.cc1_scratch0 : Memref Cert.Kernel.sig Kind.scVector Space.vmem Cert.Kernel.S6400 EltTy.i32)
local notation "s1W" => (Memref.whole Cert.Kernel.cc1_scratch1 : Memref Cert.Kernel.sig Kind.scVector Space.vmem Cert.Kernel.S128x128 EltTy.f32)
local notation "s2W" => (Memref.whole Cert.Kernel.cc1_scratch2 : Memref Cert.Kernel.sig Kind.scVector Space.vmem Cert.Kernel.S128x128 EltTy.f32)

/-- A tile's scoped semaphores: all fifty-seven DMA semaphores. -/
def semList : List (SemLoc sig) := [SemLoc.dma (⟨0, by decide⟩ : DmaSem sig), SemLoc.dma (⟨1, by decide⟩ : DmaSem sig), SemLoc.dma (⟨2, by decide⟩ : DmaSem sig), SemLoc.dma (⟨3, by decide⟩ : DmaSem sig), SemLoc.dma (⟨4, by decide⟩ : DmaSem sig), SemLoc.dma (⟨5, by decide⟩ : DmaSem sig), SemLoc.dma (⟨6, by decide⟩ : DmaSem sig), SemLoc.dma (⟨7, by decide⟩ : DmaSem sig), SemLoc.dma (⟨8, by decide⟩ : DmaSem sig), SemLoc.dma (⟨9, by decide⟩ : DmaSem sig), SemLoc.dma (⟨10, by decide⟩ : DmaSem sig), SemLoc.dma (⟨11, by decide⟩ : DmaSem sig), SemLoc.dma (⟨12, by decide⟩ : DmaSem sig), SemLoc.dma (⟨13, by decide⟩ : DmaSem sig), SemLoc.dma (⟨14, by decide⟩ : DmaSem sig), SemLoc.dma (⟨15, by decide⟩ : DmaSem sig), SemLoc.dma (⟨16, by decide⟩ : DmaSem sig), SemLoc.dma (⟨17, by decide⟩ : DmaSem sig), SemLoc.dma (⟨18, by decide⟩ : DmaSem sig), SemLoc.dma (⟨19, by decide⟩ : DmaSem sig), SemLoc.dma (⟨20, by decide⟩ : DmaSem sig), SemLoc.dma (⟨21, by decide⟩ : DmaSem sig), SemLoc.dma (⟨22, by decide⟩ : DmaSem sig), SemLoc.dma (⟨23, by decide⟩ : DmaSem sig), SemLoc.dma (⟨24, by decide⟩ : DmaSem sig), SemLoc.dma (⟨25, by decide⟩ : DmaSem sig), SemLoc.dma (⟨26, by decide⟩ : DmaSem sig), SemLoc.dma (⟨27, by decide⟩ : DmaSem sig), SemLoc.dma (⟨28, by decide⟩ : DmaSem sig), SemLoc.dma (⟨29, by decide⟩ : DmaSem sig), SemLoc.dma (⟨30, by decide⟩ : DmaSem sig), SemLoc.dma (⟨31, by decide⟩ : DmaSem sig), SemLoc.dma (⟨32, by decide⟩ : DmaSem sig), SemLoc.dma (⟨33, by decide⟩ : DmaSem sig), SemLoc.dma (⟨34, by decide⟩ : DmaSem sig), SemLoc.dma (⟨35, by decide⟩ : DmaSem sig), SemLoc.dma (⟨36, by decide⟩ : DmaSem sig), SemLoc.dma (⟨37, by decide⟩ : DmaSem sig), SemLoc.dma (⟨38, by decide⟩ : DmaSem sig), SemLoc.dma (⟨39, by decide⟩ : DmaSem sig), SemLoc.dma (⟨40, by decide⟩ : DmaSem sig), SemLoc.dma (⟨41, by decide⟩ : DmaSem sig), SemLoc.dma (⟨42, by decide⟩ : DmaSem sig), SemLoc.dma (⟨43, by decide⟩ : DmaSem sig), SemLoc.dma (⟨44, by decide⟩ : DmaSem sig), SemLoc.dma (⟨45, by decide⟩ : DmaSem sig), SemLoc.dma (⟨46, by decide⟩ : DmaSem sig), SemLoc.dma (⟨47, by decide⟩ : DmaSem sig), SemLoc.dma (⟨48, by decide⟩ : DmaSem sig), SemLoc.dma (⟨49, by decide⟩ : DmaSem sig), SemLoc.dma (⟨50, by decide⟩ : DmaSem sig), SemLoc.dma (⟨51, by decide⟩ : DmaSem sig), SemLoc.dma (⟨52, by decide⟩ : DmaSem sig), SemLoc.dma (⟨53, by decide⟩ : DmaSem sig), SemLoc.dma (⟨54, by decide⟩ : DmaSem sig), SemLoc.dma (⟨55, by decide⟩ : DmaSem sig), SemLoc.dma (⟨56, by decide⟩ : DmaSem sig)]

theorem semList_nodup : semList.Nodup := by decide
theorem scoped_iff : ∀ s : SemLoc sig, s.isScoped .scVector = true ↔ s ∈ semList := by decide

theorem ownCells_tile (d : Dev nD) (c : Fin τ.nSC) (i : Fin τ.nSub) :
    (ownCells (V d c i) : Finset (GSem nD τ sig)) = (semList.map fun s => ((V d c i, s) : GSem nD τ sig)).toFinset := by
  ext g
  rcases g with ⟨t, s⟩
  rw [mem_ownCells, List.mem_toFinset, List.mem_map]
  constructor
  · rintro ⟨e, hs⟩
    cases e
    exact ⟨s, (scoped_iff s).mp hs, rfl⟩
  · rintro ⟨s', hs', e⟩
    obtain ⟨e1, e2⟩ := Prod.mk.inj e
    subst e1 e2
    exact ⟨rfl, (scoped_iff _).mpr hs'⟩

/-- The tile's own semaphores at zero are the fifty-seven counters at zero, in order. -/
theorem ownSems0_tile (d : Dev nD) (c : Fin τ.nSC) (i : Fin τ.nSub) :
    (ownSems0 (V d c i) : sProp 𝕄) = bigSepL semList fun s => semVal ((V d c i, s) : GSem nD τ sig) 0 := by
  unfold SparseCore.Cfg.ownSems0
  rw [bigSep_eq_bigSepL_of_eq _ (ownCells_tile d c i)
      (List.Nodup.map (fun a b e => (Prod.mk.inj e).2) semList_nodup), RowBlocks.bigSepL_map]

/-- The three scratch buffers are among the tile's own: they are them, at some contents, and the rest. -/
theorem ownBufs_tile (d : Dev nD) (c : Fin τ.nSC) (i : Fin τ.nSub) :
    (ownBufs (V d c i) : sProp 𝕄)
      = iprop((∃ f, (V d c i).loc cc1_scratch0 ↦{fullShare} f) ∗ (∃ f, (V d c i).loc cc1_scratch1 ↦{fullShare} f)
          ∗ (∃ f, (V d c i).loc cc1_scratch2 ↦{fullShare} f)
          ∗ bigSep ((((ownRefs (τ := τ) (.scVector c i)).erase ((Proc.scVector c i).devRef cc1_scratch0)).erase
              ((Proc.scVector c i).devRef cc1_scratch1)).erase ((Proc.scVector c i).devRef cc1_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector c i)
    (b := (Proc.scVector c i).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector c i) (b := (Proc.scVector c i).devRef cc1_scratch1) rfl⟩),
    SparseCore.bigSep_erase' (Finset.mem_erase.mpr ⟨fun e => absurd (Proc.devRef_injective _ e) (show (cc1_scratch2 : Ref sig .scVector) ≠ cc1_scratch1 by decide),
      Finset.mem_erase.mpr ⟨fun e => absurd (Proc.devRef_injective _ e) (show (cc1_scratch2 : Ref sig .scVector) ≠ cc1_scratch0 by decide),
    SparseCore.Cfg.mem_ownRefs_of_owner (p := Proc.scVector c i) (b := (Proc.scVector c i).devRef cc1_scratch2) rfl⟩⟩)]

end Cert.Proof.KB

end
-- ==== Proof.TileChainsKB.lean ====
/-
  The tile's list buffer as its fifty runs, its fifty chunks of the result, and its fifty-seven semaphores, each as the
  chain of the windows and counters the kernel's text names.
-/
import proofs.«208090_g83872121356401_cont_sun_m_474_43_alg».proof.Proof.PayKB
import proofs.«208090_g83872121356401_cont_sun_m_474_43_alg».proof.Proof.LibRowBlocks
import proofs.«208090_g83872121356401_cont_sun_m_474_43_alg».proof.Proof.LibWindows
import proofs.«208090_g83872121356401_cont_sun_m_474_43_alg».proof.Proof.TileOwnKB

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iW" => (Memref.whole Cert.Kernel.main_v1_scv : Memref Cert.Kernel.sig Kind.scVector Space.hbm Cert.Kernel.S204800 EltTy.i32)
local notation "tW" => (Memref.whole Cert.Kernel.main_v2_scv : Memref Cert.Kernel.sig Kind.scVector Space.hbm Cert.Kernel.S1000000x128 EltTy.f32)
local notation "oW" => (Memref.whole Cert.Kernel.main_v3_scv : Memref Cert.Kernel.sig Kind.scVector Space.hbm Cert.Kernel.S204800x128 EltTy.f32)
local notation "s0W" => (Memref.whole Cert.Kernel.cc1_scratch0 : Memref Cert.Kernel.sig Kind.scVector Space.vmem Cert.Kernel.S6400 EltTy.i32)
local notation "s1W" => (Memref.whole Cert.Kernel.cc1_scratch1 : Memref Cert.Kernel.sig Kind.scVector Space.vmem Cert.Kernel.S128x128 EltTy.f32)
local notation "s2W" => (Memref.whole Cert.Kernel.cc1_scratch2 : Memref Cert.Kernel.sig Kind.scVector Space.vmem Cert.Kernel.S128x128 EltTy.f32)

theorem fin50_univ : (Finset.univ : Finset (Fin 50)) = ([(0 : Fin 50), (1 : Fin 50), (2 : Fin 50), (3 : Fin 50), (4 : Fin 50), (5 : Fin 50), (6 : Fin 50), (7 : Fin 50), (8 : Fin 50), (9 : Fin 50), (10 : Fin 50), (11 : Fin 50), (12 : Fin 50), (13 : Fin 50), (14 : Fin 50), (15 : Fin 50), (16 : Fin 50), (17 : Fin 50), (18 : Fin 50), (19 : Fin 50), (20 : Fin 50), (21 : Fin 50), (22 : Fin 50), (23 : Fin 50), (24 : Fin 50), (25 : Fin 50), (26 : Fin 50), (27 : Fin 50), (28 : Fin 50), (29 : Fin 50), (30 : Fin 50), (31 : Fin 50), (32 : Fin 50), (33 : Fin 50), (34 : Fin 50), (35 : Fin 50), (36 : Fin 50), (37 : Fin 50), (38 : Fin 50), (39 : Fin 50), (40 : Fin 50), (41 : Fin 50), (42 : Fin 50), (43 : Fin 50), (44 : Fin 50), (45 : Fin 50), (46 : Fin 50), (47 : Fin 50), (48 : Fin 50), (49 : Fin 50)] : List (Fin 50)).toFinset := by decide
theorem fin50_nodup : ([(0 : Fin 50), (1 : Fin 50), (2 : Fin 50), (3 : Fin 50), (4 : Fin 50), (5 : Fin 50), (6 : Fin 50), (7 : Fin 50), (8 : Fin 50), (9 : Fin 50), (10 : Fin 50), (11 : Fin 50), (12 : Fin 50), (13 : Fin 50), (14 : Fin 50), (15 : Fin 50), (16 : Fin 50), (17 : Fin 50), (18 : Fin 50), (19 : Fin 50), (20 : Fin 50), (21 : Fin 50), (22 : Fin 50), (23 : Fin 50), (24 : Fin 50), (25 : Fin 50), (26 : Fin 50), (27 : Fin 50), (28 : Fin 50), (29 : Fin 50), (30 : Fin 50), (31 : Fin 50), (32 : Fin 50), (33 : Fin 50), (34 : Fin 50), (35 : Fin 50), (36 : Fin 50), (37 : Fin 50), (38 : Fin 50), (39 : Fin 50), (40 : Fin 50), (41 : Fin 50), (42 : Fin 50), (43 : Fin 50), (44 : Fin 50), (45 : Fin 50), (46 : Fin 50), (47 : Fin 50), (48 : Fin 50), (49 : Fin 50)] : List (Fin 50)).Nodup := by decide

set_option maxRecDepth 8192 in
/-- The list buffer held whole is its fifty runs held side by side. -/
theorem list_chain (d : Dev nD) (L : grid1.Coords) (q : PosShare TreeShare) (g : Buf (Elt F) ((s0W).view.loc (thr d L))) :
    ((s0W).view.loc (thr d L) ↦{q} g : sProp 𝕄)
      = iprop((((s0W).slice (Rect.unit (s := S6400) ![0] S128.size inb_S6400_S128_0) (fun _ => rfl)).view.loc (thr d L) ↦[((s0W).slice (Rect.unit (s := S6400) ![0] S128.size inb_S6400_S128_0) (fun _ => rfl)).view.set]{q} g)
      ∗ (((s0W).slice (Rect.unit (s := S6400) ![128] S128.size inb_S6400_S128_128) (fun _ => rfl)).view.loc (thr d L) ↦[((s0W).slice (Rect.unit (s := S6400) ![128] S128.size inb_S6400_S128_128) (fun _ => rfl)).view.set]{q} g)
      ∗ (((s0W).slice (Rect.unit (s := S6400) ![256] S128.size inb_S6400_S128_256) (fun _ => rfl)).view.loc (thr d L) ↦[((s0W).slice (Rect.unit (s := S6400) ![256] S128.size inb_S6400_S128_256) (fun _ => rfl)).view.set]{q} g)
      ∗ (((s0W).slice (Rect.unit (s := S6400) ![384] S128.size inb_S6400_S128_384) (fun _ => rfl)).view.loc (thr d L) ↦[((s0W).slice (Rect.unit (s := S6400) ![384] S128.size inb_S6400_S128_384) (fun _ => rfl)).view.set]{q} g)
      ∗ (((s0W).slice (Rect.unit (s := S6400) ![512] S128.size inb_S6400_S128_512) (fun _ => rfl)).view.loc (thr d L) ↦[((s0W).slice (Rect.unit (s := S6400) ![512] S128.size inb_S6400_S128_512) (fun _ => rfl)).view.set]{q} g)
      ∗ (((s0W).slice (Rect.unit (s := S6400) ![640] S128.size inb_S6400_S128_640) (fun _ => rfl)).view.loc (thr d L) ↦[((s0W).slice (Rect.unit (s := S6400) ![640] S128.size inb_S6400_S128_640) (fun _ => rfl)).view.set]{q} g)
      ∗ (((s0W).slice (Rect.unit (s := S6400) ![768] S128.size inb_S6400_S128_768) (fun _ => rfl)).view.loc (thr d L) ↦[((s0W).slice (Rect.unit (s := S6400) ![768] S128.size inb_S6400_S128_768) (fun _ => rfl)).view.set]{q} g)
      ∗ (((s0W).slice (Rect.unit (s := S6400) ![896] S128.size inb_S6400_S128_896) (fun _ => rfl)).view.loc (thr d L) ↦[((s0W).slice (Rect.unit (s := S6400) ![896] S128.size inb_S6400_S128_896) (fun _ => rfl)).view.set]{q} g)
      ∗ (((s0W).slice (Rect.unit (s := S6400) ![1024] S128.size inb_S6400_S128_1024) (fun _ => rfl)).view.loc (thr d L) ↦[((s0W).slice (Rect.unit (s := S6400) ![1024] S128.size inb_S6400_S128_1024) (fun _ => rfl)).view.set]{q} g)
      ∗ (((s0W).slice (Rect.unit (s := S6400) ![1152] S128.size inb_S6400_S128_1152) (fun _ => rfl)).view.loc (thr d L) ↦[((s0W).slice (Rect.unit (s := S6400) ![1152] S128.size inb_S6400_S128_1152) (fun _ => rfl)).view.set]{q} g)
      ∗ (((s0W).slice (Rect.unit (s := S6400) ![1280] S128.size inb_S6400_S128_1280) (fun _ => rfl)).view.loc (thr d L) ↦[((s0W).slice (Rect.unit (s := S6400) ![1280] S128.size inb_S6400_S128_1280) (fun _ => rfl)).view.set]{q} g)
      ∗ (((s0W).slice (Rect.unit (s := S6400) ![1408] S128.size inb_S6400_S128_1408) (fun _ => rfl)).view.loc (thr d L) ↦[((s0W).slice (Rect.unit (s := S6400) ![1408] S128.size inb_S6400_S128_1408) (fun _ => rfl)).view.set]{q} g)
      ∗ (((s0W).slice (Rect.unit (s := S6400) ![1536] S128.size inb_S6400_S128_1536) (fun _ => rfl)).view.loc (thr d L) ↦[((s0W).slice (Rect.unit (s := S6400) ![1536] S128.size inb_S6400_S128_1536) (fun _ => rfl)).view.set]{q} g)
      ∗ (((s0W).slice (Rect.unit (s := S6400) ![1664] S128.size inb_S6400_S128_1664) (fun _ => rfl)).view.loc (thr d L) ↦[((s0W).slice (Rect.unit (s := S6400) ![1664] S128.size inb_S6400_S128_1664) (fun _ => rfl)).view.set]{q} g)
      ∗ (((s0W).slice (Rect.unit (s := S6400) ![1792] S128.size inb_S6400_S128_1792) (fun _ => rfl)).view.loc (thr d L) ↦[((s0W).slice (Rect.unit (s := S6400) ![1792] S128.size inb_S6400_S128_1792) (fun _ => rfl)).view.set]{q} g)
      ∗ (((s0W).slice (Rect.unit (s := S6400) ![1920] S128.size inb_S6400_S128_1920) (fun _ => rfl)).view.loc (thr d L) ↦[((s0W).slice (Rect.unit (s := S6400) ![1920] S128.size inb_S6400_S128_1920) (fun _ => rfl)).view.set]{q} g)
      ∗ (((s0W).slice (Rect.unit (s := S6400) ![2048] S128.size inb_S6400_S128_2048) (fun _ => rfl)).view.loc (thr d L) ↦[((s0W).slice (Rect.unit (s := S6400) ![2048] S128.size inb_S6400_S128_2048) (fun _ => rfl)).view.set]{q} g)
      ∗ (((s0W).slice (Rect.unit (s := S6400) ![2176] S128.size inb_S6400_S128_2176) (fun _ => rfl)).view.loc (thr d L) ↦[((s0W).slice (Rect.unit (s := S6400) ![2176] S128.size inb_S6400_S128_2176) (fun _ => rfl)).view.set]{q} g)
      ∗ (((s0W).slice (Rect.unit (s := S6400) ![2304] S128.size inb_S6400_S128_2304) (fun _ => rfl)).view.loc (thr d L) ↦[((s0W).slice (Rect.unit (s := S6400) ![2304] S128.size inb_S6400_S128_2304) (fun _ => rfl)).view.set]{q} g)
      ∗ (((s0W).slice (Rect.unit (s := S6400) ![2432] S128.size inb_S6400_S128_2432) (fun _ => rfl)).view.loc (thr d L) ↦[((s0W).slice (Rect.unit (s := S6400) ![2432] S128.size inb_S6400_S128_2432) (fun _ => rfl)).view.set]{q} g)
      ∗ (((s0W).slice (Rect.unit (s := S6400) ![2560] S128.size inb_S6400_S128_2560) (fun _ => rfl)).view.loc (thr d L) ↦[((s0W).slice (Rect.unit (s := S6400) ![2560] S128.size inb_S6400_S128_2560) (fun _ => rfl)).view.set]{q} g)
      ∗ (((s0W).slice (Rect.unit (s := S6400) ![2688] S128.size inb_S6400_S128_2688) (fun _ => rfl)).view.loc (thr d L) ↦[((s0W).slice (Rect.unit (s := S6400) ![2688] S128.size inb_S6400_S128_2688) (fun _ => rfl)).view.set]{q} g)
      ∗ (((s0W).slice (Rect.unit (s := S6400) ![2816] S128.size inb_S6400_S128_2816) (fun _ => rfl)).view.loc (thr d L) ↦[((s0W).slice (Rect.unit (s := S6400) ![2816] S128.size inb_S6400_S128_2816) (fun _ => rfl)).view.set]{q} g)
      ∗ (((s0W).slice (Rect.unit (s := S6400) ![2944] S128.size inb_S6400_S128_2944) (fun _ => rfl)).view.loc (thr d L) ↦[((s0W).slice (Rect.unit (s := S6400) ![2944] S128.size inb_S6400_S128_2944) (fun _ => rfl)).view.set]{q} g)
      ∗ (((s0W).slice (Rect.unit (s := S6400) ![3072] S128.size inb_S6400_S128_3072) (fun _ => rfl)).view.loc (thr d L) ↦[((s0W).slice (Rect.unit (s := S6400) ![3072] S128.size inb_S6400_S128_3072) (fun _ => rfl)).view.set]{q} g)
      ∗ (((s0W).slice (Rect.unit (s := S6400) ![3200] S128.size inb_S6400_S128_3200) (fun _ => rfl)).view.loc (thr d L) ↦[((s0W).slice (Rect.unit (s := S6400) ![3200] S128.size inb_S6400_S128_3200) (fun _ => rfl)).view.set]{q} g)
      ∗ (((s0W).slice (Rect.unit (s := S6400) ![3328] S128.size inb_S6400_S128_3328) (fun _ => rfl)).view.loc (thr d L) ↦[((s0W).slice (Rect.unit (s := S6400) ![3328] S128.size inb_S6400_S128_3328) (fun _ => rfl)).view.set]{q} g)
      ∗ (((s0W).slice (Rect.unit (s := S6400) ![3456] S128.size inb_S6400_S128_3456) (fun _ => rfl)).view.loc (thr d L) ↦[((s0W).slice (Rect.unit (s := S6400) ![3456] S128.size inb_S6400_S128_3456) (fun _ => rfl)).view.set]{q} g)
      ∗ (((s0W).slice (Rect.unit (s := S6400) ![3584] S128.size inb_S6400_S128_3584) (fun _ => rfl)).view.loc (thr d L) ↦[((s0W).slice (Rect.unit (s := S6400) ![3584] S128.size inb_S6400_S128_3584) (fun _ => rfl)).view.set]{q} g)
      ∗ (((s0W).slice (Rect.unit (s := S6400) ![3712] S128.size inb_S6400_S128_3712) (fun _ => rfl)).view.loc (thr d L) ↦[((s0W).slice (Rect.unit (s := S6400) ![3712] S128.size inb_S6400_S128_3712) (fun _ => rfl)).view.set]{q} g)
      ∗ (((s0W).slice (Rect.unit (s := S6400) ![3840] S128.size inb_S6400_S128_3840) (fun _ => rfl)).view.loc (thr d L) ↦[((s0W).slice (Rect.unit (s := S6400) ![3840] S128.size inb_S6400_S128_3840) (fun _ => rfl)).view.set]{q} g)
      ∗ (((s0W).slice (Rect.unit (s := S6400) ![3968] S128.size inb_S6400_S128_3968) (fun _ => rfl)).view.loc (thr d L) ↦[((s0W).slice (Rect.unit (s := S6400) ![3968] S128.size inb_S6400_S128_3968) (fun _ => rfl)).view.set]{q} g)
      ∗ (((s0W).slice (Rect.unit (s := S6400) ![4096] S128.size inb_S6400_S128_4096) (fun _ => rfl)).view.loc (thr d L) ↦[((s0W).slice (Rect.unit (s := S6400) ![4096] S128.size inb_S6400_S128_4096) (fun _ => rfl)).view.set]{q} g)
      ∗ (((s0W).slice (Rect.unit (s := S6400) ![4224] S128.size inb_S6400_S128_4224) (fun _ => rfl)).view.loc (thr d L) ↦[((s0W).slice (Rect.unit (s := S6400) ![4224] S128.size inb_S6400_S128_4224) (fun _ => rfl)).view.set]{q} g)
      ∗ (((s0W).slice (Rect.unit (s := S6400) ![4352] S128.size inb_S6400_S128_4352) (fun _ => rfl)).view.loc (thr d L) ↦[((s0W).slice (Rect.unit (s := S6400) ![4352] S128.size inb_S6400_S128_4352) (fun _ => rfl)).view.set]{q} g)
      ∗ (((s0W).slice (Rect.unit (s := S6400) ![4480] S128.size inb_S6400_S128_4480) (fun _ => rfl)).view.loc (thr d L) ↦[((s0W).slice (Rect.unit (s := S6400) ![4480] S128.size inb_S6400_S128_4480) (fun _ => rfl)).view.set]{q} g)
      ∗ (((s0W).slice (Rect.unit (s := S6400) ![4608] S128.size inb_S6400_S128_4608) (fun _ => rfl)).view.loc (thr d L) ↦[((s0W).slice (Rect.unit (s := S6400) ![4608] S128.size inb_S6400_S128_4608) (fun _ => rfl)).view.set]{q} g)
      ∗ (((s0W).slice (Rect.unit (s := S6400) ![4736] S128.size inb_S6400_S128_4736) (fun _ => rfl)).view.loc (thr d L) ↦[((s0W).slice (Rect.unit (s := S6400) ![4736] S128.size inb_S6400_S128_4736) (fun _ => rfl)).view.set]{q} g)
      ∗ (((s0W).slice (Rect.unit (s := S6400) ![4864] S128.size inb_S6400_S128_4864) (fun _ => rfl)).view.loc (thr d L) ↦[((s0W).slice (Rect.unit (s := S6400) ![4864] S128.size inb_S6400_S128_4864) (fun _ => rfl)).view.set]{q} g)
      ∗ (((s0W).slice (Rect.unit (s := S6400) ![4992] S128.size inb_S6400_S128_4992) (fun _ => rfl)).view.loc (thr d L) ↦[((s0W).slice (Rect.unit (s := S6400) ![4992] S128.size inb_S6400_S128_4992) (fun _ => rfl)).view.set]{q} g)
      ∗ (((s0W).slice (Rect.unit (s := S6400) ![5120] S128.size inb_S6400_S128_5120) (fun _ => rfl)).view.loc (thr d L) ↦[((s0W).slice (Rect.unit (s := S6400) ![5120] S128.size inb_S6400_S128_5120) (fun _ => rfl)).view.set]{q} g)
      ∗ (((s0W).slice (Rect.unit (s := S6400) ![5248] S128.size inb_S6400_S128_5248) (fun _ => rfl)).view.loc (thr d L) ↦[((s0W).slice (Rect.unit (s := S6400) ![5248] S128.size inb_S6400_S128_5248) (fun _ => rfl)).view.set]{q} g)
      ∗ (((s0W).slice (Rect.unit (s := S6400) ![5376] S128.size inb_S6400_S128_5376) (fun _ => rfl)).view.loc (thr d L) ↦[((s0W).slice (Rect.unit (s := S6400) ![5376] S128.size inb_S6400_S128_5376) (fun _ => rfl)).view.set]{q} g)
      ∗ (((s0W).slice (Rect.unit (s := S6400) ![5504] S128.size inb_S6400_S128_5504) (fun _ => rfl)).view.loc (thr d L) ↦[((s0W).slice (Rect.unit (s := S6400) ![5504] S128.size inb_S6400_S128_5504) (fun _ => rfl)).view.set]{q} g)
      ∗ (((s0W).slice (Rect.unit (s := S6400) ![5632] S128.size inb_S6400_S128_5632) (fun _ => rfl)).view.loc (thr d L) ↦[((s0W).slice (Rect.unit (s := S6400) ![5632] S128.size inb_S6400_S128_5632) (fun _ => rfl)).view.set]{q} g)
      ∗ (((s0W).slice (Rect.unit (s := S6400) ![5760] S128.size inb_S6400_S128_5760) (fun _ => rfl)).view.loc (thr d L) ↦[((s0W).slice (Rect.unit (s := S6400) ![5760] S128.size inb_S6400_S128_5760) (fun _ => rfl)).view.set]{q} g)
      ∗ (((s0W).slice (Rect.unit (s := S6400) ![5888] S128.size inb_S6400_S128_5888) (fun _ => rfl)).view.loc (thr d L) ↦[((s0W).slice (Rect.unit (s := S6400) ![5888] S128.size inb_S6400_S128_5888) (fun _ => rfl)).view.set]{q} g)
      ∗ (((s0W).slice (Rect.unit (s := S6400) ![6016] S128.size inb_S6400_S128_6016) (fun _ => rfl)).view.loc (thr d L) ↦[((s0W).slice (Rect.unit (s := S6400) ![6016] S128.size inb_S6400_S128_6016) (fun _ => rfl)).view.set]{q} g)
      ∗ (((s0W).slice (Rect.unit (s := S6400) ![6144] S128.size inb_S6400_S128_6144) (fun _ => rfl)).view.loc (thr d L) ↦[((s0W).slice (Rect.unit (s := S6400) ![6144] S128.size inb_S6400_S128_6144) (fun _ => rfl)).view.set]{q} g)
      ∗ (((s0W).slice (Rect.unit (s := S6400) ![6272] S128.size inb_S6400_S128_6272) (fun _ => rfl)).view.loc (thr d L) ↦[((s0W).slice (Rect.unit (s := S6400) ![6272] S128.size inb_S6400_S128_6272) (fun _ => rfl)).view.set]{q} g)) := by
  rw [list_pts, bigSep_univ_eq_bigSepL _ fin50_univ fin50_nodup]
  rfl

set_option maxRecDepth 8192 in
/-- The tile's fifty chunks of the result, as the TensorCore names them, are the fifty windows the kernel slices. -/
theorem out_chain (d : Dev nD) (L : grid1.Coords) (q : PosShare TreeShare) (f : Buf (Elt F) (oLoc d)) :
    (bigSep (Finset.univ : Finset (Fin 50)) fun j => (oLoc d ↦[chunkSet (50 * wOf L + j.val)]{q} f : sProp 𝕄))
      = iprop((((oW).slice (Rect.unit (s := S204800x128) (k1_off2 L 0#32) S128x128.size (k1_off2_inb L 0)) (fun _ => rfl)).view.loc (thr d L) ↦[((oW).slice (Rect.unit (s := S204800x128) (k1_off2 L 0#32) S128x128.size (k1_off2_inb L 0)) (fun _ => rfl)).view.set]{q} f)
      ∗ (((oW).slice (Rect.unit (s := S204800x128) (k1_off2 L 128#32) S128x128.size (k1_off2_inb L 1)) (fun _ => rfl)).view.loc (thr d L) ↦[((oW).slice (Rect.unit (s := S204800x128) (k1_off2 L 128#32) S128x128.size (k1_off2_inb L 1)) (fun _ => rfl)).view.set]{q} f)
      ∗ (((oW).slice (Rect.unit (s := S204800x128) (k1_off2 L 256#32) S128x128.size (k1_off2_inb L 2)) (fun _ => rfl)).view.loc (thr d L) ↦[((oW).slice (Rect.unit (s := S204800x128) (k1_off2 L 256#32) S128x128.size (k1_off2_inb L 2)) (fun _ => rfl)).view.set]{q} f)
      ∗ (((oW).slice (Rect.unit (s := S204800x128) (k1_off2 L 384#32) S128x128.size (k1_off2_inb L 3)) (fun _ => rfl)).view.loc (thr d L) ↦[((oW).slice (Rect.unit (s := S204800x128) (k1_off2 L 384#32) S128x128.size (k1_off2_inb L 3)) (fun _ => rfl)).view.set]{q} f)
      ∗ (((oW).slice (Rect.unit (s := S204800x128) (k1_off2 L 512#32) S128x128.size (k1_off2_inb L 4)) (fun _ => rfl)).view.loc (thr d L) ↦[((oW).slice (Rect.unit (s := S204800x128) (k1_off2 L 512#32) S128x128.size (k1_off2_inb L 4)) (fun _ => rfl)).view.set]{q} f)
      ∗ (((oW).slice (Rect.unit (s := S204800x128) (k1_off2 L 640#32) S128x128.size (k1_off2_inb L 5)) (fun _ => rfl)).view.loc (thr d L) ↦[((oW).slice (Rect.unit (s := S204800x128) (k1_off2 L 640#32) S128x128.size (k1_off2_inb L 5)) (fun _ => rfl)).view.set]{q} f)
      ∗ (((oW).slice (Rect.unit (s := S204800x128) (k1_off2 L 768#32) S128x128.size (k1_off2_inb L 6)) (fun _ => rfl)).view.loc (thr d L) ↦[((oW).slice (Rect.unit (s := S204800x128) (k1_off2 L 768#32) S128x128.size (k1_off2_inb L 6)) (fun _ => rfl)).view.set]{q} f)
      ∗ (((oW).slice (Rect.unit (s := S204800x128) (k1_off2 L 896#32) S128x128.size (k1_off2_inb L 7)) (fun _ => rfl)).view.loc (thr d L) ↦[((oW).slice (Rect.unit (s := S204800x128) (k1_off2 L 896#32) S128x128.size (k1_off2_inb L 7)) (fun _ => rfl)).view.set]{q} f)
      ∗ (((oW).slice (Rect.unit (s := S204800x128) (k1_off2 L 1024#32) S128x128.size (k1_off2_inb L 8)) (fun _ => rfl)).view.loc (thr d L) ↦[((oW).slice (Rect.unit (s := S204800x128) (k1_off2 L 1024#32) S128x128.size (k1_off2_inb L 8)) (fun _ => rfl)).view.set]{q} f)
      ∗ (((oW).slice (Rect.unit (s := S204800x128) (k1_off2 L 1152#32) S128x128.size (k1_off2_inb L 9)) (fun _ => rfl)).view.loc (thr d L) ↦[((oW).slice (Rect.unit (s := S204800x128) (k1_off2 L 1152#32) S128x128.size (k1_off2_inb L 9)) (fun _ => rfl)).view.set]{q} f)
      ∗ (((oW).slice (Rect.unit (s := S204800x128) (k1_off2 L 1280#32) S128x128.size (k1_off2_inb L 10)) (fun _ => rfl)).view.loc (thr d L) ↦[((oW).slice (Rect.unit (s := S204800x128) (k1_off2 L 1280#32) S128x128.size (k1_off2_inb L 10)) (fun _ => rfl)).view.set]{q} f)
      ∗ (((oW).slice (Rect.unit (s := S204800x128) (k1_off2 L 1408#32) S128x128.size (k1_off2_inb L 11)) (fun _ => rfl)).view.loc (thr d L) ↦[((oW).slice (Rect.unit (s := S204800x128) (k1_off2 L 1408#32) S128x128.size (k1_off2_inb L 11)) (fun _ => rfl)).view.set]{q} f)
      ∗ (((oW).slice (Rect.unit (s := S204800x128) (k1_off2 L 1536#32) S128x128.size (k1_off2_inb L 12)) (fun _ => rfl)).view.loc (thr d L) ↦[((oW).slice (Rect.unit (s := S204800x128) (k1_off2 L 1536#32) S128x128.size (k1_off2_inb L 12)) (fun _ => rfl)).view.set]{q} f)
      ∗ (((oW).slice (Rect.unit (s := S204800x128) (k1_off2 L 1664#32) S128x128.size (k1_off2_inb L 13)) (fun _ => rfl)).view.loc (thr d L) ↦[((oW).slice (Rect.unit (s := S204800x128) (k1_off2 L 1664#32) S128x128.size (k1_off2_inb L 13)) (fun _ => rfl)).view.set]{q} f)
      ∗ (((oW).slice (Rect.unit (s := S204800x128) (k1_off2 L 1792#32) S128x128.size (k1_off2_inb L 14)) (fun _ => rfl)).view.loc (thr d L) ↦[((oW).slice (Rect.unit (s := S204800x128) (k1_off2 L 1792#32) S128x128.size (k1_off2_inb L 14)) (fun _ => rfl)).view.set]{q} f)
      ∗ (((oW).slice (Rect.unit (s := S204800x128) (k1_off2 L 1920#32) S128x128.size (k1_off2_inb L 15)) (fun _ => rfl)).view.loc (thr d L) ↦[((oW).slice (Rect.unit (s := S204800x128) (k1_off2 L 1920#32) S128x128.size (k1_off2_inb L 15)) (fun _ => rfl)).view.set]{q} f)
      ∗ (((oW).slice (Rect.unit (s := S204800x128) (k1_off2 L 2048#32) S128x128.size (k1_off2_inb L 16)) (fun _ => rfl)).view.loc (thr d L) ↦[((oW).slice (Rect.unit (s := S204800x128) (k1_off2 L 2048#32) S128x128.size (k1_off2_inb L 16)) (fun _ => rfl)).view.set]{q} f)
      ∗ (((oW).slice (Rect.unit (s := S204800x128) (k1_off2 L 2176#32) S128x128.size (k1_off2_inb L 17)) (fun _ => rfl)).view.loc (thr d L) ↦[((oW).slice (Rect.unit (s := S204800x128) (k1_off2 L 2176#32) S128x128.size (k1_off2_inb L 17)) (fun _ => rfl)).view.set]{q} f)
      ∗ (((oW).slice (Rect.unit (s := S204800x128) (k1_off2 L 2304#32) S128x128.size (k1_off2_inb L 18)) (fun _ => rfl)).view.loc (thr d L) ↦[((oW).slice (Rect.unit (s := S204800x128) (k1_off2 L 2304#32) S128x128.size (k1_off2_inb L 18)) (fun _ => rfl)).view.set]{q} f)
      ∗ (((oW).slice (Rect.unit (s := S204800x128) (k1_off2 L 2432#32) S128x128.size (k1_off2_inb L 19)) (fun _ => rfl)).view.loc (thr d L) ↦[((oW).slice (Rect.unit (s := S204800x128) (k1_off2 L 2432#32) S128x128.size (k1_off2_inb L 19)) (fun _ => rfl)).view.set]{q} f)
      ∗ (((oW).slice (Rect.unit (s := S204800x128) (k1_off2 L 2560#32) S128x128.size (k1_off2_inb L 20)) (fun _ => rfl)).view.loc (thr d L) ↦[((oW).slice (Rect.unit (s := S204800x128) (k1_off2 L 2560#32) S128x128.size (k1_off2_inb L 20)) (fun _ => rfl)).view.set]{q} f)
      ∗ (((oW).slice (Rect.unit (s := S204800x128) (k1_off2 L 2688#32) S128x128.size (k1_off2_inb L 21)) (fun _ => rfl)).view.loc (thr d L) ↦[((oW).slice (Rect.unit (s := S204800x128) (k1_off2 L 2688#32) S128x128.size (k1_off2_inb L 21)) (fun _ => rfl)).view.set]{q} f)
      ∗ (((oW).slice (Rect.unit (s := S204800x128) (k1_off2 L 2816#32) S128x128.size (k1_off2_inb L 22)) (fun _ => rfl)).view.loc (thr d L) ↦[((oW).slice (Rect.unit (s := S204800x128) (k1_off2 L 2816#32) S128x128.size (k1_off2_inb L 22)) (fun _ => rfl)).view.set]{q} f)
      ∗ (((oW).slice (Rect.unit (s := S204800x128) (k1_off2 L 2944#32) S128x128.size (k1_off2_inb L 23)) (fun _ => rfl)).view.loc (thr d L) ↦[((oW).slice (Rect.unit (s := S204800x128) (k1_off2 L 2944#32) S128x128.size (k1_off2_inb L 23)) (fun _ => rfl)).view.set]{q} f)
      ∗ (((oW).slice (Rect.unit (s := S204800x128) (k1_off2 L 3072#32) S128x128.size (k1_off2_inb L 24)) (fun _ => rfl)).view.loc (thr d L) ↦[((oW).slice (Rect.unit (s := S204800x128) (k1_off2 L 3072#32) S128x128.size (k1_off2_inb L 24)) (fun _ => rfl)).view.set]{q} f)
      ∗ (((oW).slice (Rect.unit (s := S204800x128) (k1_off2 L 3200#32) S128x128.size (k1_off2_inb L 25)) (fun _ => rfl)).view.loc (thr d L) ↦[((oW).slice (Rect.unit (s := S204800x128) (k1_off2 L 3200#32) S128x128.size (k1_off2_inb L 25)) (fun _ => rfl)).view.set]{q} f)
      ∗ (((oW).slice (Rect.unit (s := S204800x128) (k1_off2 L 3328#32) S128x128.size (k1_off2_inb L 26)) (fun _ => rfl)).view.loc (thr d L) ↦[((oW).slice (Rect.unit (s := S204800x128) (k1_off2 L 3328#32) S128x128.size (k1_off2_inb L 26)) (fun _ => rfl)).view.set]{q} f)
      ∗ (((oW).slice (Rect.unit (s := S204800x128) (k1_off2 L 3456#32) S128x128.size (k1_off2_inb L 27)) (fun _ => rfl)).view.loc (thr d L) ↦[((oW).slice (Rect.unit (s := S204800x128) (k1_off2 L 3456#32) S128x128.size (k1_off2_inb L 27)) (fun _ => rfl)).view.set]{q} f)
      ∗ (((oW).slice (Rect.unit (s := S204800x128) (k1_off2 L 3584#32) S128x128.size (k1_off2_inb L 28)) (fun _ => rfl)).view.loc (thr d L) ↦[((oW).slice (Rect.unit (s := S204800x128) (k1_off2 L 3584#32) S128x128.size (k1_off2_inb L 28)) (fun _ => rfl)).view.set]{q} f)
      ∗ (((oW).slice (Rect.unit (s := S204800x128) (k1_off2 L 3712#32) S128x128.size (k1_off2_inb L 29)) (fun _ => rfl)).view.loc (thr d L) ↦[((oW).slice (Rect.unit (s := S204800x128) (k1_off2 L 3712#32) S128x128.size (k1_off2_inb L 29)) (fun _ => rfl)).view.set]{q} f)
      ∗ (((oW).slice (Rect.unit (s := S204800x128) (k1_off2 L 3840#32) S128x128.size (k1_off2_inb L 30)) (fun _ => rfl)).view.loc (thr d L) ↦[((oW).slice (Rect.unit (s := S204800x128) (k1_off2 L 3840#32) S128x128.size (k1_off2_inb L 30)) (fun _ => rfl)).view.set]{q} f)
      ∗ (((oW).slice (Rect.unit (s := S204800x128) (k1_off2 L 3968#32) S128x128.size (k1_off2_inb L 31)) (fun _ => rfl)).view.loc (thr d L) ↦[((oW).slice (Rect.unit (s := S204800x128) (k1_off2 L 3968#32) S128x128.size (k1_off2_inb L 31)) (fun _ => rfl)).view.set]{q} f)
      ∗ (((oW).slice (Rect.unit (s := S204800x128) (k1_off2 L 4096#32) S128x128.size (k1_off2_inb L 32)) (fun _ => rfl)).view.loc (thr d L) ↦[((oW).slice (Rect.unit (s := S204800x128) (k1_off2 L 4096#32) S128x128.size (k1_off2_inb L 32)) (fun _ => rfl)).view.set]{q} f)
      ∗ (((oW).slice (Rect.unit (s := S204800x128) (k1_off2 L 4224#32) S128x128.size (k1_off2_inb L 33)) (fun _ => rfl)).view.loc (thr d L) ↦[((oW).slice (Rect.unit (s := S204800x128) (k1_off2 L 4224#32) S128x128.size (k1_off2_inb L 33)) (fun _ => rfl)).view.set]{q} f)
      ∗ (((oW).slice (Rect.unit (s := S204800x128) (k1_off2 L 4352#32) S128x128.size (k1_off2_inb L 34)) (fun _ => rfl)).view.loc (thr d L) ↦[((oW).slice (Rect.unit (s := S204800x128) (k1_off2 L 4352#32) S128x128.size (k1_off2_inb L 34)) (fun _ => rfl)).view.set]{q} f)
      ∗ (((oW).slice (Rect.unit (s := S204800x128) (k1_off2 L 4480#32) S128x128.size (k1_off2_inb L 35)) (fun _ => rfl)).view.loc (thr d L) ↦[((oW).slice (Rect.unit (s := S204800x128) (k1_off2 L 4480#32) S128x128.size (k1_off2_inb L 35)) (fun _ => rfl)).view.set]{q} f)
      ∗ (((oW).slice (Rect.unit (s := S204800x128) (k1_off2 L 4608#32) S128x128.size (k1_off2_inb L 36)) (fun _ => rfl)).view.loc (thr d L) ↦[((oW).slice (Rect.unit (s := S204800x128) (k1_off2 L 4608#32) S128x128.size (k1_off2_inb L 36)) (fun _ => rfl)).view.set]{q} f)
      ∗ (((oW).slice (Rect.unit (s := S204800x128) (k1_off2 L 4736#32) S128x128.size (k1_off2_inb L 37)) (fun _ => rfl)).view.loc (thr d L) ↦[((oW).slice (Rect.unit (s := S204800x128) (k1_off2 L 4736#32) S128x128.size (k1_off2_inb L 37)) (fun _ => rfl)).view.set]{q} f)
      ∗ (((oW).slice (Rect.unit (s := S204800x128) (k1_off2 L 4864#32) S128x128.size (k1_off2_inb L 38)) (fun _ => rfl)).view.loc (thr d L) ↦[((oW).slice (Rect.unit (s := S204800x128) (k1_off2 L 4864#32) S128x128.size (k1_off2_inb L 38)) (fun _ => rfl)).view.set]{q} f)
      ∗ (((oW).slice (Rect.unit (s := S204800x128) (k1_off2 L 4992#32) S128x128.size (k1_off2_inb L 39)) (fun _ => rfl)).view.loc (thr d L) ↦[((oW).slice (Rect.unit (s := S204800x128) (k1_off2 L 4992#32) S128x128.size (k1_off2_inb L 39)) (fun _ => rfl)).view.set]{q} f)
      ∗ (((oW).slice (Rect.unit (s := S204800x128) (k1_off2 L 5120#32) S128x128.size (k1_off2_inb L 40)) (fun _ => rfl)).view.loc (thr d L) ↦[((oW).slice (Rect.unit (s := S204800x128) (k1_off2 L 5120#32) S128x128.size (k1_off2_inb L 40)) (fun _ => rfl)).view.set]{q} f)
      ∗ (((oW).slice (Rect.unit (s := S204800x128) (k1_off2 L 5248#32) S128x128.size (k1_off2_inb L 41)) (fun _ => rfl)).view.loc (thr d L) ↦[((oW).slice (Rect.unit (s := S204800x128) (k1_off2 L 5248#32) S128x128.size (k1_off2_inb L 41)) (fun _ => rfl)).view.set]{q} f)
      ∗ (((oW).slice (Rect.unit (s := S204800x128) (k1_off2 L 5376#32) S128x128.size (k1_off2_inb L 42)) (fun _ => rfl)).view.loc (thr d L) ↦[((oW).slice (Rect.unit (s := S204800x128) (k1_off2 L 5376#32) S128x128.size (k1_off2_inb L 42)) (fun _ => rfl)).view.set]{q} f)
      ∗ (((oW).slice (Rect.unit (s := S204800x128) (k1_off2 L 5504#32) S128x128.size (k1_off2_inb L 43)) (fun _ => rfl)).view.loc (thr d L) ↦[((oW).slice (Rect.unit (s := S204800x128) (k1_off2 L 5504#32) S128x128.size (k1_off2_inb L 43)) (fun _ => rfl)).view.set]{q} f)
      ∗ (((oW).slice (Rect.unit (s := S204800x128) (k1_off2 L 5632#32) S128x128.size (k1_off2_inb L 44)) (fun _ => rfl)).view.loc (thr d L) ↦[((oW).slice (Rect.unit (s := S204800x128) (k1_off2 L 5632#32) S128x128.size (k1_off2_inb L 44)) (fun _ => rfl)).view.set]{q} f)
      ∗ (((oW).slice (Rect.unit (s := S204800x128) (k1_off2 L 5760#32) S128x128.size (k1_off2_inb L 45)) (fun _ => rfl)).view.loc (thr d L) ↦[((oW).slice (Rect.unit (s := S204800x128) (k1_off2 L 5760#32) S128x128.size (k1_off2_inb L 45)) (fun _ => rfl)).view.set]{q} f)
      ∗ (((oW).slice (Rect.unit (s := S204800x128) (k1_off2 L 5888#32) S128x128.size (k1_off2_inb L 46)) (fun _ => rfl)).view.loc (thr d L) ↦[((oW).slice (Rect.unit (s := S204800x128) (k1_off2 L 5888#32) S128x128.size (k1_off2_inb L 46)) (fun _ => rfl)).view.set]{q} f)
      ∗ (((oW).slice (Rect.unit (s := S204800x128) (k1_off2 L 6016#32) S128x128.size (k1_off2_inb L 47)) (fun _ => rfl)).view.loc (thr d L) ↦[((oW).slice (Rect.unit (s := S204800x128) (k1_off2 L 6016#32) S128x128.size (k1_off2_inb L 47)) (fun _ => rfl)).view.set]{q} f)
      ∗ (((oW).slice (Rect.unit (s := S204800x128) (k1_off2 L 6144#32) S128x128.size (k1_off2_inb L 48)) (fun _ => rfl)).view.loc (thr d L) ↦[((oW).slice (Rect.unit (s := S204800x128) (k1_off2 L 6144#32) S128x128.size (k1_off2_inb L 48)) (fun _ => rfl)).view.set]{q} f)
      ∗ (((oW).slice (Rect.unit (s := S204800x128) (k1_off2 L 6272#32) S128x128.size (k1_off2_inb L 49)) (fun _ => rfl)).view.loc (thr d L) ↦[((oW).slice (Rect.unit (s := S204800x128) (k1_off2 L 6272#32) S128x128.size (k1_off2_inb L 49)) (fun _ => rfl)).view.set]{q} f)) := by
  rw [bigSep_congr (fun j _ => out_pts d L j q f), bigSep_univ_eq_bigSepL _ fin50_univ fin50_nodup]
  rfl

set_option maxRecDepth 8192 in
/-- The tile's own semaphores at zero, in the kernel's names for them. -/
theorem sem_chain (d : Dev nD) (L : grid1.Coords) :
    (ownSems0 (thr d L) : sProp 𝕄)
      = iprop(semVal ((thr d L, SemLoc.dma (⟨0, by decide⟩ : DmaSem sig)) : GSem nD τ sig) 0
      ∗ semVal ((thr d L, SemLoc.dma (⟨1, by decide⟩ : DmaSem sig)) : GSem nD τ sig) 0
      ∗ semVal ((thr d L, SemLoc.dma (⟨2, by decide⟩ : DmaSem sig)) : GSem nD τ sig) 0
      ∗ semVal ((thr d L, SemLoc.dma (⟨3, by decide⟩ : DmaSem sig)) : GSem nD τ sig) 0
      ∗ semVal ((thr d L, SemLoc.dma cc1_scratch3.sem) : GSem nD τ sig) 0
      ∗ semVal ((thr d L, SemLoc.dma cc1_scratch4.sem) : GSem nD τ sig) 0
      ∗ semVal ((thr d L, SemLoc.dma cc1_scoped0.sem) : GSem nD τ sig) 0
      ∗ semVal ((thr d L, SemLoc.dma cc1_scoped1.sem) : GSem nD τ sig) 0
      ∗ semVal ((thr d L, SemLoc.dma cc1_scoped2.sem) : GSem nD τ sig) 0
      ∗ semVal ((thr d L, SemLoc.dma cc1_scoped3.sem) : GSem nD τ sig) 0
      ∗ semVal ((thr d L, SemLoc.dma cc1_scoped4.sem) : GSem nD τ sig) 0
      ∗ semVal ((thr d L, SemLoc.dma cc1_scoped5.sem) : GSem nD τ sig) 0
      ∗ semVal ((thr d L, SemLoc.dma cc1_scoped6.sem) : GSem nD τ sig) 0
      ∗ semVal ((thr d L, SemLoc.dma cc1_scoped7.sem) : GSem nD τ sig) 0
      ∗ semVal ((thr d L, SemLoc.dma cc1_scoped8.sem) : GSem nD τ sig) 0
      ∗ semVal ((thr d L, SemLoc.dma cc1_scoped9.sem) : GSem nD τ sig) 0
      ∗ semVal ((thr d L, SemLoc.dma cc1_scoped10.sem) : GSem nD τ sig) 0
      ∗ semVal ((thr d L, SemLoc.dma cc1_scoped11.sem) : GSem nD τ sig) 0
      ∗ semVal ((thr d L, SemLoc.dma cc1_scoped12.sem) : GSem nD τ sig) 0
      ∗ semVal ((thr d L, SemLoc.dma cc1_scoped13.sem) : GSem nD τ sig) 0
      ∗ semVal ((thr d L, SemLoc.dma cc1_scoped14.sem) : GSem nD τ sig) 0
      ∗ semVal ((thr d L, SemLoc.dma cc1_scoped15.sem) : GSem nD τ sig) 0
      ∗ semVal ((thr d L, SemLoc.dma cc1_scoped16.sem) : GSem nD τ sig) 0
      ∗ semVal ((thr d L, SemLoc.dma cc1_scoped17.sem) : GSem nD τ sig) 0
      ∗ semVal ((thr d L, SemLoc.dma cc1_scoped18.sem) : GSem nD τ sig) 0
      ∗ semVal ((thr d L, SemLoc.dma cc1_scoped19.sem) : GSem nD τ sig) 0
      ∗ semVal ((thr d L, SemLoc.dma cc1_scoped20.sem) : GSem nD τ sig) 0
      ∗ semVal ((thr d L, SemLoc.dma cc1_scoped21.sem) : GSem nD τ sig) 0
      ∗ semVal ((thr d L, SemLoc.dma cc1_scoped22.sem) : GSem nD τ sig) 0
      ∗ semVal ((thr d L, SemLoc.dma cc1_scoped23.sem) : GSem nD τ sig) 0
      ∗ semVal ((thr d L, SemLoc.dma cc1_scoped24.sem) : GSem nD τ sig) 0
      ∗ semVal ((thr d L, SemLoc.dma cc1_scoped25.sem) : GSem nD τ sig) 0
      ∗ semVal ((thr d L, SemLoc.dma cc1_scoped26.sem) : GSem nD τ sig) 0
      ∗ semVal ((thr d L, SemLoc.dma cc1_scoped27.sem) : GSem nD τ sig) 0
      ∗ semVal ((thr d L, SemLoc.dma cc1_scoped28.sem) : GSem nD τ sig) 0
      ∗ semVal ((thr d L, SemLoc.dma cc1_scoped29.sem) : GSem nD τ sig) 0
      ∗ semVal ((thr d L, SemLoc.dma cc1_scoped30.sem) : GSem nD τ sig) 0
      ∗ semVal ((thr d L, SemLoc.dma cc1_scoped31.sem) : GSem nD τ sig) 0
      ∗ semVal ((thr d L, SemLoc.dma cc1_scoped32.sem) : GSem nD τ sig) 0
      ∗ semVal ((thr d L, SemLoc.dma cc1_scoped33.sem) : GSem nD τ sig) 0
      ∗ semVal ((thr d L, SemLoc.dma cc1_scoped34.sem) : GSem nD τ sig) 0
      ∗ semVal ((thr d L, SemLoc.dma cc1_scoped35.sem) : GSem nD τ sig) 0
      ∗ semVal ((thr d L, SemLoc.dma cc1_scoped36.sem) : GSem nD τ sig) 0
      ∗ semVal ((thr d L, SemLoc.dma cc1_scoped37.sem) : GSem nD τ sig) 0
      ∗ semVal ((thr d L, SemLoc.dma cc1_scoped38.sem) : GSem nD τ sig) 0
      ∗ semVal ((thr d L, SemLoc.dma cc1_scoped39.sem) : GSem nD τ sig) 0
      ∗ semVal ((thr d L, SemLoc.dma cc1_scoped40.sem) : GSem nD τ sig) 0
      ∗ semVal ((thr d L, SemLoc.dma cc1_scoped41.sem) : GSem nD τ sig) 0
      ∗ semVal ((thr d L, SemLoc.dma cc1_scoped42.sem) : GSem nD τ sig) 0
      ∗ semVal ((thr d L, SemLoc.dma cc1_scoped43.sem) : GSem nD τ sig) 0
      ∗ semVal ((thr d L, SemLoc.dma cc1_scoped44.sem) : GSem nD τ sig) 0
      ∗ semVal ((thr d L, SemLoc.dma cc1_scoped45.sem) : GSem nD τ sig) 0
      ∗ semVal ((thr d L, SemLoc.dma cc1_scoped46.sem) : GSem nD τ sig) 0
      ∗ semVal ((thr d L, SemLoc.dma cc1_scoped47.sem) : GSem nD τ sig) 0
      ∗ semVal ((thr d L, SemLoc.dma cc1_scoped48.sem) : GSem nD τ sig) 0
      ∗ semVal ((thr d L, SemLoc.dma cc1_scoped49.sem) : GSem nD τ sig) 0
      ∗ semVal ((thr d L, SemLoc.dma cc1_scoped50.sem) : GSem nD τ sig) 0) := by
  rw [ownSems0_tile]
  rfl

end Cert.Proof.KB

end
-- ==== Proof.TileValKB.lean ====
/-
  What a chunk of the result holds after the tile's run, read at coordinates.

  Chunk `r` is written from a row buffer whose newest contents are the gather of the padded table at list run `r`; the
  list buffer holds the tile's run of the row-number list.  So entry `(a, c)` of chunk `r` is the padded table at column
  `c` of the row that entry `128 r + a` of the tile's run names.
-/
import proofs.«208090_g83872121356401_cont_sun_m_474_43_alg».proof.Proof.PayKB
import proofs.«208090_g83872121356401_cont_sun_m_474_43_alg».proof.Proof.LibRowBlocks
import proofs.«208090_g83872121356401_cont_sun_m_474_43_alg».proof.Proof.LibWindows
import proofs.«208090_g83872121356401_cont_sun_m_474_43_alg».proof.Proof.TilePrepKB

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iW" => (Memref.whole Cert.Kernel.main_v1_scv : Memref Cert.Kernel.sig Kind.scVector Space.hbm Cert.Kernel.S204800 EltTy.i32)
local notation "tW" => (Memref.whole Cert.Kernel.main_v2_scv : Memref Cert.Kernel.sig Kind.scVector Space.hbm Cert.Kernel.S1000000x128 EltTy.f32)
local notation "oW" => (Memref.whole Cert.Kernel.main_v3_scv : Memref Cert.Kernel.sig Kind.scVector Space.hbm Cert.Kernel.S204800x128 EltTy.f32)
local notation "s0W" => (Memref.whole Cert.Kernel.cc1_scratch0 : Memref Cert.Kernel.sig Kind.scVector Space.vmem Cert.Kernel.S6400 EltTy.i32)
local notation "s1W" => (Memref.whole Cert.Kernel.cc1_scratch1 : Memref Cert.Kernel.sig Kind.scVector Space.vmem Cert.Kernel.S128x128 EltTy.f32)
local notation "s2W" => (Memref.whole Cert.Kernel.cc1_scratch2 : Memref Cert.Kernel.sig Kind.scVector Space.vmem Cert.Kernel.S128x128 EltTy.f32)

/-- The padded table as each gather slices it (the whole of it). -/
abbrev tabWin : Memref sig .scVector .hbm S1000000x128 .f32 :=
  (tW).slice (Rect.unit (s := S1000000x128) ![0, 0] S1000000x128.size inb_S1000000x128_S1000000x128_0_0) (fun _ => rfl)

/-- A buffer whose newest write covers it whole reads that write's payload. -/
theorem read_top {sig' : RefSig} {κ : Kind} {sp : Space} {s : Shape} {e : EltTy} {Val : EltTy → Type}
    (v : View sig' κ sp s e) (f : v.ty.Contents Val) (gp : s.Idx → Val e) (rest : List (View.Piece Val s e)) (x : s.Idx) :
    v.read Val (v.writes Val f (⟨Rect.whole s, gp⟩ :: rest)) x = gp x := by
  have h := View.read_writes_cons_emb v f (Rect.whole s) gp rest x
  rwa [Rect.emb_whole_apply] at h

/-- The gather's payload at `(a, c)`: the source at the row the list names for `a`, column `c`. -/
theorem gather_at (src : S1000000x128.Idx → Elt F .f32)
    (r : Fin (S128x128.size gathers_S1000000x128_S128x128.axis') → Fin (S1000000x128.size gathers_S1000000x128_S128x128.axis))
    (a c : Fin 128) :
    SparseCore.gatherPayload gathers_S1000000x128_S128x128 src r (ix2 a c) = src (ix2 (r a) c) := by
  unfold SparseCore.gatherPayload
  congr 1
  funext b
  refine Fin.ext ?_
  match b with
  | ⟨0, _⟩ => exact congrArg Fin.val (Shape.Gathers.idx_axis gathers_S1000000x128_S128x128 r (ix2 a c))
  | ⟨1, _⟩ => exact Shape.Gathers.idx_of_ne gathers_S1000000x128_S128x128 r (ix2 a c) ⟨1, by decide⟩ (by decide)

/-- The row a one-axis list of 128 words names for `a`: its word at `a`. -/
theorem rows_at (idxf : S128.Idx → Elt F .i32) (hn : S128.numel = S128x128.size gathers_S1000000x128_S128x128.axis')
    (h : ∀ x, (idxf x).toNat < S1000000x128.size gathers_S1000000x128_S128x128.axis) (a : Fin 128) :
    (SparseCore.rows idxf hn h a).val = (idxf (ix1 a)).toNat := by
  show (idxf (S128.rowMajor.symm ((a : Fin (S128x128.size gathers_S1000000x128_S128x128.axis')).cast hn.symm))).toNat = _
  congr 2
  rw [Equiv.symm_apply_eq]
  refine Fin.ext ?_
  rw [Shape.rowMajor_val_one]
  rfl

/-- Chunk `r` of the tile's rows is right in `f`: entry `(a, c)` is the padded table at the row that entry
    `128 r + a` of the tile's run of the list names, column `c`. -/
def ChunkOK (d : Dev nD) (L : grid1.Coords) (r : Fin 50) (fi : Buf (Elt F) ((idxWin L).view.loc (thr d L)))
    (ft : Buf (Elt F) ((tW).view.loc (thr d L))) (f : Buf (Elt F) ((oW).view.loc (thr d L))) : Prop :=
  ∀ (a c : Fin 128), (outWinR L r).view.read (Elt F) f (ix2 a c)
    = (tabWin).view.read (Elt F) ft
        (ix2 (capRow ((idxWin L).view.read (Elt F) fi (ix1 ⟨128 * r.val + a.val, by have := r.isLt; have := a.isLt; omega⟩))) c)

/-- What list run `r` reads of a list buffer filled from the tile's run of the list. -/
theorem list_read (d : Dev nD) (L : grid1.Coords) (r : Fin 50) (fi : Buf (Elt F) ((idxWin L).view.loc (thr d L)))
    (f0 : Buf (Elt F) ((s0W).view.loc (thr d L))) (a : Fin 128) :
    (listWinR r).view.read (Elt F)
        (View.write (Elt F) (s0W).view f0 (ReadAs.same.apply ((idxWin L).view.read (Elt F) fi)) Finset.univ) (ix1 a)
      = (idxWin L).view.read (Elt F) fi (ix1 ⟨128 * r.val + a.val, by have := r.isLt; have := a.isLt; omega⟩) := by
  rw [View.write_whole_univ]
  have h := Windows.read_blkWin1 (Val := Elt F) (s0W) (128 * r.val) (listInb r) rfl
    (ReadAs.same.apply ((idxWin L).view.read (Elt F) fi)) a (by have := r.isLt; have := a.isLt; omega)
  rw [h]
  rfl

/-- A chunk written whole from a row buffer whose newest write is the gather at list run `r` is right. -/
theorem chunk_ok (d : Dev nD) (L : grid1.Coords) (r : Fin 50) (fi : Buf (Elt F) ((idxWin L).view.loc (thr d L)))
    (ft : Buf (Elt F) ((tW).view.loc (thr d L))) (f0 : Buf (Elt F) ((s0W).view.loc (thr d L)))
    (fo : Buf (Elt F) ((oW).view.loc (thr d L)))
    (hidx : ∀ k, ((idxWin L).view.read (Elt F) fi k).toNat ≤ 999999)
    (v : View sig .scVector .vmem S128x128 .f32) (fb : v.ty.Contents (Elt F)) (rest : List (View.Piece (Elt F) S128x128 .f32))
    (hn : S128.numel = S128x128.size gathers_S1000000x128_S128x128.axis')
    (hin' : ∀ x, ((listWinR r).view.read (Elt F)
        (View.write (Elt F) (s0W).view f0 (ReadAs.same.apply ((idxWin L).view.read (Elt F) fi)) Finset.univ) x).toNat
          < S1000000x128.size gathers_S1000000x128_S128x128.axis)
    (pay : S128x128.Idx → Elt F .f32)
    (hpay : pay = ReadAs.same.apply (v.read (Elt F) (v.writes (Elt F) fb
        (⟨Rect.whole S128x128, SparseCore.gatherPayload gathers_S1000000x128_S128x128 ((tabWin).view.read (Elt F) ft)
          (SparseCore.rows ((listWinR r).view.read (Elt F)
            (View.write (Elt F) (s0W).view f0 (ReadAs.same.apply ((idxWin L).view.read (Elt F) fi)) Finset.univ)) hn hin')⟩ :: rest)))) :
    ChunkOK d L r fi ft ((outWinR L r).view.writes (Elt F) fo [⟨Rect.whole S128x128, pay⟩]) := by
  intro a c
  rw [read_top, hpay]
  show v.read (Elt F) _ (ix2 a c) = _
  rw [read_top, gather_at]
  congr 2
  refine Fin.ext ?_
  rw [rows_at, list_read]
  show _ = min _ 999999
  exact (Nat.min_eq_left (hidx _)).symm

end Cert.Proof.KB

end
-- ==== Proof.TileOkKB.lean ====
/-
  The tile's fifty chunks, each held at contents that are right, as one assertion and chunk by chunk; the tile's
  semaphores by number; and the bound on the waits a run records.
-/
import proofs.«208090_g83872121356401_cont_sun_m_474_43_alg».proof.Proof.PayKB
import proofs.«208090_g83872121356401_cont_sun_m_474_43_alg».proof.Proof.LibRowBlocks
import proofs.«208090_g83872121356401_cont_sun_m_474_43_alg».proof.Proof.LibWindows
import proofs.«208090_g83872121356401_cont_sun_m_474_43_alg».proof.Proof.TileChainsKB
import proofs.«208090_g83872121356401_cont_sun_m_474_43_alg».proof.Proof.TileValKB

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iW" => (Memref.whole Cert.Kernel.main_v1_scv : Memref Cert.Kernel.sig Kind.scVector Space.hbm Cert.Kernel.S204800 EltTy.i32)
local notation "tW" => (Memref.whole Cert.Kernel.main_v2_scv : Memref Cert.Kernel.sig Kind.scVector Space.hbm Cert.Kernel.S1000000x128 EltTy.f32)
local notation "oW" => (Memref.whole Cert.Kernel.main_v3_scv : Memref Cert.Kernel.sig Kind.scVector Space.hbm Cert.Kernel.S204800x128 EltTy.f32)
local notation "s0W" => (Memref.whole Cert.Kernel.cc1_scratch0 : Memref Cert.Kernel.sig Kind.scVector Space.vmem Cert.Kernel.S6400 EltTy.i32)
local notation "s1W" => (Memref.whole Cert.Kernel.cc1_scratch1 : Memref Cert.Kernel.sig Kind.scVector Space.vmem Cert.Kernel.S128x128 EltTy.f32)
local notation "s2W" => (Memref.whole Cert.Kernel.cc1_scratch2 : Memref Cert.Kernel.sig Kind.scVector Space.vmem Cert.Kernel.S128x128 EltTy.f32)

/-- The tile's fifty chunks, each held at contents that are right. -/
def okChain (d : Dev nD) (L : grid1.Coords) (fi : Buf (Elt F) ((idxWin L).view.loc (thr d L)))
    (ft : Buf (Elt F) ((tW).view.loc (thr d L))) : sProp 𝕄 :=
  bigSep (Finset.univ : Finset (Fin 50)) fun r =>
    iprop(∃ f, ((outWinR L r).view.loc (thr d L) ↦[(outWinR L r).view.set]{fullShare} f) ∗ ⌜ChunkOK d L r fi ft f⌝)

/-- A wait recorded at the kernel's own index keeps the recorded waits within the bound. -/
theorem W_ins {W W' : Waits sig (HIx 1)} (s : SemLoc sig) (h : ∀ p ∈ W', p ∈ W ∨ p.2 = none) :
    ∀ p ∈ insert (s, (default : HIx 1)) W', p ∈ W ∨ p.2 = none := by
  intro p hp
  rcases Finset.mem_insert.mp hp with rfl | hp
  · exact .inr rfl
  · exact h p hp

set_option maxRecDepth 8192 in
set_option maxHeartbeats 8000000 in
/-- The fifty chunks held right, one by one. -/
theorem ok_chain (d : Dev nD) (L : grid1.Coords) (fi : Buf (Elt F) ((idxWin L).view.loc (thr d L)))
    (ft : Buf (Elt F) ((tW).view.loc (thr d L))) :
    (okChain d L fi ft : sProp 𝕄)
      = iprop((∃ f, (((oW).slice (Rect.unit (s := S204800x128) (k1_off2 L 0#32) S128x128.size (k1_off2_inb L 0)) (fun _ => rfl)).view.loc (thr d L) ↦[((oW).slice (Rect.unit (s := S204800x128) (k1_off2 L 0#32) S128x128.size (k1_off2_inb L 0)) (fun _ => rfl)).view.set]{fullShare} f) ∗ ⌜ChunkOK d L (0 : Fin 50) fi ft f⌝)
      ∗ (∃ f, (((oW).slice (Rect.unit (s := S204800x128) (k1_off2 L 128#32) S128x128.size (k1_off2_inb L 1)) (fun _ => rfl)).view.loc (thr d L) ↦[((oW).slice (Rect.unit (s := S204800x128) (k1_off2 L 128#32) S128x128.size (k1_off2_inb L 1)) (fun _ => rfl)).view.set]{fullShare} f) ∗ ⌜ChunkOK d L (1 : Fin 50) fi ft f⌝)
      ∗ (∃ f, (((oW).slice (Rect.unit (s := S204800x128) (k1_off2 L 256#32) S128x128.size (k1_off2_inb L 2)) (fun _ => rfl)).view.loc (thr d L) ↦[((oW).slice (Rect.unit (s := S204800x128) (k1_off2 L 256#32) S128x128.size (k1_off2_inb L 2)) (fun _ => rfl)).view.set]{fullShare} f) ∗ ⌜ChunkOK d L (2 : Fin 50) fi ft f⌝)
      ∗ (∃ f, (((oW).slice (Rect.unit (s := S204800x128) (k1_off2 L 384#32) S128x128.size (k1_off2_inb L 3)) (fun _ => rfl)).view.loc (thr d L) ↦[((oW).slice (Rect.unit (s := S204800x128) (k1_off2 L 384#32) S128x128.size (k1_off2_inb L 3)) (fun _ => rfl)).view.set]{fullShare} f) ∗ ⌜ChunkOK d L (3 : Fin 50) fi ft f⌝)
      ∗ (∃ f, (((oW).slice (Rect.unit (s := S204800x128) (k1_off2 L 512#32) S128x128.size (k1_off2_inb L 4)) (fun _ => rfl)).view.loc (thr d L) ↦[((oW).slice (Rect.unit (s := S204800x128) (k1_off2 L 512#32) S128x128.size (k1_off2_inb L 4)) (fun _ => rfl)).view.set]{fullShare} f) ∗ ⌜ChunkOK d L (4 : Fin 50) fi ft f⌝)
      ∗ (∃ f, (((oW).slice (Rect.unit (s := S204800x128) (k1_off2 L 640#32) S128x128.size (k1_off2_inb L 5)) (fun _ => rfl)).view.loc (thr d L) ↦[((oW).slice (Rect.unit (s := S204800x128) (k1_off2 L 640#32) S128x128.size (k1_off2_inb L 5)) (fun _ => rfl)).view.set]{fullShare} f) ∗ ⌜ChunkOK d L (5 : Fin 50) fi ft f⌝)
      ∗ (∃ f, (((oW).slice (Rect.unit (s := S204800x128) (k1_off2 L 768#32) S128x128.size (k1_off2_inb L 6)) (fun _ => rfl)).view.loc (thr d L) ↦[((oW).slice (Rect.unit (s := S204800x128) (k1_off2 L 768#32) S128x128.size (k1_off2_inb L 6)) (fun _ => rfl)).view.set]{fullShare} f) ∗ ⌜ChunkOK d L (6 : Fin 50) fi ft f⌝)
      ∗ (∃ f, (((oW).slice (Rect.unit (s := S204800x128) (k1_off2 L 896#32) S128x128.size (k1_off2_inb L 7)) (fun _ => rfl)).view.loc (thr d L) ↦[((oW).slice (Rect.unit (s := S204800x128) (k1_off2 L 896#32) S128x128.size (k1_off2_inb L 7)) (fun _ => rfl)).view.set]{fullShare} f) ∗ ⌜ChunkOK d L (7 : Fin 50) fi ft f⌝)
      ∗ (∃ f, (((oW).slice (Rect.unit (s := S204800x128) (k1_off2 L 1024#32) S128x128.size (k1_off2_inb L 8)) (fun _ => rfl)).view.loc (thr d L) ↦[((oW).slice (Rect.unit (s := S204800x128) (k1_off2 L 1024#32) S128x128.size (k1_off2_inb L 8)) (fun _ => rfl)).view.set]{fullShare} f) ∗ ⌜ChunkOK d L (8 : Fin 50) fi ft f⌝)
      ∗ (∃ f, (((oW).slice (Rect.unit (s := S204800x128) (k1_off2 L 1152#32) S128x128.size (k1_off2_inb L 9)) (fun _ => rfl)).view.loc (thr d L) ↦[((oW).slice (Rect.unit (s := S204800x128) (k1_off2 L 1152#32) S128x128.size (k1_off2_inb L 9)) (fun _ => rfl)).view.set]{fullShare} f) ∗ ⌜ChunkOK d L (9 : Fin 50) fi ft f⌝)
      ∗ (∃ f, (((oW).slice (Rect.unit (s := S204800x128) (k1_off2 L 1280#32) S128x128.size (k1_off2_inb L 10)) (fun _ => rfl)).view.loc (thr d L) ↦[((oW).slice (Rect.unit (s := S204800x128) (k1_off2 L 1280#32) S128x128.size (k1_off2_inb L 10)) (fun _ => rfl)).view.set]{fullShare} f) ∗ ⌜ChunkOK d L (10 : Fin 50) fi ft f⌝)
      ∗ (∃ f, (((oW).slice (Rect.unit (s := S204800x128) (k1_off2 L 1408#32) S128x128.size (k1_off2_inb L 11)) (fun _ => rfl)).view.loc (thr d L) ↦[((oW).slice (Rect.unit (s := S204800x128) (k1_off2 L 1408#32) S128x128.size (k1_off2_inb L 11)) (fun _ => rfl)).view.set]{fullShare} f) ∗ ⌜ChunkOK d L (11 : Fin 50) fi ft f⌝)
      ∗ (∃ f, (((oW).slice (Rect.unit (s := S204800x128) (k1_off2 L 1536#32) S128x128.size (k1_off2_inb L 12)) (fun _ => rfl)).view.loc (thr d L) ↦[((oW).slice (Rect.unit (s := S204800x128) (k1_off2 L 1536#32) S128x128.size (k1_off2_inb L 12)) (fun _ => rfl)).view.set]{fullShare} f) ∗ ⌜ChunkOK d L (12 : Fin 50) fi ft f⌝)
      ∗ (∃ f, (((oW).slice (Rect.unit (s := S204800x128) (k1_off2 L 1664#32) S128x128.size (k1_off2_inb L 13)) (fun _ => rfl)).view.loc (thr d L) ↦[((oW).slice (Rect.unit (s := S204800x128) (k1_off2 L 1664#32) S128x128.size (k1_off2_inb L 13)) (fun _ => rfl)).view.set]{fullShare} f) ∗ ⌜ChunkOK d L (13 : Fin 50) fi ft f⌝)
      ∗ (∃ f, (((oW).slice (Rect.unit (s := S204800x128) (k1_off2 L 1792#32) S128x128.size (k1_off2_inb L 14)) (fun _ => rfl)).view.loc (thr d L) ↦[((oW).slice (Rect.unit (s := S204800x128) (k1_off2 L 1792#32) S128x128.size (k1_off2_inb L 14)) (fun _ => rfl)).view.set]{fullShare} f) ∗ ⌜ChunkOK d L (14 : Fin 50) fi ft f⌝)
      ∗ (∃ f, (((oW).slice (Rect.unit (s := S204800x128) (k1_off2 L 1920#32) S128x128.size (k1_off2_inb L 15)) (fun _ => rfl)).view.loc (thr d L) ↦[((oW).slice (Rect.unit (s := S204800x128) (k1_off2 L 1920#32) S128x128.size (k1_off2_inb L 15)) (fun _ => rfl)).view.set]{fullShare} f) ∗ ⌜ChunkOK d L (15 : Fin 50) fi ft f⌝)
      ∗ (∃ f, (((oW).slice (Rect.unit (s := S204800x128) (k1_off2 L 2048#32) S128x128.size (k1_off2_inb L 16)) (fun _ => rfl)).view.loc (thr d L) ↦[((oW).slice (Rect.unit (s := S204800x128) (k1_off2 L 2048#32) S128x128.size (k1_off2_inb L 16)) (fun _ => rfl)).view.set]{fullShare} f) ∗ ⌜ChunkOK d L (16 : Fin 50) fi ft f⌝)
      ∗ (∃ f, (((oW).slice (Rect.unit (s := S204800x128) (k1_off2 L 2176#32) S128x128.size (k1_off2_inb L 17)) (fun _ => rfl)).view.loc (thr d L) ↦[((oW).slice (Rect.unit (s := S204800x128) (k1_off2 L 2176#32) S128x128.size (k1_off2_inb L 17)) (fun _ => rfl)).view.set]{fullShare} f) ∗ ⌜ChunkOK d L (17 : Fin 50) fi ft f⌝)
      ∗ (∃ f, (((oW).slice (Rect.unit (s := S204800x128) (k1_off2 L 2304#32) S128x128.size (k1_off2_inb L 18)) (fun _ => rfl)).view.loc (thr d L) ↦[((oW).slice (Rect.unit (s := S204800x128) (k1_off2 L 2304#32) S128x128.size (k1_off2_inb L 18)) (fun _ => rfl)).view.set]{fullShare} f) ∗ ⌜ChunkOK d L (18 : Fin 50) fi ft f⌝)
      ∗ (∃ f, (((oW).slice (Rect.unit (s := S204800x128) (k1_off2 L 2432#32) S128x128.size (k1_off2_inb L 19)) (fun _ => rfl)).view.loc (thr d L) ↦[((oW).slice (Rect.unit (s := S204800x128) (k1_off2 L 2432#32) S128x128.size (k1_off2_inb L 19)) (fun _ => rfl)).view.set]{fullShare} f) ∗ ⌜ChunkOK d L (19 : Fin 50) fi ft f⌝)
      ∗ (∃ f, (((oW).slice (Rect.unit (s := S204800x128) (k1_off2 L 2560#32) S128x128.size (k1_off2_inb L 20)) (fun _ => rfl)).view.loc (thr d L) ↦[((oW).slice (Rect.unit (s := S204800x128) (k1_off2 L 2560#32) S128x128.size (k1_off2_inb L 20)) (fun _ => rfl)).view.set]{fullShare} f) ∗ ⌜ChunkOK d L (20 : Fin 50) fi ft f⌝)
      ∗ (∃ f, (((oW).slice (Rect.unit (s := S204800x128) (k1_off2 L 2688#32) S128x128.size (k1_off2_inb L 21)) (fun _ => rfl)).view.loc (thr d L) ↦[((oW).slice (Rect.unit (s := S204800x128) (k1_off2 L 2688#32) S128x128.size (k1_off2_inb L 21)) (fun _ => rfl)).view.set]{fullShare} f) ∗ ⌜ChunkOK d L (21 : Fin 50) fi ft f⌝)
      ∗ (∃ f, (((oW).slice (Rect.unit (s := S204800x128) (k1_off2 L 2816#32) S128x128.size (k1_off2_inb L 22)) (fun _ => rfl)).view.loc (thr d L) ↦[((oW).slice (Rect.unit (s := S204800x128) (k1_off2 L 2816#32) S128x128.size (k1_off2_inb L 22)) (fun _ => rfl)).view.set]{fullShare} f) ∗ ⌜ChunkOK d L (22 : Fin 50) fi ft f⌝)
      ∗ (∃ f, (((oW).slice (Rect.unit (s := S204800x128) (k1_off2 L 2944#32) S128x128.size (k1_off2_inb L 23)) (fun _ => rfl)).view.loc (thr d L) ↦[((oW).slice (Rect.unit (s := S204800x128) (k1_off2 L 2944#32) S128x128.size (k1_off2_inb L 23)) (fun _ => rfl)).view.set]{fullShare} f) ∗ ⌜ChunkOK d L (23 : Fin 50) fi ft f⌝)
      ∗ (∃ f, (((oW).slice (Rect.unit (s := S204800x128) (k1_off2 L 3072#32) S128x128.size (k1_off2_inb L 24)) (fun _ => rfl)).view.loc (thr d L) ↦[((oW).slice (Rect.unit (s := S204800x128) (k1_off2 L 3072#32) S128x128.size (k1_off2_inb L 24)) (fun _ => rfl)).view.set]{fullShare} f) ∗ ⌜ChunkOK d L (24 : Fin 50) fi ft f⌝)
      ∗ (∃ f, (((oW).slice (Rect.unit (s := S204800x128) (k1_off2 L 3200#32) S128x128.size (k1_off2_inb L 25)) (fun _ => rfl)).view.loc (thr d L) ↦[((oW).slice (Rect.unit (s := S204800x128) (k1_off2 L 3200#32) S128x128.size (k1_off2_inb L 25)) (fun _ => rfl)).view.set]{fullShare} f) ∗ ⌜ChunkOK d L (25 : Fin 50) fi ft f⌝)
      ∗ (∃ f, (((oW).slice (Rect.unit (s := S204800x128) (k1_off2 L 3328#32) S128x128.size (k1_off2_inb L 26)) (fun _ => rfl)).view.loc (thr d L) ↦[((oW).slice (Rect.unit (s := S204800x128) (k1_off2 L 3328#32) S128x128.size (k1_off2_inb L 26)) (fun _ => rfl)).view.set]{fullShare} f) ∗ ⌜ChunkOK d L (26 : Fin 50) fi ft f⌝)
      ∗ (∃ f, (((oW).slice (Rect.unit (s := S204800x128) (k1_off2 L 3456#32) S128x128.size (k1_off2_inb L 27)) (fun _ => rfl)).view.loc (thr d L) ↦[((oW).slice (Rect.unit (s := S204800x128) (k1_off2 L 3456#32) S128x128.size (k1_off2_inb L 27)) (fun _ => rfl)).view.set]{fullShare} f) ∗ ⌜ChunkOK d L (27 : Fin 50) fi ft f⌝)
      ∗ (∃ f, (((oW).slice (Rect.unit (s := S204800x128) (k1_off2 L 3584#32) S128x128.size (k1_off2_inb L 28)) (fun _ => rfl)).view.loc (thr d L) ↦[((oW).slice (Rect.unit (s := S204800x128) (k1_off2 L 3584#32) S128x128.size (k1_off2_inb L 28)) (fun _ => rfl)).view.set]{fullShare} f) ∗ ⌜ChunkOK d L (28 : Fin 50) fi ft f⌝)
      ∗ (∃ f, (((oW).slice (Rect.unit (s := S204800x128) (k1_off2 L 3712#32) S128x128.size (k1_off2_inb L 29)) (fun _ => rfl)).view.loc (thr d L) ↦[((oW).slice (Rect.unit (s := S204800x128) (k1_off2 L 3712#32) S128x128.size (k1_off2_inb L 29)) (fun _ => rfl)).view.set]{fullShare} f) ∗ ⌜ChunkOK d L (29 : Fin 50) fi ft f⌝)
      ∗ (∃ f, (((oW).slice (Rect.unit (s := S204800x128) (k1_off2 L 3840#32) S128x128.size (k1_off2_inb L 30)) (fun _ => rfl)).view.loc (thr d L) ↦[((oW).slice (Rect.unit (s := S204800x128) (k1_off2 L 3840#32) S128x128.size (k1_off2_inb L 30)) (fun _ => rfl)).view.set]{fullShare} f) ∗ ⌜ChunkOK d L (30 : Fin 50) fi ft f⌝)
      ∗ (∃ f, (((oW).slice (Rect.unit (s := S204800x128) (k1_off2 L 3968#32) S128x128.size (k1_off2_inb L 31)) (fun _ => rfl)).view.loc (thr d L) ↦[((oW).slice (Rect.unit (s := S204800x128) (k1_off2 L 3968#32) S128x128.size (k1_off2_inb L 31)) (fun _ => rfl)).view.set]{fullShare} f) ∗ ⌜ChunkOK d L (31 : Fin 50) fi ft f⌝)
      ∗ (∃ f, (((oW).slice (Rect.unit (s := S204800x128) (k1_off2 L 4096#32) S128x128.size (k1_off2_inb L 32)) (fun _ => rfl)).view.loc (thr d L) ↦[((oW).slice (Rect.unit (s := S204800x128) (k1_off2 L 4096#32) S128x128.size (k1_off2_inb L 32)) (fun _ => rfl)).view.set]{fullShare} f) ∗ ⌜ChunkOK d L (32 : Fin 50) fi ft f⌝)
      ∗ (∃ f, (((oW).slice (Rect.unit (s := S204800x128) (k1_off2 L 4224#32) S128x128.size (k1_off2_inb L 33)) (fun _ => rfl)).view.loc (thr d L) ↦[((oW).slice (Rect.unit (s := S204800x128) (k1_off2 L 4224#32) S128x128.size (k1_off2_inb L 33)) (fun _ => rfl)).view.set]{fullShare} f) ∗ ⌜ChunkOK d L (33 : Fin 50) fi ft f⌝)
      ∗ (∃ f, (((oW).slice (Rect.unit (s := S204800x128) (k1_off2 L 4352#32) S128x128.size (k1_off2_inb L 34)) (fun _ => rfl)).view.loc (thr d L) ↦[((oW).slice (Rect.unit (s := S204800x128) (k1_off2 L 4352#32) S128x128.size (k1_off2_inb L 34)) (fun _ => rfl)).view.set]{fullShare} f) ∗ ⌜ChunkOK d L (34 : Fin 50) fi ft f⌝)
      ∗ (∃ f, (((oW).slice (Rect.unit (s := S204800x128) (k1_off2 L 4480#32) S128x128.size (k1_off2_inb L 35)) (fun _ => rfl)).view.loc (thr d L) ↦[((oW).slice (Rect.unit (s := S204800x128) (k1_off2 L 4480#32) S128x128.size (k1_off2_inb L 35)) (fun _ => rfl)).view.set]{fullShare} f) ∗ ⌜ChunkOK d L (35 : Fin 50) fi ft f⌝)
      ∗ (∃ f, (((oW).slice (Rect.unit (s := S204800x128) (k1_off2 L 4608#32) S128x128.size (k1_off2_inb L 36)) (fun _ => rfl)).view.loc (thr d L) ↦[((oW).slice (Rect.unit (s := S204800x128) (k1_off2 L 4608#32) S128x128.size (k1_off2_inb L 36)) (fun _ => rfl)).view.set]{fullShare} f) ∗ ⌜ChunkOK d L (36 : Fin 50) fi ft f⌝)
      ∗ (∃ f, (((oW).slice (Rect.unit (s := S204800x128) (k1_off2 L 4736#32) S128x128.size (k1_off2_inb L 37)) (fun _ => rfl)).view.loc (thr d L) ↦[((oW).slice (Rect.unit (s := S204800x128) (k1_off2 L 4736#32) S128x128.size (k1_off2_inb L 37)) (fun _ => rfl)).view.set]{fullShare} f) ∗ ⌜ChunkOK d L (37 : Fin 50) fi ft f⌝)
      ∗ (∃ f, (((oW).slice (Rect.unit (s := S204800x128) (k1_off2 L 4864#32) S128x128.size (k1_off2_inb L 38)) (fun _ => rfl)).view.loc (thr d L) ↦[((oW).slice (Rect.unit (s := S204800x128) (k1_off2 L 4864#32) S128x128.size (k1_off2_inb L 38)) (fun _ => rfl)).view.set]{fullShare} f) ∗ ⌜ChunkOK d L (38 : Fin 50) fi ft f⌝)
      ∗ (∃ f, (((oW).slice (Rect.unit (s := S204800x128) (k1_off2 L 4992#32) S128x128.size (k1_off2_inb L 39)) (fun _ => rfl)).view.loc (thr d L) ↦[((oW).slice (Rect.unit (s := S204800x128) (k1_off2 L 4992#32) S128x128.size (k1_off2_inb L 39)) (fun _ => rfl)).view.set]{fullShare} f) ∗ ⌜ChunkOK d L (39 : Fin 50) fi ft f⌝)
      ∗ (∃ f, (((oW).slice (Rect.unit (s := S204800x128) (k1_off2 L 5120#32) S128x128.size (k1_off2_inb L 40)) (fun _ => rfl)).view.loc (thr d L) ↦[((oW).slice (Rect.unit (s := S204800x128) (k1_off2 L 5120#32) S128x128.size (k1_off2_inb L 40)) (fun _ => rfl)).view.set]{fullShare} f) ∗ ⌜ChunkOK d L (40 : Fin 50) fi ft f⌝)
      ∗ (∃ f, (((oW).slice (Rect.unit (s := S204800x128) (k1_off2 L 5248#32) S128x128.size (k1_off2_inb L 41)) (fun _ => rfl)).view.loc (thr d L) ↦[((oW).slice (Rect.unit (s := S204800x128) (k1_off2 L 5248#32) S128x128.size (k1_off2_inb L 41)) (fun _ => rfl)).view.set]{fullShare} f) ∗ ⌜ChunkOK d L (41 : Fin 50) fi ft f⌝)
      ∗ (∃ f, (((oW).slice (Rect.unit (s := S204800x128) (k1_off2 L 5376#32) S128x128.size (k1_off2_inb L 42)) (fun _ => rfl)).view.loc (thr d L) ↦[((oW).slice (Rect.unit (s := S204800x128) (k1_off2 L 5376#32) S128x128.size (k1_off2_inb L 42)) (fun _ => rfl)).view.set]{fullShare} f) ∗ ⌜ChunkOK d L (42 : Fin 50) fi ft f⌝)
      ∗ (∃ f, (((oW).slice (Rect.unit (s := S204800x128) (k1_off2 L 5504#32) S128x128.size (k1_off2_inb L 43)) (fun _ => rfl)).view.loc (thr d L) ↦[((oW).slice (Rect.unit (s := S204800x128) (k1_off2 L 5504#32) S128x128.size (k1_off2_inb L 43)) (fun _ => rfl)).view.set]{fullShare} f) ∗ ⌜ChunkOK d L (43 : Fin 50) fi ft f⌝)
      ∗ (∃ f, (((oW).slice (Rect.unit (s := S204800x128) (k1_off2 L 5632#32) S128x128.size (k1_off2_inb L 44)) (fun _ => rfl)).view.loc (thr d L) ↦[((oW).slice (Rect.unit (s := S204800x128) (k1_off2 L 5632#32) S128x128.size (k1_off2_inb L 44)) (fun _ => rfl)).view.set]{fullShare} f) ∗ ⌜ChunkOK d L (44 : Fin 50) fi ft f⌝)
      ∗ (∃ f, (((oW).slice (Rect.unit (s := S204800x128) (k1_off2 L 5760#32) S128x128.size (k1_off2_inb L 45)) (fun _ => rfl)).view.loc (thr d L) ↦[((oW).slice (Rect.unit (s := S204800x128) (k1_off2 L 5760#32) S128x128.size (k1_off2_inb L 45)) (fun _ => rfl)).view.set]{fullShare} f) ∗ ⌜ChunkOK d L (45 : Fin 50) fi ft f⌝)
      ∗ (∃ f, (((oW).slice (Rect.unit (s := S204800x128) (k1_off2 L 5888#32) S128x128.size (k1_off2_inb L 46)) (fun _ => rfl)).view.loc (thr d L) ↦[((oW).slice (Rect.unit (s := S204800x128) (k1_off2 L 5888#32) S128x128.size (k1_off2_inb L 46)) (fun _ => rfl)).view.set]{fullShare} f) ∗ ⌜ChunkOK d L (46 : Fin 50) fi ft f⌝)
      ∗ (∃ f, (((oW).slice (Rect.unit (s := S204800x128) (k1_off2 L 6016#32) S128x128.size (k1_off2_inb L 47)) (fun _ => rfl)).view.loc (thr d L) ↦[((oW).slice (Rect.unit (s := S204800x128) (k1_off2 L 6016#32) S128x128.size (k1_off2_inb L 47)) (fun _ => rfl)).view.set]{fullShare} f) ∗ ⌜ChunkOK d L (47 : Fin 50) fi ft f⌝)
      ∗ (∃ f, (((oW).slice (Rect.unit (s := S204800x128) (k1_off2 L 6144#32) S128x128.size (k1_off2_inb L 48)) (fun _ => rfl)).view.loc (thr d L) ↦[((oW).slice (Rect.unit (s := S204800x128) (k1_off2 L 6144#32) S128x128.size (k1_off2_inb L 48)) (fun _ => rfl)).view.set]{fullShare} f) ∗ ⌜ChunkOK d L (48 : Fin 50) fi ft f⌝)
      ∗ (∃ f, (((oW).slice (Rect.unit (s := S204800x128) (k1_off2 L 6272#32) S128x128.size (k1_off2_inb L 49)) (fun _ => rfl)).view.loc (thr d L) ↦[((oW).slice (Rect.unit (s := S204800x128) (k1_off2 L 6272#32) S128x128.size (k1_off2_inb L 49)) (fun _ => rfl)).view.set]{fullShare} f) ∗ ⌜ChunkOK d L (49 : Fin 50) fi ft f⌝)) := by
  unfold okChain
  rw [bigSep_univ_eq_bigSepL _ fin50_univ fin50_nodup]
  rfl

set_option maxRecDepth 8192 in
set_option maxHeartbeats 4000000 in
/-- The tile's own semaphores at zero, by number. -/
theorem sem_chain' (d : Dev nD) (L : grid1.Coords) :
    (ownSems0 (thr d L) : sProp 𝕄)
      = iprop(semVal ((thr d L, SemLoc.dma (⟨0, by decide⟩ : DmaSem sig)) : GSem nD τ sig) 0
      ∗ semVal ((thr d L, SemLoc.dma (⟨1, by decide⟩ : DmaSem sig)) : GSem nD τ sig) 0
      ∗ semVal ((thr d L, SemLoc.dma (⟨2, by decide⟩ : DmaSem sig)) : GSem nD τ sig) 0
      ∗ semVal ((thr d L, SemLoc.dma (⟨3, by decide⟩ : DmaSem sig)) : GSem nD τ sig) 0
      ∗ semVal ((thr d L, SemLoc.dma (⟨4, by decide⟩ : DmaSem sig)) : GSem nD τ sig) 0
      ∗ semVal ((thr d L, SemLoc.dma (⟨5, by decide⟩ : DmaSem sig)) : GSem nD τ sig) 0
      ∗ semVal ((thr d L, SemLoc.dma (⟨6, by decide⟩ : DmaSem sig)) : GSem nD τ sig) 0
      ∗ semVal ((thr d L, SemLoc.dma (⟨7, by decide⟩ : DmaSem sig)) : GSem nD τ sig) 0
      ∗ semVal ((thr d L, SemLoc.dma (⟨8, by decide⟩ : DmaSem sig)) : GSem nD τ sig) 0
      ∗ semVal ((thr d L, SemLoc.dma (⟨9, by decide⟩ : DmaSem sig)) : GSem nD τ sig) 0
      ∗ semVal ((thr d L, SemLoc.dma (⟨10, by decide⟩ : DmaSem sig)) : GSem nD τ sig) 0
      ∗ semVal ((thr d L, SemLoc.dma (⟨11, by decide⟩ : DmaSem sig)) : GSem nD τ sig) 0
      ∗ semVal ((thr d L, SemLoc.dma (⟨12, by decide⟩ : DmaSem sig)) : GSem nD τ sig) 0
      ∗ semVal ((thr d L, SemLoc.dma (⟨13, by decide⟩ : DmaSem sig)) : GSem nD τ sig) 0
      ∗ semVal ((thr d L, SemLoc.dma (⟨14, by decide⟩ : DmaSem sig)) : GSem nD τ sig) 0
      ∗ semVal ((thr d L, SemLoc.dma (⟨15, by decide⟩ : DmaSem sig)) : GSem nD τ sig) 0
      ∗ semVal ((thr d L, SemLoc.dma (⟨16, by decide⟩ : DmaSem sig)) : GSem nD τ sig) 0
      ∗ semVal ((thr d L, SemLoc.dma (⟨17, by decide⟩ : DmaSem sig)) : GSem nD τ sig) 0
      ∗ semVal ((thr d L, SemLoc.dma (⟨18, by decide⟩ : DmaSem sig)) : GSem nD τ sig) 0
      ∗ semVal ((thr d L, SemLoc.dma (⟨19, by decide⟩ : DmaSem sig)) : GSem nD τ sig) 0
      ∗ semVal ((thr d L, SemLoc.dma (⟨20, by decide⟩ : DmaSem sig)) : GSem nD τ sig) 0
      ∗ semVal ((thr d L, SemLoc.dma (⟨21, by decide⟩ : DmaSem sig)) : GSem nD τ sig) 0
      ∗ semVal ((thr d L, SemLoc.dma (⟨22, by decide⟩ : DmaSem sig)) : GSem nD τ sig) 0
      ∗ semVal ((thr d L, SemLoc.dma (⟨23, by decide⟩ : DmaSem sig)) : GSem nD τ sig) 0
      ∗ semVal ((thr d L, SemLoc.dma (⟨24, by decide⟩ : DmaSem sig)) : GSem nD τ sig) 0
      ∗ semVal ((thr d L, SemLoc.dma (⟨25, by decide⟩ : DmaSem sig)) : GSem nD τ sig) 0
      ∗ semVal ((thr d L, SemLoc.dma (⟨26, by decide⟩ : DmaSem sig)) : GSem nD τ sig) 0
      ∗ semVal ((thr d L, SemLoc.dma (⟨27, by decide⟩ : DmaSem sig)) : GSem nD τ sig) 0
      ∗ semVal ((thr d L, SemLoc.dma (⟨28, by decide⟩ : DmaSem sig)) : GSem nD τ sig) 0
      ∗ semVal ((thr d L, SemLoc.dma (⟨29, by decide⟩ : DmaSem sig)) : GSem nD τ sig) 0
      ∗ semVal ((thr d L, SemLoc.dma (⟨30, by decide⟩ : DmaSem sig)) : GSem nD τ sig) 0
      ∗ semVal ((thr d L, SemLoc.dma (⟨31, by decide⟩ : DmaSem sig)) : GSem nD τ sig) 0
      ∗ semVal ((thr d L, SemLoc.dma (⟨32, by decide⟩ : DmaSem sig)) : GSem nD τ sig) 0
      ∗ semVal ((thr d L, SemLoc.dma (⟨33, by decide⟩ : DmaSem sig)) : GSem nD τ sig) 0
      ∗ semVal ((thr d L, SemLoc.dma (⟨34, by decide⟩ : DmaSem sig)) : GSem nD τ sig) 0
      ∗ semVal ((thr d L, SemLoc.dma (⟨35, by decide⟩ : DmaSem sig)) : GSem nD τ sig) 0
      ∗ semVal ((thr d L, SemLoc.dma (⟨36, by decide⟩ : DmaSem sig)) : GSem nD τ sig) 0
      ∗ semVal ((thr d L, SemLoc.dma (⟨37, by decide⟩ : DmaSem sig)) : GSem nD τ sig) 0
      ∗ semVal ((thr d L, SemLoc.dma (⟨38, by decide⟩ : DmaSem sig)) : GSem nD τ sig) 0
      ∗ semVal ((thr d L, SemLoc.dma (⟨39, by decide⟩ : DmaSem sig)) : GSem nD τ sig) 0
      ∗ semVal ((thr d L, SemLoc.dma (⟨40, by decide⟩ : DmaSem sig)) : GSem nD τ sig) 0
      ∗ semVal ((thr d L, SemLoc.dma (⟨41, by decide⟩ : DmaSem sig)) : GSem nD τ sig) 0
      ∗ semVal ((thr d L, SemLoc.dma (⟨42, by decide⟩ : DmaSem sig)) : GSem nD τ sig) 0
      ∗ semVal ((thr d L, SemLoc.dma (⟨43, by decide⟩ : DmaSem sig)) : GSem nD τ sig) 0
      ∗ semVal ((thr d L, SemLoc.dma (⟨44, by decide⟩ : DmaSem sig)) : GSem nD τ sig) 0
      ∗ semVal ((thr d L, SemLoc.dma (⟨45, by decide⟩ : DmaSem sig)) : GSem nD τ sig) 0
      ∗ semVal ((thr d L, SemLoc.dma (⟨46, by decide⟩ : DmaSem sig)) : GSem nD τ sig) 0
      ∗ semVal ((thr d L, SemLoc.dma (⟨47, by decide⟩ : DmaSem sig)) : GSem nD τ sig) 0
      ∗ semVal ((thr d L, SemLoc.dma (⟨48, by decide⟩ : DmaSem sig)) : GSem nD τ sig) 0
      ∗ semVal ((thr d L, SemLoc.dma (⟨49, by decide⟩ : DmaSem sig)) : GSem nD τ sig) 0
      ∗ semVal ((thr d L, SemLoc.dma (⟨50, by decide⟩ : DmaSem sig)) : GSem nD τ sig) 0
      ∗ semVal ((thr d L, SemLoc.dma (⟨51, by decide⟩ : DmaSem sig)) : GSem nD τ sig) 0
      ∗ semVal ((thr d L, SemLoc.dma (⟨52, by decide⟩ : DmaSem sig)) : GSem nD τ sig) 0
      ∗ semVal ((thr d L, SemLoc.dma (⟨53, by decide⟩ : DmaSem sig)) : GSem nD τ sig) 0
      ∗ semVal ((thr d L, SemLoc.dma (⟨54, by decide⟩ : DmaSem sig)) : GSem nD τ sig) 0
      ∗ semVal ((thr d L, SemLoc.dma (⟨55, by decide⟩ : DmaSem sig)) : GSem nD τ sig) 0
      ∗ semVal ((thr d L, SemLoc.dma (⟨56, by decide⟩ : DmaSem sig)) : GSem nD τ sig) 0) := by
  rw [ownSems0_tile]
  rfl

end Cert.Proof.KB

end
-- ==== Proof.TileRunKB.lean ====
/-
  One tile's run of the lookup kernel.

  The tile copies its 6400 row numbers into its list buffer, then serves its 50 chunks of 128 rows with two row buffers
  in turn: while the gather of chunk `j` is awaited and its rows copied out, the gather of chunk `j + 1` is already in
  flight into the other buffer.  Each gather has a DMA semaphore of its own buffer's, each copy-out one of its own, so at
  no time are two transfers outstanding on one semaphore, and no buffer is touched while a transfer reads or writes it.
  From the list run, two read shares of the padded table, the fifty chunks and the tile's own buffers and semaphores, the
  run ends with every chunk holding the padded table's rows that its list run names, and everything else handed back.
-/
import proofs.«208090_g83872121356401_cont_sun_m_474_43_alg».proof.Proof.PayKB
import proofs.«208090_g83872121356401_cont_sun_m_474_43_alg».proof.Proof.LibRowBlocks
import proofs.«208090_g83872121356401_cont_sun_m_474_43_alg».proof.Proof.LibWindows
import proofs.«208090_g83872121356401_cont_sun_m_474_43_alg».proof.Proof.TileOkKB

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iW" => (Memref.whole Cert.Kernel.main_v1_scv : Memref Cert.Kernel.sig Kind.scVector Space.hbm Cert.Kernel.S204800 EltTy.i32)
local notation "tW" => (Memref.whole Cert.Kernel.main_v2_scv : Memref Cert.Kernel.sig Kind.scVector Space.hbm Cert.Kernel.S1000000x128 EltTy.f32)
local notation "oW" => (Memref.whole Cert.Kernel.main_v3_scv : Memref Cert.Kernel.sig Kind.scVector Space.hbm Cert.Kernel.S204800x128 EltTy.f32)
local notation "s0W" => (Memref.whole Cert.Kernel.cc1_scratch0 : Memref Cert.Kernel.sig Kind.scVector Space.vmem Cert.Kernel.S6400 EltTy.i32)
local notation "s1W" => (Memref.whole Cert.Kernel.cc1_scratch1 : Memref Cert.Kernel.sig Kind.scVector Space.vmem Cert.Kernel.S128x128 EltTy.f32)
local notation "s2W" => (Memref.whole Cert.Kernel.cc1_scratch2 : Memref Cert.Kernel.sig Kind.scVector Space.vmem Cert.Kernel.S128x128 EltTy.f32)

variable [FloatOps F]

set_option maxHeartbeats 16000000 in
set_option maxRecDepth 8192 in
theorem tile_run (d : Dev nD) (L : grid1.Coords) (O : CellTallies nD τ sig (HIx 1)) (W : Waits sig (HIx 1)) (hO : ∀ g, O g none = 0) (q1 q2 : PosShare TreeShare)
    (fi : Buf (Elt F) ((idxWin L).view.loc (thr d L))) (ft : Buf (Elt F) ((tW).view.loc (thr d L)))
    (f0 : Buf (Elt F) ((s0W).view.loc (thr d L))) (f1 : Buf (Elt F) ((s1W).view.loc (thr d L))) (f2 : Buf (Elt F) ((s2W).view.loc (thr d L)))
    (fo : Buf (Elt F) ((oW).view.loc (thr d L)))
    (hidx : ∀ k, ((idxWin L).view.read (Elt F) fi k).toNat ≤ 999999) (R : sProp 𝕄) :
    iprop((levAts (K (F := F)).L (K (F := F)).lev : sProp 𝕄)
      ∗ ((idxWin L).view.loc (thr d L) ↦[(idxWin L).view.set]{fullShare} fi)
      ∗ ((tW).view.loc (thr d L) ↦{q1} ft) ∗ ((tW).view.loc (thr d L) ↦{q2} ft)
      ∗ ((s0W).view.loc (thr d L) ↦{fullShare} f0) ∗ ((s1W).view.loc (thr d L) ↦{fullShare} f1) ∗ ((s2W).view.loc (thr d L) ↦{fullShare} f2)
      ∗ (((oW).slice (Rect.unit (s := S204800x128) (k1_off2 L 0#32) S128x128.size (k1_off2_inb L 0)) (fun _ => rfl)).view.loc (thr d L) ↦[((oW).slice (Rect.unit (s := S204800x128) (k1_off2 L 0#32) S128x128.size (k1_off2_inb L 0)) (fun _ => rfl)).view.set]{fullShare} fo)
      ∗ (((oW).slice (Rect.unit (s := S204800x128) (k1_off2 L 128#32) S128x128.size (k1_off2_inb L 1)) (fun _ => rfl)).view.loc (thr d L) ↦[((oW).slice (Rect.unit (s := S204800x128) (k1_off2 L 128#32) S128x128.size (k1_off2_inb L 1)) (fun _ => rfl)).view.set]{fullShare} fo)
      ∗ (((oW).slice (Rect.unit (s := S204800x128) (k1_off2 L 256#32) S128x128.size (k1_off2_inb L 2)) (fun _ => rfl)).view.loc (thr d L) ↦[((oW).slice (Rect.unit (s := S204800x128) (k1_off2 L 256#32) S128x128.size (k1_off2_inb L 2)) (fun _ => rfl)).view.set]{fullShare} fo)
      ∗ (((oW).slice (Rect.unit (s := S204800x128) (k1_off2 L 384#32) S128x128.size (k1_off2_inb L 3)) (fun _ => rfl)).view.loc (thr d L) ↦[((oW).slice (Rect.unit (s := S204800x128) (k1_off2 L 384#32) S128x128.size (k1_off2_inb L 3)) (fun _ => rfl)).view.set]{fullShare} fo)
      ∗ (((oW).slice (Rect.unit (s := S204800x128) (k1_off2 L 512#32) S128x128.size (k1_off2_inb L 4)) (fun _ => rfl)).view.loc (thr d L) ↦[((oW).slice (Rect.unit (s := S204800x128) (k1_off2 L 512#32) S128x128.size (k1_off2_inb L 4)) (fun _ => rfl)).view.set]{fullShare} fo)
      ∗ (((oW).slice (Rect.unit (s := S204800x128) (k1_off2 L 640#32) S128x128.size (k1_off2_inb L 5)) (fun _ => rfl)).view.loc (thr d L) ↦[((oW).slice (Rect.unit (s := S204800x128) (k1_off2 L 640#32) S128x128.size (k1_off2_inb L 5)) (fun _ => rfl)).view.set]{fullShare} fo)
      ∗ (((oW).slice (Rect.unit (s := S204800x128) (k1_off2 L 768#32) S128x128.size (k1_off2_inb L 6)) (fun _ => rfl)).view.loc (thr d L) ↦[((oW).slice (Rect.unit (s := S204800x128) (k1_off2 L 768#32) S128x128.size (k1_off2_inb L 6)) (fun _ => rfl)).view.set]{fullShare} fo)
      ∗ (((oW).slice (Rect.unit (s := S204800x128) (k1_off2 L 896#32) S128x128.size (k1_off2_inb L 7)) (fun _ => rfl)).view.loc (thr d L) ↦[((oW).slice (Rect.unit (s := S204800x128) (k1_off2 L 896#32) S128x128.size (k1_off2_inb L 7)) (fun _ => rfl)).view.set]{fullShare} fo)
      ∗ (((oW).slice (Rect.unit (s := S204800x128) (k1_off2 L 1024#32) S128x128.size (k1_off2_inb L 8)) (fun _ => rfl)).view.loc (thr d L) ↦[((oW).slice (Rect.unit (s := S204800x128) (k1_off2 L 1024#32) S128x128.size (k1_off2_inb L 8)) (fun _ => rfl)).view.set]{fullShare} fo)
      ∗ (((oW).slice (Rect.unit (s := S204800x128) (k1_off2 L 1152#32) S128x128.size (k1_off2_inb L 9)) (fun _ => rfl)).view.loc (thr d L) ↦[((oW).slice (Rect.unit (s := S204800x128) (k1_off2 L 1152#32) S128x128.size (k1_off2_inb L 9)) (fun _ => rfl)).view.set]{fullShare} fo)
      ∗ (((oW).slice (Rect.unit (s := S204800x128) (k1_off2 L 1280#32) S128x128.size (k1_off2_inb L 10)) (fun _ => rfl)).view.loc (thr d L) ↦[((oW).slice (Rect.unit (s := S204800x128) (k1_off2 L 1280#32) S128x128.size (k1_off2_inb L 10)) (fun _ => rfl)).view.set]{fullShare} fo)
      ∗ (((oW).slice (Rect.unit (s := S204800x128) (k1_off2 L 1408#32) S128x128.size (k1_off2_inb L 11)) (fun _ => rfl)).view.loc (thr d L) ↦[((oW).slice (Rect.unit (s := S204800x128) (k1_off2 L 1408#32) S128x128.size (k1_off2_inb L 11)) (fun _ => rfl)).view.set]{fullShare} fo)
      ∗ (((oW).slice (Rect.unit (s := S204800x128) (k1_off2 L 1536#32) S128x128.size (k1_off2_inb L 12)) (fun _ => rfl)).view.loc (thr d L) ↦[((oW).slice (Rect.unit (s := S204800x128) (k1_off2 L 1536#32) S128x128.size (k1_off2_inb L 12)) (fun _ => rfl)).view.set]{fullShare} fo)
      ∗ (((oW).slice (Rect.unit (s := S204800x128) (k1_off2 L 1664#32) S128x128.size (k1_off2_inb L 13)) (fun _ => rfl)).view.loc (thr d L) ↦[((oW).slice (Rect.unit (s := S204800x128) (k1_off2 L 1664#32) S128x128.size (k1_off2_inb L 13)) (fun _ => rfl)).view.set]{fullShare} fo)
      ∗ (((oW).slice (Rect.unit (s := S204800x128) (k1_off2 L 1792#32) S128x128.size (k1_off2_inb L 14)) (fun _ => rfl)).view.loc (thr d L) ↦[((oW).slice (Rect.unit (s := S204800x128) (k1_off2 L 1792#32) S128x128.size (k1_off2_inb L 14)) (fun _ => rfl)).view.set]{fullShare} fo)
      ∗ (((oW).slice (Rect.unit (s := S204800x128) (k1_off2 L 1920#32) S128x128.size (k1_off2_inb L 15)) (fun _ => rfl)).view.loc (thr d L) ↦[((oW).slice (Rect.unit (s := S204800x128) (k1_off2 L 1920#32) S128x128.size (k1_off2_inb L 15)) (fun _ => rfl)).view.set]{fullShare} fo)
      ∗ (((oW).slice (Rect.unit (s := S204800x128) (k1_off2 L 2048#32) S128x128.size (k1_off2_inb L 16)) (fun _ => rfl)).view.loc (thr d L) ↦[((oW).slice (Rect.unit (s := S204800x128) (k1_off2 L 2048#32) S128x128.size (k1_off2_inb L 16)) (fun _ => rfl)).view.set]{fullShare} fo)
      ∗ (((oW).slice (Rect.unit (s := S204800x128) (k1_off2 L 2176#32) S128x128.size (k1_off2_inb L 17)) (fun _ => rfl)).view.loc (thr d L) ↦[((oW).slice (Rect.unit (s := S204800x128) (k1_off2 L 2176#32) S128x128.size (k1_off2_inb L 17)) (fun _ => rfl)).view.set]{fullShare} fo)
      ∗ (((oW).slice (Rect.unit (s := S204800x128) (k1_off2 L 2304#32) S128x128.size (k1_off2_inb L 18)) (fun _ => rfl)).view.loc (thr d L) ↦[((oW).slice (Rect.unit (s := S204800x128) (k1_off2 L 2304#32) S128x128.size (k1_off2_inb L 18)) (fun _ => rfl)).view.set]{fullShare} fo)
      ∗ (((oW).slice (Rect.unit (s := S204800x128) (k1_off2 L 2432#32) S128x128.size (k1_off2_inb L 19)) (fun _ => rfl)).view.loc (thr d L) ↦[((oW).slice (Rect.unit (s := S204800x128) (k1_off2 L 2432#32) S128x128.size (k1_off2_inb L 19)) (fun _ => rfl)).view.set]{fullShare} fo)
      ∗ (((oW).slice (Rect.unit (s := S204800x128) (k1_off2 L 2560#32) S128x128.size (k1_off2_inb L 20)) (fun _ => rfl)).view.loc (thr d L) ↦[((oW).slice (Rect.unit (s := S204800x128) (k1_off2 L 2560#32) S128x128.size (k1_off2_inb L 20)) (fun _ => rfl)).view.set]{fullShare} fo)
      ∗ (((oW).slice (Rect.unit (s := S204800x128) (k1_off2 L 2688#32) S128x128.size (k1_off2_inb L 21)) (fun _ => rfl)).view.loc (thr d L) ↦[((oW).slice (Rect.unit (s := S204800x128) (k1_off2 L 2688#32) S128x128.size (k1_off2_inb L 21)) (fun _ => rfl)).view.set]{fullShare} fo)
      ∗ (((oW).slice (Rect.unit (s := S204800x128) (k1_off2 L 2816#32) S128x128.size (k1_off2_inb L 22)) (fun _ => rfl)).view.loc (thr d L) ↦[((oW).slice (Rect.unit (s := S204800x128) (k1_off2 L 2816#32) S128x128.size (k1_off2_inb L 22)) (fun _ => rfl)).view.set]{fullShare} fo)
      ∗ (((oW).slice (Rect.unit (s := S204800x128) (k1_off2 L 2944#32) S128x128.size (k1_off2_inb L 23)) (fun _ => rfl)).view.loc (thr d L) ↦[((oW).slice (Rect.unit (s := S204800x128) (k1_off2 L 2944#32) S128x128.size (k1_off2_inb L 23)) (fun _ => rfl)).view.set]{fullShare} fo)
      ∗ (((oW).slice (Rect.unit (s := S204800x128) (k1_off2 L 3072#32) S128x128.size (k1_off2_inb L 24)) (fun _ => rfl)).view.loc (thr d L) ↦[((oW).slice (Rect.unit (s := S204800x128) (k1_off2 L 3072#32) S128x128.size (k1_off2_inb L 24)) (fun _ => rfl)).view.set]{fullShare} fo)
      ∗ (((oW).slice (Rect.unit (s := S204800x128) (k1_off2 L 3200#32) S128x128.size (k1_off2_inb L 25)) (fun _ => rfl)).view.loc (thr d L) ↦[((oW).slice (Rect.unit (s := S204800x128) (k1_off2 L 3200#32) S128x128.size (k1_off2_inb L 25)) (fun _ => rfl)).view.set]{fullShare} fo)
      ∗ (((oW).slice (Rect.unit (s := S204800x128) (k1_off2 L 3328#32) S128x128.size (k1_off2_inb L 26)) (fun _ => rfl)).view.loc (thr d L) ↦[((oW).slice (Rect.unit (s := S204800x128) (k1_off2 L 3328#32) S128x128.size (k1_off2_inb L 26)) (fun _ => rfl)).view.set]{fullShare} fo)
      ∗ (((oW).slice (Rect.unit (s := S204800x128) (k1_off2 L 3456#32) S128x128.size (k1_off2_inb L 27)) (fun _ => rfl)).view.loc (thr d L) ↦[((oW).slice (Rect.unit (s := S204800x128) (k1_off2 L 3456#32) S128x128.size (k1_off2_inb L 27)) (fun _ => rfl)).view.set]{fullShare} fo)
      ∗ (((oW).slice (Rect.unit (s := S204800x128) (k1_off2 L 3584#32) S128x128.size (k1_off2_inb L 28)) (fun _ => rfl)).view.loc (thr d L) ↦[((oW).slice (Rect.unit (s := S204800x128) (k1_off2 L 3584#32) S128x128.size (k1_off2_inb L 28)) (fun _ => rfl)).view.set]{fullShare} fo)
      ∗ (((oW).slice (Rect.unit (s := S204800x128) (k1_off2 L 3712#32) S128x128.size (k1_off2_inb L 29)) (fun _ => rfl)).view.loc (thr d L) ↦[((oW).slice (Rect.unit (s := S204800x128) (k1_off2 L 3712#32) S128x128.size (k1_off2_inb L 29)) (fun _ => rfl)).view.set]{fullShare} fo)
      ∗ (((oW).slice (Rect.unit (s := S204800x128) (k1_off2 L 3840#32) S128x128.size (k1_off2_inb L 30)) (fun _ => rfl)).view.loc (thr d L) ↦[((oW).slice (Rect.unit (s := S204800x128) (k1_off2 L 3840#32) S128x128.size (k1_off2_inb L 30)) (fun _ => rfl)).view.set]{fullShare} fo)
      ∗ (((oW).slice (Rect.unit (s := S204800x128) (k1_off2 L 3968#32) S128x128.size (k1_off2_inb L 31)) (fun _ => rfl)).view.loc (thr d L) ↦[((oW).slice (Rect.unit (s := S204800x128) (k1_off2 L 3968#32) S128x128.size (k1_off2_inb L 31)) (fun _ => rfl)).view.set]{fullShare} fo)
      ∗ (((oW).slice (Rect.unit (s := S204800x128) (k1_off2 L 4096#32) S128x128.size (k1_off2_inb L 32)) (fun _ => rfl)).view.loc (thr d L) ↦[((oW).slice (Rect.unit (s := S204800x128) (k1_off2 L 4096#32) S128x128.size (k1_off2_inb L 32)) (fun _ => rfl)).view.set]{fullShare} fo)
      ∗ (((oW).slice (Rect.unit (s := S204800x128) (k1_off2 L 4224#32) S128x128.size (k1_off2_inb L 33)) (fun _ => rfl)).view.loc (thr d L) ↦[((oW).slice (Rect.unit (s := S204800x128) (k1_off2 L 4224#32) S128x128.size (k1_off2_inb L 33)) (fun _ => rfl)).view.set]{fullShare} fo)
      ∗ (((oW).slice (Rect.unit (s := S204800x128) (k1_off2 L 4352#32) S128x128.size (k1_off2_inb L 34)) (fun _ => rfl)).view.loc (thr d L) ↦[((oW).slice (Rect.unit (s := S204800x128) (k1_off2 L 4352#32) S128x128.size (k1_off2_inb L 34)) (fun _ => rfl)).view.set]{fullShare} fo)
      ∗ (((oW).slice (Rect.unit (s := S204800x128) (k1_off2 L 4480#32) S128x128.size (k1_off2_inb L 35)) (fun _ => rfl)).view.loc (thr d L) ↦[((oW).slice (Rect.unit (s := S204800x128) (k1_off2 L 4480#32) S128x128.size (k1_off2_inb L 35)) (fun _ => rfl)).view.set]{fullShare} fo)
      ∗ (((oW).slice (Rect.unit (s := S204800x128) (k1_off2 L 4608#32) S128x128.size (k1_off2_inb L 36)) (fun _ => rfl)).view.loc (thr d L) ↦[((oW).slice (Rect.unit (s := S204800x128) (k1_off2 L 4608#32) S128x128.size (k1_off2_inb L 36)) (fun _ => rfl)).view.set]{fullShare} fo)
      ∗ (((oW).slice (Rect.unit (s := S204800x128) (k1_off2 L 4736#32) S128x128.size (k1_off2_inb L 37)) (fun _ => rfl)).view.loc (thr d L) ↦[((oW).slice (Rect.unit (s := S204800x128) (k1_off2 L 4736#32) S128x128.size (k1_off2_inb L 37)) (fun _ => rfl)).view.set]{fullShare} fo)
      ∗ (((oW).slice (Rect.unit (s := S204800x128) (k1_off2 L 4864#32) S128x128.size (k1_off2_inb L 38)) (fun _ => rfl)).view.loc (thr d L) ↦[((oW).slice (Rect.unit (s := S204800x128) (k1_off2 L 4864#32) S128x128.size (k1_off2_inb L 38)) (fun _ => rfl)).view.set]{fullShare} fo)
      ∗ (((oW).slice (Rect.unit (s := S204800x128) (k1_off2 L 4992#32) S128x128.size (k1_off2_inb L 39)) (fun _ => rfl)).view.loc (thr d L) ↦[((oW).slice (Rect.unit (s := S204800x128) (k1_off2 L 4992#32) S128x128.size (k1_off2_inb L 39)) (fun _ => rfl)).view.set]{fullShare} fo)
      ∗ (((oW).slice (Rect.unit (s := S204800x128) (k1_off2 L 5120#32) S128x128.size (k1_off2_inb L 40)) (fun _ => rfl)).view.loc (thr d L) ↦[((oW).slice (Rect.unit (s := S204800x128) (k1_off2 L 5120#32) S128x128.size (k1_off2_inb L 40)) (fun _ => rfl)).view.set]{fullShare} fo)
      ∗ (((oW).slice (Rect.unit (s := S204800x128) (k1_off2 L 5248#32) S128x128.size (k1_off2_inb L 41)) (fun _ => rfl)).view.loc (thr d L) ↦[((oW).slice (Rect.unit (s := S204800x128) (k1_off2 L 5248#32) S128x128.size (k1_off2_inb L 41)) (fun _ => rfl)).view.set]{fullShare} fo)
      ∗ (((oW).slice (Rect.unit (s := S204800x128) (k1_off2 L 5376#32) S128x128.size (k1_off2_inb L 42)) (fun _ => rfl)).view.loc (thr d L) ↦[((oW).slice (Rect.unit (s := S204800x128) (k1_off2 L 5376#32) S128x128.size (k1_off2_inb L 42)) (fun _ => rfl)).view.set]{fullShare} fo)
      ∗ (((oW).slice (Rect.unit (s := S204800x128) (k1_off2 L 5504#32) S128x128.size (k1_off2_inb L 43)) (fun _ => rfl)).view.loc (thr d L) ↦[((oW).slice (Rect.unit (s := S204800x128) (k1_off2 L 5504#32) S128x128.size (k1_off2_inb L 43)) (fun _ => rfl)).view.set]{fullShare} fo)
      ∗ (((oW).slice (Rect.unit (s := S204800x128) (k1_off2 L 5632#32) S128x128.size (k1_off2_inb L 44)) (fun _ => rfl)).view.loc (thr d L) ↦[((oW).slice (Rect.unit (s := S204800x128) (k1_off2 L 5632#32) S128x128.size (k1_off2_inb L 44)) (fun _ => rfl)).view.set]{fullShare} fo)
      ∗ (((oW).slice (Rect.unit (s := S204800x128) (k1_off2 L 5760#32) S128x128.size (k1_off2_inb L 45)) (fun _ => rfl)).view.loc (thr d L) ↦[((oW).slice (Rect.unit (s := S204800x128) (k1_off2 L 5760#32) S128x128.size (k1_off2_inb L 45)) (fun _ => rfl)).view.set]{fullShare} fo)
      ∗ (((oW).slice (Rect.unit (s := S204800x128) (k1_off2 L 5888#32) S128x128.size (k1_off2_inb L 46)) (fun _ => rfl)).view.loc (thr d L) ↦[((oW).slice (Rect.unit (s := S204800x128) (k1_off2 L 5888#32) S128x128.size (k1_off2_inb L 46)) (fun _ => rfl)).view.set]{fullShare} fo)
      ∗ (((oW).slice (Rect.unit (s := S204800x128) (k1_off2 L 6016#32) S128x128.size (k1_off2_inb L 47)) (fun _ => rfl)).view.loc (thr d L) ↦[((oW).slice (Rect.unit (s := S204800x128) (k1_off2 L 6016#32) S128x128.size (k1_off2_inb L 47)) (fun _ => rfl)).view.set]{fullShare} fo)
      ∗ (((oW).slice (Rect.unit (s := S204800x128) (k1_off2 L 6144#32) S128x128.size (k1_off2_inb L 48)) (fun _ => rfl)).view.loc (thr d L) ↦[((oW).slice (Rect.unit (s := S204800x128) (k1_off2 L 6144#32) S128x128.size (k1_off2_inb L 48)) (fun _ => rfl)).view.set]{fullShare} fo)
      ∗ (((oW).slice (Rect.unit (s := S204800x128) (k1_off2 L 6272#32) S128x128.size (k1_off2_inb L 49)) (fun _ => rfl)).view.loc (thr d L) ↦[((oW).slice (Rect.unit (s := S204800x128) (k1_off2 L 6272#32) S128x128.size (k1_off2_inb L 49)) (fun _ => rfl)).view.set]{fullShare} fo)
      ∗ semVal ((thr d L, SemLoc.dma (⟨0, by decide⟩ : DmaSem sig)) : GSem nD τ sig) 0
      ∗ semVal ((thr d L, SemLoc.dma (⟨1, by decide⟩ : DmaSem sig)) : GSem nD τ sig) 0
      ∗ semVal ((thr d L, SemLoc.dma (⟨2, by decide⟩ : DmaSem sig)) : GSem nD τ sig) 0
      ∗ semVal ((thr d L, SemLoc.dma (⟨3, by decide⟩ : DmaSem sig)) : GSem nD τ sig) 0
      ∗ semVal ((thr d L, SemLoc.dma cc1_scratch3.sem) : GSem nD τ sig) 0
      ∗ semVal ((thr d L, SemLoc.dma cc1_scratch4.sem) : GSem nD τ sig) 0
      ∗ semVal ((thr d L, SemLoc.dma cc1_scoped0.sem) : GSem nD τ sig) 0
      ∗ semVal ((thr d L, SemLoc.dma cc1_scoped1.sem) : GSem nD τ sig) 0
      ∗ semVal ((thr d L, SemLoc.dma cc1_scoped2.sem) : GSem nD τ sig) 0
      ∗ semVal ((thr d L, SemLoc.dma cc1_scoped3.sem) : GSem nD τ sig) 0
      ∗ semVal ((thr d L, SemLoc.dma cc1_scoped4.sem) : GSem nD τ sig) 0
      ∗ semVal ((thr d L, SemLoc.dma cc1_scoped5.sem) : GSem nD τ sig) 0
      ∗ semVal ((thr d L, SemLoc.dma cc1_scoped6.sem) : GSem nD τ sig) 0
      ∗ semVal ((thr d L, SemLoc.dma cc1_scoped7.sem) : GSem nD τ sig) 0
      ∗ semVal ((thr d L, SemLoc.dma cc1_scoped8.sem) : GSem nD τ sig) 0
      ∗ semVal ((thr d L, SemLoc.dma cc1_scoped9.sem) : GSem nD τ sig) 0
      ∗ semVal ((thr d L, SemLoc.dma cc1_scoped10.sem) : GSem nD τ sig) 0
      ∗ semVal ((thr d L, SemLoc.dma cc1_scoped11.sem) : GSem nD τ sig) 0
      ∗ semVal ((thr d L, SemLoc.dma cc1_scoped12.sem) : GSem nD τ sig) 0
      ∗ semVal ((thr d L, SemLoc.dma cc1_scoped13.sem) : GSem nD τ sig) 0
      ∗ semVal ((thr d L, SemLoc.dma cc1_scoped14.sem) : GSem nD τ sig) 0
      ∗ semVal ((thr d L, SemLoc.dma cc1_scoped15.sem) : GSem nD τ sig) 0
      ∗ semVal ((thr d L, SemLoc.dma cc1_scoped16.sem) : GSem nD τ sig) 0
      ∗ semVal ((thr d L, SemLoc.dma cc1_scoped17.sem) : GSem nD τ sig) 0
      ∗ semVal ((thr d L, SemLoc.dma cc1_scoped18.sem) : GSem nD τ sig) 0
      ∗ semVal ((thr d L, SemLoc.dma cc1_scoped19.sem) : GSem nD τ sig) 0
      ∗ semVal ((thr d L, SemLoc.dma cc1_scoped20.sem) : GSem nD τ sig) 0
      ∗ semVal ((thr d L, SemLoc.dma cc1_scoped21.sem) : GSem nD τ sig) 0
      ∗ semVal ((thr d L, SemLoc.dma cc1_scoped22.sem) : GSem nD τ sig) 0
      ∗ semVal ((thr d L, SemLoc.dma cc1_scoped23.sem) : GSem nD τ sig) 0
      ∗ semVal ((thr d L, SemLoc.dma cc1_scoped24.sem) : GSem nD τ sig) 0
      ∗ semVal ((thr d L, SemLoc.dma cc1_scoped25.sem) : GSem nD τ sig) 0
      ∗ semVal ((thr d L, SemLoc.dma cc1_scoped26.sem) : GSem nD τ sig) 0
      ∗ semVal ((thr d L, SemLoc.dma cc1_scoped27.sem) : GSem nD τ sig) 0
      ∗ semVal ((thr d L, SemLoc.dma cc1_scoped28.sem) : GSem nD τ sig) 0
      ∗ semVal ((thr d L, SemLoc.dma cc1_scoped29.sem) : GSem nD τ sig) 0
      ∗ semVal ((thr d L, SemLoc.dma cc1_scoped30.sem) : GSem nD τ sig) 0
      ∗ semVal ((thr d L, SemLoc.dma cc1_scoped31.sem) : GSem nD τ sig) 0
      ∗ semVal ((thr d L, SemLoc.dma cc1_scoped32.sem) : GSem nD τ sig) 0
      ∗ semVal ((thr d L, SemLoc.dma cc1_scoped33.sem) : GSem nD τ sig) 0
      ∗ semVal ((thr d L, SemLoc.dma cc1_scoped34.sem) : GSem nD τ sig) 0
      ∗ semVal ((thr d L, SemLoc.dma cc1_scoped35.sem) : GSem nD τ sig) 0
      ∗ semVal ((thr d L, SemLoc.dma cc1_scoped36.sem) : GSem nD τ sig) 0
      ∗ semVal ((thr d L, SemLoc.dma cc1_scoped37.sem) : GSem nD τ sig) 0
      ∗ semVal ((thr d L, SemLoc.dma cc1_scoped38.sem) : GSem nD τ sig) 0
      ∗ semVal ((thr d L, SemLoc.dma cc1_scoped39.sem) : GSem nD τ sig) 0
      ∗ semVal ((thr d L, SemLoc.dma cc1_scoped40.sem) : GSem nD τ sig) 0
      ∗ semVal ((thr d L, SemLoc.dma cc1_scoped41.sem) : GSem nD τ sig) 0
      ∗ semVal ((thr d L, SemLoc.dma cc1_scoped42.sem) : GSem nD τ sig) 0
      ∗ semVal ((thr d L, SemLoc.dma cc1_scoped43.sem) : GSem nD τ sig) 0
      ∗ semVal ((thr d L, SemLoc.dma cc1_scoped44.sem) : GSem nD τ sig) 0
      ∗ semVal ((thr d L, SemLoc.dma cc1_scoped45.sem) : GSem nD τ sig) 0
      ∗ semVal ((thr d L, SemLoc.dma cc1_scoped46.sem) : GSem nD τ sig) 0
      ∗ semVal ((thr d L, SemLoc.dma cc1_scoped47.sem) : GSem nD τ sig) 0
      ∗ semVal ((thr d L, SemLoc.dma cc1_scoped48.sem) : GSem nD τ sig) 0
      ∗ semVal ((thr d L, SemLoc.dma cc1_scoped49.sem) : GSem nD τ sig) 0
      ∗ semVal ((thr d L, SemLoc.dma cc1_scoped50.sem) : GSem nD τ sig) 0
      ∗ owes (thr d L) O W)
      ∗ R
      ⊢ wp frame (wpE (defs₀ (F := F)) 𝒱₀ (thr d L) none) Set.univ
          (cc1__gather_kernel_skel L iW (Memref.isWhole_whole _) tW (Memref.isWhole_whole _) oW (Memref.isWhole_whole _)
            s0W (Memref.isWhole_whole _) s1W (Memref.isWhole_whole _) s2W (Memref.isWhole_whole _) cc1_scratch3 cc1_scratch4 cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16 cc1_scoped17 cc1_scoped18 cc1_scoped19 cc1_scoped20 cc1_scoped21 cc1_scoped22 cc1_scoped23 cc1_scoped24 cc1_scoped25 cc1_scoped26 cc1_scoped27 cc1_scoped28 cc1_scoped29 cc1_scoped30 cc1_scoped31 cc1_scoped32 cc1_scoped33 cc1_scoped34 cc1_scoped35 cc1_scoped36 cc1_scoped37 cc1_scoped38 cc1_scoped39 cc1_scoped40 cc1_scoped41 cc1_scoped42 cc1_scoped43 cc1_scoped44 cc1_scoped45 cc1_scoped46 cc1_scoped47 cc1_scoped48 cc1_scoped49 cc1_scoped50)
          fun _ => iprop(okChain d L fi ft
            ∗ (∃ f, (s0W).view.loc (thr d L) ↦{fullShare} f) ∗ (∃ f, (s1W).view.loc (thr d L) ↦{fullShare} f)
            ∗ (∃ f, (s2W).view.loc (thr d L) ↦{fullShare} f)
            ∗ ownSems0 (thr d L)
            ∗ (∃ W', ⌜∀ p ∈ W', p ∈ W ∨ p.2 = none⌝ ∗ owes (thr d L) O W')
            ∗ R
            ∗ ((idxWin L).view.loc (thr d L) ↦[(idxWin L).view.set]{fullShare} fi)
            ∗ ((tW).view.loc (thr d L) ↦{q1} ft) ∗ ((tW).view.loc (thr d L) ↦{q2} ft)) := by
  unfold cc1__gather_kernel_skel
  iintro ⟨⟨#Hlv, Hi, Ht1, Ht2, Hs0, Hs1, Hs2, Ho0, Ho1, Ho2, Ho3, Ho4, Ho5, Ho6, Ho7, Ho8, Ho9, Ho10, Ho11, Ho12, Ho13, Ho14, Ho15, Ho16, Ho17, Ho18, Ho19, Ho20, Ho21, Ho22, Ho23, Ho24, Ho25, Ho26, Ho27, Ho28, Ho29, Ho30, Ho31, Ho32, Ho33, Ho34, Ho35, Ho36, Ho37, Ho38, Ho39, Ho40, Ho41, Ho42, Ho43, Ho44, Ho45, Ho46, Ho47, Ho48, Ho49, Hc0, Hc1, Hc2, Hc3, Hc4, Hc5, Hc6, Hc7, Hc8, Hc9, Hc10, Hc11, Hc12, Hc13, Hc14, Hc15, Hc16, Hc17, Hc18, Hc19, Hc20, Hc21, Hc22, Hc23, Hc24, Hc25, Hc26, Hc27, Hc28, Hc29, Hc30, Hc31, Hc32, Hc33, Hc34, Hc35, Hc36, Hc37, Hc38, Hc39, Hc40, Hc41, Hc42, Hc43, Hc44, Hc45, Hc46, Hc47, Hc48, Hc49, Hc50, Hc51, Hc52, Hc53, Hc54, Hc55, Hc56, HO⟩, HR⟩
  ihave Hmw := ((K (F := F)).mayWaits_none (thr := thr d L) hO) $$ Hlv
  sl_exec_parts
  have hin : ∀ (n : ℕ) (h : ∀ a, (![n] : Fin 1 → ℕ) a + S128.size a ≤ S6400.size a) (x : S128.Idx),
      ((((s0W).slice (Rect.unit (s := S6400) ![n] S128.size h) (fun _ => rfl)).view.read (Elt F)
        (View.write (Elt F) (s0W).view f0 (tile_run.sl.dma0 d L fi) Finset.univ) x)).toNat
          < S1000000x128.size gathers_S1000000x128_S128x128.axis := by
    intro n h x
    rw [View.write_whole_univ]
    exact Nat.lt_of_le_of_lt (hidx (((s0W).slice (Rect.unit (s := S6400) ![n] S128.size h) (fun _ => rfl)).view.emb x)) (by decide)
  ihave Hl := (Entails.of_eq (list_chain (F := F) d L fullShare _)) $$ Hs0
  icases Hl with ⟨Hl0, Hl1, Hl2, Hl3, Hl4, Hl5, Hl6, Hl7, Hl8, Hl9, Hl10, Hl11, Hl12, Hl13, Hl14, Hl15, Hl16, Hl17, Hl18, Hl19, Hl20, Hl21, Hl22, Hl23, Hl24, Hl25, Hl26, Hl27, Hl28, Hl29, Hl30, Hl31, Hl32, Hl33, Hl34, Hl35, Hl36, Hl37, Hl38, Hl39, Hl40, Hl41, Hl42, Hl43, Hl44, Hl45, Hl46, Hl47, Hl48, Hl49⟩
  sl_exec_parts
  sl_step
  isplitl [Ho0 Ho1 Ho2 Ho3 Ho4 Ho5 Ho6 Ho7 Ho8 Ho9 Ho10 Ho11 Ho12 Ho13 Ho14 Ho15 Ho16 Ho17 Ho18 Ho19 Ho20 Ho21 Ho22 Ho23 Ho24 Ho25 Ho26 Ho27 Ho28 Ho29 Ho30 Ho31 Ho32 Ho33 Ho34 Ho35 Ho36 Ho37 Ho38 Ho39 Ho40 Ho41 Ho42 Ho43 Ho44 Ho45 Ho46 Ho47 Ho48 Ho49]
  · rw [ok_chain]
    isplitl [Ho0]
    · iexists _; isplitl [Ho0]
      · iexact Ho0
      · ipureintro; exact chunk_ok d L 0 fi ft f0 fo hidx _ _ _ _ _ _ rfl
    isplitl [Ho1]
    · iexists _; isplitl [Ho1]
      · iexact Ho1
      · ipureintro; exact chunk_ok d L 1 fi ft f0 fo hidx _ _ _ _ _ _ rfl
    isplitl [Ho2]
    · iexists _; isplitl [Ho2]
      · iexact Ho2
      · ipureintro; exact chunk_ok d L 2 fi ft f0 fo hidx _ _ _ _ _ _ rfl
    isplitl [Ho3]
    · iexists _; isplitl [Ho3]
      · iexact Ho3
      · ipureintro; exact chunk_ok d L 3 fi ft f0 fo hidx _ _ _ _ _ _ rfl
    isplitl [Ho4]
    · iexists _; isplitl [Ho4]
      · iexact Ho4
      · ipureintro; exact chunk_ok d L 4 fi ft f0 fo hidx _ _ _ _ _ _ rfl
    isplitl [Ho5]
    · iexists _; isplitl [Ho5]
      · iexact Ho5
      · ipureintro; exact chunk_ok d L 5 fi ft f0 fo hidx _ _ _ _ _ _ rfl
    isplitl [Ho6]
    · iexists _; isplitl [Ho6]
      · iexact Ho6
      · ipureintro; exact chunk_ok d L 6 fi ft f0 fo hidx _ _ _ _ _ _ rfl
    isplitl [Ho7]
    · iexists _; isplitl [Ho7]
      · iexact Ho7
      · ipureintro; exact chunk_ok d L 7 fi ft f0 fo hidx _ _ _ _ _ _ rfl
    isplitl [Ho8]
    · iexists _; isplitl [Ho8]
      · iexact Ho8
      · ipureintro; exact chunk_ok d L 8 fi ft f0 fo hidx _ _ _ _ _ _ rfl
    isplitl [Ho9]
    · iexists _; isplitl [Ho9]
      · iexact Ho9
      · ipureintro; exact chunk_ok d L 9 fi ft f0 fo hidx _ _ _ _ _ _ rfl
    isplitl [Ho10]
    · iexists _; isplitl [Ho10]
      · iexact Ho10
      · ipureintro; exact chunk_ok d L 10 fi ft f0 fo hidx _ _ _ _ _ _ rfl
    isplitl [Ho11]
    · iexists _; isplitl [Ho11]
      · iexact Ho11
      · ipureintro; exact chunk_ok d L 11 fi ft f0 fo hidx _ _ _ _ _ _ rfl
    isplitl [Ho12]
    · iexists _; isplitl [Ho12]
      · iexact Ho12
      · ipureintro; exact chunk_ok d L 12 fi ft f0 fo hidx _ _ _ _ _ _ rfl
    isplitl [Ho13]
    · iexists _; isplitl [Ho13]
      · iexact Ho13
      · ipureintro; exact chunk_ok d L 13 fi ft f0 fo hidx _ _ _ _ _ _ rfl
    isplitl [Ho14]
    · iexists _; isplitl [Ho14]
      · iexact Ho14
      · ipureintro; exact chunk_ok d L 14 fi ft f0 fo hidx _ _ _ _ _ _ rfl
    isplitl [Ho15]
    · iexists _; isplitl [Ho15]
      · iexact Ho15
      · ipureintro; exact chunk_ok d L 15 fi ft f0 fo hidx _ _ _ _ _ _ rfl
    isplitl [Ho16]
    · iexists _; isplitl [Ho16]
      · iexact Ho16
      · ipureintro; exact chunk_ok d L 16 fi ft f0 fo hidx _ _ _ _ _ _ rfl
    isplitl [Ho17]
    · iexists _; isplitl [Ho17]
      · iexact Ho17
      · ipureintro; exact chunk_ok d L 17 fi ft f0 fo hidx _ _ _ _ _ _ rfl
    isplitl [Ho18]
    · iexists _; isplitl [Ho18]
      · iexact Ho18
      · ipureintro; exact chunk_ok d L 18 fi ft f0 fo hidx _ _ _ _ _ _ rfl
    isplitl [Ho19]
    · iexists _; isplitl [Ho19]
      · iexact Ho19
      · ipureintro; exact chunk_ok d L 19 fi ft f0 fo hidx _ _ _ _ _ _ rfl
    isplitl [Ho20]
    · iexists _; isplitl [Ho20]
      · iexact Ho20
      · ipureintro; exact chunk_ok d L 20 fi ft f0 fo hidx _ _ _ _ _ _ rfl
    isplitl [Ho21]
    · iexists _; isplitl [Ho21]
      · iexact Ho21
      · ipureintro; exact chunk_ok d L 21 fi ft f0 fo hidx _ _ _ _ _ _ rfl
    isplitl [Ho22]
    · iexists _; isplitl [Ho22]
      · iexact Ho22
      · ipureintro; exact chunk_ok d L 22 fi ft f0 fo hidx _ _ _ _ _ _ rfl
    isplitl [Ho23]
    · iexists _; isplitl [Ho23]
      · iexact Ho23
      · ipureintro; exact chunk_ok d L 23 fi ft f0 fo hidx _ _ _ _ _ _ rfl
    isplitl [Ho24]
    · iexists _; isplitl [Ho24]
      · iexact Ho24
      · ipureintro; exact chunk_ok d L 24 fi ft f0 fo hidx _ _ _ _ _ _ rfl
    isplitl [Ho25]
    · iexists _; isplitl [Ho25]
      · iexact Ho25
      · ipureintro; exact chunk_ok d L 25 fi ft f0 fo hidx _ _ _ _ _ _ rfl
    isplitl [Ho26]
    · iexists _; isplitl [Ho26]
      · iexact Ho26
      · ipureintro; exact chunk_ok d L 26 fi ft f0 fo hidx _ _ _ _ _ _ rfl
    isplitl [Ho27]
    · iexists _; isplitl [Ho27]
      · iexact Ho27
      · ipureintro; exact chunk_ok d L 27 fi ft f0 fo hidx _ _ _ _ _ _ rfl
    isplitl [Ho28]
    · iexists _; isplitl [Ho28]
      · iexact Ho28
      · ipureintro; exact chunk_ok d L 28 fi ft f0 fo hidx _ _ _ _ _ _ rfl
    isplitl [Ho29]
    · iexists _; isplitl [Ho29]
      · iexact Ho29
      · ipureintro; exact chunk_ok d L 29 fi ft f0 fo hidx _ _ _ _ _ _ rfl
    isplitl [Ho30]
    · iexists _; isplitl [Ho30]
      · iexact Ho30
      · ipureintro; exact chunk_ok d L 30 fi ft f0 fo hidx _ _ _ _ _ _ rfl
    isplitl [Ho31]
    · iexists _; isplitl [Ho31]
      · iexact Ho31
      · ipureintro; exact chunk_ok d L 31 fi ft f0 fo hidx _ _ _ _ _ _ rfl
    isplitl [Ho32]
    · iexists _; isplitl [Ho32]
      · iexact Ho32
      · ipureintro; exact chunk_ok d L 32 fi ft f0 fo hidx _ _ _ _ _ _ rfl
    isplitl [Ho33]
    · iexists _; isplitl [Ho33]
      · iexact Ho33
      · ipureintro; exact chunk_ok d L 33 fi ft f0 fo hidx _ _ _ _ _ _ rfl
    isplitl [Ho34]
    · iexists _; isplitl [Ho34]
      · iexact Ho34
      · ipureintro; exact chunk_ok d L 34 fi ft f0 fo hidx _ _ _ _ _ _ rfl
    isplitl [Ho35]
    · iexists _; isplitl [Ho35]
      · iexact Ho35
      · ipureintro; exact chunk_ok d L 35 fi ft f0 fo hidx _ _ _ _ _ _ rfl
    isplitl [Ho36]
    · iexists _; isplitl [Ho36]
      · iexact Ho36
      · ipureintro; exact chunk_ok d L 36 fi ft f0 fo hidx _ _ _ _ _ _ rfl
    isplitl [Ho37]
    · iexists _; isplitl [Ho37]
      · iexact Ho37
      · ipureintro; exact chunk_ok d L 37 fi ft f0 fo hidx _ _ _ _ _ _ rfl
    isplitl [Ho38]
    · iexists _; isplitl [Ho38]
      · iexact Ho38
      · ipureintro; exact chunk_ok d L 38 fi ft f0 fo hidx _ _ _ _ _ _ rfl
    isplitl [Ho39]
    · iexists _; isplitl [Ho39]
      · iexact Ho39
      · ipureintro; exact chunk_ok d L 39 fi ft f0 fo hidx _ _ _ _ _ _ rfl
    isplitl [Ho40]
    · iexists _; isplitl [Ho40]
      · iexact Ho40
      · ipureintro; exact chunk_ok d L 40 fi ft f0 fo hidx _ _ _ _ _ _ rfl
    isplitl [Ho41]
    · iexists _; isplitl [Ho41]
      · iexact Ho41
      · ipureintro; exact chunk_ok d L 41 fi ft f0 fo hidx _ _ _ _ _ _ rfl
    isplitl [Ho42]
    · iexists _; isplitl [Ho42]
      · iexact Ho42
      · ipureintro; exact chunk_ok d L 42 fi ft f0 fo hidx _ _ _ _ _ _ rfl
    isplitl [Ho43]
    · iexists _; isplitl [Ho43]
      · iexact Ho43
      · ipureintro; exact chunk_ok d L 43 fi ft f0 fo hidx _ _ _ _ _ _ rfl
    isplitl [Ho44]
    · iexists _; isplitl [Ho44]
      · iexact Ho44
      · ipureintro; exact chunk_ok d L 44 fi ft f0 fo hidx _ _ _ _ _ _ rfl
    isplitl [Ho45]
    · iexists _; isplitl [Ho45]
      · iexact Ho45
      · ipureintro; exact chunk_ok d L 45 fi ft f0 fo hidx _ _ _ _ _ _ rfl
    isplitl [Ho46]
    · iexists _; isplitl [Ho46]
      · iexact Ho46
      · ipureintro; exact chunk_ok d L 46 fi ft f0 fo hidx _ _ _ _ _ _ rfl
    isplitl [Ho47]
    · iexists _; isplitl [Ho47]
      · iexact Ho47
      · ipureintro; exact chunk_ok d L 47 fi ft f0 fo hidx _ _ _ _ _ _ rfl
    isplitl [Ho48]
    · iexists _; isplitl [Ho48]
      · iexact Ho48
      · ipureintro; exact chunk_ok d L 48 fi ft f0 fo hidx _ _ _ _ _ _ rfl
    · iexists _; isplitl [Ho49]
      · iexact Ho49
      · ipureintro; exact chunk_ok d L 49 fi ft f0 fo hidx _ _ _ _ _ _ rfl
  isplitl [Hl0 Hl1 Hl2 Hl3 Hl4 Hl5 Hl6 Hl7 Hl8 Hl9 Hl10 Hl11 Hl12 Hl13 Hl14 Hl15 Hl16 Hl17 Hl18 Hl19 Hl20 Hl21 Hl22 Hl23 Hl24 Hl25 Hl26 Hl27 Hl28 Hl29 Hl30 Hl31 Hl32 Hl33 Hl34 Hl35 Hl36 Hl37 Hl38 Hl39 Hl40 Hl41 Hl42 Hl43 Hl44 Hl45 Hl46 Hl47 Hl48 Hl49]
  · iexists (View.write (Elt F) (s0W).view f0 (tile_run.sl.dma0 d L fi) Finset.univ)
    iapply (Entails.of_eq (list_chain (F := F) d L fullShare _).symm)
    isplitl [Hl0]; · iexact Hl0
    isplitl [Hl1]; · iexact Hl1
    isplitl [Hl2]; · iexact Hl2
    isplitl [Hl3]; · iexact Hl3
    isplitl [Hl4]; · iexact Hl4
    isplitl [Hl5]; · iexact Hl5
    isplitl [Hl6]; · iexact Hl6
    isplitl [Hl7]; · iexact Hl7
    isplitl [Hl8]; · iexact Hl8
    isplitl [Hl9]; · iexact Hl9
    isplitl [Hl10]; · iexact Hl10
    isplitl [Hl11]; · iexact Hl11
    isplitl [Hl12]; · iexact Hl12
    isplitl [Hl13]; · iexact Hl13
    isplitl [Hl14]; · iexact Hl14
    isplitl [Hl15]; · iexact Hl15
    isplitl [Hl16]; · iexact Hl16
    isplitl [Hl17]; · iexact Hl17
    isplitl [Hl18]; · iexact Hl18
    isplitl [Hl19]; · iexact Hl19
    isplitl [Hl20]; · iexact Hl20
    isplitl [Hl21]; · iexact Hl21
    isplitl [Hl22]; · iexact Hl22
    isplitl [Hl23]; · iexact Hl23
    isplitl [Hl24]; · iexact Hl24
    isplitl [Hl25]; · iexact Hl25
    isplitl [Hl26]; · iexact Hl26
    isplitl [Hl27]; · iexact Hl27
    isplitl [Hl28]; · iexact Hl28
    isplitl [Hl29]; · iexact Hl29
    isplitl [Hl30]; · iexact Hl30
    isplitl [Hl31]; · iexact Hl31
    isplitl [Hl32]; · iexact Hl32
    isplitl [Hl33]; · iexact Hl33
    isplitl [Hl34]; · iexact Hl34
    isplitl [Hl35]; · iexact Hl35
    isplitl [Hl36]; · iexact Hl36
    isplitl [Hl37]; · iexact Hl37
    isplitl [Hl38]; · iexact Hl38
    isplitl [Hl39]; · iexact Hl39
    isplitl [Hl40]; · iexact Hl40
    isplitl [Hl41]; · iexact Hl41
    isplitl [Hl42]; · iexact Hl42
    isplitl [Hl43]; · iexact Hl43
    isplitl [Hl44]; · iexact Hl44
    isplitl [Hl45]; · iexact Hl45
    isplitl [Hl46]; · iexact Hl46
    isplitl [Hl47]; · iexact Hl47
    isplitl [Hl48]; · iexact Hl48
    iexact Hl49
  isplitl [Hs1]
  · iexists _; iexact Hs1
  isplitl [Hs2]
  · iexists _; iexact Hs2
  isplitl [Hc0 Hc1 Hc2 Hc3 Hc4 Hc5 Hc6 Hc7 Hc8 Hc9 Hc10 Hc11 Hc12 Hc13 Hc14 Hc15 Hc16 Hc17 Hc18 Hc19 Hc20 Hc21 Hc22 Hc23 Hc24 Hc25 Hc26 Hc27 Hc28 Hc29 Hc30 Hc31 Hc32 Hc33 Hc34 Hc35 Hc36 Hc37 Hc38 Hc39 Hc40 Hc41 Hc42 Hc43 Hc44 Hc45 Hc46 Hc47 Hc48 Hc49 Hc50 Hc51 Hc52 Hc53 Hc54 Hc55 Hc56]
  · rw [sem_chain']
    isplitl [Hc0]; · iexact Hc0
    isplitl [Hc1]; · iexact Hc1
    isplitl [Hc2]; · iexact Hc2
    isplitl [Hc3]; · iexact Hc3
    isplitl [Hc4]; · iexact Hc4
    isplitl [Hc5]; · iexact Hc5
    isplitl [Hc6]; · iexact Hc6
    isplitl [Hc7]; · iexact Hc7
    isplitl [Hc8]; · iexact Hc8
    isplitl [Hc9]; · iexact Hc9
    isplitl [Hc10]; · iexact Hc10
    isplitl [Hc11]; · iexact Hc11
    isplitl [Hc12]; · iexact Hc12
    isplitl [Hc13]; · iexact Hc13
    isplitl [Hc14]; · iexact Hc14
    isplitl [Hc15]; · iexact Hc15
    isplitl [Hc16]; · iexact Hc16
    isplitl [Hc17]; · iexact Hc17
    isplitl [Hc18]; · iexact Hc18
    isplitl [Hc19]; · iexact Hc19
    isplitl [Hc20]; · iexact Hc20
    isplitl [Hc21]; · iexact Hc21
    isplitl [Hc22]; · iexact Hc22
    isplitl [Hc23]; · iexact Hc23
    isplitl [Hc24]; · iexact Hc24
    isplitl [Hc25]; · iexact Hc25
    isplitl [Hc26]; · iexact Hc26
    isplitl [Hc27]; · iexact Hc27
    isplitl [Hc28]; · iexact Hc28
    isplitl [Hc29]; · iexact Hc29
    isplitl [Hc30]; · iexact Hc30
    isplitl [Hc31]; · iexact Hc31
    isplitl [Hc32]; · iexact Hc32
    isplitl [Hc33]; · iexact Hc33
    isplitl [Hc34]; · iexact Hc34
    isplitl [Hc35]; · iexact Hc35
    isplitl [Hc36]; · iexact Hc36
    isplitl [Hc37]; · iexact Hc37
    isplitl [Hc38]; · iexact Hc38
    isplitl [Hc39]; · iexact Hc39
    isplitl [Hc40]; · iexact Hc40
    isplitl [Hc41]; · iexact Hc41
    isplitl [Hc42]; · iexact Hc42
    isplitl [Hc43]; · iexact Hc43
    isplitl [Hc44]; · iexact Hc44
    isplitl [Hc45]; · iexact Hc45
    isplitl [Hc46]; · iexact Hc46
    isplitl [Hc47]; · iexact Hc47
    isplitl [Hc48]; · iexact Hc48
    isplitl [Hc49]; · iexact Hc49
    isplitl [Hc50]; · iexact Hc50
    isplitl [Hc51]; · iexact Hc51
    isplitl [Hc52]; · iexact Hc52
    isplitl [Hc53]; · iexact Hc53
    isplitl [Hc54]; · iexact Hc54
    isplitl [Hc55]; · iexact Hc55
    iexact Hc56
  isplitl [HO]
  · iexists _; isplitr
    swap
    · iexact HO
    · ipureintro
      repeat (first | exact fun p hp => Or.inl hp | refine W_ins _ ?_)
  isplitl [HR]
  · iexact HR
  isplitl [Hi]
  · iexact Hi
  isplitl [Ht1]
  · iexact Ht1
  iexact Ht2

end Cert.Proof.KB

end
-- ==== Proof.TileGoodKB.lean ====
/-
  From a chunk that is right in the tile's coordinates to the statement the launch asks for: on the chunk's entries, the
  first 100 columns hold the table's rows that the row-number list names.
-/
import proofs.«208090_g83872121356401_cont_sun_m_474_43_alg».proof.Proof.PayKB
import proofs.«208090_g83872121356401_cont_sun_m_474_43_alg».proof.Proof.LibRowBlocks
import proofs.«208090_g83872121356401_cont_sun_m_474_43_alg».proof.Proof.LibWindows
import proofs.«208090_g83872121356401_cont_sun_m_474_43_alg».proof.Proof.TileValKB

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iW" => (Memref.whole Cert.Kernel.main_v1_scv : Memref Cert.Kernel.sig Kind.scVector Space.hbm Cert.Kernel.S204800 EltTy.i32)
local notation "tW" => (Memref.whole Cert.Kernel.main_v2_scv : Memref Cert.Kernel.sig Kind.scVector Space.hbm Cert.Kernel.S1000000x128 EltTy.f32)
local notation "oW" => (Memref.whole Cert.Kernel.main_v3_scv : Memref Cert.Kernel.sig Kind.scVector Space.hbm Cert.Kernel.S204800x128 EltTy.f32)
local notation "s0W" => (Memref.whole Cert.Kernel.cc1_scratch0 : Memref Cert.Kernel.sig Kind.scVector Space.vmem Cert.Kernel.S6400 EltTy.i32)
local notation "s1W" => (Memref.whole Cert.Kernel.cc1_scratch1 : Memref Cert.Kernel.sig Kind.scVector Space.vmem Cert.Kernel.S128x128 EltTy.f32)
local notation "s2W" => (Memref.whole Cert.Kernel.cc1_scratch2 : Memref Cert.Kernel.sig Kind.scVector Space.vmem Cert.Kernel.S128x128 EltTy.f32)

/-- The tile's run of the list reads the list at `6400 w + k`. -/
theorem idxWin_read (L : grid1.Coords) (fi : S204800.Idx → BitVec 32) (k : Fin 6400) (hk : 6400 * wOf L + k.val < 204800) :
    (idxWin L).view.read (Elt F) fi (ix1 k) = fi (ix1 ⟨6400 * wOf L + k.val, hk⟩) :=
  Windows.read_blkWin1 (Val := Elt F) (iW) (6400 * wOf L) (k1_off1_inb L) (off1_zero L) fi k hk

/-- The padded table as the gathers slice it reads the padded table. -/
theorem tabWin_read (fp : S1000000x128.Idx → Elt F .f32) (r : Fin 1000000) (c : Fin 128) :
    (tabWin).view.read (Elt F) fp (ix2 r c) = fp (ix2 r c) := by
  have h := RowBlocks.read_blkWin2 (Val := Elt F) (tW) 0 inb_S1000000x128_S1000000x128_0_0 rfl rfl fp r c (by have := r.isLt; omega)
  rw [h]
  show fp (ix2 ⟨0 + r.val, _⟩ c) = fp (ix2 r c)
  congr 2
  exact Fin.ext (Nat.zero_add _)

/-- Chunk `r` read at `(a, c)` is the result at row `128 (50 w + r) + a`. -/
theorem outWinR_read (L : grid1.Coords) (r : Fin 50) (f : S204800x128.Idx → Elt F .f32) (a c : Fin 128)
    (ha : 128 * (50 * wOf L + r.val) + a.val < 204800) :
    (outWinR L r).view.read (Elt F) f (ix2 a c) = f (ix2 ⟨128 * (50 * wOf L + r.val) + a.val, ha⟩ c) :=
  RowBlocks.read_blkWin2 (Val := Elt F) (oW) (128 * (50 * wOf L + r.val)) (k1_off2_inb L r) (off2_zero L r) (off2_one L r) f a c ha

theorem wOf_lt (L : grid1.Coords) : wOf L < 32 := by
  have h0 : (L 0).val < 2 := (L 0).isLt
  have h1 : (L 1).val < 16 := (L 1).isLt
  show 2 * (L 1).val + (L 0).val < 32
  omega

/-- A chunk that is right in the tile's coordinates is right on its entries. -/
theorem chunk_good (d : Dev nD) (L : grid1.Coords) (r : Fin 50) (fi : S204800.Idx → BitVec 32)
    (ft0 : S1000000x100.Idx → Elt F .f32) (fp : S1000000x128.Idx → Elt F .f32) (hpad : PadOK ft0 fp)
    (f : S204800x128.Idx → Elt F .f32) (hok : ChunkOK d L r fi fp f) :
    ∀ y ∈ chunkSet (50 * wOf L + r.val), GoodAt fi ft0 f y := by
  intro y hy hc
  unfold chunkSet at hy
  rw [Finset.mem_filter] at hy
  obtain ⟨-, hlo, hhi⟩ := hy
  have hw := wOf_lt L
  have hr := r.isLt
  have hy1 : (y 1).val < 128 := (y 1).isLt
  have hya : (y 0).val - 128 * (50 * wOf L + r.val) < 128 := by omega
  have h := hok ⟨(y 0).val - 128 * (50 * wOf L + r.val), hya⟩ ⟨(y 1).val, hy1⟩
  rw [outWinR_read L r f _ _ (by show 128 * (50 * wOf L + r.val) + ((y 0).val - 128 * (50 * wOf L + r.val)) < 204800; omega),
    idxWin_read L fi ⟨128 * r.val + ((y 0).val - 128 * (50 * wOf L + r.val)), by omega⟩
      (by show 6400 * wOf L + (128 * r.val + ((y 0).val - 128 * (50 * wOf L + r.val))) < 204800; omega),
    tabWin_read] at h
  have e0 : (ix2 ⟨128 * (50 * wOf L + r.val) + ((y 0).val - 128 * (50 * wOf L + r.val)), by omega⟩ ⟨(y 1).val, hy1⟩ : S204800x128.Idx) = y := by
    funext b
    refine Fin.ext ?_
    match b with
    | ⟨0, _⟩ => show 128 * (50 * wOf L + r.val) + ((y 0).val - 128 * (50 * wOf L + r.val)) = (y 0).val; omega
    | ⟨1, _⟩ => rfl
  have e1 : (ix1 ⟨6400 * wOf L + (128 * r.val + ((y 0).val - 128 * (50 * wOf L + r.val))), by omega⟩ : S204800.Idx) = ix1 (y 0) := by
    funext b
    refine Fin.ext ?_
    match b with
    | ⟨0, _⟩ => show 6400 * wOf L + (128 * r.val + ((y 0).val - 128 * (50 * wOf L + r.val))) = (y 0).val; omega
  rw [e0, e1] at h
  rw [h]
  exact hpad _ ⟨(y 1).val, hc⟩

end Cert.Proof.KB

end
-- ==== Proof.TileOblKB.lean ====
/-
  The tiles' obligation to the launch: from what a tile is handed to what it hands back, by the tile's run.
-/
import proofs.«208090_g83872121356401_cont_sun_m_474_43_alg».proof.Proof.PayKB
import proofs.«208090_g83872121356401_cont_sun_m_474_43_alg».proof.Proof.LibRowBlocks
import proofs.«208090_g83872121356401_cont_sun_m_474_43_alg».proof.Proof.LibWindows
import proofs.«208090_g83872121356401_cont_sun_m_474_43_alg».proof.Proof.TileRunKB
import proofs.«208090_g83872121356401_cont_sun_m_474_43_alg».proof.Proof.TileGoodKB
import proofs.«208090_g83872121356401_cont_sun_m_474_43_alg».proof.Proof.PreKB

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iW" => (Memref.whole Cert.Kernel.main_v1_scv : Memref Cert.Kernel.sig Kind.scVector Space.hbm Cert.Kernel.S204800 EltTy.i32)
local notation "tW" => (Memref.whole Cert.Kernel.main_v2_scv : Memref Cert.Kernel.sig Kind.scVector Space.hbm Cert.Kernel.S1000000x128 EltTy.f32)
local notation "oW" => (Memref.whole Cert.Kernel.main_v3_scv : Memref Cert.Kernel.sig Kind.scVector Space.hbm Cert.Kernel.S204800x128 EltTy.f32)
local notation "s0W" => (Memref.whole Cert.Kernel.cc1_scratch0 : Memref Cert.Kernel.sig Kind.scVector Space.vmem Cert.Kernel.S6400 EltTy.i32)
local notation "s1W" => (Memref.whole Cert.Kernel.cc1_scratch1 : Memref Cert.Kernel.sig Kind.scVector Space.vmem Cert.Kernel.S128x128 EltTy.f32)
local notation "s2W" => (Memref.whole Cert.Kernel.cc1_scratch2 : Memref Cert.Kernel.sig Kind.scVector Space.vmem Cert.Kernel.S128x128 EltTy.f32)

variable [FloatOps F] (m : (ℓ : Loc nD τ sig) → Buf (Elt F) ℓ)

/-- The tile's own buffers other than its three scratch buffers. -/
def bufsRest (d : Dev nD) (c : Fin τ.nSC) (i : Fin τ.nSub) : sProp 𝕄 :=
  bigSep ((((ownRefs (τ := τ) (.scVector c i)).erase ((Proc.scVector c i).devRef cc1_scratch0)).erase
      ((Proc.scVector c i).devRef cc1_scratch1)).erase ((Proc.scVector c i).devRef cc1_scratch2))
    fun b => iprop(∃ f, ((d, b) : Loc nD τ sig) ↦{fullShare} f)

omit [FloatOps F] in
theorem ownBufs_tile' (d : Dev nD) (c : Fin τ.nSC) (i : Fin τ.nSub) :
    (ownBufs (V d c i) : sProp 𝕄)
      = iprop((∃ f, (V d c i).loc cc1_scratch0 ↦{fullShare} f) ∗ (∃ f, (V d c i).loc cc1_scratch1 ↦{fullShare} f)
          ∗ (∃ f, (V d c i).loc cc1_scratch2 ↦{fullShare} f) ∗ bufsRest d c i) := ownBufs_tile d c i

/-- One chunk right in the tile's coordinates is one chunk of what the launch is handed back. -/
theorem chunk_td (d : Dev nD) (L : grid1.Coords) (r : Fin 50) (fp : S1000000x128.Idx → Elt F .f32) (hpad : PadOK (m (a1Loc d)) fp) :
    (iprop(∃ f, ((outWinR L r).view.loc (thr d L) ↦[(outWinR L r).view.set]{fullShare} f)
        ∗ ⌜ChunkOK d L r (idxArr (m (a0Loc d))) fp f⌝) : sProp 𝕄)
      ⊢ iprop(∃ f, ⌜∀ x ∈ chunkSet (50 * (2 * (L 1).val + (L 0).val) + r.val), GoodAt (idxArr (m (a0Loc d))) (m (a1Loc d)) f x⌝
        ∗ oLoc d ↦[chunkSet (50 * (2 * (L 1).val + (L 0).val) + r.val)]{fullShare} f) := by
  iintro ⟨%f, H, %hok⟩
  iexists f
  isplitr
  · ipureintro; exact chunk_good d L r _ _ fp hpad f hok
  · iapply (Entails.of_eq (out_pts (F := F) d L r fullShare f).symm); iexact H

/-- Chunks right in the tile's coordinates are what the launch is handed back. -/
theorem td_of_ok (d : Dev nD) (L : grid1.Coords) (fp : S1000000x128.Idx → Elt F .f32) (hpad : PadOK (m (a1Loc d)) fp) :
    okChain d L (idxArr (m (a0Loc d))) fp ⊢ tdRes m d (L 0).val (L 1).val := by
  unfold okChain tdRes
  exact bigSep_mono fun r _ => chunk_td m d L r fp hpad

/-- The tile's task, from the launch's hand to the launch's hand. -/
theorem tile_body (hpre : PreOK m) (d : Dev nD) (L : grid1.Coords) (O : CellTallies nD τ sig (HIx 1)) (W : Waits sig (HIx 1))
    (hO : ∀ g, O g none = 0) :
    iprop((levAts (K (F := F)).L (K (F := F)).lev : sProp 𝕄) ∗ emp ∗ tileRes m d (L 0).val (L 1).val
        ∗ scopedBufs (thr d L) ∗ scopedSems0 (thr d L) ∗ owes (thr d L) O W)
      ⊢ wp frame (wpE (defs₀ (F := F)) 𝒱₀ (thr d L) none) Set.univ
          (cc1__gather_kernel L iW (Memref.isWhole_whole _) tW (Memref.isWhole_whole _) oW (Memref.isWhole_whole _)
            s0W (Memref.isWhole_whole _) s1W (Memref.isWhole_whole _) s2W (Memref.isWhole_whole _) cc1_scratch3 cc1_scratch4 cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16 cc1_scoped17 cc1_scoped18 cc1_scoped19 cc1_scoped20 cc1_scoped21 cc1_scoped22 cc1_scoped23 cc1_scoped24 cc1_scoped25 cc1_scoped26 cc1_scoped27 cc1_scoped28 cc1_scoped29 cc1_scoped30 cc1_scoped31 cc1_scoped32 cc1_scoped33 cc1_scoped34 cc1_scoped35 cc1_scoped36 cc1_scoped37 cc1_scoped38 cc1_scoped39 cc1_scoped40 cc1_scoped41 cc1_scoped42 cc1_scoped43 cc1_scoped44 cc1_scoped45 cc1_scoped46 cc1_scoped47 cc1_scoped48 cc1_scoped49 cc1_scoped50)
          fun _ => iprop(tdRes m d (L 0).val (L 1).val ∗ scopedBufs (thr d L) ∗ scopedSems0 (thr d L)
            ∗ ∃ W', ⌜∀ p ∈ W', p ∈ W ∨ p.2 = none⌝ ∗ owes (thr d L) O W') := by
  rw [cc1__gather_kernel_eq_skeleton]
  rw [(K (F := F)).scopedBufs_V facts d (cV L) (jV L), SparseCore.Cfg.scopedSems0_V (Val := Elt F) d (cV L) (jV L), ownBufs_tile']
  unfold tileRes
  iintro ⟨#Hlv, -, ⟨Hi, ⟨%fp, %hpad, Ht⟩, Hob⟩, ⟨⟨%f0, Hs0⟩, ⟨%f1, Hs1⟩, ⟨%f2, Hs2⟩, Hbufs⟩, Hsems, HO⟩
  ihave Hi' := (Entails.of_eq (idx_pts (F := F) d L fullShare _)) $$ Hi
  ihave Ht' := (pointsTo_share (PosShare.mem_left_op_right (shareOf (wOf L)))).1 $$ Ht
  icases Ht' with ⟨Ht1, Ht2⟩
  ihave Hob' := (Entails.of_eq (out_chain (F := F) d L fullShare _)) $$ Hob
  ihave Hsems' := (Entails.of_eq (sem_chain (F := F) d L)) $$ Hsems
  icases Hob' with ⟨Ho0, Ho1, Ho2, Ho3, Ho4, Ho5, Ho6, Ho7, Ho8, Ho9, Ho10, Ho11, Ho12, Ho13, Ho14, Ho15, Ho16, Ho17, Ho18, Ho19, Ho20, Ho21, Ho22, Ho23, Ho24, Ho25, Ho26, Ho27, Ho28, Ho29, Ho30, Ho31, Ho32, Ho33, Ho34, Ho35, Ho36, Ho37, Ho38, Ho39, Ho40, Ho41, Ho42, Ho43, Ho44, Ho45, Ho46, Ho47, Ho48, Ho49⟩
  icases Hsems' with ⟨Hc0, Hc1, Hc2, Hc3, Hc4, Hc5, Hc6, Hc7, Hc8, Hc9, Hc10, Hc11, Hc12, Hc13, Hc14, Hc15, Hc16, Hc17, Hc18, Hc19, Hc20, Hc21, Hc22, Hc23, Hc24, Hc25, Hc26, Hc27, Hc28, Hc29, Hc30, Hc31, Hc32, Hc33, Hc34, Hc35, Hc36, Hc37, Hc38, Hc39, Hc40, Hc41, Hc42, Hc43, Hc44, Hc45, Hc46, Hc47, Hc48, Hc49, Hc50, Hc51, Hc52, Hc53, Hc54, Hc55, Hc56⟩
  iapply ((tile_run (F := F) d L O W hO (shareOf (wOf L)).left (shareOf (wOf L)).right (idxArr (m (a0Loc d))) fp f0 f1 f2 (m (oLoc d))
      (fun k => idxArr_le hpre d _) (bufsRest d (cV L) (jV L))).trans (wp_mono frame _ _ fun _ => ?post)) $$ [Hi' Ht1 Ht2 Hs0 Hs1 Hs2 Ho0 Ho1 Ho2 Ho3 Ho4 Ho5 Ho6 Ho7 Ho8 Ho9 Ho10 Ho11 Ho12 Ho13 Ho14 Ho15 Ho16 Ho17 Ho18 Ho19 Ho20 Ho21 Ho22 Ho23 Ho24 Ho25 Ho26 Ho27 Ho28 Ho29 Ho30 Ho31 Ho32 Ho33 Ho34 Ho35 Ho36 Ho37 Ho38 Ho39 Ho40 Ho41 Ho42 Ho43 Ho44 Ho45 Ho46 Ho47 Ho48 Ho49 Hc0 Hc1 Hc2 Hc3 Hc4 Hc5 Hc6 Hc7 Hc8 Hc9 Hc10 Hc11 Hc12 Hc13 Hc14 Hc15 Hc16 Hc17 Hc18 Hc19 Hc20 Hc21 Hc22 Hc23 Hc24 Hc25 Hc26 Hc27 Hc28 Hc29 Hc30 Hc31 Hc32 Hc33 Hc34 Hc35 Hc36 Hc37 Hc38 Hc39 Hc40 Hc41 Hc42 Hc43 Hc44 Hc45 Hc46 Hc47 Hc48 Hc49 Hc50 Hc51 Hc52 Hc53 Hc54 Hc55 Hc56 HO Hbufs]
  case post =>
    iintro ⟨Hok, Hs0, Hs1, Hs2, Hsems, HO, HR, -, -, -⟩
    isplitl [Hok]
    · iapply (td_of_ok m d L fp hpad); iexact Hok
    isplitl [Hs0 Hs1 Hs2 HR]
    · isplitl [Hs0]; · iexact Hs0
      isplitl [Hs1]; · iexact Hs1
      isplitl [Hs2]; · iexact Hs2
      iexact HR
    isplitl [Hsems]
    · iexact Hsems
    iexact HO
  isplitr [Hbufs]
  · isplitr; · iexact Hlv
    isplitl [Hi']; · iexact Hi'
    isplitl [Ht1]; · iexact Ht1
    isplitl [Ht2]; · iexact Ht2
    isplitl [Hs0]; · iexact Hs0
    isplitl [Hs1]; · iexact Hs1
    isplitl [Hs2]; · iexact Hs2
    isplitl [Ho0]; · iexact Ho0
    isplitl [Ho1]; · iexact Ho1
    isplitl [Ho2]; · iexact Ho2
    isplitl [Ho3]; · iexact Ho3
    isplitl [Ho4]; · iexact Ho4
    isplitl [Ho5]; · iexact Ho5
    isplitl [Ho6]; · iexact Ho6
    isplitl [Ho7]; · iexact Ho7
    isplitl [Ho8]; · iexact Ho8
    isplitl [Ho9]; · iexact Ho9
    isplitl [Ho10]; · iexact Ho10
    isplitl [Ho11]; · iexact Ho11
    isplitl [Ho12]; · iexact Ho12
    isplitl [Ho13]; · iexact Ho13
    isplitl [Ho14]; · iexact Ho14
    isplitl [Ho15]; · iexact Ho15
    isplitl [Ho16]; · iexact Ho16
    isplitl [Ho17]; · iexact Ho17
    isplitl [Ho18]; · iexact Ho18
    isplitl [Ho19]; · iexact Ho19
    isplitl [Ho20]; · iexact Ho20
    isplitl [Ho21]; · iexact Ho21
    isplitl [Ho22]; · iexact Ho22
    isplitl [Ho23]; · iexact Ho23
    isplitl [Ho24]; · iexact Ho24
    isplitl [Ho25]; · iexact Ho25
    isplitl [Ho26]; · iexact Ho26
    isplitl [Ho27]; · iexact Ho27
    isplitl [Ho28]; · iexact Ho28
    isplitl [Ho29]; · iexact Ho29
    isplitl [Ho30]; · iexact Ho30
    isplitl [Ho31]; · iexact Ho31
    isplitl [Ho32]; · iexact Ho32
    isplitl [Ho33]; · iexact Ho33
    isplitl [Ho34]; · iexact Ho34
    isplitl [Ho35]; · iexact Ho35
    isplitl [Ho36]; · iexact Ho36
    isplitl [Ho37]; · iexact Ho37
    isplitl [Ho38]; · iexact Ho38
    isplitl [Ho39]; · iexact Ho39
    isplitl [Ho40]; · iexact Ho40
    isplitl [Ho41]; · iexact Ho41
    isplitl [Ho42]; · iexact Ho42
    isplitl [Ho43]; · iexact Ho43
    isplitl [Ho44]; · iexact Ho44
    isplitl [Ho45]; · iexact Ho45
    isplitl [Ho46]; · iexact Ho46
    isplitl [Ho47]; · iexact Ho47
    isplitl [Ho48]; · iexact Ho48
    isplitl [Ho49]; · iexact Ho49
    isplitl [Hc0]; · iexact Hc0
    isplitl [Hc1]; · iexact Hc1
    isplitl [Hc2]; · iexact Hc2
    isplitl [Hc3]; · iexact Hc3
    isplitl [Hc4]; · iexact Hc4
    isplitl [Hc5]; · iexact Hc5
    isplitl [Hc6]; · iexact Hc6
    isplitl [Hc7]; · iexact Hc7
    isplitl [Hc8]; · iexact Hc8
    isplitl [Hc9]; · iexact Hc9
    isplitl [Hc10]; · iexact Hc10
    isplitl [Hc11]; · iexact Hc11
    isplitl [Hc12]; · iexact Hc12
    isplitl [Hc13]; · iexact Hc13
    isplitl [Hc14]; · iexact Hc14
    isplitl [Hc15]; · iexact Hc15
    isplitl [Hc16]; · iexact Hc16
    isplitl [Hc17]; · iexact Hc17
    isplitl [Hc18]; · iexact Hc18
    isplitl [Hc19]; · iexact Hc19
    isplitl [Hc20]; · iexact Hc20
    isplitl [Hc21]; · iexact Hc21
    isplitl [Hc22]; · iexact Hc22
    isplitl [Hc23]; · iexact Hc23
    isplitl [Hc24]; · iexact Hc24
    isplitl [Hc25]; · iexact Hc25
    isplitl [Hc26]; · iexact Hc26
    isplitl [Hc27]; · iexact Hc27
    isplitl [Hc28]; · iexact Hc28
    isplitl [Hc29]; · iexact Hc29
    isplitl [Hc30]; · iexact Hc30
    isplitl [Hc31]; · iexact Hc31
    isplitl [Hc32]; · iexact Hc32
    isplitl [Hc33]; · iexact Hc33
    isplitl [Hc34]; · iexact Hc34
    isplitl [Hc35]; · iexact Hc35
    isplitl [Hc36]; · iexact Hc36
    isplitl [Hc37]; · iexact Hc37
    isplitl [Hc38]; · iexact Hc38
    isplitl [Hc39]; · iexact Hc39
    isplitl [Hc40]; · iexact Hc40
    isplitl [Hc41]; · iexact Hc41
    isplitl [Hc42]; · iexact Hc42
    isplitl [Hc43]; · iexact Hc43
    isplitl [Hc44]; · iexact Hc44
    isplitl [Hc45]; · iexact Hc45
    isplitl [Hc46]; · iexact Hc46
    isplitl [Hc47]; · iexact Hc47
    isplitl [Hc48]; · iexact Hc48
    isplitl [Hc49]; · iexact Hc49
    isplitl [Hc50]; · iexact Hc50
    isplitl [Hc51]; · iexact Hc51
    isplitl [Hc52]; · iexact Hc52
    isplitl [Hc53]; · iexact Hc53
    isplitl [Hc54]; · iexact Hc54
    isplitl [Hc55]; · iexact Hc55
    isplitl [Hc56]; · iexact Hc56
    iexact HO
  · iexact Hbufs

/-! ## The launch theorem's obligation -/

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1__gather_kernel (coordsV c s)
          iW (Memref.isWhole_whole _) tW (Memref.isWhole_whole _) oW (Memref.isWhole_whole _)
          s0W (Memref.isWhole_whole _) s1W (Memref.isWhole_whole _) s2W (Memref.isWhole_whole _) cc1_scratch3 cc1_scratch4 cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16 cc1_scoped17 cc1_scoped18 cc1_scoped19 cc1_scoped20 cc1_scoped21 cc1_scoped22 cc1_scoped23 cc1_scoped24 cc1_scoped25 cc1_scoped26 cc1_scoped27 cc1_scoped28 cc1_scoped29 cc1_scoped30 cc1_scoped31 cc1_scoped32 cc1_scoped33 cc1_scoped34 cc1_scoped35 cc1_scoped36 cc1_scoped37 cc1_scoped38 cc1_scoped39 cc1_scoped40 cc1_scoped41 cc1_scoped42 cc1_scoped43 cc1_scoped44 cc1_scoped45 cc1_scoped46 cc1_scoped47 cc1_scoped48 cc1_scoped49 cc1_scoped50) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hpre : PreOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  exact (tile_body m hpre d (coordsV ⟨_, hc.1⟩ ⟨_, hc.2⟩) O W hO).trans (wp_mono frame _ _ fun _ => obl_post)

end Cert.Proof.KB

end
-- ==== Proof.RefRun.lean ====
/-
  The reference program's run.  Its @main is a straight line of twenty-five array operations once the two
  helper functions are substituted at their calls: the transpose of the index array; the lookup helper's
  twenty-three (the sign test against zero, the index plus the table height, the choice between the two, the
  index as a one-column array, the two bounds tests and their conjunction reduced over the column, the row
  gather, the mask and the fill value broadcast, the final choice); and the insertion of the unit axis.  Every
  execution terminates with the result buffer at the operations' composed term of the two argument arrays,
  and the argument buffers unchanged.
-/
import proofs.«208090_g83872121356401_cont_sun_m_474_43_alg».proof.Proof.Gen.ReferenceIdeal
import Idealize.ShloMosaic.Lib.StableHlo.Run

noncomputable section

namespace Cert.Proof.Ref

open Cert.ReferenceIdeal Cert.ReferenceIdeal.Gen Idealize.ShloMosaic Idealize.ShloMosaic.TcCoe Idealize.SL.Sem Idealize.ShloMosaic.StableHlo

variable {F : FTy → Type} [FloatOps F]

/-- The index array with its axes exchanged, then the helper's adjusted index: where an entry is negative as a
    signed number the table height is added, otherwise the entry is kept. -/
def adjIdx (x : IVec S4096x50 32) : IVec S50x4096 32 :=
  let xt : IVec S50x4096 32 := transpose S50x4096 [1, 0] x transposes_S4096x50_S50x4096_1_0
  select (cmpi .slt xt (broadcastInDim S50x4096 ![] bcast_S_S50x4096 (constantI S_ 32 0#32)))
    (addi xt (broadcastInDim S50x4096 ![] bcast_S_S50x4096 (constantI S_ 32 1000000#32))) xt

/-- The adjusted index as a one-column array: the gather's start indices. -/
def startIdx (x : IVec S4096x50 32) : IVec S50x4096x1 32 :=
  broadcastInDim S50x4096x1 ![0, 1] bcast_S50x4096_S50x4096x1_0_1 (adjIdx x)

/-- The bounds mask: per position, whether the start index lies between 0 and 999999 as a signed number. -/
def inBounds (x : IVec S4096x50 32) : IVec S50x4096 1 :=
  Host.reduce IntOp.andi
    (andi (cmpi .sge (startIdx x) (broadcastInDim S50x4096x1 ![] bcast_S_S50x4096x1 (constantI S_ 32 0#32)))
      (cmpi .sle (startIdx x) (broadcastInDim S50x4096x1 ![0, 1, 2] bcast_S1x1x1_S50x4096x1_0_1_2
        (broadcastInDim S1x1x1 ![2] bcast_S1_S1x1x1_2 (constantI S1 32 999999#32)))))
    (constantI S_ 1 1#1) reducesTo_S50x4096x1_S50x4096_d2 h_S_

/-- The lookup helper's result: the gathered rows where the mask holds, the fill value elsewhere. -/
def taken (x : IVec S4096x50 32) (tab : FVec F S1000000x100 .f32) : FVec F S50x4096x100 .f32 :=
  select (broadcastInDim S50x4096x100 ![0, 1] bcast_S50x4096_S50x4096x100_0_1 (inBounds x))
    (Host.gather gather_S1000000x100_S50x4096x1_S50x4096x100_2_0_n_n_0_2_1100 tab (startIdx x))
    (broadcastInDim S50x4096x100 ![] bcast_S_S50x4096x100 (constant S_ .f32 0x7FC00000#32))

/-- The program's result: the helper's result with a unit axis inserted after the first. -/
def result (x : IVec S4096x50 32) (tab : FVec F S1000000x100 .f32) : FVec F S50x1x4096x100 .f32 :=
  broadcastInDim S50x1x4096x100 ![0, 2, 3] bcast_S50x4096x100_S50x1x4096x100_0_2_3 (taken x tab)

/-- @main's operations in order, the calls substituted. -/
abbrev ops : List (HloOp τ sig (Elt F)) :=
  [ unary main_arg0 main_v0 ((transpose S50x4096 [1, 0] · transposes_S4096x50_S50x4096_1_0) : (⟨S4096x50, .i32⟩ : BufTy).Contents (Elt F) → (⟨S50x4096, .i32⟩ : BufTy).Contents (Elt F)),
    TRef.nullary main_call0.c (constantI S_ 32 0#32),
    TRef.unary main_call0.c main_call0.v0 (broadcastInDim S50x4096 ![] bcast_S_S50x4096),
    TRef.binary (.of main_v0) main_call0.v0 main_call0.v1 (cmpi .slt),
    TRef.nullary main_call0.c_0 (constantI S_ 32 1000000#32),
    TRef.unary main_call0.c_0 main_call0.v2 (broadcastInDim S50x4096 ![] bcast_S_S50x4096),
    TRef.binary (.of main_v0) main_call0.v2 main_call0.v3 addi,
    TRef.ternary main_call0.v1 main_call0.v3 (.of main_v0) main_call0.call0.v0 select,
    TRef.unary main_call0.call0.v0 main_call0.v5 (broadcastInDim S50x4096x1 ![0, 1] bcast_S50x4096_S50x4096x1_0_1),
    TRef.nullary main_call0.c_1 (constantI S1 32 999999#32),
    TRef.nullary main_call0.c_2 (constantI S_ 32 0#32),
    TRef.unary main_call0.c_2 main_call0.v6 (broadcastInDim S50x4096x1 ![] bcast_S_S50x4096x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S50x4096x1 ![0, 1, 2] bcast_S1x1x1_S50x4096x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S50x4096x1_S50x4096_d2 h_S_),
    TRef.binary (.of main_arg1) main_call0.v5 main_call0.v13 (fun x i => Host.gather gather_S1000000x100_S50x4096x1_S50x4096x100_2_0_n_n_0_2_1100 x i),
    TRef.unary main_call0.v12 main_call0.v14 (broadcastInDim S50x4096x100 ![0, 1] bcast_S50x4096_S50x4096x100_0_1),
    TRef.nullary main_call0.cst (constant S_ .f32 0x7FC00000#32),
    TRef.unary main_call0.cst main_call0.v15 (broadcastInDim S50x4096x100 ![] bcast_S_S50x4096x100),
    TRef.ternary main_call0.v14 main_call0.v13 main_call0.v15 main_call0.v16 select,
    unary main_v1 main_v2 (broadcastInDim S50x1x4096x100 ![0, 2, 3] bcast_S50x4096x100_S50x1x4096x100_0_2_3 : (⟨S50x4096x100, .f32⟩ : BufTy).Contents (Elt F) → (⟨S50x1x4096x100, .f32⟩ : BufTy).Contents (Elt F)) ]

set_option maxRecDepth 1024 in
/-- @main is that straight line: the helpers' definitions unfolded at their calls, both sides are one chain of
    steps once sequencing is reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., nullary_bufs_sub .., unary_bufs_sub .., binary_bufs_sub .., nullary_bufs_sub .., unary_bufs_sub ..,
    binary_bufs_sub .., ternary_bufs_sub .., unary_bufs_sub .., nullary_bufs_sub .., nullary_bufs_sub .., unary_bufs_sub ..,
    binary_bufs_sub .., unary_bufs_sub .., unary_bufs_sub .., binary_bufs_sub .., binary_bufs_sub .., nullary_bufs_sub ..,
    binary_bufs_sub .., binary_bufs_sub .., unary_bufs_sub .., nullary_bufs_sub .., unary_bufs_sub .., ternary_bufs_sub ..,
    unary_bufs_sub ..⟩

theorem arg0_eq (V : Valuation τ sig (Elt F)) :
    after ops V (main_arg0 : DevRef τ sig) = V (main_arg0 : DevRef τ sig) := by
  simp only [after_cons, after_nil]
  rfl

theorem arg1_eq (V : Valuation τ sig (Elt F)) :
    after ops V (main_arg1 : DevRef τ sig) = V (main_arg1 : DevRef τ sig) := by
  simp only [after_cons, after_nil]
  rfl

end Cert.Proof.Ref

end
-- ==== Proof.LibGatherRows3.lean ====
/-
  LibGatherRows3 — rows of a two-axis table gathered at a two-axis array of row numbers, read at an index.

  `H[idx]` of a table `H : [N, K]` at an integer array `idx : [R, C]` lowers to a `stablehlo.gather` with offset_dims [2],
  collapsed_slice_dims [0], start_index_map [0], slice_sizes [1, K] and index_vector_dim 2 over the indices as
  `[R, C, 1]`. Result element `(a, b, k)` is `H` at row `idx[a, b, 0]` — read as a signed integer and clamped into
  `[0, N − 1]` — and column `k`. The row is the very entry that the gather of a one-axis table `w : [N]` at the same
  indices reads (`ValueIdx.gather_take_apply`), so a table whose row `r` is a row of `M` scaled by `w r` gathers to
  the gathered rows of `M` scaled by the gathered entries of `w`.
-/
import Idealize.ShloMosaic.Lib.ValueIdx

noncomputable section

namespace Idealize.ShloMosaic.ValueIdx

section Rows3
variable {α : Type}

/-- The dimension numbers of `H[idx]` for a table `[N, K]`, start indices `[R, C, 1]` and result `[R, C, K]`; their
    conditions `wf` are decided on a program's literal shapes. -/
abbrev rowsDims3 (N K R C : Nat)
    (wf : GatherDims.WF ⟨2, ![N, K]⟩ ⟨3, ![R, C, 1]⟩ ⟨3, ![R, C, K]⟩ [2] [0] [] [0] [] 2 ![1, K]) :
    GatherDims ⟨2, ![N, K]⟩ ⟨3, ![R, C, 1]⟩ ⟨3, ![R, C, K]⟩ where
  offsetDims := [2]
  collapsedSliceDims := [0]
  operandBatchingDims := []
  startIndicesBatchingDims := []
  startIndexMap := [0]
  indexVectorDim := 2
  sliceSizes := ![1, K]
  wf := wf

/-- The row number the gathers read for result position `(a, b)`: the start index `idx[a, b, 0]`, signed, clamped
    into `[0, N − 1]`. -/
def takeRow {N R C w : Nat} (hN : 0 < N) (idx : IVec ⟨3, ![R, C, 1]⟩ w) (a : Fin R) (b : Fin C) : Fin N :=
  ⟨min (idx (takeIdx (ix2 a b))).toInt.toNat (N - 1), by omega⟩

/-- The one-axis gather read at `(a, b)`: the table's entry at `takeRow`. -/
theorem gather_take_row {N R C w : Nat} (hN : 0 < N)
    (wf : GatherDims.WF ⟨1, ![N]⟩ ⟨3, ![R, C, 1]⟩ ⟨2, ![R, C]⟩ [] [0] [] [0] [] 2 ![1])
    (x : (⟨1, ![N]⟩ : Shape).Idx → α) (idx : IVec ⟨3, ![R, C, 1]⟩ w) (a : Fin R) (b : Fin C) :
    Host.gather (takeDims N R C wf) x idx (ix2 a b) = x (ix1 (takeRow hN idx a b)) :=
  gather_take_apply hN wf x idx (ix2 a b)

/-- THE ROW GATHER READ AT `(a, b, k)`: the table at row `takeRow` and column `k`. -/
theorem gather_rows3_apply {N K R C w : Nat} (hN : 0 < N)
    (wf : GatherDims.WF ⟨2, ![N, K]⟩ ⟨3, ![R, C, 1]⟩ ⟨3, ![R, C, K]⟩ [2] [0] [] [0] [] 2 ![1, K])
    (x : (⟨2, ![N, K]⟩ : Shape).Idx → α) (idx : IVec ⟨3, ![R, C, 1]⟩ w) (a : Fin R) (b : Fin C) (k : Fin K) :
    Host.gather (rowsDims3 N K R C wf) x idx (ix3 a b k) = x (ix2 (takeRow hN idx a b) k) := by
  have h0 : (rowsDims3 N K R C wf).start (ix3 a b k) idx (0 : Fin 2) + (rowsDims3 N K R C wf).batchCoord (ix3 a b k) (0 : Fin 2)
      + (rowsDims3 N K R C wf).offCoord (ix3 a b k) (0 : Fin 2) = (takeRow hN idx a b).val := by
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims3 N K R C wf).startIndexMap from List.mem_singleton.mpr rfl)]
    have hsi : (rowsDims3 N K R C wf).siIdx (ix3 a b k) ⟨List.idxOf (0 : Fin 2) (rowsDims3 N K R C wf).startIndexMap,
        List.idxOf_lt_length_iff.2 (List.mem_singleton.mpr rfl)⟩ = takeIdx (ix2 a b) := by
      funext q; refine Fin.ext ?_
      match q with
      | ⟨0, _⟩ => rfl
      | ⟨1, _⟩ => rfl
      | ⟨2, _⟩ => rfl
    rw [hsi]
    rfl
  have h10 : (1 : Fin 2) ≠ 0 := fun h => Nat.one_ne_zero (congrArg Fin.val h)
  have h1 : (rowsDims3 N K R C wf).start (ix3 a b k) idx (1 : Fin 2) + (rowsDims3 N K R C wf).batchCoord (ix3 a b k) (1 : Fin 2)
      + (rowsDims3 N K R C wf).offCoord (ix3 a b k) (1 : Fin 2) = k.val := by
    have hm : (1 : Fin 2) ∉ (rowsDims3 N K R C wf).startIndexMap := fun h => h10 (List.mem_singleton.mp h)
    have hs : (rowsDims3 N K R C wf).start (ix3 a b k) idx (1 : Fin 2) = 0 := by
      unfold GatherDims.start; rw [dif_neg hm]
    have hk : (1 : Fin 2) ∈ (rowsDims3 N K R C wf).sKept :=
      (GatherDims.mem_sKept _ _).mpr ⟨fun h => h10 (List.mem_singleton.mp h), List.not_mem_nil⟩
    rw [hs, GatherDims.batchCoord_eq_zero _ _ _ List.not_mem_nil]
    unfold GatherDims.offCoord
    rw [dif_pos hk]
    simp only [Nat.zero_add, Nat.add_zero]
    rfl
  unfold Host.gather
  congr 1
  funext e
  refine Fin.ext ?_
  match e with
  | ⟨0, _⟩ => exact h0
  | ⟨1, _⟩ => exact h1

end Rows3

end Idealize.ShloMosaic.ValueIdx

end
-- ==== Proof.RefValue.lean ====
/-
  The reference's composed term, read at an index, is the lookup.  Under the precondition every word of the
  index array is between 0 and 999999 as a signed number.  Then the helper's sign test fails everywhere, so the
  adjusted index is the transposed index array itself; both bounds tests hold everywhere, so the mask reduced
  over the unit column is all ones; the gather's clamp of the start index into [0, 999999] is the identity; and
  the final choice keeps the gathered value.  At (l, 0, b, d) the result is the table at row x(b, l), column d.
-/
import proofs.«208090_g83872121356401_cont_sun_m_474_43_alg».proof.Proof.RefRun
import proofs.«208090_g83872121356401_cont_sun_m_474_43_alg».proof.Proof.Spec
import proofs.«208090_g83872121356401_cont_sun_m_474_43_alg».proof.Proof.LibGatherRows3
import Idealize.ShloMosaic.Lib.ReduceAll
import Idealize.ShloMosaic.Lib.DynamicIndex
import Idealize.ShloMosaic.Lib.ValueLayout

noncomputable section

namespace Cert.Proof.Ref

open Cert.ReferenceIdeal Cert.ReferenceIdeal.Gen Idealize.ShloMosaic Idealize.ShloMosaic.ValueIdx

variable {F : FTy → Type} [FloatOps F]

/-- A left fold by `and` over one-bit words that are all 1 returns what it started from. -/
theorem foldl_andi_ones {ι : Type} (f : ι → BitVec 1) :
    ∀ (l : List ι) (r : BitVec 1), (∀ n ∈ l, f n = 1#1) → l.foldl (fun r n => IntOp.andi r (f n)) r = r
  | [], _, _ => rfl
  | a :: l, r, h => by
    have ha : f a = 1#1 := h a (List.mem_cons_self ..)
    have hr : IntOp.andi r 1#1 = r := by revert r; decide
    rw [List.foldl_cons, ha, hr]
    exact foldl_andi_ones f l r fun n hn => h n (List.mem_cons_of_mem _ hn)

/-- A reduction by `and` of an all-ones array from the initial value 1 is 1 at every result index. -/
theorem reduce_andi_ones {s t u : Shape} {axes : List (Fin s.rank)} (p : s.Idx → BitVec 1) (init : u.Idx → BitVec 1)
    (h : s.ReducesTo axes t) (hu : 0 < u.numel) (hp : ∀ i, p i = 1#1) (hi : ∀ k, init k = 1#1) (j : t.Idx) :
    Host.reduce IntOp.andi p init h hu j = 1#1 := by
  rw [Host.reduce_eq_foldl, foldl_andi_ones p _ _ fun n _ => hp n]
  exact hi _

/-- A 32-bit word that is not negative as a signed number is, as a signed number, its unsigned value. -/
theorem toInt_toNat_of_nonneg (v : BitVec 32) (h : 0 ≤ v.toInt) : v.toInt.toNat = v.toNat := by
  have h2 := BitVec.toInt_eq_toNat_cond v
  have h3 := v.isLt
  split at h2 <;> omega

section Index

variable (x : IVec S4096x50 32) (hx : ∀ (b : Fin 4096) (l : Fin 50), 0 ≤ (x (ix2 b l)).toInt ∧ (x (ix2 b l)).toInt ≤ 999999)
include hx

/-- The adjusted index at (l, b) is the index array at (b, l): no entry is negative. -/
theorem adjIdx_apply (l : Fin 50) (b : Fin 4096) : adjIdx x (ix2 l b) = x (ix2 b l) := by
  have ht : transpose S50x4096 [1, 0] x transposes_S4096x50_S50x4096_1_0 (ix2 l b) = x (ix2 b l) :=
    transpose_ix2_apply x _ l b
  show select (cmpi .slt (transpose S50x4096 [1, 0] x transposes_S4096x50_S50x4096_1_0) (constantI S50x4096 32 0#32)) _
      (transpose S50x4096 [1, 0] x transposes_S4096x50_S50x4096_1_0) (ix2 l b) = _
  rw [select_slt_zero_of_nonneg _ _ _ _ (by rw [ht]; exact (hx b l).1), ht]

omit hx in
/-- The start indices at (l, b, 0) are the adjusted index at (l, b). -/
theorem startIdx_apply (i : S50x4096x1.Idx) : startIdx x i = adjIdx x (ix2 (i 0) (i 1)) :=
  broadcastInDim_apply _ _ _ _ _ fun a => match a with | ⟨0, _⟩ => rfl | ⟨1, _⟩ => rfl

/-- The bounds mask is 1 everywhere. -/
theorem inBounds_apply (j : S50x4096.Idx) : inBounds x j = 1#1 := by
  unfold inBounds
  refine reduce_andi_ones _ _ _ _ (fun i => ?_) (fun _ => rfl) j
  have hv : startIdx x i = x (ix2 (i 1) (i 0)) := (startIdx_apply x i).trans (adjIdx_apply x hx (i 0) (i 1))
  refine IntOp.andi_eq_one.2 ⟨?_, ?_⟩
  · show IntOp.cmpi .sge (startIdx x i) 0#32 = 1#1
    rw [hv]
    exact IntOp.cmpi_sge.2 (by rw [BitVec.toInt_zero]; exact (hx _ _).1)
  · show IntOp.cmpi .sle (startIdx x i) 999999#32 = 1#1
    rw [hv]
    exact IntOp.cmpi_sle.2 (by
      have : (999999#32 : BitVec 32).toInt = 999999 := by decide
      rw [this]; exact (hx _ _).2)

/-- The row the gather reads at (l, b) is the lookup's row for (b, l). -/
theorem takeRow_eq (l : Fin 50) (b : Fin 4096) :
    takeRow (N := 1000000) (by decide) (startIdx x) l b = Cert.Proof.Spec.rowOf x b l := by
  refine Fin.ext ?_
  show min (startIdx x (takeIdx (ix2 l b))).toInt.toNat (1000000 - 1) = min (x (ix2 b l)).toNat 999999
  have hv : startIdx x (takeIdx (ix2 l b)) = x (ix2 b l) := by
    rw [startIdx_apply]; exact adjIdx_apply x hx l b
  rw [hv, toInt_toNat_of_nonneg _ (hx b l).1]

/-- The helper's result at (l, b, d) is the table at the lookup's row and column d. -/
theorem taken_apply (tab : FVec F S1000000x100 .f32) (l : Fin 50) (b : Fin 4096) (d : Fin 100) :
    taken x tab (ix3 l b d) = tab (ix2 (Cert.Proof.Spec.rowOf x b l) d) := by
  have hm : broadcastInDim S50x4096x100 ![0, 1] bcast_S50x4096_S50x4096x100_0_1 (inBounds x) (ix3 l b d) = 1#1 := by
    rw [broadcastInDim_apply _ _ _ _ (ix2 l b) fun a => match a with | ⟨0, _⟩ => rfl | ⟨1, _⟩ => rfl]
    exact inBounds_apply x hx _
  unfold taken
  rw [select_apply, hm, select_one]
  have hg := gather_rows3_apply (N := 1000000) (K := 100) (R := 50) (C := 4096) (by decide)
    gather_S1000000x100_S50x4096x1_S50x4096x100_2_0_n_n_0_2_1100_wf tab (startIdx x) l b d
  rw [takeRow_eq x hx] at hg
  exact hg

/-- The program's composed term is the lookup. -/
theorem result_eq (tab : FVec F S1000000x100 .f32) : result x tab = Cert.Proof.Spec.out x tab := by
  funext i
  have hb : result x tab i = taken x tab (ix3 (n0 := 50) (n1 := 4096) (n2 := 100) (i 0) (i 2) (i 3)) :=
    broadcastInDim_apply (s := S50x4096x100) (t := S50x1x4096x100) ![0, 2, 3] bcast_S50x4096x100_S50x1x4096x100_0_2_3
      (taken x tab) i (ix3 (n0 := 50) (n1 := 4096) (n2 := 100) (i 0) (i 2) (i 3))
      fun a => match a with | ⟨0, _⟩ => rfl | ⟨1, _⟩ => rfl | ⟨2, _⟩ => rfl
  rw [hb]
  exact taken_apply x hx tab (i 0) (i 2) (i 3)

end Index

end Cert.Proof.Ref

end
-- ==== Proof.Ref.lean ====
/-
  The reference program, run from a memory the precondition holds of: every execution terminates, the result
  buffer holds the lookup of the two argument arrays, and the argument buffers are unchanged.  The run gives the
  result buffer as the operations' composed term; under the precondition that term is the lookup.
-/
import proofs.«208090_g83872121356401_cont_sun_m_474_43_alg».proof.Defs
import proofs.«208090_g83872121356401_cont_sun_m_474_43_alg».proof.Proof.Gen.Pre_input_domain
import proofs.«208090_g83872121356401_cont_sun_m_474_43_alg».proof.Proof.RefRun
import proofs.«208090_g83872121356401_cont_sun_m_474_43_alg».proof.Proof.RefValue
import proofs.«208090_g83872121356401_cont_sun_m_474_43_alg».proof.Proof.PreOpen

noncomputable section

namespace Cert.Proof.Ref

open Cert.ReferenceIdeal Cert.ReferenceIdeal.Gen Idealize.ShloMosaic Idealize.ShloMosaic.TcCoe Idealize.SL.Sem Idealize.ShloMosaic.StableHlo

section Fold

variable {F : FTy → Type} [FloatOps F]

set_option maxRecDepth 8192 in
/-- The operations' fold at the result buffer is `result` of the argument buffers' contents: each operation's
    result is its function's value at its own buffer and what was there at any other, and the typed references'
    transports are the identity at these literal references. -/
theorem out_eq (V : Valuation τ sig (Elt F)) :
    after ops V (main_v2 : DevRef τ sig) = result (V (main_arg0 : DevRef τ sig)) (V (main_arg1 : DevRef τ sig)) := by
  unfold result taken inBounds startIdx adjIdx
  after_results_simp
  simp only [TRef.ofBuf, TRef.toBuf, cast_eq]

/-- For any float values, from any memory with zero counters: every weakly fair execution of @main terminates
    with the result buffer at `result` of the argument arrays and the argument buffers unchanged. -/
theorem run_term (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v2)
          = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v2).trans (out_eq _),
      (h c main_arg0).trans (arg0_eq _),
      (h c main_arg1).trans (arg1_eq _)⟩)
    (run_seq scopedRefs_eq scopedSems_eq defs main (fun _ => ops) main_eq (fun _ => ops_sub) m ρ)

end Fold

/-- At the ideal instance, from a memory the precondition holds of: every weakly fair execution of @main
    terminates with the result buffer at the lookup of the argument arrays and the argument buffers unchanged. -/
theorem run (m : (ℓ : Loc Cert.ReferenceIdeal.nD Cert.ReferenceIdeal.τ Cert.ReferenceIdeal.sig) → Buf (Elt Ideal) ℓ)
    (g : Dev Cert.ReferenceIdeal.nD → PrngReg) (hpre : Cert.Pre_ReferenceIdeal m) :
    θ_run (Cert.ReferenceIdeal.defs (F := Ideal)) (onTc (τ := Cert.ReferenceIdeal.τ) (Cert.ReferenceIdeal.main (F := Ideal))) ⟨m, fun _ => 0, g⟩
      (fun r => ∀ c : Dev Cert.ReferenceIdeal.nD,
        r.2.mem ((c.tc : Thread Cert.ReferenceIdeal.nD Cert.ReferenceIdeal.τ).loc Cert.ReferenceIdeal.main_v2)
            = Cert.Proof.Spec.out (m ((c.tc : Thread _ _).loc Cert.ReferenceIdeal.main_arg0)) (m ((c.tc : Thread _ _).loc Cert.ReferenceIdeal.main_arg1))
        ∧ r.2.mem ((c.tc : Thread _ _).loc Cert.ReferenceIdeal.main_arg0) = m ((c.tc : Thread _ _).loc Cert.ReferenceIdeal.main_arg0)
        ∧ r.2.mem ((c.tc : Thread _ _).loc Cert.ReferenceIdeal.main_arg1) = m ((c.tc : Thread _ _).loc Cert.ReferenceIdeal.main_arg1)) :=
  (θ_run _ _ _).mono (fun _ h c => ⟨(h c).1.trans
      (result_eq _ (fun b l => Cert.Proof.PreOpen.range (F := Ideal) _ _ (hpre c) b l) _), (h c).2.1, (h c).2.2⟩)
    (run_term (F := Ideal) m g)

end Cert.Proof.Ref

end
-- ==== Proof.lean ====
/-
  An embedding lookup on the SparseCores against jnp.take.

  The kernel program transposes the [4096, 50] array of row numbers and flattens it into a list of 204800 entries
  (entry l * 4096 + b is the array's (b, l)); copies the [1000000, 100] table into a [1000000, 128] array block by
  block on the TensorCore (the last 28 columns of each row hold nothing anyone reads); then the 32 vector subcores each
  take 6400 entries of the list and, 128 at a time, gather the named rows of the padded table into a row buffer and copy
  them out to the same rows of a [204800, 128] array, two row buffers in turn; finally the first 100 columns are cut out
  and regrouped as [50, 1, 4096, 100].  So the result at (l, 0, b, d) is the table at row x (b, l) and column d
  (`Spec.out`) — which is what the reference's gather delivers where every row number lies in [0, 999999], the claims'
  precondition: there the reference's wrap of negative numbers, its bounds mask and its clamp all do nothing.

  The three frames, the empty ledger and the value claim are assembled here from the run of each program: the kernel
  program's (`run_main`, once for the printed words and once at the ideal instance, the same text) ends with the result
  buffer at `Spec.out` of the argument arrays and the arguments unchanged; so does the reference's (`Ref.run`).
-/
import proofs.«208090_g83872121356401_cont_sun_m_474_43_alg».proof.Defs
import proofs.«208090_g83872121356401_cont_sun_m_474_43_alg».proof.Proof.Gen.Kernel
import proofs.«208090_g83872121356401_cont_sun_m_474_43_alg».proof.Proof.Gen.Kernel.Skeleton
import proofs.«208090_g83872121356401_cont_sun_m_474_43_alg».proof.Proof.Gen.Kernel.Launch
import proofs.«208090_g83872121356401_cont_sun_m_474_43_alg».proof.Proof.Gen.Kernel.Points
import proofs.«208090_g83872121356401_cont_sun_m_474_43_alg».proof.Proof.Gen.KernelIdeal
import proofs.«208090_g83872121356401_cont_sun_m_474_43_alg».proof.Proof.Gen.KernelIdeal.Skeleton
import proofs.«208090_g83872121356401_cont_sun_m_474_43_alg».proof.Proof.Gen.KernelIdeal.Launch
import proofs.«208090_g83872121356401_cont_sun_m_474_43_alg».proof.Proof.Gen.KernelIdeal.Points
import proofs.«208090_g83872121356401_cont_sun_m_474_43_alg».proof.Proof.Gen.ReferenceIdeal
import proofs.«208090_g83872121356401_cont_sun_m_474_43_alg».proof.Proof.Gen.Pre_input_domain
import proofs.«208090_g83872121356401_cont_sun_m_474_43_alg».proof.Proof.LaunchKI
import proofs.«208090_g83872121356401_cont_sun_m_474_43_alg».proof.Proof.LaunchKB
import proofs.«208090_g83872121356401_cont_sun_m_474_43_alg».proof.Proof.TileOblKI
import proofs.«208090_g83872121356401_cont_sun_m_474_43_alg».proof.Proof.TileOblKB
import proofs.«208090_g83872121356401_cont_sun_m_474_43_alg».proof.Proof.Ref
import Idealize.ShloMosaic.Adequacy
import Idealize.ShloMosaic.Init

noncomputable section

namespace Cert.Proof

open Idealize.ShloMosaic Idealize.SL.Sem

/-- The kernel program runs and leaves its arguments unchanged. -/
theorem frame_k : Cert.frame_Kernel := fun m g hpre =>
  (θ_run Cert.Kernel.defs _ _).mono (fun _ h c => (h c).2)
    (KB.run_main (F := Bits) m g (KB.preOK_of_pre m hpre) (KB.tileObl m (KB.preOK_of_pre m hpre)))

/-- So does its idealization. -/
theorem frame_ki : Cert.frame_KernelIdeal := fun m g hpre =>
  (θ_run Cert.KernelIdeal.defs _ _).mono (fun _ h c => (h c).2)
    (KI.run_main (F := Ideal) m g (KI.preOK_of_pre m hpre) (KI.tileObl m (KI.preOK_of_pre m hpre)))

/-- So does the reference. -/
theorem frame_ri : Cert.frame_ReferenceIdeal := fun m g hpre =>
  (θ_run _ _ _).mono (fun _ h c => (h c).2) (Cert.Proof.Ref.run m g hpre)

/-- At the ideal instance, from memories that agree on the arguments, both programs end with the lookup of the
    argument arrays in their result buffers. -/
theorem algebraic : Cert.algebraic_KernelIdeal_ReferenceIdeal := by
  intro m g m' g' hpre hagree
  have hpre' : Cert.Pre_ReferenceIdeal m' := fun c => by
    have h := hpre c
    rw [← (hagree c).1, ← (hagree c).2] at h
    exact h
  refine ⟨fun c => Cert.Proof.Spec.out
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    KI.run_main (F := Ideal) m g (KI.preOK_of_pre m hpre) (KI.tileObl m (KI.preOK_of_pre m hpre)), ?_⟩
  exact (θ_run _ _ _).mono (fun _ h c => ⟨(h c).1.trans (by rw [(hagree c).1, (hagree c).2]), (h c).2⟩)
    (Cert.Proof.Ref.run m' g' hpre')

theorem claim : Cert.Claim :=
  ⟨Cert.Kernel.Gen.facts, Cert.KernelIdeal.Gen.facts, Cert.ReferenceIdeal.Gen.facts, Cert.Pre_input_domain.Gen.facts,
    frame_k, frame_ki, frame_ri, trivial, algebraic⟩

end Cert.Proof

end
